-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v124)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v124) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part4 {F : FTy → Type} [FloatOps F] (main_arg16 : FVec F S10 .f32) (main_v63 : IVec S_ 1) (main_v67 : IVec S_ 1) : IVec S_ 1 :=
  let main_v68 : IVec S_ 1 := andi main_v63 main_v67
  let main_v69 : FVec F S10 .f32 := Host.absf main_arg16
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  main_v73

def fn_part3 {F : FTy → Type} [FloatOps F] (main_arg13 : FVec F S64 .f32) (main_arg14 : FVec F S64 .f32) (main_arg15 : FVec F S64x10 .f32) (main_arg16 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x10 .f32 := Host.absf main_arg15
  let main_cst_24 : FVec F S_ .f32 := constant S_ .f32 0x7F800000#32
  let main_v65 : FVec F S64x10 .f32 := broadcastInDim S64x10 ![] bcast_S_S64x10 main_cst_24
  let main_v66 : IVec S64x10 1 := cmpf .olt main_v64 main_v65
  let main_c_25 : IVec S_ 1 := constantI S_ 1 1#1
  let main_v67 : IVec S_ 1 := (fun x v => Host.reduce IntOp.andi x v reducesTo_S64x10_S_d0_1 h_S_) main_v66 main_c_25
  fn_part4 (F := F) main_arg16 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x10 .f32) (main_arg16 : FVec F S10 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x10 .f32) (main_arg16 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64 .f32) (main_arg10 : FVec F S64 .f32) (main_arg11 : FVec F S64x64 .f32) (main_arg12 : FVec F S64 .f32) (main_arg13 : FVec F S64 .f32) (main_arg14 : FVec F S64 .f32) (main_arg15 : FVec F S64x10 .f32) (main_arg16 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S2000x64 : Shape := ⟨2, ![2000, 64]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 174
  | .vmem => 55
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x10, .f32⟩
  | 16 => ⟨S10, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x64, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x1, .f32⟩
  | 68 => ⟨S1700000x64, .f32⟩
  | 69 => ⟨S1700000x64, .f32⟩
  | 70 => ⟨S_, .f32⟩
  | 71 => ⟨S100000x64, .f32⟩
  | 72 => ⟨S1700000x1, .i32⟩
  | 73 => ⟨S100000x64, .f32⟩
  | 74 => ⟨S1x64, .f32⟩
  | 75 => ⟨S100000x64, .f32⟩
  | 76 => ⟨S100000x64, .f32⟩
  | 77 => ⟨S1x64, .f32⟩
  | 78 => ⟨S1x64, .f32⟩
  | 79 => ⟨S_, .f32⟩
  | 80 => ⟨S1x64, .f32⟩
  | 81 => ⟨S1x64, .f32⟩
  | 82 => ⟨S_, .f32⟩
  | 83 => ⟨S1x64, .f32⟩
  | 84 => ⟨S1x64, .f32⟩
  | 85 => ⟨S1x64, .f32⟩
  | 86 => ⟨S1x64, .f32⟩
  | 87 => ⟨S1x64, .f32⟩
  | 88 => ⟨S1x64, .f32⟩
  | 89 => ⟨S100000x64, .f32⟩
  | 90 => ⟨S100000x64, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x64, .f32⟩
  | 100 => ⟨S1700000x1, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S1x64, .f32⟩
  | 108 => ⟨S100000x64, .f32⟩
  | 109 => ⟨S100000x64, .f32⟩
  | 110 => ⟨S1x64, .f32⟩
  | 111 => ⟨S1x64, .f32⟩
  | 112 => ⟨S_, .f32⟩
  | 113 => ⟨S1x64, .f32⟩
  | 114 => ⟨S1x64, .f32⟩
  | 115 => ⟨S_, .f32⟩
  | 116 => ⟨S1x64, .f32⟩
  | 117 => ⟨S1x64, .f32⟩
  | 118 => ⟨S1x64, .f32⟩
  | 119 => ⟨S1x64, .f32⟩
  | 120 => ⟨S1x64, .f32⟩
  | 121 => ⟨S1x64, .f32⟩
  | 122 => ⟨S100000x64, .f32⟩
  | 123 => ⟨S100000x64, .f32⟩
  | 124 => ⟨S_, .i32⟩
  | 125 => ⟨S1700000, .i32⟩
  | 126 => ⟨S1700000, .i1⟩
  | 127 => ⟨S_, .i32⟩
  | _ => ⟨S100000x64, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x64, .f32⟩
  | 5 => ⟨S1700000x1, .f32⟩
  | 6 => ⟨S1700000x64, .f32⟩
  | 7 => ⟨S1700000x64, .f32⟩
  | 8 => ⟨S_, .f32⟩
  | 9 => ⟨S100000x64, .f32⟩
  | 10 => ⟨S1700000x1, .i32⟩
  | 11 => ⟨S100000x64, .f32⟩
  | 12 => ⟨S1x64, .f32⟩
  | 13 => ⟨S100000x64, .f32⟩
  | 14 => ⟨S100000x64, .f32⟩
  | 15 => ⟨S1x64, .f32⟩
  | 16 => ⟨S1x64, .f32⟩
  | 17 => ⟨S_, .f32⟩
  | 18 => ⟨S1x64, .f32⟩
  | 19 => ⟨S1x64, .f32⟩
  | 20 => ⟨S_, .f32⟩
  | 21 => ⟨S1x64, .f32⟩
  | 22 => ⟨S1x64, .f32⟩
  | 23 => ⟨S1x64, .f32⟩
  | 24 => ⟨S1x64, .f32⟩
  | 25 => ⟨S1x64, .f32⟩
  | 26 => ⟨S1x64, .f32⟩
  | 27 => ⟨S100000x64, .f32⟩
  | 28 => ⟨S_, .f32⟩
  | 29 => ⟨S512x64, .f32⟩
  | 30 => ⟨S100000x1, .i32⟩
  | 31 => ⟨S512x64, .f32⟩
  | 32 => ⟨S_, .f32⟩
  | 33 => ⟨S100000, .f32⟩
  | 34 => ⟨S_, .f32⟩
  | 35 => ⟨S512, .f32⟩
  | 36 => ⟨S100000x1, .i32⟩
  | 37 => ⟨S512, .f32⟩
  | 38 => ⟨S_, .f32⟩
  | 39 => ⟨S512, .f32⟩
  | 40 => ⟨S512, .f32⟩
  | 41 => ⟨S512x1, .f32⟩
  | 42 => ⟨S512x64, .f32⟩
  | 43 => ⟨S512x64, .f32⟩
  | 44 => ⟨S1x10, .f32⟩
  | 45 => ⟨S512x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S1x64, .f32⟩
  | .local _ .vmem, ⟨8, _⟩ => ⟨S1x64, .f32⟩
  | .local _ .vmem, ⟨9, _⟩ => ⟨S2000x64, .f32⟩
  | .local _ .vmem, ⟨10, _⟩ => ⟨S2000x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S64x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S1x64, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S64x64, .f32⟩
  | .local _ .vmem, ⟨37, _⟩ => ⟨S2000x64, .f32⟩
  | .local _ .vmem, ⟨38, _⟩ => ⟨S2000x64, .f32⟩
  | .local _ .vmem, ⟨39, _⟩ => ⟨S2000x64, .f32⟩
  | .local _ .vmem, ⟨40, _⟩ => ⟨S2000x64, .f32⟩
  | .local _ .vmem, ⟨41, _⟩ => ⟨S1x64, .f32⟩
  | .local _ .vmem, ⟨42, _⟩ => ⟨S1x64, .f32⟩
  | .local _ .vmem, ⟨43, _⟩ => ⟨S2000x64, .f32⟩
  | .local _ .vmem, ⟨44, _⟩ => ⟨S2000x64, .f32⟩
  | .local _ .vmem, ⟨45, _⟩ => ⟨S1x64, .f32⟩
  | .local _ .vmem, ⟨46, _⟩ => ⟨S1x64, .f32⟩
  | .local _ .vmem, ⟨47, _⟩ => ⟨S1x64, .f32⟩
  | .local _ .vmem, ⟨48, _⟩ => ⟨S1x64, .f32⟩
  | .local _ .vmem, ⟨49, _⟩ => ⟨S2000x64, .f32⟩
  | .local _ .vmem, ⟨50, _⟩ => ⟨S2000x64, .f32⟩
  | .local _ .vmem, ⟨51, _⟩ => ⟨S512x64, .f32⟩
  | .local _ .vmem, ⟨52, _⟩ => ⟨S64x10, .f32⟩
  | .local _ .vmem, ⟨53, _⟩ => ⟨S1x10, .f32⟩
  | .local _ .vmem, ⟨54, _⟩ => ⟨S512x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47_0 : Ref sig .tc := ⟨.hbm, 77, rfl⟩
abbrev main_v47_1 : Ref sig .tc := ⟨.hbm, 78, rfl⟩
abbrev main_cst_9 : Ref sig .tc := ⟨.hbm, 79, rfl⟩
abbrev main_v48 : Ref sig .tc := ⟨.hbm, 80, rfl⟩
abbrev main_v49 : Ref sig .tc := ⟨.hbm, 81, rfl⟩
abbrev main_cst_10 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_c_11 : Ref sig .tc := ⟨.hbm, 91, rfl⟩
abbrev main_v58 : Ref sig .tc := ⟨.hbm, 92, rfl⟩
abbrev main_v59 : Ref sig .tc := ⟨.hbm, 93, rfl⟩
abbrev main_c_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_13 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74_0 : Ref sig .tc := ⟨.hbm, 110, rfl⟩
abbrev main_v74_1 : Ref sig .tc := ⟨.hbm, 111, rfl⟩
abbrev main_cst_14 : Ref sig .tc := ⟨.hbm, 112, rfl⟩
abbrev main_v75 : Ref sig .tc := ⟨.hbm, 113, rfl⟩
abbrev main_v76 : Ref sig .tc := ⟨.hbm, 114, rfl⟩
abbrev main_cst_15 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_c_16 : Ref sig .tc := ⟨.hbm, 124, rfl⟩
abbrev main_v85 : Ref sig .tc := ⟨.hbm, 125, rfl⟩
abbrev main_v86 : Ref sig .tc := ⟨.hbm, 126, rfl⟩
abbrev main_c_17 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_18 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101_0 : Ref sig .tc := ⟨.hbm, 143, rfl⟩
abbrev main_v101_1 : Ref sig .tc := ⟨.hbm, 144, rfl⟩
abbrev main_cst_19 : Ref sig .tc := ⟨.hbm, 145, rfl⟩
abbrev main_v102 : Ref sig .tc := ⟨.hbm, 146, rfl⟩
abbrev main_v103 : Ref sig .tc := ⟨.hbm, 147, rfl⟩
abbrev main_cst_20 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_21 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_22 : Ref sig .tc := ⟨.hbm, 160, rfl⟩
abbrev main_v114 : Ref sig .tc := ⟨.hbm, 161, rfl⟩
abbrev main_cst_23 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_24 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg5_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc5_stg0_0 : Ref sig .tc := ⟨.vmem, 26, rfl⟩
abbrev cc5_stg0_1 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg5_1 : Ref sig .tc := ⟨.vmem, 33, rfl⟩
abbrev cc6_stg0_0 : Ref sig .tc := ⟨.vmem, 34, rfl⟩
abbrev cc6_stg0_1 : Ref sig .tc := ⟨.vmem, 35, rfl⟩
abbrev cc6_stg1_0 : Ref sig .tc := ⟨.vmem, 36, rfl⟩
abbrev cc6_stg2_0 : Ref sig .tc := ⟨.vmem, 37, rfl⟩
abbrev cc6_stg2_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc8_stg0_0 : Ref sig .tc := ⟨.vmem, 43, rfl⟩
abbrev cc8_stg0_1 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc8_stg4_0 : Ref sig .tc := ⟨.vmem, 48, rfl⟩
abbrev cc8_stg5_0 : Ref sig .tc := ⟨.vmem, 49, rfl⟩
abbrev cc8_stg5_1 : Ref sig .tc := ⟨.vmem, 50, rfl⟩
abbrev cc9_stg0_0 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg3_0 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem5_1 : DmaSem sig := 50
abbrev cc9_sem0_0 : DmaSem sig := 51
abbrev cc9_sem1_0 : DmaSem sig := 52
abbrev cc9_sem2_0 : DmaSem sig := 53
abbrev cc9_sem3_0 : DmaSem sig := 54

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![50], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S512x64 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S64x10 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x10 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x10 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S2000x64_S2000x64 : S2000x64.ShapeCasts S2000x64
  shapeCasts_S1x64_S1x64 : S1x64.ShapeCasts S1x64
  reduces_S2000x64_S64 : S2000x64.Reduces [0] S64
  shapeCasts_S64_S1x64 : S64.ShapeCasts S1x64
  bcast_S_S1x64 : S_.BroadcastsInDim S1x64 (![] : Fin 0 → Fin S1x64.rank)
  broadcasts_S1x64_S2000x64 : S1x64.Broadcasts S2000x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S10_S1x10 : S10.ShapeCasts S1x10
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x64_S64x64_S2000x64_1_0_0_1_n_n_wf : DotDims.WF S2000x64 S64x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S100000x64.size a
  hwx5_0 : ∀ i : grid5.Coords, EltTy.bits .f32 = 32 ∨ (Rect.block (s := S100000x64) S2000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x64.size a ≤ S100000x64.size a
  hwx5_5 : ∀ i : grid5.Coords, EltTy.bits .f32 = 32 ∨ (Rect.block (s := S100000x64) S2000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S100000x64.size a
  hwx6_2 : ∀ i : grid6.Coords, EltTy.bits .f32 = 32 ∨ (Rect.block (s := S100000x64) S2000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S100000x64.size a
  hwx7_0 : ∀ i : grid7.Coords, EltTy.bits .f32 = 32 ∨ (Rect.block (s := S100000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x64.size a ≤ S100000x64.size a
  hwx8_0 : ∀ i : grid8.Coords, EltTy.bits .f32 = 32 ∨ (Rect.block (s := S100000x64) S2000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x64.size a ≤ S100000x64.size a
  hwx8_5 : ∀ i : grid8.Coords, EltTy.bits .f32 = 32 ∨ (Rect.block (s := S100000x64) S2000x64.size (cc8_transform_5 i) (hinb8_5 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S512x64.size a ≤ S512x64.size a
  hwx9_0 : ∀ i : grid9.Coords, EltTy.bits .f32 = 32 ∨ (Rect.block (s := S512x64) S512x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x10.size a ≤ S64x10.size a
  hwx9_1 : ∀ i : grid9.Coords, EltTy.bits .f32 = 32 ∨ (Rect.block (s := S64x10) S64x10.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x10.size a ≤ S1x10.size a
  hwx9_2 : ∀ i : grid9.Coords, EltTy.bits .f32 = 32 ∨ (Rect.block (s := S1x10) S1x10.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S512x10.size a ≤ S512x10.size a
  hwx9_3 : ∀ i : grid9.Coords, EltTy.bits .f32 = 32 ∨ (Rect.block (s := S512x10) S512x10.size (cc9_transform_3 i) (hinb9_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v56) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v73) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74_0) S1x64.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v74_1) S1x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v82) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v83) S2000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v83) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v84) S2000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101_0) S1x64.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v101_1) S1x64.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v100) S2000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v103) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v107) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v108) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v109) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v110) S2000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v122) S512x64.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S64x10.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v123) S1x10.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v124) S512x10.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 236
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64, .f32⟩
  | 10 => ⟨S64, .f32⟩
  | 11 => ⟨S64x64, .f32⟩
  | 12 => ⟨S64, .f32⟩
  | 13 => ⟨S64, .f32⟩
  | 14 => ⟨S64, .f32⟩
  | 15 => ⟨S64x10, .f32⟩
  | 16 => ⟨S10, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S100000x64, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x1, .f32⟩
  | 68 => ⟨S1700000x64, .f32⟩
  | 69 => ⟨S1700000x64, .f32⟩
  | 70 => ⟨S_, .f32⟩
  | 71 => ⟨S100000x64, .f32⟩
  | 72 => ⟨S1700000x1, .i32⟩
  | 73 => ⟨S100000x64, .f32⟩
  | 74 => ⟨S1x64, .f32⟩
  | 75 => ⟨S100000x64, .f32⟩
  | 76 => ⟨S100000x64, .f32⟩
  | 77 => ⟨S_, .f32⟩
  | 78 => ⟨S64, .f32⟩
  | 79 => ⟨S_, .f32⟩
  | 80 => ⟨S64, .f32⟩
  | 81 => ⟨S64, .f32⟩
  | 82 => ⟨S1x64, .f32⟩
  | 83 => ⟨S100000x64, .f32⟩
  | 84 => ⟨S100000x64, .f32⟩
  | 85 => ⟨S100000x64, .f32⟩
  | 86 => ⟨S_, .f32⟩
  | 87 => ⟨S64, .f32⟩
  | 88 => ⟨S_, .f32⟩
  | 89 => ⟨S64, .f32⟩
  | 90 => ⟨S64, .f32⟩
  | 91 => ⟨S1x64, .f32⟩
  | 92 => ⟨S100000x64, .f32⟩
  | 93 => ⟨S100000x64, .f32⟩
  | 94 => ⟨S_, .f32⟩
  | 95 => ⟨S64, .f32⟩
  | 96 => ⟨S64, .f32⟩
  | 97 => ⟨S64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S_, .f32⟩
  | 108 => ⟨S100000x64, .f32⟩
  | 109 => ⟨S100000x64, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S_, .f32⟩
  | 3 => ⟨S64, .f32⟩
  | 4 => ⟨S_, .f32⟩
  | 5 => ⟨S64, .f32⟩
  | 6 => ⟨S64, .f32⟩
  | 7 => ⟨S1x64, .f32⟩
  | 8 => ⟨S100000x64, .f32⟩
  | 9 => ⟨S100000x64, .f32⟩
  | 10 => ⟨S100000x64, .f32⟩
  | 11 => ⟨S_, .f32⟩
  | 12 => ⟨S64, .f32⟩
  | 13 => ⟨S_, .f32⟩
  | 14 => ⟨S64, .f32⟩
  | 15 => ⟨S64, .f32⟩
  | 16 => ⟨S1x64, .f32⟩
  | 17 => ⟨S100000x64, .f32⟩
  | 18 => ⟨S100000x64, .f32⟩
  | 19 => ⟨S_, .f32⟩
  | 20 => ⟨S64, .f32⟩
  | 21 => ⟨S64, .f32⟩
  | 22 => ⟨S64, .f32⟩
  | 23 => ⟨S1x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S100000x64, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x64, .f32⟩
  | 45 => ⟨S1700000x1, .f32⟩
  | 46 => ⟨S1700000x64, .f32⟩
  | 47 => ⟨S1700000x64, .f32⟩
  | 48 => ⟨S_, .f32⟩
  | 49 => ⟨S100000x64, .f32⟩
  | 50 => ⟨S1700000x1, .i32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S64, .f32⟩
  | 57 => ⟨S_, .f32⟩
  | 58 => ⟨S64, .f32⟩
  | 59 => ⟨S64, .f32⟩
  | 60 => ⟨S1x64, .f32⟩
  | 61 => ⟨S100000x64, .f32⟩
  | 62 => ⟨S100000x64, .f32⟩
  | 63 => ⟨S100000x64, .f32⟩
  | 64 => ⟨S_, .f32⟩
  | 65 => ⟨S64, .f32⟩
  | 66 => ⟨S_, .f32⟩
  | 67 => ⟨S64, .f32⟩
  | 68 => ⟨S64, .f32⟩
  | 69 => ⟨S1x64, .f32⟩
  | 70 => ⟨S100000x64, .f32⟩
  | 71 => ⟨S100000x64, .f32⟩
  | 72 => ⟨S_, .f32⟩
  | 73 => ⟨S64, .f32⟩
  | 74 => ⟨S64, .f32⟩
  | 75 => ⟨S64, .f32⟩
  | 76 => ⟨S1x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S_, .f32⟩
  | 89 => ⟨S512x64, .f32⟩
  | 90 => ⟨S100000x1, .i32⟩
  | 91 => ⟨S512x64, .f32⟩
  | 92 => ⟨S_, .f32⟩
  | 93 => ⟨S100000, .f32⟩
  | 94 => ⟨S_, .f32⟩
  | 95 => ⟨S512, .f32⟩
  | 96 => ⟨S100000x1, .i32⟩
  | 97 => ⟨S512, .f32⟩
  | 98 => ⟨S_, .f32⟩
  | 99 => ⟨S512, .f32⟩
  | 100 => ⟨S512, .f32⟩
  | 101 => ⟨S512x1, .f32⟩
  | 102 => ⟨S512x64, .f32⟩
  | 103 => ⟨S512x64, .f32⟩
  | 104 => ⟨S512x10, .f32⟩
  | 105 => ⟨S1x10, .f32⟩
  | 106 => ⟨S512x10, .f32⟩
  | 107 => ⟨S512x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_9 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_11 : Ref sig .tc := ⟨.hbm, 86, rfl⟩
abbrev main_v54 : Ref sig .tc := ⟨.hbm, 87, rfl⟩
abbrev main_cst_12 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_cst_13 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_call1_cst : Ref sig .tc := ⟨.hbm, 107, rfl⟩
abbrev main_call1_v0 : Ref sig .tc := ⟨.hbm, 108, rfl⟩
abbrev main_v72 : Ref sig .tc := ⟨.hbm, 109, rfl⟩
abbrev main_v73 : Ref sig .tc := ⟨.hbm, 110, rfl⟩
abbrev main_c_14 : Ref sig .tc := ⟨.hbm, 111, rfl⟩
abbrev main_v74 : Ref sig .tc := ⟨.hbm, 112, rfl⟩
abbrev main_v75 : Ref sig .tc := ⟨.hbm, 113, rfl⟩
abbrev main_c_15 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_16 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_cst_17 : Ref sig .tc := ⟨.hbm, 130, rfl⟩
abbrev main_v90 : Ref sig .tc := ⟨.hbm, 131, rfl⟩
abbrev main_cst_18 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_19 : Ref sig .tc := ⟨.hbm, 139, rfl⟩
abbrev main_v97 : Ref sig .tc := ⟨.hbm, 140, rfl⟩
abbrev main_cst_20 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_21 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_call2_cst : Ref sig .tc := ⟨.hbm, 160, rfl⟩
abbrev main_call2_v0 : Ref sig .tc := ⟨.hbm, 161, rfl⟩
abbrev main_v115 : Ref sig .tc := ⟨.hbm, 162, rfl⟩
abbrev main_v116 : Ref sig .tc := ⟨.hbm, 163, rfl⟩
abbrev main_c_22 : Ref sig .tc := ⟨.hbm, 164, rfl⟩
abbrev main_v117 : Ref sig .tc := ⟨.hbm, 165, rfl⟩
abbrev main_v118 : Ref sig .tc := ⟨.hbm, 166, rfl⟩
abbrev main_c_23 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_24 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_25 : Ref sig .tc := ⟨.hbm, 183, rfl⟩
abbrev main_v133 : Ref sig .tc := ⟨.hbm, 184, rfl⟩
abbrev main_cst_26 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_27 : Ref sig .tc := ⟨.hbm, 192, rfl⟩
abbrev main_v140 : Ref sig .tc := ⟨.hbm, 193, rfl⟩
abbrev main_cst_28 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_29 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_call3_cst : Ref sig .tc := ⟨.hbm, 213, rfl⟩
abbrev main_call3_v0 : Ref sig .tc := ⟨.hbm, 214, rfl⟩
abbrev main_v158 : Ref sig .tc := ⟨.hbm, 215, rfl⟩
abbrev main_cst_30 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_31 : Ref sig .tc := ⟨.hbm, 220, rfl⟩
abbrev main_v162 : Ref sig .tc := ⟨.hbm, 221, rfl⟩
abbrev main_cst_32 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_cst_33 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x64_S64x10_S512x10_1_0_0_1_n_n_wf : DotDims.WF S512x64 S64x10 S512x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

class Facts : Prop extends Facts₀ where

variable [Facts]
-- ==== Proof.KRun.lean ====
/-
  The idealized kernel's run with its result NAMED: every weakly fair execution of the program ends with the result
  buffer holding what the fold of the program's segments (host stretches and the ten kernel regions, in order) leaves
  there, and with every argument array as launched. The later modules read that fold at the result buffer as a
  function of the argument arrays.
-/
import proofs.«179986_j62663572849123_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read against the last boundary's contents and each argument walked back to the
    launch memory. -/
theorem run_result : θ_run defs (onTc (τ := τ) (main (F := F))) ⟨m, fun _ => 0, ρ⟩ (fun r => ∀ c : Dev nD,
      r.2.mem ((c.tc : Thread nD τ).loc main_v124) = W20 m ρ c (Proc.devRef .tc main_v124)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v124 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c)⟩)

end Cert.KernelIdeal.RunValue

end
-- ==== Proof.Spec.lean ====
/-
  The two programs' common mathematics, as whole-array functions over the extended reals (floats read as exact
  extended reals, every operation the exact one).

  Both programs compute a three-layer graph convolution network on N = 100000 nodes with 64 features:
    * from the edge list: the message sources and targets (the edges, then one self loop per node), the number of
      messages arriving at each node, and each message's normalisation dinv[src] · dinv[dst];
    * per layer: project the node rows by a 64×64 matrix, gather the projected rows at the sources, scale, add them up at
      the targets, add a bias row; then normalise each column by the batch's own mean and mean squared deviation, scale,
      shift, and take the maximum with 0;
    * at the end: the mean row of each of the 512 graphs, times a 64×10 matrix, plus a bias row.
  Each stage is named here once, as a function of the stage before it, so that the two programs can be compared stage
  by stage.
-/
import proofs.«179986_j62663572849123_1_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

/-- The edge sources followed by the self-loop sources 0 … N-1. -/
def srcOf (ei : (⟨S2x1600000, .i32⟩ : BufTy).Contents (Elt F)) : (⟨S1700000, .i32⟩ : BufTy).Contents (Elt F) :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edge targets followed by the self-loop targets 0 … N-1. -/
def dstOf (ei : (⟨S2x1600000, .i32⟩ : BufTy).Contents (Elt F)) : (⟨S1700000, .i32⟩ : BufTy).Contents (Elt F) :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The number of messages arriving at each node: ones added up at the targets. -/
def degOf (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

/-- where(deg > 0, rsqrt deg, 0). -/
def dinvOf (dst : (⟨S1700000, .i32⟩ : BufTy).Contents (Elt F)) : (⟨S100000, .f32⟩ : BufTy).Contents (Elt F) :=
  select (cmpf .ogt (degOf dst) (broadcastInDim S100000 ![] bcast_S_S100000 (constant S_ .f32 0x00000000#32))) (Host.rsqrt (degOf dst)) (broadcastInDim S100000 ![] bcast_S_S100000 (id (constant S_ .f32 0x00000000#32)))

/-- A list of node numbers as a column of gather indices, a negative number counted from the end. -/
def wrapIdx (a : (⟨S1700000, .i32⟩ : BufTy).Contents (Elt F)) : (⟨S1700000x1, .i32⟩ : BufTy).Contents (Elt F) :=
  broadcastInDim S1700000x1 ![0] bcast_S1700000_S1700000x1_0 (select (cmpi .slt a (broadcastInDim S1700000 ![] bcast_S_S1700000 (constantI S_ 32 0#32))) (addi a (broadcastInDim S1700000 ![] bcast_S_S1700000 (constantI S_ 32 100000#32))) a)

/-- The normalisation of every message from the nodes' dinv: dinv[src] · dinv[dst]. -/
def normFrom (dinv : (⟨S100000, .f32⟩ : BufTy).Contents (Elt F)) (src : (⟨S1700000, .i32⟩ : BufTy).Contents (Elt F)) (dst : (⟨S1700000, .i32⟩ : BufTy).Contents (Elt F)) : (⟨S1700000, .f32⟩ : BufTy).Contents (Elt F) :=
  mulf (Host.gather gather_S100000_S1700000x1_S1700000_n_0_n_n_0_1_1 dinv (wrapIdx src)) (Host.gather gather_S100000_S1700000x1_S1700000_n_0_n_n_0_1_1 dinv (wrapIdx dst))

/-- The symmetric normalisation of every message: dinv[src] · dinv[dst], dinv from the targets' counts. -/
def normOf (src : (⟨S1700000, .i32⟩ : BufTy).Contents (Elt F)) (dst : (⟨S1700000, .i32⟩ : BufTy).Contents (Elt F)) : (⟨S1700000, .f32⟩ : BufTy).Contents (Elt F) :=
  normFrom (dinvOf dst) src dst

/-- The node features times a weight matrix. -/
def dotNN (h : (⟨S100000x64, .f32⟩ : BufTy).Contents (Elt F)) (W : (⟨S64x64, .f32⟩ : BufTy).Contents (Elt F)) : (⟨S100000x64, .f32⟩ : BufTy).Contents (Elt F) :=
  Host.dotGeneral dot_S100000x64_S64x64_S100000x64_1_0_0_1_n_n none h W

/-- One graph convolution after the projection: gather the projected rows at the sources, scale each message by its normalisation, add the messages up at their targets, add the bias row. -/
def aggOut (lin : (⟨S100000x64, .f32⟩ : BufTy).Contents (Elt F)) (src : (⟨S1700000, .i32⟩ : BufTy).Contents (Elt F)) (nrm : (⟨S1700000, .f32⟩ : BufTy).Contents (Elt F)) (dst : (⟨S1700000, .i32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 lin (wrapIdx src)) (broadcastInDim S1700000x64 ![0, 1] bcast_S1700000x1_S1700000x64_0_1 (broadcastInDim S1700000x1 ![0] bcast_S1700000_S1700000x1_0 nrm)))) (broadcastInDim S100000x64 ![0, 1] bcast_S1x64_S100000x64_0_1 (broadcastInDim S1x64 ![1] bcast_S64_S1x64_1 b))

/-- Each column's mean over the N rows. -/
def meanOf (out : (⟨S100000x64, .f32⟩ : BufTy).Contents (Elt F)) : (⟨S64, .f32⟩ : BufTy).Contents (Elt F) :=
  Host.divf (Host.reduceAdd out (constant S_ .f32 0x00000000#32) reducesTo_S100000x64_S64_d0 h_S_) (broadcastInDim S64 ![] bcast_S_S64 (constant S_ .f32 0x47C35000#32))

/-- Each column's mean squared deviation from its mean. -/
def varOf (out : (⟨S100000x64, .f32⟩ : BufTy).Contents (Elt F)) : (⟨S64, .f32⟩ : BufTy).Contents (Elt F) :=
  Host.divf (Host.reduceAdd (mulf (subf out (broadcastInDim S100000x64 ![0, 1] bcast_S1x64_S100000x64_0_1 (broadcastInDim S1x64 ![1] bcast_S64_S1x64_1 (meanOf out)))) (subf out (broadcastInDim S100000x64 ![0, 1] bcast_S1x64_S100000x64_0_1 (broadcastInDim S1x64 ![1] bcast_S64_S1x64_1 (meanOf out))))) (constant S_ .f32 0x00000000#32) reducesTo_S100000x64_S64_d0 h_S_) (broadcastInDim S64 ![] bcast_S_S64 (constant S_ .f32 0x47C35000#32))

/-- Batch normalisation with the batch's own statistics, scale, shift, then max with 0. -/
def bnRef (out : (⟨S100000x64, .f32⟩ : BufTy).Contents (Elt F)) (g : (⟨S64, .f32⟩ : BufTy).Contents (Elt F)) (be : (⟨S64, .f32⟩ : BufTy).Contents (Elt F)) : (⟨S100000x64, .f32⟩ : BufTy).Contents (Elt F) :=
  maximumf (addf (mulf (mulf (subf out (broadcastInDim S100000x64 ![0, 1] bcast_S1x64_S100000x64_0_1 (broadcastInDim S1x64 ![1] bcast_S64_S1x64_1 (meanOf out)))) (broadcastInDim S100000x64 ![0, 1] bcast_S1x64_S100000x64_0_1 (broadcastInDim S1x64 ![1] bcast_S64_S1x64_1 (Host.rsqrt (addf (varOf out) (broadcastInDim S64 ![] bcast_S_S64 (constant S_ .f32 0x3727C5AC#32))))))) (broadcastInDim S100000x64 ![0, 1] bcast_S1x64_S100000x64_0_1 (broadcastInDim S1x64 ![1] bcast_S64_S1x64_1 g))) (broadcastInDim S100000x64 ![0, 1] bcast_S1x64_S100000x64_0_1 (broadcastInDim S1x64 ![1] bcast_S64_S1x64_1 be))) (broadcastInDim S100000x64 ![] bcast_S_S100000x64 (constant S_ .f32 0x00000000#32))

/-- The mean of the node rows of each graph: the rows added up per graph, over max(count, 1). -/
def poolOf (h : (⟨S100000x64, .f32⟩ : BufTy).Contents (Elt F)) (batch : (⟨S100000, .i32⟩ : BufTy).Contents (Elt F)) : (⟨S512x64, .f32⟩ : BufTy).Contents (Elt F) :=
  Host.divf (Host.scatterAdd scatter_S512x64_S100000x1_S100000x64_1_0_0_1 (broadcastInDim S512x64 ![] bcast_S_S512x64 (constant S_ .f32 0x00000000#32)) (broadcastInDim S100000x1 ![0] bcast_S100000_S100000x1_0 batch) h) (broadcastInDim S512x64 ![0, 1] bcast_S512x1_S512x64_0_1 (broadcastInDim S512x1 ![0] bcast_S512_S512x1_0 (maximumf (Host.scatterAdd scatter_S512_S100000x1_S100000_n_0_0_1 (broadcastInDim S512 ![] bcast_S_S512 (constant S_ .f32 0x00000000#32)) (broadcastInDim S100000x1 ![0] bcast_S100000_S100000x1_0 batch) (broadcastInDim S100000 ![] bcast_S_S100000 (constant S_ .f32 0x3F800000#32))) (broadcastInDim S512 ![] bcast_S_S512 (constant S_ .f32 0x3F800000#32)))))

/-- The final linear layer: p · W plus the bias row. -/
def fcRef (p : (⟨S512x64, .f32⟩ : BufTy).Contents (Elt F)) (W : (⟨S64x10, .f32⟩ : BufTy).Contents (Elt F)) (b : (⟨S10, .f32⟩ : BufTy).Contents (Elt F)) : (⟨S512x10, .f32⟩ : BufTy).Contents (Elt F) :=
  addf (Host.dotGeneral dot_S512x64_S64x10_S512x10_1_0_0_1_n_n none p W) (broadcastInDim S512x10 ![0, 1] bcast_S1x10_S512x10_0_1 (broadcastInDim S1x10 ![1] bcast_S10_S1x10_1 b))

/-- One layer: projection, aggregation, normalisation. -/
def layer (h : (⟨S100000x64, .f32⟩ : BufTy).Contents (Elt F)) (src : (⟨S1700000, .i32⟩ : BufTy).Contents (Elt F)) (nrm : (⟨S1700000, .f32⟩ : BufTy).Contents (Elt F)) (dst : (⟨S1700000, .i32⟩ : BufTy).Contents (Elt F))
    (W : (⟨S64x64, .f32⟩ : BufTy).Contents (Elt F)) (b g be : (⟨S64, .f32⟩ : BufTy).Contents (Elt F)) : (⟨S100000x64, .f32⟩ : BufTy).Contents (Elt F) :=
  bnRef (aggOut (dotNN h W) src nrm dst b) g be

/-- The whole network as one function of the seventeen arguments. -/
def total (x0 : (⟨S100000x64, .f32⟩ : BufTy).Contents (Elt F)) (x1 : (⟨S2x1600000, .i32⟩ : BufTy).Contents (Elt F)) (x2 : (⟨S100000, .i32⟩ : BufTy).Contents (Elt F))
    (x3 : (⟨S64x64, .f32⟩ : BufTy).Contents (Elt F)) (x4 x5 x6 : (⟨S64, .f32⟩ : BufTy).Contents (Elt F)) (x7 : (⟨S64x64, .f32⟩ : BufTy).Contents (Elt F)) (x8 x9 x10 : (⟨S64, .f32⟩ : BufTy).Contents (Elt F))
    (x11 : (⟨S64x64, .f32⟩ : BufTy).Contents (Elt F)) (x12 x13 x14 : (⟨S64, .f32⟩ : BufTy).Contents (Elt F)) (x15 : (⟨S64x10, .f32⟩ : BufTy).Contents (Elt F)) (x16 : (⟨S10, .f32⟩ : BufTy).Contents (Elt F)) : (⟨S512x10, .f32⟩ : BufTy).Contents (Elt F) :=
  fcRef (poolOf
    (layer (layer (layer x0 (srcOf x1) (normOf (srcOf x1) (dstOf x1)) (dstOf x1) x3 x4 x5 x6)
      (srcOf x1) (normOf (srcOf x1) (dstOf x1)) (dstOf x1) x7 x8 x9 x10)
      (srcOf x1) (normOf (srcOf x1) (dstOf x1)) (dstOf x1) x11 x12 x13 x14) x2) x15 x16

end Cert.Spec

end
-- ==== Proof.KHost.lean ====
/-
  The idealized kernel's host stretches, read one at a time. Between two kernel regions the program runs a list of
  host operations; what such a list leaves in one buffer is the composition of its operations applied to what the
  buffers held before it. Each such composition is one of the common specification's stages (the message sources and
  targets, the normalisation, a layer's aggregation, the per-graph mean) or one of the kernel's own small glue
  functions (a column sum over N as the mean, the raw second moment minus the squared mean as the variance, a vector as
  a one-row matrix). The second half walks a buffer that a stretch or a region does not write back to the boundary
  where it was written.
-/
import proofs.«179986_j62663572849123_1_alg».proof.Proof.Gen.KernelIdeal.Frame
import proofs.«179986_j62663572849123_1_alg».proof.Proof.Spec

set_option maxRecDepth 16384

noncomputable section

namespace Cert.KernelIdeal.HostVals

open Cert.KernelIdeal Cert.KernelIdeal.Gen
open Idealize.ShloMosaic Idealize.ShloMosaic.TcCoe Idealize.ShloMosaic.StableHlo Idealize.SL.Sem

/-- A column sum over the N = 100000 rows, as the mean. -/
def kMean {F : FTy → Type} [FloatOps F] (s : (⟨S1x64, .f32⟩ : BufTy).Contents (Elt F)) : (⟨S1x64, .f32⟩ : BufTy).Contents (Elt F) :=
  Host.divf s (broadcastInDim S1x64 ![] bcast_S_S1x64 (constant S_ .f32 0x47C35000#32))

/-- The raw second moment minus the squared mean. -/
def kVar {F : FTy → Type} [FloatOps F] (s ss : (⟨S1x64, .f32⟩ : BufTy).Contents (Elt F)) : (⟨S1x64, .f32⟩ : BufTy).Contents (Elt F) :=
  subf (Host.divf ss (broadcastInDim S1x64 ![] bcast_S_S1x64 (constant S_ .f32 0x47C35000#32))) (mulf (kMean s) (kMean s))

/-- A 64-vector as a one-row matrix. -/
def rowOf {F : FTy → Type} [FloatOps F] (g : (⟨S64, .f32⟩ : BufTy).Contents (Elt F)) : (⟨S1x64, .f32⟩ : BufTy).Contents (Elt F) := shapeCast S1x64 g shapeCasts_S64_S1x64

/-- A 10-vector as a one-row matrix. -/
def rowOf10 {F : FTy → Type} [FloatOps F] (b : (⟨S10, .f32⟩ : BufTy).Contents (Elt F)) : (⟨S1x10, .f32⟩ : BufTy).Contents (Elt F) := shapeCast S1x10 b shapeCasts_S10_S1x10

/-! ## What each stretch leaves in the buffers the regions read, from ANY contents `X` before it -/

variable (X : Valuation τ sig (Elt Ideal))

set_option maxHeartbeats 4000000 in
theorem read0_v3 : StableHlo.after hostOps0 X (Proc.devRef .tc main_v3) = Cert.Spec.srcOf (F := Ideal) (X (Proc.devRef .tc main_arg1)) := by
  after_results_simp <;> rfl

set_option maxHeartbeats 4000000 in
theorem read0_v6 : StableHlo.after hostOps0 X (Proc.devRef .tc main_v6) = Cert.Spec.dstOf (F := Ideal) (X (Proc.devRef .tc main_arg1)) := by
  after_results_simp <;> rfl

set_option maxHeartbeats 4000000 in
theorem read0_v12 : StableHlo.after hostOps0 X (Proc.devRef .tc main_v12) = cmpf .ogt (Cert.Spec.degOf (F := Ideal) (Cert.Spec.dstOf (F := Ideal) (X (Proc.devRef .tc main_arg1)))) (broadcastInDim Cert.ReferenceIdeal.S100000 ![] Cert.ReferenceIdeal.Gen.bcast_S_S100000 (constant (F := Ideal) Cert.ReferenceIdeal.S_ .f32 0x00000000#32)) := by
  after_results_simp <;> rfl

set_option maxHeartbeats 4000000 in
theorem read0_v13 : StableHlo.after hostOps0 X (Proc.devRef .tc main_v13) = Host.rsqrt (F := Ideal) (φ := .f32) (Cert.Spec.degOf (F := Ideal) (Cert.Spec.dstOf (F := Ideal) (X (Proc.devRef .tc main_arg1)))) := by
  after_results_simp <;> rfl

set_option maxHeartbeats 4000000 in
theorem read0_cst2 : StableHlo.after hostOps0 X (Proc.devRef .tc main_cst_2) = constant (F := Ideal) Cert.ReferenceIdeal.S_ .f32 0x00000000#32 := by
  after_results_simp <;> rfl

set_option maxHeartbeats 4000000 in
theorem read01_v14 : StableHlo.after hostOps0_1 X (Proc.devRef .tc main_v14) = select (X (Proc.devRef .tc main_v12)) (X (Proc.devRef .tc main_v13)) (broadcastInDim Cert.ReferenceIdeal.S100000 ![] Cert.ReferenceIdeal.Gen.bcast_S_S100000 (id (X (Proc.devRef .tc main_cst_2)))) := by
  after_results_simp <;> rfl

set_option maxHeartbeats 4000000 in
theorem read02_v29 : StableHlo.after hostOps0_2 X (Proc.devRef .tc main_v29) = Cert.Spec.normFrom (F := Ideal) (X (Proc.devRef .tc main_v14)) (X (Proc.devRef .tc main_v3)) (X (Proc.devRef .tc main_v6)) := by
  after_results_simp <;> rfl

set_option maxHeartbeats 4000000 in
theorem read1_v46 : StableHlo.after hostOps1 X (Proc.devRef .tc main_v46) = Cert.Spec.aggOut (F := Ideal) (X (Proc.devRef .tc main_v30)) (X (Proc.devRef .tc main_v3)) (X (Proc.devRef .tc main_v29)) (X (Proc.devRef .tc main_v6)) (X (Proc.devRef .tc main_arg4)) := by
  after_results_simp <;> rfl

set_option maxHeartbeats 4000000 in
theorem read4_v73 : StableHlo.after hostOps4 X (Proc.devRef .tc main_v73) = Cert.Spec.aggOut (F := Ideal) (X (Proc.devRef .tc main_v57)) (X (Proc.devRef .tc main_v3)) (X (Proc.devRef .tc main_v29)) (X (Proc.devRef .tc main_v6)) (X (Proc.devRef .tc main_arg8)) := by
  after_results_simp <;> rfl

set_option maxHeartbeats 4000000 in
theorem read7_v100 : StableHlo.after hostOps7 X (Proc.devRef .tc main_v100) = Cert.Spec.aggOut (F := Ideal) (X (Proc.devRef .tc main_v84)) (X (Proc.devRef .tc main_v3)) (X (Proc.devRef .tc main_v29)) (X (Proc.devRef .tc main_v6)) (X (Proc.devRef .tc main_arg12)) := by
  after_results_simp <;> rfl

set_option maxHeartbeats 4000000 in
theorem read9_v122 : StableHlo.after hostOps9 X (Proc.devRef .tc main_v122) = Cert.Spec.poolOf (F := Ideal) (X (Proc.devRef .tc main_v110)) (X (Proc.devRef .tc main_arg2)) := by
  after_results_simp <;> rfl

set_option maxHeartbeats 4000000 in
theorem read9_v123 : StableHlo.after hostOps9 X (Proc.devRef .tc main_v123) = rowOf10 (F := Ideal) (X (Proc.devRef .tc main_arg16)) := by
  after_results_simp <;> rfl

set_option maxHeartbeats 4000000 in
theorem read2_mean : StableHlo.after hostOps2 X (Proc.devRef .tc main_v49) = kMean (F := Ideal) (X (Proc.devRef .tc main_v47_0)) := by
  after_results_simp <;> rfl

set_option maxHeartbeats 4000000 in
theorem read2_var : StableHlo.after hostOps2 X (Proc.devRef .tc main_v53) = kVar (F := Ideal) (X (Proc.devRef .tc main_v47_0)) (X (Proc.devRef .tc main_v47_1)) := by
  after_results_simp <;> rfl

set_option maxHeartbeats 4000000 in
theorem read2_g : StableHlo.after hostOps2 X (Proc.devRef .tc main_v54) = rowOf (F := Ideal) (X (Proc.devRef .tc main_arg5)) := by
  after_results_simp <;> rfl

set_option maxHeartbeats 4000000 in
theorem read2_be : StableHlo.after hostOps2 X (Proc.devRef .tc main_v55) = rowOf (F := Ideal) (X (Proc.devRef .tc main_arg6)) := by
  after_results_simp <;> rfl

set_option maxHeartbeats 4000000 in
theorem read5_mean : StableHlo.after hostOps5 X (Proc.devRef .tc main_v76) = kMean (F := Ideal) (X (Proc.devRef .tc main_v74_0)) := by
  after_results_simp <;> rfl

set_option maxHeartbeats 4000000 in
theorem read5_var : StableHlo.after hostOps5 X (Proc.devRef .tc main_v80) = kVar (F := Ideal) (X (Proc.devRef .tc main_v74_0)) (X (Proc.devRef .tc main_v74_1)) := by
  after_results_simp <;> rfl

set_option maxHeartbeats 4000000 in
theorem read5_g : StableHlo.after hostOps5 X (Proc.devRef .tc main_v81) = rowOf (F := Ideal) (X (Proc.devRef .tc main_arg9)) := by
  after_results_simp <;> rfl

set_option maxHeartbeats 4000000 in
theorem read5_be : StableHlo.after hostOps5 X (Proc.devRef .tc main_v82) = rowOf (F := Ideal) (X (Proc.devRef .tc main_arg10)) := by
  after_results_simp <;> rfl

set_option maxHeartbeats 4000000 in
theorem read8_mean : StableHlo.after hostOps8 X (Proc.devRef .tc main_v103) = kMean (F := Ideal) (X (Proc.devRef .tc main_v101_0)) := by
  after_results_simp <;> rfl

set_option maxHeartbeats 4000000 in
theorem read8_var : StableHlo.after hostOps8 X (Proc.devRef .tc main_v107) = kVar (F := Ideal) (X (Proc.devRef .tc main_v101_0)) (X (Proc.devRef .tc main_v101_1)) := by
  after_results_simp <;> rfl

set_option maxHeartbeats 4000000 in
theorem read8_g : StableHlo.after hostOps8 X (Proc.devRef .tc main_v108) = rowOf (F := Ideal) (X (Proc.devRef .tc main_arg13)) := by
  after_results_simp <;> rfl

set_option maxHeartbeats 4000000 in
theorem read8_be : StableHlo.after hostOps8 X (Proc.devRef .tc main_v109) = rowOf (F := Ideal) (X (Proc.devRef .tc main_arg14)) := by
  after_results_simp <;> rfl

/-! ## Buffers that a stretch or a region leaves alone -/

/-- A stretch that does not write a buffer leaves it as it was. -/
macro "host_skip " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (m : (ℓ : Loc nD τ sig) → Buf (Elt Ideal) ℓ) (ρ : Dev nD → PrngReg) (c : Dev nD)

theorem W2_v3_from1 : W2 m ρ c (Proc.devRef .tc main_v3) = W1 m ρ c (Proc.devRef .tc main_v3) :=
  (by host_skip hostOps0_1 : W2 m ρ c (Proc.devRef .tc main_v3) = W1 m ρ c (Proc.devRef .tc main_v3))

theorem W2_v6_from1 : W2 m ρ c (Proc.devRef .tc main_v6) = W1 m ρ c (Proc.devRef .tc main_v6) :=
  (by host_skip hostOps0_1 : W2 m ρ c (Proc.devRef .tc main_v6) = W1 m ρ c (Proc.devRef .tc main_v6))

theorem W3_arg0_from0 : W3 m ρ c (Proc.devRef .tc main_arg0) = W0 m ρ c (Proc.devRef .tc main_arg0) :=
  ((by host_skip hostOps0_2 : W3 m ρ c (Proc.devRef .tc main_arg0) = W2 m ρ c (Proc.devRef .tc main_arg0)).trans
    ((by host_skip hostOps0_1 : W2 m ρ c (Proc.devRef .tc main_arg0) = W1 m ρ c (Proc.devRef .tc main_arg0)).trans
    (by host_skip hostOps0 : W1 m ρ c (Proc.devRef .tc main_arg0) = W0 m ρ c (Proc.devRef .tc main_arg0))))

theorem W3_arg3_from0 : W3 m ρ c (Proc.devRef .tc main_arg3) = W0 m ρ c (Proc.devRef .tc main_arg3) :=
  ((by host_skip hostOps0_2 : W3 m ρ c (Proc.devRef .tc main_arg3) = W2 m ρ c (Proc.devRef .tc main_arg3)).trans
    ((by host_skip hostOps0_1 : W2 m ρ c (Proc.devRef .tc main_arg3) = W1 m ρ c (Proc.devRef .tc main_arg3)).trans
    (by host_skip hostOps0 : W1 m ρ c (Proc.devRef .tc main_arg3) = W0 m ρ c (Proc.devRef .tc main_arg3))))

theorem W3_v3_from1 : W3 m ρ c (Proc.devRef .tc main_v3) = W1 m ρ c (Proc.devRef .tc main_v3) :=
  ((by host_skip hostOps0_2 : W3 m ρ c (Proc.devRef .tc main_v3) = W2 m ρ c (Proc.devRef .tc main_v3)).trans
    (by host_skip hostOps0_1 : W2 m ρ c (Proc.devRef .tc main_v3) = W1 m ρ c (Proc.devRef .tc main_v3)))

theorem W3_v6_from1 : W3 m ρ c (Proc.devRef .tc main_v6) = W1 m ρ c (Proc.devRef .tc main_v6) :=
  ((by host_skip hostOps0_2 : W3 m ρ c (Proc.devRef .tc main_v6) = W2 m ρ c (Proc.devRef .tc main_v6)).trans
    (by host_skip hostOps0_1 : W2 m ρ c (Proc.devRef .tc main_v6) = W1 m ρ c (Proc.devRef .tc main_v6)))

theorem W4_v3_from3 : W4 m ρ c (Proc.devRef .tc main_v3) = W3 m ρ c (Proc.devRef .tc main_v3) :=
  (W4_of_ne m ρ c main_v3 (by decide))

theorem W4_v6_from3 : W4 m ρ c (Proc.devRef .tc main_v6) = W3 m ρ c (Proc.devRef .tc main_v6) :=
  (W4_of_ne m ρ c main_v6 (by decide))

theorem W4_v29_from3 : W4 m ρ c (Proc.devRef .tc main_v29) = W3 m ρ c (Proc.devRef .tc main_v29) :=
  (W4_of_ne m ρ c main_v29 (by decide))

theorem W4_arg4_from0 : W4 m ρ c (Proc.devRef .tc main_arg4) = W0 m ρ c (Proc.devRef .tc main_arg4) :=
  ((W4_of_ne m ρ c main_arg4 (by decide)).trans
    ((by host_skip hostOps0_2 : W3 m ρ c (Proc.devRef .tc main_arg4) = W2 m ρ c (Proc.devRef .tc main_arg4)).trans
    ((by host_skip hostOps0_1 : W2 m ρ c (Proc.devRef .tc main_arg4) = W1 m ρ c (Proc.devRef .tc main_arg4)).trans
    (by host_skip hostOps0 : W1 m ρ c (Proc.devRef .tc main_arg4) = W0 m ρ c (Proc.devRef .tc main_arg4)))))

theorem W7_v46_from5 : W7 m ρ c (Proc.devRef .tc main_v46) = W5 m ρ c (Proc.devRef .tc main_v46) :=
  ((by host_skip hostOps2 : W7 m ρ c (Proc.devRef .tc main_v46) = W6 m ρ c (Proc.devRef .tc main_v46)).trans
    ((W6_arr m ρ c 0).trans (((dat1 (V5 m ρ) c).arrAt_in 0 rfl _).trans (A_eq1 (V5 m ρ) c 0))))

theorem W6_arg5_from0 : W6 m ρ c (Proc.devRef .tc main_arg5) = W0 m ρ c (Proc.devRef .tc main_arg5) :=
  ((W6_of_ne m ρ c main_arg5 (by decide)).trans
    ((by host_skip hostOps1 : W5 m ρ c (Proc.devRef .tc main_arg5) = W4 m ρ c (Proc.devRef .tc main_arg5)).trans
    ((W4_of_ne m ρ c main_arg5 (by decide)).trans
    ((by host_skip hostOps0_2 : W3 m ρ c (Proc.devRef .tc main_arg5) = W2 m ρ c (Proc.devRef .tc main_arg5)).trans
    ((by host_skip hostOps0_1 : W2 m ρ c (Proc.devRef .tc main_arg5) = W1 m ρ c (Proc.devRef .tc main_arg5)).trans
    (by host_skip hostOps0 : W1 m ρ c (Proc.devRef .tc main_arg5) = W0 m ρ c (Proc.devRef .tc main_arg5)))))))

theorem W6_arg6_from0 : W6 m ρ c (Proc.devRef .tc main_arg6) = W0 m ρ c (Proc.devRef .tc main_arg6) :=
  ((W6_of_ne m ρ c main_arg6 (by decide)).trans
    ((by host_skip hostOps1 : W5 m ρ c (Proc.devRef .tc main_arg6) = W4 m ρ c (Proc.devRef .tc main_arg6)).trans
    ((W4_of_ne m ρ c main_arg6 (by decide)).trans
    ((by host_skip hostOps0_2 : W3 m ρ c (Proc.devRef .tc main_arg6) = W2 m ρ c (Proc.devRef .tc main_arg6)).trans
    ((by host_skip hostOps0_1 : W2 m ρ c (Proc.devRef .tc main_arg6) = W1 m ρ c (Proc.devRef .tc main_arg6)).trans
    (by host_skip hostOps0 : W1 m ρ c (Proc.devRef .tc main_arg6) = W0 m ρ c (Proc.devRef .tc main_arg6)))))))

theorem W8_arg7_from0 : W8 m ρ c (Proc.devRef .tc main_arg7) = W0 m ρ c (Proc.devRef .tc main_arg7) :=
  ((W8_of_ne m ρ c main_arg7 (by decide)).trans
    ((by host_skip hostOps2 : W7 m ρ c (Proc.devRef .tc main_arg7) = W6 m ρ c (Proc.devRef .tc main_arg7)).trans
    ((W6_of_ne m ρ c main_arg7 (by decide)).trans
    ((by host_skip hostOps1 : W5 m ρ c (Proc.devRef .tc main_arg7) = W4 m ρ c (Proc.devRef .tc main_arg7)).trans
    ((W4_of_ne m ρ c main_arg7 (by decide)).trans
    ((by host_skip hostOps0_2 : W3 m ρ c (Proc.devRef .tc main_arg7) = W2 m ρ c (Proc.devRef .tc main_arg7)).trans
    ((by host_skip hostOps0_1 : W2 m ρ c (Proc.devRef .tc main_arg7) = W1 m ρ c (Proc.devRef .tc main_arg7)).trans
    (by host_skip hostOps0 : W1 m ρ c (Proc.devRef .tc main_arg7) = W0 m ρ c (Proc.devRef .tc main_arg7)))))))))

theorem W9_v3_from4 : W9 m ρ c (Proc.devRef .tc main_v3) = W4 m ρ c (Proc.devRef .tc main_v3) :=
  ((W9_of_ne m ρ c main_v3 (by decide)).trans
    ((W8_of_ne m ρ c main_v3 (by decide)).trans
    ((by host_skip hostOps2 : W7 m ρ c (Proc.devRef .tc main_v3) = W6 m ρ c (Proc.devRef .tc main_v3)).trans
    ((W6_of_ne m ρ c main_v3 (by decide)).trans
    (by host_skip hostOps1 : W5 m ρ c (Proc.devRef .tc main_v3) = W4 m ρ c (Proc.devRef .tc main_v3))))))

theorem W9_v6_from4 : W9 m ρ c (Proc.devRef .tc main_v6) = W4 m ρ c (Proc.devRef .tc main_v6) :=
  ((W9_of_ne m ρ c main_v6 (by decide)).trans
    ((W8_of_ne m ρ c main_v6 (by decide)).trans
    ((by host_skip hostOps2 : W7 m ρ c (Proc.devRef .tc main_v6) = W6 m ρ c (Proc.devRef .tc main_v6)).trans
    ((W6_of_ne m ρ c main_v6 (by decide)).trans
    (by host_skip hostOps1 : W5 m ρ c (Proc.devRef .tc main_v6) = W4 m ρ c (Proc.devRef .tc main_v6))))))

theorem W9_v29_from4 : W9 m ρ c (Proc.devRef .tc main_v29) = W4 m ρ c (Proc.devRef .tc main_v29) :=
  ((W9_of_ne m ρ c main_v29 (by decide)).trans
    ((W8_of_ne m ρ c main_v29 (by decide)).trans
    ((by host_skip hostOps2 : W7 m ρ c (Proc.devRef .tc main_v29) = W6 m ρ c (Proc.devRef .tc main_v29)).trans
    ((W6_of_ne m ρ c main_v29 (by decide)).trans
    (by host_skip hostOps1 : W5 m ρ c (Proc.devRef .tc main_v29) = W4 m ρ c (Proc.devRef .tc main_v29))))))

theorem W9_arg8_from0 : W9 m ρ c (Proc.devRef .tc main_arg8) = W0 m ρ c (Proc.devRef .tc main_arg8) :=
  ((W9_of_ne m ρ c main_arg8 (by decide)).trans
    ((W8_of_ne m ρ c main_arg8 (by decide)).trans
    ((by host_skip hostOps2 : W7 m ρ c (Proc.devRef .tc main_arg8) = W6 m ρ c (Proc.devRef .tc main_arg8)).trans
    ((W6_of_ne m ρ c main_arg8 (by decide)).trans
    ((by host_skip hostOps1 : W5 m ρ c (Proc.devRef .tc main_arg8) = W4 m ρ c (Proc.devRef .tc main_arg8)).trans
    ((W4_of_ne m ρ c main_arg8 (by decide)).trans
    ((by host_skip hostOps0_2 : W3 m ρ c (Proc.devRef .tc main_arg8) = W2 m ρ c (Proc.devRef .tc main_arg8)).trans
    ((by host_skip hostOps0_1 : W2 m ρ c (Proc.devRef .tc main_arg8) = W1 m ρ c (Proc.devRef .tc main_arg8)).trans
    (by host_skip hostOps0 : W1 m ρ c (Proc.devRef .tc main_arg8) = W0 m ρ c (Proc.devRef .tc main_arg8))))))))))

theorem W12_v73_from10 : W12 m ρ c (Proc.devRef .tc main_v73) = W10 m ρ c (Proc.devRef .tc main_v73) :=
  ((by host_skip hostOps5 : W12 m ρ c (Proc.devRef .tc main_v73) = W11 m ρ c (Proc.devRef .tc main_v73)).trans
    ((W11_arr m ρ c 0).trans (((dat4 (V10 m ρ) c).arrAt_in 0 rfl _).trans (A_eq4 (V10 m ρ) c 0))))

theorem W11_arg9_from0 : W11 m ρ c (Proc.devRef .tc main_arg9) = W0 m ρ c (Proc.devRef .tc main_arg9) :=
  ((W11_of_ne m ρ c main_arg9 (by decide)).trans
    ((by host_skip hostOps4 : W10 m ρ c (Proc.devRef .tc main_arg9) = W9 m ρ c (Proc.devRef .tc main_arg9)).trans
    ((W9_of_ne m ρ c main_arg9 (by decide)).trans
    ((W8_of_ne m ρ c main_arg9 (by decide)).trans
    ((by host_skip hostOps2 : W7 m ρ c (Proc.devRef .tc main_arg9) = W6 m ρ c (Proc.devRef .tc main_arg9)).trans
    ((W6_of_ne m ρ c main_arg9 (by decide)).trans
    ((by host_skip hostOps1 : W5 m ρ c (Proc.devRef .tc main_arg9) = W4 m ρ c (Proc.devRef .tc main_arg9)).trans
    ((W4_of_ne m ρ c main_arg9 (by decide)).trans
    ((by host_skip hostOps0_2 : W3 m ρ c (Proc.devRef .tc main_arg9) = W2 m ρ c (Proc.devRef .tc main_arg9)).trans
    ((by host_skip hostOps0_1 : W2 m ρ c (Proc.devRef .tc main_arg9) = W1 m ρ c (Proc.devRef .tc main_arg9)).trans
    (by host_skip hostOps0 : W1 m ρ c (Proc.devRef .tc main_arg9) = W0 m ρ c (Proc.devRef .tc main_arg9))))))))))))

theorem W11_arg10_from0 : W11 m ρ c (Proc.devRef .tc main_arg10) = W0 m ρ c (Proc.devRef .tc main_arg10) :=
  ((W11_of_ne m ρ c main_arg10 (by decide)).trans
    ((by host_skip hostOps4 : W10 m ρ c (Proc.devRef .tc main_arg10) = W9 m ρ c (Proc.devRef .tc main_arg10)).trans
    ((W9_of_ne m ρ c main_arg10 (by decide)).trans
    ((W8_of_ne m ρ c main_arg10 (by decide)).trans
    ((by host_skip hostOps2 : W7 m ρ c (Proc.devRef .tc main_arg10) = W6 m ρ c (Proc.devRef .tc main_arg10)).trans
    ((W6_of_ne m ρ c main_arg10 (by decide)).trans
    ((by host_skip hostOps1 : W5 m ρ c (Proc.devRef .tc main_arg10) = W4 m ρ c (Proc.devRef .tc main_arg10)).trans
    ((W4_of_ne m ρ c main_arg10 (by decide)).trans
    ((by host_skip hostOps0_2 : W3 m ρ c (Proc.devRef .tc main_arg10) = W2 m ρ c (Proc.devRef .tc main_arg10)).trans
    ((by host_skip hostOps0_1 : W2 m ρ c (Proc.devRef .tc main_arg10) = W1 m ρ c (Proc.devRef .tc main_arg10)).trans
    (by host_skip hostOps0 : W1 m ρ c (Proc.devRef .tc main_arg10) = W0 m ρ c (Proc.devRef .tc main_arg10))))))))))))

theorem W13_arg11_from0 : W13 m ρ c (Proc.devRef .tc main_arg11) = W0 m ρ c (Proc.devRef .tc main_arg11) :=
  ((W13_of_ne m ρ c main_arg11 (by decide)).trans
    ((by host_skip hostOps5 : W12 m ρ c (Proc.devRef .tc main_arg11) = W11 m ρ c (Proc.devRef .tc main_arg11)).trans
    ((W11_of_ne m ρ c main_arg11 (by decide)).trans
    ((by host_skip hostOps4 : W10 m ρ c (Proc.devRef .tc main_arg11) = W9 m ρ c (Proc.devRef .tc main_arg11)).trans
    ((W9_of_ne m ρ c main_arg11 (by decide)).trans
    ((W8_of_ne m ρ c main_arg11 (by decide)).trans
    ((by host_skip hostOps2 : W7 m ρ c (Proc.devRef .tc main_arg11) = W6 m ρ c (Proc.devRef .tc main_arg11)).trans
    ((W6_of_ne m ρ c main_arg11 (by decide)).trans
    ((by host_skip hostOps1 : W5 m ρ c (Proc.devRef .tc main_arg11) = W4 m ρ c (Proc.devRef .tc main_arg11)).trans
    ((W4_of_ne m ρ c main_arg11 (by decide)).trans
    ((by host_skip hostOps0_2 : W3 m ρ c (Proc.devRef .tc main_arg11) = W2 m ρ c (Proc.devRef .tc main_arg11)).trans
    ((by host_skip hostOps0_1 : W2 m ρ c (Proc.devRef .tc main_arg11) = W1 m ρ c (Proc.devRef .tc main_arg11)).trans
    (by host_skip hostOps0 : W1 m ρ c (Proc.devRef .tc main_arg11) = W0 m ρ c (Proc.devRef .tc main_arg11))))))))))))))

theorem W14_v3_from9 : W14 m ρ c (Proc.devRef .tc main_v3) = W9 m ρ c (Proc.devRef .tc main_v3) :=
  ((W14_of_ne m ρ c main_v3 (by decide)).trans
    ((W13_of_ne m ρ c main_v3 (by decide)).trans
    ((by host_skip hostOps5 : W12 m ρ c (Proc.devRef .tc main_v3) = W11 m ρ c (Proc.devRef .tc main_v3)).trans
    ((W11_of_ne m ρ c main_v3 (by decide)).trans
    (by host_skip hostOps4 : W10 m ρ c (Proc.devRef .tc main_v3) = W9 m ρ c (Proc.devRef .tc main_v3))))))

theorem W14_v6_from9 : W14 m ρ c (Proc.devRef .tc main_v6) = W9 m ρ c (Proc.devRef .tc main_v6) :=
  ((W14_of_ne m ρ c main_v6 (by decide)).trans
    ((W13_of_ne m ρ c main_v6 (by decide)).trans
    ((by host_skip hostOps5 : W12 m ρ c (Proc.devRef .tc main_v6) = W11 m ρ c (Proc.devRef .tc main_v6)).trans
    ((W11_of_ne m ρ c main_v6 (by decide)).trans
    (by host_skip hostOps4 : W10 m ρ c (Proc.devRef .tc main_v6) = W9 m ρ c (Proc.devRef .tc main_v6))))))

theorem W14_v29_from9 : W14 m ρ c (Proc.devRef .tc main_v29) = W9 m ρ c (Proc.devRef .tc main_v29) :=
  ((W14_of_ne m ρ c main_v29 (by decide)).trans
    ((W13_of_ne m ρ c main_v29 (by decide)).trans
    ((by host_skip hostOps5 : W12 m ρ c (Proc.devRef .tc main_v29) = W11 m ρ c (Proc.devRef .tc main_v29)).trans
    ((W11_of_ne m ρ c main_v29 (by decide)).trans
    (by host_skip hostOps4 : W10 m ρ c (Proc.devRef .tc main_v29) = W9 m ρ c (Proc.devRef .tc main_v29))))))

theorem W14_arg12_from0 : W14 m ρ c (Proc.devRef .tc main_arg12) = W0 m ρ c (Proc.devRef .tc main_arg12) :=
  ((W14_of_ne m ρ c main_arg12 (by decide)).trans
    ((W13_of_ne m ρ c main_arg12 (by decide)).trans
    ((by host_skip hostOps5 : W12 m ρ c (Proc.devRef .tc main_arg12) = W11 m ρ c (Proc.devRef .tc main_arg12)).trans
    ((W11_of_ne m ρ c main_arg12 (by decide)).trans
    ((by host_skip hostOps4 : W10 m ρ c (Proc.devRef .tc main_arg12) = W9 m ρ c (Proc.devRef .tc main_arg12)).trans
    ((W9_of_ne m ρ c main_arg12 (by decide)).trans
    ((W8_of_ne m ρ c main_arg12 (by decide)).trans
    ((by host_skip hostOps2 : W7 m ρ c (Proc.devRef .tc main_arg12) = W6 m ρ c (Proc.devRef .tc main_arg12)).trans
    ((W6_of_ne m ρ c main_arg12 (by decide)).trans
    ((by host_skip hostOps1 : W5 m ρ c (Proc.devRef .tc main_arg12) = W4 m ρ c (Proc.devRef .tc main_arg12)).trans
    ((W4_of_ne m ρ c main_arg12 (by decide)).trans
    ((by host_skip hostOps0_2 : W3 m ρ c (Proc.devRef .tc main_arg12) = W2 m ρ c (Proc.devRef .tc main_arg12)).trans
    ((by host_skip hostOps0_1 : W2 m ρ c (Proc.devRef .tc main_arg12) = W1 m ρ c (Proc.devRef .tc main_arg12)).trans
    (by host_skip hostOps0 : W1 m ρ c (Proc.devRef .tc main_arg12) = W0 m ρ c (Proc.devRef .tc main_arg12)))))))))))))))

theorem W17_v100_from15 : W17 m ρ c (Proc.devRef .tc main_v100) = W15 m ρ c (Proc.devRef .tc main_v100) :=
  ((by host_skip hostOps8 : W17 m ρ c (Proc.devRef .tc main_v100) = W16 m ρ c (Proc.devRef .tc main_v100)).trans
    ((W16_arr m ρ c 0).trans (((dat7 (V15 m ρ) c).arrAt_in 0 rfl _).trans (A_eq7 (V15 m ρ) c 0))))

theorem W16_arg13_from0 : W16 m ρ c (Proc.devRef .tc main_arg13) = W0 m ρ c (Proc.devRef .tc main_arg13) :=
  ((W16_of_ne m ρ c main_arg13 (by decide)).trans
    ((by host_skip hostOps7 : W15 m ρ c (Proc.devRef .tc main_arg13) = W14 m ρ c (Proc.devRef .tc main_arg13)).trans
    ((W14_of_ne m ρ c main_arg13 (by decide)).trans
    ((W13_of_ne m ρ c main_arg13 (by decide)).trans
    ((by host_skip hostOps5 : W12 m ρ c (Proc.devRef .tc main_arg13) = W11 m ρ c (Proc.devRef .tc main_arg13)).trans
    ((W11_of_ne m ρ c main_arg13 (by decide)).trans
    ((by host_skip hostOps4 : W10 m ρ c (Proc.devRef .tc main_arg13) = W9 m ρ c (Proc.devRef .tc main_arg13)).trans
    ((W9_of_ne m ρ c main_arg13 (by decide)).trans
    ((W8_of_ne m ρ c main_arg13 (by decide)).trans
    ((by host_skip hostOps2 : W7 m ρ c (Proc.devRef .tc main_arg13) = W6 m ρ c (Proc.devRef .tc main_arg13)).trans
    ((W6_of_ne m ρ c main_arg13 (by decide)).trans
    ((by host_skip hostOps1 : W5 m ρ c (Proc.devRef .tc main_arg13) = W4 m ρ c (Proc.devRef .tc main_arg13)).trans
    ((W4_of_ne m ρ c main_arg13 (by decide)).trans
    ((by host_skip hostOps0_2 : W3 m ρ c (Proc.devRef .tc main_arg13) = W2 m ρ c (Proc.devRef .tc main_arg13)).trans
    ((by host_skip hostOps0_1 : W2 m ρ c (Proc.devRef .tc main_arg13) = W1 m ρ c (Proc.devRef .tc main_arg13)).trans
    (by host_skip hostOps0 : W1 m ρ c (Proc.devRef .tc main_arg13) = W0 m ρ c (Proc.devRef .tc main_arg13)))))))))))))))))

theorem W16_arg14_from0 : W16 m ρ c (Proc.devRef .tc main_arg14) = W0 m ρ c (Proc.devRef .tc main_arg14) :=
  ((W16_of_ne m ρ c main_arg14 (by decide)).trans
    ((by host_skip hostOps7 : W15 m ρ c (Proc.devRef .tc main_arg14) = W14 m ρ c (Proc.devRef .tc main_arg14)).trans
    ((W14_of_ne m ρ c main_arg14 (by decide)).trans
    ((W13_of_ne m ρ c main_arg14 (by decide)).trans
    ((by host_skip hostOps5 : W12 m ρ c (Proc.devRef .tc main_arg14) = W11 m ρ c (Proc.devRef .tc main_arg14)).trans
    ((W11_of_ne m ρ c main_arg14 (by decide)).trans
    ((by host_skip hostOps4 : W10 m ρ c (Proc.devRef .tc main_arg14) = W9 m ρ c (Proc.devRef .tc main_arg14)).trans
    ((W9_of_ne m ρ c main_arg14 (by decide)).trans
    ((W8_of_ne m ρ c main_arg14 (by decide)).trans
    ((by host_skip hostOps2 : W7 m ρ c (Proc.devRef .tc main_arg14) = W6 m ρ c (Proc.devRef .tc main_arg14)).trans
    ((W6_of_ne m ρ c main_arg14 (by decide)).trans
    ((by host_skip hostOps1 : W5 m ρ c (Proc.devRef .tc main_arg14) = W4 m ρ c (Proc.devRef .tc main_arg14)).trans
    ((W4_of_ne m ρ c main_arg14 (by decide)).trans
    ((by host_skip hostOps0_2 : W3 m ρ c (Proc.devRef .tc main_arg14) = W2 m ρ c (Proc.devRef .tc main_arg14)).trans
    ((by host_skip hostOps0_1 : W2 m ρ c (Proc.devRef .tc main_arg14) = W1 m ρ c (Proc.devRef .tc main_arg14)).trans
    (by host_skip hostOps0 : W1 m ρ c (Proc.devRef .tc main_arg14) = W0 m ρ c (Proc.devRef .tc main_arg14)))))))))))))))))

theorem W18_arg2_from0 : W18 m ρ c (Proc.devRef .tc main_arg2) = W0 m ρ c (Proc.devRef .tc main_arg2) :=
  ((W18_of_ne m ρ c main_arg2 (by decide)).trans
    ((by host_skip hostOps8 : W17 m ρ c (Proc.devRef .tc main_arg2) = W16 m ρ c (Proc.devRef .tc main_arg2)).trans
    ((W16_of_ne m ρ c main_arg2 (by decide)).trans
    ((by host_skip hostOps7 : W15 m ρ c (Proc.devRef .tc main_arg2) = W14 m ρ c (Proc.devRef .tc main_arg2)).trans
    ((W14_of_ne m ρ c main_arg2 (by decide)).trans
    ((W13_of_ne m ρ c main_arg2 (by decide)).trans
    ((by host_skip hostOps5 : W12 m ρ c (Proc.devRef .tc main_arg2) = W11 m ρ c (Proc.devRef .tc main_arg2)).trans
    ((W11_of_ne m ρ c main_arg2 (by decide)).trans
    ((by host_skip hostOps4 : W10 m ρ c (Proc.devRef .tc main_arg2) = W9 m ρ c (Proc.devRef .tc main_arg2)).trans
    ((W9_of_ne m ρ c main_arg2 (by decide)).trans
    ((W8_of_ne m ρ c main_arg2 (by decide)).trans
    ((by host_skip hostOps2 : W7 m ρ c (Proc.devRef .tc main_arg2) = W6 m ρ c (Proc.devRef .tc main_arg2)).trans
    ((W6_of_ne m ρ c main_arg2 (by decide)).trans
    ((by host_skip hostOps1 : W5 m ρ c (Proc.devRef .tc main_arg2) = W4 m ρ c (Proc.devRef .tc main_arg2)).trans
    ((W4_of_ne m ρ c main_arg2 (by decide)).trans
    ((by host_skip hostOps0_2 : W3 m ρ c (Proc.devRef .tc main_arg2) = W2 m ρ c (Proc.devRef .tc main_arg2)).trans
    ((by host_skip hostOps0_1 : W2 m ρ c (Proc.devRef .tc main_arg2) = W1 m ρ c (Proc.devRef .tc main_arg2)).trans
    (by host_skip hostOps0 : W1 m ρ c (Proc.devRef .tc main_arg2) = W0 m ρ c (Proc.devRef .tc main_arg2)))))))))))))))))))

theorem W18_arg16_from0 : W18 m ρ c (Proc.devRef .tc main_arg16) = W0 m ρ c (Proc.devRef .tc main_arg16) :=
  ((W18_of_ne m ρ c main_arg16 (by decide)).trans
    ((by host_skip hostOps8 : W17 m ρ c (Proc.devRef .tc main_arg16) = W16 m ρ c (Proc.devRef .tc main_arg16)).trans
    ((W16_of_ne m ρ c main_arg16 (by decide)).trans
    ((by host_skip hostOps7 : W15 m ρ c (Proc.devRef .tc main_arg16) = W14 m ρ c (Proc.devRef .tc main_arg16)).trans
    ((W14_of_ne m ρ c main_arg16 (by decide)).trans
    ((W13_of_ne m ρ c main_arg16 (by decide)).trans
    ((by host_skip hostOps5 : W12 m ρ c (Proc.devRef .tc main_arg16) = W11 m ρ c (Proc.devRef .tc main_arg16)).trans
    ((W11_of_ne m ρ c main_arg16 (by decide)).trans
    ((by host_skip hostOps4 : W10 m ρ c (Proc.devRef .tc main_arg16) = W9 m ρ c (Proc.devRef .tc main_arg16)).trans
    ((W9_of_ne m ρ c main_arg16 (by decide)).trans
    ((W8_of_ne m ρ c main_arg16 (by decide)).trans
    ((by host_skip hostOps2 : W7 m ρ c (Proc.devRef .tc main_arg16) = W6 m ρ c (Proc.devRef .tc main_arg16)).trans
    ((W6_of_ne m ρ c main_arg16 (by decide)).trans
    ((by host_skip hostOps1 : W5 m ρ c (Proc.devRef .tc main_arg16) = W4 m ρ c (Proc.devRef .tc main_arg16)).trans
    ((W4_of_ne m ρ c main_arg16 (by decide)).trans
    ((by host_skip hostOps0_2 : W3 m ρ c (Proc.devRef .tc main_arg16) = W2 m ρ c (Proc.devRef .tc main_arg16)).trans
    ((by host_skip hostOps0_1 : W2 m ρ c (Proc.devRef .tc main_arg16) = W1 m ρ c (Proc.devRef .tc main_arg16)).trans
    (by host_skip hostOps0 : W1 m ρ c (Proc.devRef .tc main_arg16) = W0 m ρ c (Proc.devRef .tc main_arg16)))))))))))))))))))

theorem W19_arg15_from0 : W19 m ρ c (Proc.devRef .tc main_arg15) = W0 m ρ c (Proc.devRef .tc main_arg15) :=
  ((by host_skip hostOps9 : W19 m ρ c (Proc.devRef .tc main_arg15) = W18 m ρ c (Proc.devRef .tc main_arg15)).trans
    ((W18_of_ne m ρ c main_arg15 (by decide)).trans
    ((by host_skip hostOps8 : W17 m ρ c (Proc.devRef .tc main_arg15) = W16 m ρ c (Proc.devRef .tc main_arg15)).trans
    ((W16_of_ne m ρ c main_arg15 (by decide)).trans
    ((by host_skip hostOps7 : W15 m ρ c (Proc.devRef .tc main_arg15) = W14 m ρ c (Proc.devRef .tc main_arg15)).trans
    ((W14_of_ne m ρ c main_arg15 (by decide)).trans
    ((W13_of_ne m ρ c main_arg15 (by decide)).trans
    ((by host_skip hostOps5 : W12 m ρ c (Proc.devRef .tc main_arg15) = W11 m ρ c (Proc.devRef .tc main_arg15)).trans
    ((W11_of_ne m ρ c main_arg15 (by decide)).trans
    ((by host_skip hostOps4 : W10 m ρ c (Proc.devRef .tc main_arg15) = W9 m ρ c (Proc.devRef .tc main_arg15)).trans
    ((W9_of_ne m ρ c main_arg15 (by decide)).trans
    ((W8_of_ne m ρ c main_arg15 (by decide)).trans
    ((by host_skip hostOps2 : W7 m ρ c (Proc.devRef .tc main_arg15) = W6 m ρ c (Proc.devRef .tc main_arg15)).trans
    ((W6_of_ne m ρ c main_arg15 (by decide)).trans
    ((by host_skip hostOps1 : W5 m ρ c (Proc.devRef .tc main_arg15) = W4 m ρ c (Proc.devRef .tc main_arg15)).trans
    ((W4_of_ne m ρ c main_arg15 (by decide)).trans
    ((by host_skip hostOps0_2 : W3 m ρ c (Proc.devRef .tc main_arg15) = W2 m ρ c (Proc.devRef .tc main_arg15)).trans
    ((by host_skip hostOps0_1 : W2 m ρ c (Proc.devRef .tc main_arg15) = W1 m ρ c (Proc.devRef .tc main_arg15)).trans
    (by host_skip hostOps0 : W1 m ρ c (Proc.devRef .tc main_arg15) = W0 m ρ c (Proc.devRef .tc main_arg15))))))))))))))))))))

end Cert.KernelIdeal.HostVals

end
-- ==== Proof.LibRealValued.lean ====
/-
  Real-valued arrays over the extended reals.

  At the ideal float values every float is an extended real and every float operation the exact one.
  On the extended reals multiplication does not distribute over addition at the infinities, so an
  algebraic rearrangement of a program (moving a matrix product across a weighted sum, say) is only
  sound where every entry involved is a REAL number. This file

  * defines RealV v: every entry of the array v is (the coercion of) a real number;
  * shows that RealV is closed under the operations a host program is built from: pointwise products,
    sums and maxima, any re-indexing (broadcasts, gathers), finite sums, an accumulating scatter, a
    dot_general, the constant arrays 0 and 1, and the reciprocal square root of max 1 z for ANY z;
  * proves the distributive law agg_matmul_comm: a weighted, masked sum over edges followed by a
    scaling and a matrix product equals the matrix product taken first, when all entries are real.
-/
import Idealize.ShloMosaic.PureOps.Ideal.Laws
import Idealize.ShloMosaic.Lib.ValueIdx
import Idealize.ShloMosaic.Lib.Pipeline.Value

namespace Cert.LibRealValued

open Idealize.ShloMosaic

/-! ## Scalars: coercions of sums and conditionals, real witnesses -/

/-- The coercion from the reals to the extended reals commutes with a finite sum. -/
theorem coe_sum {κ : Type*} (s : Finset κ) (g : κ → ℝ) :
    ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- The coercion commutes with a conditional. -/
theorem coe_ite (p : Prop) [Decidable p] (x y : ℝ) :
    ((if p then x else y : ℝ) : EReal) = if p then (x : EReal) else (y : EReal) := by
  split_ifs <;> rfl

/-- A product of two reals is real. -/
theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

/-- A sum of two reals is real. -/
theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

/-- The maximum of two reals is real. -/
theorem real_max {x y : EReal} (hx : ∃ r : ℝ, x = r) (hy : ∃ r : ℝ, y = r) : ∃ r : ℝ, max x y = r := by
  rcases le_total x y with h | h
  · rw [max_eq_right h]; exact hy
  · rw [max_eq_left h]; exact hx

/-- A finite sum of reals is real. -/
theorem real_sum {κ : Type*} (s : Finset κ) (g : κ → EReal) (h : ∀ k ∈ s, ∃ r : ℝ, g k = r) :
    ∃ r : ℝ, ∑ k ∈ s, g k = r := by
  classical
  induction s using Finset.induction_on with
  | empty => exact ⟨0, by simp⟩
  | insert a s ha ih =>
    rw [Finset.sum_insert ha]
    exact real_add (h a (Finset.mem_insert_self a s)) (ih fun k hk => h k (Finset.mem_insert_of_mem hk))

/-- The reciprocal square root of an extended real that is at least one is a real number
    (at the top element it is zero; at a real r ≥ 1 it is the inverse of the square root). -/
theorem rsqrt_of_one_le (y : EReal) (h : 1 ≤ y) : ∃ r : ℝ, Ideal.rsqrt y = (r : EReal) := by
  induction y using EReal.rec with
  | bot => exact absurd (le_bot_iff.mp h) (EReal.coe_ne_bot 1)
  | top => exact ⟨0, by simp⟩
  | coe r =>
    have hr : (1 : ℝ) ≤ r := by exact_mod_cast h
    refine ⟨(Real.sqrt r)⁻¹, ?_⟩
    rw [Ideal.rsqrt_coe, if_neg (not_lt.mpr (by linarith)), if_neg (ne_of_gt (by linarith))]

/-- So the reciprocal square root of max 1 z is real for ANY extended real z. -/
theorem rsqrt_max_one (z : EReal) : ∃ r : ℝ, Ideal.rsqrt (max (1 : EReal) z) = (r : EReal) :=
  rsqrt_of_one_le _ (le_max_left _ _)

/-- The f32 pattern of 1.0 denotes the extended real 1. -/
theorem ofBits_one_f32 : Ideal.ofBits .f32 0x3F800000#32 = 1 :=
  IdealRules.sign_bit.ideal_onePat .f32

/-! ## Real-valued arrays -/

/-- Every entry of the array is a real number. -/
def RealV {ι : Type*} (v : ι → EReal) : Prop := ∀ i, ∃ r : ℝ, v i = (r : EReal)

namespace RealV

variable {ι κ : Type*}

/-- Any re-indexing of a real-valued array is real-valued (this covers broadcasts and gathers). -/
theorem comp {v : ι → EReal} (h : RealV v) (f : κ → ι) : RealV (fun i => v (f i)) := fun i => h (f i)

/-- The pointwise product of two real-valued arrays. -/
theorem mul {u v : ι → EReal} (hu : RealV u) (hv : RealV v) : RealV (fun i => u i * v i) :=
  fun i => real_mul (hu i) (hv i)

/-- The pointwise sum of two real-valued arrays. -/
theorem add {u v : ι → EReal} (hu : RealV u) (hv : RealV v) : RealV (fun i => u i + v i) :=
  fun i => real_add (hu i) (hv i)

/-- The pointwise maximum of two real-valued arrays. -/
theorem max {u v : ι → EReal} (hu : RealV u) (hv : RealV v) : RealV (fun i => Max.max (u i) (v i)) :=
  fun i => real_max (hu i) (hv i)

/-- A finite sum of real-valued arrays, over a finite set of summands. -/
theorem sum_finset (s : Finset κ) {f : κ → ι → EReal} (h : ∀ k ∈ s, RealV (f k)) :
    RealV (fun i => ∑ k ∈ s, f k i) :=
  fun i => real_sum s _ fun k hk => h k hk i

/-- A finite sum of real-valued arrays, over a whole finite type. -/
theorem sum [Fintype κ] {f : κ → ι → EReal} (h : ∀ k, RealV (f k)) : RealV (fun i => ∑ k, f k i) :=
  sum_finset _ fun k _ => h k

/-- The sum over the summands that satisfy a (possibly index-dependent) condition. -/
theorem sum_filter [Fintype κ] {f : κ → ι → EReal} (p : ι → κ → Prop) [∀ i, DecidablePred (p i)]
    (h : ∀ k, RealV (f k)) : RealV (fun i => ∑ k ∈ Finset.univ.filter (p i), f k i) :=
  fun i => real_sum _ _ fun k _ => h k i

/-- The same with the condition as a conditional summand. -/
theorem sum_ite [Fintype κ] {f : κ → ι → EReal} (p : ι → κ → Prop) [∀ i, DecidablePred (p i)]
    (h : ∀ k, RealV (f k)) : RealV (fun i => ∑ k, if p i k then f k i else 0) :=
  fun i => real_sum _ _ fun k _ => by
    split_ifs
    · exact h k i
    · exact ⟨0, rfl⟩

/-! ### The same facts in the spelling of the vector operations at the ideal values -/

variable {s t : Shape} {φ : FTy}

/-- A float mulf of two real-valued vectors. -/
theorem mulf {u v : FVec Ideal s φ} (hu : RealV u) (hv : RealV v) : RealV (Idealize.ShloMosaic.mulf u v) :=
  RealV.mul hu hv

/-- A float addf of two real-valued vectors. -/
theorem addf {u v : FVec Ideal s φ} (hu : RealV u) (hv : RealV v) : RealV (Idealize.ShloMosaic.addf u v) :=
  RealV.add hu hv

/-- A float maximumf of two real-valued vectors. -/
theorem maximumf {u v : FVec Ideal s φ} (hu : RealV u) (hv : RealV v) :
    RealV (Idealize.ShloMosaic.maximumf u v) :=
  RealV.max hu hv

/-- A broadcast_in_dim of a real-valued array: a re-indexing. -/
theorem broadcastInDim {dims : Fin s.rank → Fin t.rank} (h : s.BroadcastsInDim t dims) {v : s.Idx → EReal}
    (hv : RealV v) : RealV (Idealize.ShloMosaic.broadcastInDim t dims h v) :=
  fun _ => hv _

/-- A host gather out of a real-valued array: a re-indexing, whatever the start indices are. -/
theorem gather {si : Shape} {w : Nat} (d : GatherDims s si t) {x : s.Idx → EReal} (idx : IVec si w)
    (hx : RealV x) : RealV (Host.gather d x idx) :=
  fun _ => hx _

/-- The constant array of the f32 zero pattern. -/
theorem constant_zero : RealV (constant (F := Ideal) s .f32 0x00000000#32) :=
  fun _ => ⟨0, Ideal.ofBits_zero_f32⟩

/-- The constant array of the f32 pattern of 1.0. -/
theorem constant_one : RealV (constant (F := Ideal) s .f32 0x3F800000#32) :=
  fun _ => ⟨1, ofBits_one_f32⟩

/-- The host's accumulating scatter of real-valued updates into a real-valued operand: each element
    is the operand's plus a finite sum of updates. -/
theorem scatterAdd {si u : Shape} {w : Nat} (d : ScatterDims s si u) {x : FVec Ideal s φ} (idx : IVec si w)
    {upd : FVec Ideal u φ} (hx : RealV x) (hu : RealV upd) : RealV (Host.scatterAdd d x idx upd) :=
  fun i => real_add (hx i) (real_sum _ _ fun j _ => hu j)

/-- The host's dot_general of two real-valued arrays: each element is a finite sum of products. -/
theorem dotGeneral {sl sr so : Shape} {φ₁ φ₂ : FTy} (d : DotDims sl sr so) (prec : Option ContractPrecision)
    {x : FVec Ideal sl φ₁} {y : FVec Ideal sr φ₂} (hx : RealV x) (hy : RealV y) :
    RealV (Host.dotGeneral d prec x y) := fun j => by
  rw [show Host.dotGeneral d prec x y j = _ from Ideal.dotGeneral_apply d prec .single x y j]
  exact real_sum _ _ fun k _ => real_mul (hx _) (hy _)

/-- The host's reciprocal square root of the maximum of an all-ones array and ANY array z
    (z need not be real-valued): real-valued, since the argument is at least one. -/
theorem rsqrt_max_one {c z : FVec Ideal s φ} (hc : ∀ i, c i = 1) :
    RealV (Host.rsqrt (Idealize.ShloMosaic.maximumf c z)) := fun i => by
  show ∃ r : ℝ, Ideal.rsqrt (Max.max (c i) (z i)) = r
  rw [hc i]; exact Cert.LibRealValued.rsqrt_max_one (z i)

/-- The same with the all-ones array spelled as the constant of the f32 pattern of 1.0. -/
theorem rsqrt_max_constant_one {z : FVec Ideal s .f32} :
    RealV (Host.rsqrt (Idealize.ShloMosaic.maximumf (constant s .f32 0x3F800000#32) z)) :=
  rsqrt_max_one fun _ => ofBits_one_f32

end RealV

/-! ## The distributive law -/

section Distrib

variable {E K : Type*} [Fintype E] [Fintype K] {P : E → Prop} [DecidablePred P]

/-- The real-valued core: summing the masked, weighted rows a e over the edges e, scaling by d and then
    contracting with a column Wm is the same as contracting each row first. -/
theorem agg_matmul_comm_real (a : E → K → ℝ) (wv : E → ℝ) (d : ℝ) (Wm : K → ℝ) :
    ∑ k, ((0 + ∑ e, if P e then a e k * wv e else 0) * d) * Wm k
      = (0 + ∑ e, if P e then (∑ k, a e k * Wm k) * wv e else 0) * d := by
  simp only [zero_add, Finset.sum_mul]
  rw [Finset.sum_comm]
  refine Finset.sum_congr rfl fun e _ => ?_
  split_ifs
  · rw [Finset.sum_mul]
    exact Finset.sum_congr rfl fun k _ => by ring
  · simp

/-- The distributive law over the extended reals, for real entries: a masked, weighted sum over the
    edges, scaled by d, then contracted with Wm, equals the sum of the contracted rows. (It fails at
    the infinities, hence the four hypotheses.) -/
theorem agg_matmul_comm (a : E → K → EReal) (wv : E → EReal) (d : EReal) (Wm : K → EReal)
    (ha : ∀ e k, ∃ r : ℝ, a e k = r) (hw : ∀ e, ∃ r : ℝ, wv e = r) (hd : ∃ r : ℝ, d = r)
    (hW : ∀ k, ∃ r : ℝ, Wm k = r) :
    ∑ k, ((0 + ∑ e, if P e then a e k * wv e else 0) * d) * Wm k
      = (0 + ∑ e, if P e then (∑ k, a e k * Wm k) * wv e else 0) * d := by
  choose a' ha' using ha
  choose w' hw' using hw
  obtain ⟨d', rfl⟩ := hd
  choose W' hW' using hW
  have key := congrArg (fun x : ℝ => (x : EReal)) (agg_matmul_comm_real (P := P) a' w' d' W')
  simp only [coe_sum, EReal.coe_mul, EReal.coe_add, EReal.coe_zero, coe_ite] at key
  simp only [ha', hw', hW']
  exact key

/-- The same with the mask as a filter of the set of edges. -/
theorem agg_matmul_comm_filter (a : E → K → EReal) (wv : E → EReal) (d : EReal) (Wm : K → EReal)
    (ha : ∀ e k, ∃ r : ℝ, a e k = r) (hw : ∀ e, ∃ r : ℝ, wv e = r) (hd : ∃ r : ℝ, d = r)
    (hW : ∀ k, ∃ r : ℝ, Wm k = r) :
    ∑ k, ((0 + ∑ e ∈ Finset.univ.filter P, a e k * wv e) * d) * Wm k
      = (0 + ∑ e ∈ Finset.univ.filter P, (∑ k, a e k * Wm k) * wv e) * d := by
  simp only [Finset.sum_filter]
  exact agg_matmul_comm a wv d Wm ha hw hd hW

end Distrib

end Cert.LibRealValued
-- ==== Proof.LibVarianceLaw.lean ====
/-
  A general lemma file: the variance law on the extended reals, and the closure facts that let it apply.

  The kernel takes a column's variance as `(∑ h²)/N - ((∑ h)/N)²`; the reference as `(∑ (h - (∑ h)/N)²)/N`. Over the reals
  these are one number: expanding the square, `∑ (h - μ)² = ∑ h² - 2 μ ∑ h + N μ²`, and `∑ h = N μ`. On the extended reals
  the identity FAILS at infinities (`⊤ - ⊤` is junk), so it is stated for columns whose every entry is a real, and the rest
  of this module shows that being a real is kept by the operations that build such a column: sums, products, differences,
  maxima, and a quotient by a real that is at least `1`.
-/
import Idealize.ShloMosaic.PureOps.Ideal

noncomputable section

open scoped BigOperators

namespace Cert.Algebra

open Idealize.ShloMosaic

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The variance identity over the reals, with the division by `N` written as the product with `1/N`. -/
theorem var_real {n : ℕ} (N : ℝ) (hN : N ≠ 0) (hcard : (n : ℝ) = N) (h : Fin n → ℝ) :
    (∑ r, (h r - (∑ r, h r) * (1 / N)) * (h r - (∑ r, h r) * (1 / N))) * (1 / N)
      = (∑ r, h r * h r) * (1 / N) - ((∑ r, h r) * (1 / N)) * ((∑ r, h r) * (1 / N)) := by
  have hexp : ∀ μ : ℝ, (∑ r, (h r - μ) * (h r - μ)) = (∑ r, h r * h r) - 2 * μ * (∑ r, h r) + (n : ℝ) * (μ * μ) := by
    intro μ
    have : ∀ r, (h r - μ) * (h r - μ) = h r * h r - 2 * μ * h r + μ * μ := fun r => by ring
    simp only [this, Finset.sum_add_distrib, Finset.sum_sub_distrib, ← Finset.mul_sum, Finset.sum_const,
      Finset.card_univ, Fintype.card_fin, nsmul_eq_mul]
    ring
  rw [hexp, hcard]
  field_simp
  ring

/-- An array of extended reals every entry of which is a real. -/
def IsReal {ι : Type*} (v : ι → EReal) : Prop := ∀ i, ∃ x : ℝ, v i = (x : EReal)

theorem isReal_sum {ι κ : Type*} (s : Finset κ) (v : ι → κ → EReal) (h : ∀ k, IsReal (fun i => v i k)) :
    IsReal (fun i => ∑ k ∈ s, v i k) := by
  intro i
  choose x hx using fun k => h k i
  exact ⟨∑ k ∈ s, x k, by rw [coe_sum]; exact Finset.sum_congr rfl fun k _ => hx k⟩

theorem exists_real_add {a b : EReal} (ha : ∃ x : ℝ, a = x) (hb : ∃ y : ℝ, b = y) : ∃ z : ℝ, a + b = z := by
  obtain ⟨x, rfl⟩ := ha; obtain ⟨y, rfl⟩ := hb; exact ⟨x + y, (EReal.coe_add x y).symm⟩

theorem exists_real_mul {a b : EReal} (ha : ∃ x : ℝ, a = x) (hb : ∃ y : ℝ, b = y) : ∃ z : ℝ, a * b = z := by
  obtain ⟨x, rfl⟩ := ha; obtain ⟨y, rfl⟩ := hb; exact ⟨x * y, (EReal.coe_mul x y).symm⟩

theorem exists_real_sum {κ : Type*} (s : Finset κ) (v : κ → EReal) (h : ∀ k, ∃ x : ℝ, v k = x) : ∃ z : ℝ, ∑ k ∈ s, v k = z := by
  choose x hx using h
  exact ⟨∑ k ∈ s, x k, by rw [coe_sum]; exact Finset.sum_congr rfl fun k _ => hx k⟩

theorem exists_real_max {a b : EReal} (ha : ∃ x : ℝ, a = x) (hb : ∃ y : ℝ, b = y) : ∃ z : ℝ, max a b = z := by
  obtain ⟨x, rfl⟩ := ha; obtain ⟨y, rfl⟩ := hb
  rcases le_total (x : EReal) (y : EReal) with h | h
  · exact ⟨y, max_eq_right h⟩
  · exact ⟨x, max_eq_left h⟩

/-- A real divided by the larger of a real and `1` is a real: the divisor is a nonzero real. -/
theorem exists_real_div_max_one {a d : EReal} (ha : ∃ x : ℝ, a = x) (hd : ∃ y : ℝ, d = y) :
    ∃ z : ℝ, Ideal.div a (max d ((1 : ℝ) : EReal)) = z := by
  obtain ⟨x, rfl⟩ := ha; obtain ⟨y, rfl⟩ := hd
  have hm : max (y : EReal) ((1 : ℝ) : EReal) = ((max y 1 : ℝ) : EReal) := by
    rcases le_total y 1 with h | h
    · rw [max_eq_right (EReal.coe_le_coe_iff.mpr h), max_eq_right h]
    · rw [max_eq_left (EReal.coe_le_coe_iff.mpr h), max_eq_left h]
  have hne : (max y 1 : ℝ) ≠ 0 := ne_of_gt (lt_of_lt_of_le one_pos (le_max_right y 1))
  rw [hm, Ideal.div_coe hne]
  exact ⟨x * (1 / max y 1), (EReal.coe_mul _ _).symm⟩

/-- THE LAW: for a column of reals, the centred second moment over `N` is the raw second moment over `N` minus the square of
    the mean — with each division the ideal quotient by the real `N ≠ 0`. -/
theorem var_ereal {n : ℕ} (N : ℝ) (hN : N ≠ 0) (hcard : (n : ℝ) = N) (h : Fin n → EReal) (hr : ∀ r, ∃ x : ℝ, h r = x) :
    Ideal.div (∑ r, (h r - Ideal.div (∑ r, h r) (N : EReal)) * (h r - Ideal.div (∑ r, h r) (N : EReal))) (N : EReal)
      = Ideal.div (∑ r, h r * h r) (N : EReal) - Ideal.div (∑ r, h r) (N : EReal) * Ideal.div (∑ r, h r) (N : EReal) := by
  choose x hx using hr
  have hh : h = fun r => (x r : EReal) := funext hx
  subst hh
  simp only [Ideal.div_coe hN, ← coe_sum, ← EReal.coe_mul, ← EReal.coe_sub]
  exact congrArg _ (var_real N hN hcard x)

end Cert.Algebra

end
-- ==== Proof.BnLaw.lean ====
/-
  The batch-normalisation law that joins the two programs, on the extended reals.

  One program takes a column's variance as the mean of the squared deviations from the column mean; the other as the
  mean of the squares minus the squared mean. For a column of REAL numbers these are one number (expand the square);
  at infinities the identity fails, so everything here is stated for real-valued arrays, and the last part shows that
  a normalised layer of a real-valued array is again real-valued: the variance is a mean of squares, hence not
  negative, the added epsilon is positive, so the reciprocal square root is taken of a positive real.
-/
import proofs.«179986_j62663572849123_1_alg».proof.Proof.Spec
import proofs.«179986_j62663572849123_1_alg».proof.Proof.LibRealValued
import proofs.«179986_j62663572849123_1_alg».proof.Proof.LibVarianceLaw
import Idealize.ShloMosaic.Lib.ValueIdx
import Idealize.ShloMosaic.Lib.Pipeline.Value
import Idealize.ShloMosaic.PureOps.Ideal.Laws

noncomputable section

open scoped BigOperators

namespace Cert.BnLaw

open Cert.ReferenceIdeal Cert.ReferenceIdeal.Gen Idealize.ShloMosaic Idealize.ShloMosaic.ValueIdx Cert.Spec Cert.LibRealValued

/-! ## Broadcasts and the column sum read at an index -/

/-- A 64-vector laid out as a row and repeated over the N rows, read at row `r`, column `j`: the vector's entry `j`. -/
theorem rowBcast_apply (v : FVec Ideal S64 .f32) (r : Fin 100000) (j : Fin 64) :
    broadcastInDim S100000x64 ![0, 1] bcast_S1x64_S100000x64_0_1 (broadcastInDim S1x64 ![1] bcast_S64_S1x64_1 v) (ix2 r j)
      = v (ix1 j) := by
  rw [broadcastInDim_apply _ bcast_S1x64_S100000x64_0_1 _ (ix2 r j) (ix2 (0 : Fin 1) j) (fun a => match a with
    | ⟨0, _⟩ => by show 0 = if (1 : Nat) = 1 then 0 else r.val; rw [if_pos rfl]
    | ⟨1, _⟩ => by show j.val = if (64 : Nat) = 1 then 0 else j.val; rw [if_neg (by decide)])]
  exact broadcastInDim_apply _ bcast_S64_S1x64_1 v (ix2 (0 : Fin 1) j) (ix1 j) (fun a => match a with
    | ⟨0, _⟩ => by show j.val = if (64 : Nat) = 1 then 0 else j.val; rw [if_neg (by decide)])

/-- A scalar constant repeated over a 64-vector. -/
theorem scalar64_apply (w : BitVec 32) (j : Fin 64) :
    broadcastInDim S64 ![] bcast_S_S64 (constant (F := Ideal) S_ .f32 w) (ix1 j) = Ideal.ofBits .f32 w :=
  broadcastInDim_apply _ bcast_S_S64 (constant (F := Ideal) S_ .f32 w) (ix1 j) (fun a => a.elim0) (fun a => a.elim0)

/-- A scalar constant repeated over the whole N×64 array. -/
theorem scalarN64_apply (w : BitVec 32) (i : S100000x64.Idx) :
    broadcastInDim S100000x64 ![] bcast_S_S100000x64 (constant (F := Ideal) S_ .f32 w) i = Ideal.ofBits .f32 w :=
  broadcastInDim_apply _ bcast_S_S100000x64 (constant (F := Ideal) S_ .f32 w) i (fun a => a.elim0) (fun a => a.elim0)

/-- The host's sum of a column: the initial zero plus the column's N entries. -/
theorem colSum_apply (out : FVec Ideal S100000x64 .f32) (j : Fin 64) :
    Host.reduceAdd out (constant (F := Ideal) S_ .f32 0x00000000#32) reducesTo_S100000x64_S64_d0 h_S_ (ix1 j)
      = ∑ k : Fin 100000, out (ix2 k j) := by
  simp only [Host.reduceAdd, Ideal.hostReduceAdd_def]
  rw [Ideal.hostReduceAdd_single reducesTo_S100000x64_S64_d0 (by decide)]
  rw [show (constant (F := Ideal) S_ .f32 0x00000000#32) (Shape.Idx.first h_S_) = 0 from Ideal.ofBits_zero_f32, zero_add]
  refine Finset.sum_congr rfl fun k _ => ?_
  exact congrArg out (funext fun a => Fin.ext (by match a with | ⟨0, _⟩ => rfl | ⟨1, _⟩ => rfl))

/-! ## The reference's statistics and its normalised layer at an index -/

/-- The column mean. -/
theorem meanOf_apply (out : FVec Ideal S100000x64 .f32) (j : Fin 64) :
    meanOf (F := Ideal) out (ix1 j) = Ideal.div (∑ k : Fin 100000, out (ix2 k j)) (Ideal.ofBits .f32 0x47C35000#32) := by
  unfold meanOf
  show Ideal.div (Host.reduceAdd out (constant (F := Ideal) S_ .f32 0x00000000#32) reducesTo_S100000x64_S64_d0 h_S_ (ix1 j))
      (broadcastInDim S64 ![] bcast_S_S64 (constant (F := Ideal) S_ .f32 0x47C35000#32) (ix1 j)) = _
  rw [colSum_apply, scalar64_apply]

/-- The column's mean squared deviation. -/
theorem varOf_apply (out : FVec Ideal S100000x64 .f32) (j : Fin 64) :
    varOf (F := Ideal) out (ix1 j)
      = Ideal.div (∑ k : Fin 100000, (out (ix2 k j) - meanOf (F := Ideal) out (ix1 j)) * (out (ix2 k j) - meanOf (F := Ideal) out (ix1 j)))
          (Ideal.ofBits .f32 0x47C35000#32) := by
  unfold varOf
  show Ideal.div (Host.reduceAdd _ (constant (F := Ideal) S_ .f32 0x00000000#32) reducesTo_S100000x64_S64_d0 h_S_ (ix1 j))
      (broadcastInDim S64 ![] bcast_S_S64 (constant (F := Ideal) S_ .f32 0x47C35000#32) (ix1 j)) = _
  rw [colSum_apply, scalar64_apply]
  exact congrArg (fun s : EReal => Ideal.div s (Ideal.ofBits .f32 0x47C35000#32)) (Finset.sum_congr rfl fun k _ => by
    rw [mulf_apply, subf_apply, rowBcast_apply])

/-- The scalar form of the normalised layer: centre, scale by the reciprocal root of variance plus epsilon, scale,
    shift, maximum with zero. -/
def bnAt (x mu v g b : EReal) : EReal :=
  max ((x - mu) * Ideal.rsqrt (v + Ideal.ofBits .f32 0x3727C5AC#32) * g + b) (Ideal.ofBits .f32 0x00000000#32)

/-- The reference's normalised layer at row `r`, column `j`. -/
theorem bnRef_apply (out : FVec Ideal S100000x64 .f32) (g be : FVec Ideal S64 .f32) (r : Fin 100000) (j : Fin 64) :
    bnRef (F := Ideal) out g be (ix2 r j)
      = bnAt (out (ix2 r j)) (meanOf (F := Ideal) out (ix1 j)) (varOf (F := Ideal) out (ix1 j)) (g (ix1 j)) (be (ix1 j)) := by
  unfold bnRef bnAt
  rw [maximumf_apply, addf_apply, mulf_apply, mulf_apply, subf_apply, rowBcast_apply, rowBcast_apply, rowBcast_apply,
    rowBcast_apply, scalarN64_apply]
  show max ((out (ix2 r j) - _) * Ideal.rsqrt (varOf (F := Ideal) out (ix1 j)
      + broadcastInDim S64 ![] bcast_S_S64 (constant (F := Ideal) S_ .f32 0x3727C5AC#32) (ix1 j)) * _ + _) _ = _
  rw [scalar64_apply]

/-! ## The law, and real-valuedness -/

variable (hN : Ideal.ofBits .f32 0x47C35000#32 = ((100000 : ℝ) : EReal))

include hN in
/-- For a real-valued array the mean squared deviation is the mean square minus the squared mean. -/
theorem varOf_eq (out : FVec Ideal S100000x64 .f32) (ho : RealV out) (j : Fin 64) :
    varOf (F := Ideal) out (ix1 j)
      = Ideal.div (∑ k : Fin 100000, out (ix2 k j) * out (ix2 k j)) (Ideal.ofBits .f32 0x47C35000#32)
        - Ideal.div (∑ k : Fin 100000, out (ix2 k j)) (Ideal.ofBits .f32 0x47C35000#32)
          * Ideal.div (∑ k : Fin 100000, out (ix2 k j)) (Ideal.ofBits .f32 0x47C35000#32) := by
  rw [varOf_apply, meanOf_apply, hN]
  exact Cert.Algebra.var_ereal (n := 100000) 100000 (by norm_num) (by norm_num) (fun k => out (ix2 k j)) (fun k => ho _)

include hN in
/-- The column mean of a real-valued array is a real. -/
theorem meanOf_real (out : FVec Ideal S100000x64 .f32) (ho : RealV out) (j : Fin 64) :
    ∃ x : ℝ, meanOf (F := Ideal) out (ix1 j) = x := by
  rw [meanOf_apply, hN, Ideal.div_coe (by norm_num : (100000 : ℝ) ≠ 0)]
  exact real_mul (real_sum _ _ fun k _ => ho _) ⟨_, rfl⟩

include hN in
/-- The mean squared deviation of a real-valued array is a real that is not negative. -/
theorem varOf_nonneg (out : FVec Ideal S100000x64 .f32) (ho : RealV out) (j : Fin 64) :
    ∃ x : ℝ, 0 ≤ x ∧ varOf (F := Ideal) out (ix1 j) = x := by
  obtain ⟨mu, hmu⟩ := meanOf_real hN out ho j
  choose y hy using fun k : Fin 100000 => ho (ix2 k j)
  refine ⟨(∑ k : Fin 100000, (y k - mu) * (y k - mu)) * (1 / 100000), ?_, ?_⟩
  · exact mul_nonneg (Finset.sum_nonneg fun k _ => mul_self_nonneg _) (by norm_num)
  · rw [varOf_apply, hmu, hN, Ideal.div_coe (by norm_num : (100000 : ℝ) ≠ 0)]
    simp only [hy, ← EReal.coe_sub, ← EReal.coe_mul, ← Cert.LibRealValued.coe_sum]

variable (heps : ∃ e : ℝ, 0 < e ∧ Ideal.ofBits .f32 0x3727C5AC#32 = (e : EReal))

include heps in
/-- The scalar form keeps reals real when the variance is a real that is not negative. -/
theorem bnAt_real {x mu v g b : EReal} (hx : ∃ r : ℝ, x = r) (hmu : ∃ r : ℝ, mu = r) (hv : ∃ r : ℝ, 0 ≤ r ∧ v = r)
    (hg : ∃ r : ℝ, g = r) (hb : ∃ r : ℝ, b = r) : ∃ r : ℝ, bnAt x mu v g b = r := by
  obtain ⟨x, rfl⟩ := hx; obtain ⟨mu, rfl⟩ := hmu; obtain ⟨v, hv0, rfl⟩ := hv
  obtain ⟨e, he, hE⟩ := heps
  unfold bnAt
  rw [hE, Ideal.ofBits_zero_f32, ← EReal.coe_add, Ideal.rsqrt_coe, if_neg (not_lt.mpr (by linarith)),
    if_neg (ne_of_gt (by linarith))]
  exact real_max (real_add (real_mul (real_mul ⟨x - mu, (EReal.coe_sub x mu).symm⟩ ⟨_, rfl⟩) hg) hb) ⟨0, rfl⟩

include hN heps in
/-- The reference's normalised layer of a real-valued array, with real scale and shift, is real-valued. -/
theorem bnRef_real (out : FVec Ideal S100000x64 .f32) (g be : FVec Ideal S64 .f32) (ho : RealV out) (hg : RealV g)
    (hbe : RealV be) : RealV (bnRef (F := Ideal) out g be) := by
  intro i
  obtain ⟨r, j, rfl⟩ : ∃ (r : Fin 100000) (j : Fin 64), i = ix2 r j := ⟨i 0, i 1, eq_ix2 i⟩
  rw [bnRef_apply]
  exact bnAt_real heps (ho _) (meanOf_real hN out ho j) (varOf_nonneg hN out ho j) (hg _) (hbe _)

end Cert.BnLaw

end
-- ==== Proof.KDefs.lean ====
/-
  The kernel regions' results as whole-array functions: rows times a matrix as a sum over the 64 features, a column's
  sum and sum of squares over all rows, the pointwise normalisation with given one-row statistics, and the final
  matrix product plus bias row.
-/
import proofs.«179986_j62663572849123_1_alg».proof.Proof.KHost
import proofs.«179986_j62663572849123_1_alg».proof.Proof.BnLaw

noncomputable section

open scoped BigOperators

namespace Cert.KernelIdeal.Total

open Cert.KernelIdeal Cert.KernelIdeal.Gen Cert.KernelIdeal.HostVals
open Idealize.ShloMosaic Idealize.ShloMosaic.ValueIdx

/-- Rows times a 64×64 matrix. -/
def linK (x : FVec Ideal S100000x64 .f32) (w : FVec Ideal S64x64 .f32) : FVec Ideal S100000x64 .f32 :=
  fun i => ∑ k : Fin 64, x (ix2 (i 0) k) * w (ix2 k (i 1))

/-- Each column's sum over the N rows, as a one-row matrix. -/
def sumK (x : FVec Ideal S100000x64 .f32) : FVec Ideal S1x64 .f32 := fun i => ∑ r : Fin 100000, x (ix2 r (i 1))

/-- Each column's sum of squares over the N rows, as a one-row matrix. -/
def sumsqK (x : FVec Ideal S100000x64 .f32) : FVec Ideal S1x64 .f32 :=
  fun i => ∑ r : Fin 100000, x (ix2 r (i 1)) * x (ix2 r (i 1))

/-- The pointwise normalisation with given one-row statistics, scale and shift. -/
def bnK (x : FVec Ideal S100000x64 .f32) (mean var g b : FVec Ideal S1x64 .f32) : FVec Ideal S100000x64 .f32 :=
  fun i => Cert.BnLaw.bnAt (x i) (mean (ix2 (0 : Fin 1) (i 1))) (var (ix2 (0 : Fin 1) (i 1)))
    (g (ix2 (0 : Fin 1) (i 1))) (b (ix2 (0 : Fin 1) (i 1)))

/-- Rows times the final 64×10 matrix, plus the bias row. -/
def fcK (p : FVec Ideal S512x64 .f32) (w : FVec Ideal S64x10 .f32) (b : FVec Ideal S1x10 .f32) : FVec Ideal S512x10 .f32 :=
  fun i => (∑ k : Fin 64, p (ix2 (i 0) k) * w (ix2 k (i 1))) + b (ix2 (0 : Fin 1) (i 1))

/-- The normalisation as the kernel computes it from the aggregated array: its statistics are the column sum over N
    and the raw second moment minus the squared mean. -/
def normK (out : FVec Ideal S100000x64 .f32) (g be : FVec Ideal S64 .f32) : FVec Ideal S100000x64 .f32 :=
  bnK out (kMean (F := Ideal) (sumK out)) (kVar (F := Ideal) (sumK out) (sumsqK out)) (rowOf (F := Ideal) g) (rowOf (F := Ideal) be)

end Cert.KernelIdeal.Total

end
-- ==== Proof.LibPlainDot.lean ====
/-
  The plain matrix product read at an entry, over the extended reals.

  For the dimension numbers of an ordinary product of an `M × K` matrix by a `K × N` matrix
  (`DotDims.plain M K N`: no batch axis, the left operand contracted on its columns, the right one on its rows),
  at the ideal values:

  * a `tpu.matmul` into the zero accumulator, at entry `(p, q)`, is `∑ k, lhs (p, k) * rhs (k, q)`
    (`matmul_zero_plain`);
  * the host's `dot_general`, at entry `(p, q)`, is the same sum, whatever its schedule key (`dotGeneral_plain`).

  Both are generic in the three extents and in the operands' float formats (a change of format is the identity
  at the ideal values). The contraction index of these dimension numbers has one axis, of extent `K`; the sum over
  it is re-indexed to a sum over `Fin K` through `ValueIdx.contrEquiv1`, and the operand indices at output index
  `(p, q)` and contraction coordinate `k` are `(p, k)` and `(k, q)`, coordinate by coordinate.
-/
import Idealize.ShloMosaic.Lib.ValueIdx
import Idealize.ShloMosaic.PureOps.Ideal.Laws

open Idealize.ShloMosaic Idealize.ShloMosaic.ValueIdx
open scoped BigOperators

noncomputable section

namespace Cert.LibPlainDot

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ => exact contrEquiv1_symm_val (DotDims.plain M K N) K rfl rfl k)

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact contrEquiv1_symm_val (DotDims.plain M K N) K rfl rfl k
    | ⟨1, _⟩ => rfl)

/-- A `tpu.matmul` of an `M × K` by a `K × N` operand into the zero accumulator, at entry `(p, q)`: the sum over
    `k` of `lhs (p, k) * rhs (k, q)`. -/
theorem matmul_zero_plain {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of an `M × K` by a `K × N` operand, at entry `(p, q)`: the same sum. -/
theorem dotGeneral_plain {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.LibPlainDot

end
-- ==== Proof.RegionMatmul.lean ====
/-
  The four matrix-product regions, read as whole-array functions of the contents each region finds.

  Regions 0, 3 and 6 run the same body over a grid of 50 points. At point `t` the body reads rows
  `2000 t … 2000 t + 1999` of a `100000 × 64` array (one block of 2000 rows) and the whole `64 × 64` weight,
  multiplies the block by the weight into a zero accumulator, and stores the `2000 × 64` result, which is written back
  to rows `2000 t … 2000 t + 1999` of the `100000 × 64` output. At the ideal values a change of float format and a
  shape cast to the same shape are the identity, so entry `(p, q)` of the stored block is
  `∑ k, block (p, k) * weight (k, q)`. Row `p` of block `t` is row `2000 t + p` of the input array, so every point
  writes its own block of ONE function of the two arrays, `fun i => ∑ k, x (i 0, k) * w (k, i 1)`; row `r` of the
  output lies in the block of point `r / 2000`, the 50 blocks cover the output, and the output array after the region
  is that function (`linear0`, `linear3`, `linear6`).

  Region 9 has one point and every window whole: a `512 × 64` array times a `64 × 10` weight into a zero accumulator,
  plus the `1 × 10` bias row broadcast over the 512 rows. Entry `(p, q)` of the result is
  `(∑ k, x (p, k) * w (k, q)) + b (0, q)`, the product first and the bias second as the body adds them (`fc9`).

  Per region: the body's value at an entry (`linear_pay…`, `fc_pay9`), the block indices decided over the grid
  (`idx_facts…`), each input block as entries of its array (`iblk…_apply`), what a point writes back as a block of
  the whole-array function (`flushed…`), membership in a block and the cover (`mem_blk…`, `cover…`), and the array
  after the region. Everything is stated at the ideal values, for any contents `V` at the region's entry and every core.
-/
import proofs.«179986_j62663572849123_1_alg».proof.Proof.Gen.KernelIdeal.Frame
import proofs.«179986_j62663572849123_1_alg».proof.Proof.LibPlainDot
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)
open scoped BigOperators

namespace Cert.KernelIdeal.RegionMatmul

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Region 0: rows of the [100000,64] array times the [64,64] weight -/

/-- The body's value at an entry of its block: the row of the left block times the column of the weight block
    (a change of float format is the identity at the ideal values; the accumulator is the zero constant). -/
theorem linear_pay0 (x0 : Vec Ideal S2000x64 .f32) (x1 : Vec Ideal S64x64 .f32) (p : Fin 2000) (q : Fin 64) :
    (k0_pay1 (F := Ideal) x0 x1 : S2000x64.Idx → EReal) (ix2 p q) = ∑ k : Fin 64, (x0 (ix2 p k) : EReal) * (x1 (ix2 k q) : EReal) := by
  unfold k0_pay1
  exact Cert.LibPlainDot.matmul_zero_plain (φ₁ := .bf16) (φ₂ := .bf16) none x0 x1 p q

/-- The input array and the weight array as the region finds them. -/
abbrev xin0 (c : Dev nD) : S100000x64.Idx → EReal := V c (Pipeline.arrRef spec0 0)
abbrev wgt0 (c : Dev nD) : S64x64.Idx → EReal := V c (Pipeline.arrRef spec0 1)

/-- The block indices over the grid: at point `t` the input and the output windows are at block row `t`, the
    weight window at its only block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the input block at point `t` is row `2000 t + p` of the input array. -/
theorem iblk0_0_apply (c : Dev nD) (t : Fin cfg0.N) (p : Fin 2000) (k : Fin 64) (r : Fin 100000) (hr : r.val = t.val * 2000 + p.val) :
    (iblk0 V c 0 t : Vec Ideal S2000x64 .f32) (ix2 p k) = xin0 V c (ix2 r k) := by
  obtain ⟨e0, e1, -⟩ := idx_facts0 t
  unfold iblk0
  rw [View.read_apply]
  have e : ((cfg0.win 0).blk t).view.emb (ix2 p k) = (ix2 r k : S100000x64.Idx) := by
    funext a
    apply Fin.ext
    match a with
    | ⟨0, _⟩ => show win0_0.index t (0 : Fin 2) * 2000 + 1 * p.val = r.val; rw [e0, hr]; omega
    | ⟨1, _⟩ => show win0_0.index t (1 : Fin 2) * 64 + 1 * k.val = k.val; rw [e1]; omega
  exact congrArg (xin0 V c) e

/-- The weight block at every point is the whole weight array. -/
theorem iblk0_1_apply (c : Dev nD) (t : Fin cfg0.N) (k : Fin 64) (q : Fin 64) :
    (iblk0 V c 1 t : Vec Ideal S64x64 .f32) (ix2 k q) = wgt0 V c (ix2 k q) := by
  obtain ⟨-, -, e2, e3, -⟩ := idx_facts0 t
  unfold iblk0
  rw [View.read_apply]
  have e : ((cfg0.win 1).blk t).view.emb (ix2 k q) = (ix2 k q : S64x64.Idx) := by
    funext a
    apply Fin.ext
    match a with
    | ⟨0, _⟩ => show win0_1.index t (0 : Fin 2) * 64 + 1 * k.val = k.val; rw [e2]; omega
    | ⟨1, _⟩ => show win0_1.index t (1 : Fin 2) * 64 + 1 * q.val = q.val; rw [e3]; omega
  exact congrArg (wgt0 V c) e

/-- The product of the input array by the weight array, entry by entry. -/
abbrev G0 (c : Dev nD) : S100000x64.Idx → EReal := fun i =>
  ∑ k : Fin 64, xin0 V c (ix2 (i 0) k) * wgt0 V c (ix2 k (i 1))

/-- What point `t` writes back is block `t` of the product. -/
theorem flushed0 (c : Dev nD) (t : Fin cfg0.N) :
    (dat0 (F := Ideal) V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S2000x64) hz, View.ld_unit_zero (S := S64x64) hz]
  obtain ⟨-, -, -, -, e4, e5⟩ := idx_facts0 t
  have hN : t.val < 50 := t.isLt
  funext j
  have hj0 : (j 0).val < 2000 := (j 0).isLt
  have hj1 : (j 1).val < 64 := (j 1).isLt
  have ej : (cfg0.win 2).xinj (grid0.coords t) j = (ix2 (⟨(j 0).val, hj0⟩ : Fin 2000) (⟨(j 1).val, hj1⟩ : Fin 64) : S2000x64.Idx) := by
    funext a
    match a with
    | ⟨0, _⟩ => rfl
    | ⟨1, _⟩ => rfl
  have ei : ((cfg0.win 2).blk t).view.emb j = (ix2 (⟨t.val * 2000 + (j 0).val, by omega⟩ : Fin 100000) (⟨(j 1).val, hj1⟩ : Fin 64) : S100000x64.Idx) := by
    funext a
    apply Fin.ext
    match a with
    | ⟨0, _⟩ => show win0_2.index t (0 : Fin 2) * 2000 + 1 * (j 0).val = t.val * 2000 + (j 0).val; rw [e4]; omega
    | ⟨1, _⟩ => show win0_2.index t (1 : Fin 2) * 64 + 1 * (j 1).val = (j 1).val; rw [e5]; omega
  rw [View.read_apply, ei]
  show (k0_pay1 (F := Ideal) (iblk0 V c 0 t) (iblk0 V c 1 t) : S2000x64.Idx → EReal) ((cfg0.win 2).xinj (grid0.coords t) j) = _
  rw [ej, linear_pay0]
  refine Finset.sum_congr rfl fun k _ => ?_
  exact congrArg₂ (· * ·)
    (iblk0_0_apply V c t ⟨(j 0).val, hj0⟩ k ⟨t.val * 2000 + (j 0).val, by omega⟩ rfl)
    (iblk0_1_apply V c t k ⟨(j 1).val, hj1⟩)

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v30).slice (win0_2.rect t)).set ↔ _
  rw [View.set_slice_whole, Rect.mem_set_unit]
  exact Iff.rfl

/-- Every row `r` of the output array is in the block of point `r / 2000`, which is written back. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, show (i 0).val / 2000 < 50 by omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 64 ≤ (i 1).val ∧ (i 1).val < win0_2.index t (1 : Fin 2) * 64 + 64; rw [e5]; omega

/-- REGION 0: the output array after the region is the input array times the weight array, as the region found them. -/
theorem linear0 (c : Dev nD) :
    ((dat0 (F := Ideal) V c).arrAt 2 cfg0.N : S100000x64.Idx → EReal)
      = fun i => ∑ k : Fin 64, xin0 V c (ix2 (i 0) k) * wgt0 V c (ix2 k (i 1)) :=
  (dat0 (F := Ideal) V c).arrAt_eq_of_cover 2 (G0 V c) (fun t _ => flushed0 V c t) cover0

/-! ## Region 3: rows of the [100000,64] array times the [64,64] weight -/

/-- The body's value at an entry of its block: the row of the left block times the column of the weight block
    (a shape cast to the same shape and a change of float format are the identity at the ideal values; the accumulator is the zero constant). -/
theorem linear_pay3 (x0 : Vec Ideal S2000x64 .f32) (x1 : Vec Ideal S64x64 .f32) (p : Fin 2000) (q : Fin 64) :
    (k3_pay1 (F := Ideal) x0 x1 : S2000x64.Idx → EReal) (ix2 p q) = ∑ k : Fin 64, (x0 (ix2 p k) : EReal) * (x1 (ix2 k q) : EReal) := by
  unfold k3_pay1
  rw [shapeCast_self]
  exact Cert.LibPlainDot.matmul_zero_plain (φ₁ := .bf16) (φ₂ := .bf16) none x0 x1 p q

/-- The input array and the weight array as the region finds them. -/
abbrev xin3 (c : Dev nD) : S100000x64.Idx → EReal := V c (Pipeline.arrRef spec3 0)
abbrev wgt3 (c : Dev nD) : S64x64.Idx → EReal := V c (Pipeline.arrRef spec3 1)

/-- The block indices over the grid: at point `t` the input and the output windows are at block row `t`, the
    weight window at its only block. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row `p` of the input block at point `t` is row `2000 t + p` of the input array. -/
theorem iblk3_0_apply (c : Dev nD) (t : Fin cfg3.N) (p : Fin 2000) (k : Fin 64) (r : Fin 100000) (hr : r.val = t.val * 2000 + p.val) :
    (iblk3 V c 0 t : Vec Ideal S2000x64 .f32) (ix2 p k) = xin3 V c (ix2 r k) := by
  obtain ⟨e0, e1, -⟩ := idx_facts3 t
  unfold iblk3
  rw [View.read_apply]
  have e : ((cfg3.win 0).blk t).view.emb (ix2 p k) = (ix2 r k : S100000x64.Idx) := by
    funext a
    apply Fin.ext
    match a with
    | ⟨0, _⟩ => show win3_0.index t (0 : Fin 2) * 2000 + 1 * p.val = r.val; rw [e0, hr]; omega
    | ⟨1, _⟩ => show win3_0.index t (1 : Fin 2) * 64 + 1 * k.val = k.val; rw [e1]; omega
  exact congrArg (xin3 V c) e

/-- The weight block at every point is the whole weight array. -/
theorem iblk3_1_apply (c : Dev nD) (t : Fin cfg3.N) (k : Fin 64) (q : Fin 64) :
    (iblk3 V c 1 t : Vec Ideal S64x64 .f32) (ix2 k q) = wgt3 V c (ix2 k q) := by
  obtain ⟨-, -, e2, e3, -⟩ := idx_facts3 t
  unfold iblk3
  rw [View.read_apply]
  have e : ((cfg3.win 1).blk t).view.emb (ix2 k q) = (ix2 k q : S64x64.Idx) := by
    funext a
    apply Fin.ext
    match a with
    | ⟨0, _⟩ => show win3_1.index t (0 : Fin 2) * 64 + 1 * k.val = k.val; rw [e2]; omega
    | ⟨1, _⟩ => show win3_1.index t (1 : Fin 2) * 64 + 1 * q.val = q.val; rw [e3]; omega
  exact congrArg (wgt3 V c) e

/-- The product of the input array by the weight array, entry by entry. -/
abbrev G3 (c : Dev nD) : S100000x64.Idx → EReal := fun i =>
  ∑ k : Fin 64, xin3 V c (ix2 (i 0) k) * wgt3 V c (ix2 k (i 1))

/-- What point `t` writes back is block `t` of the product. -/
theorem flushed3 (c : Dev nD) (t : Fin cfg3.N) :
    (dat3 (F := Ideal) V c).flushed 2 t = ((cfg3.win 2).blk t).view.read (Elt Ideal) (G3 V c) := by
  show (cfg3.win 2).cut (grid3.coords t) ((dat3 V c).after 2 t) = _
  rw [after3_2]
  unfold out3_2
  rw [View.canon_unit_zero hz]
  simp only [View.ld_unit_zero (S := S2000x64) hz, View.ld_unit_zero (S := S64x64) hz]
  obtain ⟨-, -, -, -, e4, e5⟩ := idx_facts3 t
  have hN : t.val < 50 := t.isLt
  funext j
  have hj0 : (j 0).val < 2000 := (j 0).isLt
  have hj1 : (j 1).val < 64 := (j 1).isLt
  have ej : (cfg3.win 2).xinj (grid3.coords t) j = (ix2 (⟨(j 0).val, hj0⟩ : Fin 2000) (⟨(j 1).val, hj1⟩ : Fin 64) : S2000x64.Idx) := by
    funext a
    match a with
    | ⟨0, _⟩ => rfl
    | ⟨1, _⟩ => rfl
  have ei : ((cfg3.win 2).blk t).view.emb j = (ix2 (⟨t.val * 2000 + (j 0).val, by omega⟩ : Fin 100000) (⟨(j 1).val, hj1⟩ : Fin 64) : S100000x64.Idx) := by
    funext a
    apply Fin.ext
    match a with
    | ⟨0, _⟩ => show win3_2.index t (0 : Fin 2) * 2000 + 1 * (j 0).val = t.val * 2000 + (j 0).val; rw [e4]; omega
    | ⟨1, _⟩ => show win3_2.index t (1 : Fin 2) * 64 + 1 * (j 1).val = (j 1).val; rw [e5]; omega
  rw [View.read_apply, ei]
  show (k3_pay1 (F := Ideal) (iblk3 V c 0 t) (iblk3 V c 1 t) : S2000x64.Idx → EReal) ((cfg3.win 2).xinj (grid3.coords t) j) = _
  rw [ej, linear_pay3]
  refine Finset.sum_congr rfl fun k _ => ?_
  exact congrArg₂ (· * ·)
    (iblk3_0_apply V c t ⟨(j 0).val, hj0⟩ k ⟨t.val * 2000 + (j 0).val, by omega⟩ rfl)
    (iblk3_1_apply V c t k ⟨(j 1).val, hj1⟩)

/-- An index of the output array is in point `t`'s block iff each coordinate is in the block's range on its axis. -/
theorem mem_blk3 (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v57).slice (win3_2.rect t)).set ↔ _
  rw [View.set_slice_whole, Rect.mem_set_unit]
  exact Iff.rfl

/-- Every row `r` of the output array is in the block of point `r / 2000`, which is written back. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 2000 :=
    ⟨⟨(i 0).val / 2000, show (i 0).val / 2000 < 50 by omega⟩, rfl⟩
  obtain ⟨-, -, -, -, e4, e5⟩ := idx_facts3 t
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; rw [e4, ht]; omega
  | ⟨1, _⟩ => show win3_2.index t (1 : Fin 2) * 64 ≤ (i 1).val ∧ (i 1).val < win3_2.index t (1 : Fin 2) * 64 + 64; rw [e5]; omega

/-- REGION 3: the output array after the region is the input array times the weight array, as the region found them. -/
theorem linear3 (c : Dev nD) :
    ((dat3 (F := Ideal) V c).arrAt 2 cfg3.N : S100000x64.Idx → EReal)
      = fun i => ∑ k : Fin 64, xin3 V c (ix2 (i 0) k) * wgt3 V c (ix2 k (i 1)) :=
  (dat3 (F := Ideal) V c).arrAt_eq_of_cover 2 (G3 V c) (fun t _ => flushed3 V c t) cover3

/-! ## Region 6: rows of the [100000,64] array times the [64,64] weight -/

/-- The body's value at an entry of its block: the row of the left block times the column of the weight block
    (a shape cast to the same shape and a change of float format are the identity at the ideal values; the accumulator is the zero constant). -/
theorem linear_pay6 (x0 : Vec Ideal S2000x64 .f32) (x1 : Vec Ideal S64x64 .f32) (p : Fin 2000) (q : Fin 64) :
    (k6_pay1 (F := Ideal) x0 x1 : S2000x64.Idx → EReal) (ix2 p q) = ∑ k : Fin 64, (x0 (ix2 p k) : EReal) * (x1 (ix2 k q) : EReal) := by
  unfold k6_pay1
  rw [shapeCast_self]
  exact Cert.LibPlainDot.matmul_zero_plain (φ₁ := .bf16) (φ₂ := .bf16) none x0 x1 p q

/-- The input array and the weight array as the region finds them. -/
abbrev xin6 (c : Dev nD) : S100000x64.Idx → EReal := V c (Pipeline.arrRef spec6 0)
abbrev wgt6 (c : Dev nD) : S64x64.Idx → EReal := V c (Pipeline.arrRef spec6 1)

/-- The block indices over the grid: at point `t` the input and the output windows are at block row `t`, the
    weight window at its only block. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- Row `p` of the input block at point `t` is row `2000 t + p` of the input array. -/
theorem iblk6_0_apply (c : Dev nD) (t : Fin cfg6.N) (p : Fin 2000) (k : Fin 64) (r : Fin 100000) (hr : r.val = t.val * 2000 + p.val) :
    (iblk6 V c 0 t : Vec Ideal S2000x64 .f32) (ix2 p k) = xin6 V c (ix2 r k) := by
  obtain ⟨e0, e1, -⟩ := idx_facts6 t
  unfold iblk6
  rw [View.read_apply]
  have e : ((cfg6.win 0).blk t).view.emb (ix2 p k) = (ix2 r k : S100000x64.Idx) := by
    funext a
    apply Fin.ext
    match a with
    | ⟨0, _⟩ => show win6_0.index t (0 : Fin 2) * 2000 + 1 * p.val = r.val; rw [e0, hr]; omega
    | ⟨1, _⟩ => show win6_0.index t (1 : Fin 2) * 64 + 1 * k.val = k.val; rw [e1]; omega
  exact congrArg (xin6 V c) e

/-- The weight block at every point is the whole weight array. -/
theorem iblk6_1_apply (c : Dev nD) (t : Fin cfg6.N) (k : Fin 64) (q : Fin 64) :
    (iblk6 V c 1 t : Vec Ideal S64x64 .f32) (ix2 k q) = wgt6 V c (ix2 k q) := by
  obtain ⟨-, -, e2, e3, -⟩ := idx_facts6 t
  unfold iblk6
  rw [View.read_apply]
  have e : ((cfg6.win 1).blk t).view.emb (ix2 k q) = (ix2 k q : S64x64.Idx) := by
    funext a
    apply Fin.ext
    match a with
    | ⟨0, _⟩ => show win6_1.index t (0 : Fin 2) * 64 + 1 * k.val = k.val; rw [e2]; omega
    | ⟨1, _⟩ => show win6_1.index t (1 : Fin 2) * 64 + 1 * q.val = q.val; rw [e3]; omega
  exact congrArg (wgt6 V c) e

/-- The product of the input array by the weight array, entry by entry. -/
abbrev G6 (c : Dev nD) : S100000x64.Idx → EReal := fun i =>
  ∑ k : Fin 64, xin6 V c (ix2 (i 0) k) * wgt6 V c (ix2 k (i 1))

/-- What point `t` writes back is block `t` of the product. -/
theorem flushed6 (c : Dev nD) (t : Fin cfg6.N) :
    (dat6 (F := Ideal) V c).flushed 2 t = ((cfg6.win 2).blk t).view.read (Elt Ideal) (G6 V c) := by
  show (cfg6.win 2).cut (grid6.coords t) ((dat6 V c).after 2 t) = _
  rw [after6_2]
  unfold out6_2
  rw [View.canon_unit_zero hz]
  simp only [View.ld_unit_zero (S := S2000x64) hz, View.ld_unit_zero (S := S64x64) hz]
  obtain ⟨-, -, -, -, e4, e5⟩ := idx_facts6 t
  have hN : t.val < 50 := t.isLt
  funext j
  have hj0 : (j 0).val < 2000 := (j 0).isLt
  have hj1 : (j 1).val < 64 := (j 1).isLt
  have ej : (cfg6.win 2).xinj (grid6.coords t) j = (ix2 (⟨(j 0).val, hj0⟩ : Fin 2000) (⟨(j 1).val, hj1⟩ : Fin 64) : S2000x64.Idx) := by
    funext a
    match a with
    | ⟨0, _⟩ => rfl
    | ⟨1, _⟩ => rfl
  have ei : ((cfg6.win 2).blk t).view.emb j = (ix2 (⟨t.val * 2000 + (j 0).val, by omega⟩ : Fin 100000) (⟨(j 1).val, hj1⟩ : Fin 64) : S100000x64.Idx) := by
    funext a
    apply Fin.ext
    match a with
    | ⟨0, _⟩ => show win6_2.index t (0 : Fin 2) * 2000 + 1 * (j 0).val = t.val * 2000 + (j 0).val; rw [e4]; omega
    | ⟨1, _⟩ => show win6_2.index t (1 : Fin 2) * 64 + 1 * (j 1).val = (j 1).val; rw [e5]; omega
  rw [View.read_apply, ei]
  show (k6_pay1 (F := Ideal) (iblk6 V c 0 t) (iblk6 V c 1 t) : S2000x64.Idx → EReal) ((cfg6.win 2).xinj (grid6.coords t) j) = _
  rw [ej, linear_pay6]
  refine Finset.sum_congr rfl fun k _ => ?_
  exact congrArg₂ (· * ·)
    (iblk6_0_apply V c t ⟨(j 0).val, hj0⟩ k ⟨t.val * 2000 + (j 0).val, by omega⟩ rfl)
    (iblk6_1_apply V c t k ⟨(j 1).val, hj1⟩)

/-- An index of the output array is in point `t`'s block iff each coordinate is in the block's range on its axis. -/
theorem mem_blk6 (t : Fin cfg6.N) (i : S100000x64.Idx) :
    i ∈ ((cfg6.win 2).blk t).view.set ↔ ∀ a : Fin 2, win6_2.index t a * S2000x64.size a ≤ (i a).val ∧ (i a).val < win6_2.index t a * S2000x64.size a + S2000x64.size a := by
  show i ∈ ((View.whole main_v84).slice (win6_2.rect t)).set ↔ _
  rw [View.set_slice_whole, Rect.mem_set_unit]
  exact Iff.rfl

/-- Every row `r` of the output array is in the block of point `r / 2000`, which is written back. -/
theorem cover6 (i : S100000x64.Idx) :
    ∃ t : Fin cfg6.N, (cfg6.win 2).flush t = true ∧ i ∈ ((cfg6.win 2).blk t).view.set := by
  have hi0 : (i 0).val < 100000 := (i 0).isLt
  have hi1 : (i 1).val < 64 := (i 1).isLt
  obtain ⟨t, ht⟩ : ∃ t : Fin cfg6.N, t.val = (i 0).val / 2000 :=
    ⟨⟨(i 0).val / 2000, show (i 0).val / 2000 < 50 by omega⟩, rfl⟩
  obtain ⟨-, -, -, -, e4, e5⟩ := idx_facts6 t
  refine ⟨t, flush6_2 t, ?_⟩
  rw [mem_blk6]
  intro a
  match a with
  | ⟨0, _⟩ => show win6_2.index t (0 : Fin 2) * 2000 ≤ (i 0).val ∧ (i 0).val < win6_2.index t (0 : Fin 2) * 2000 + 2000; rw [e4, ht]; omega
  | ⟨1, _⟩ => show win6_2.index t (1 : Fin 2) * 64 ≤ (i 1).val ∧ (i 1).val < win6_2.index t (1 : Fin 2) * 64 + 64; rw [e5]; omega

/-- REGION 6: the output array after the region is the input array times the weight array, as the region found them. -/
theorem linear6 (c : Dev nD) :
    ((dat6 (F := Ideal) V c).arrAt 2 cfg6.N : S100000x64.Idx → EReal)
      = fun i => ∑ k : Fin 64, xin6 V c (ix2 (i 0) k) * wgt6 V c (ix2 k (i 1)) :=
  (dat6 (F := Ideal) V c).arrAt_eq_of_cover 2 (G6 V c) (fun t _ => flushed6 V c t) cover6

/-! ## Region 9: the [512,64] array times the [64,10] weight, plus the [1,10] bias row on every row -/

/-- The body's value at an entry of its block: the row of the left block times the column of the weight block, plus
    the bias row's entry in that column (a shape cast to the same shape and a change of float format are the identity
    at the ideal values; the accumulator is the zero constant; the bias row is broadcast over the 512 rows). -/
theorem fc_pay9 (x0 : Vec Ideal S512x64 .f32) (x1 : Vec Ideal S64x10 .f32) (x2 : Vec Ideal S1x10 .f32) (p : Fin 512) (q : Fin 10) :
    (k9_pay1 (F := Ideal) x0 x1 x2 : S512x10.Idx → EReal) (ix2 p q)
      = (∑ k : Fin 64, (x0 (ix2 p k) : EReal) * (x1 (ix2 k q) : EReal)) + (x2 (ix2 (0 : Fin 1) q) : EReal) := by
  unfold k9_pay1
  rw [shapeCast_self, shapeCast_self]
  refine congrArg₂ (· + ·) ?_ ?_
  · exact Cert.LibPlainDot.matmul_zero_plain (φ₁ := .bf16) (φ₂ := .bf16) none x0 x1 p q
  · refine broadcastTo_apply (s := S1x10) (t := S512x10) x2 broadcasts_S1x10_S512x10 (ix2 p q) (ix2 (0 : Fin 1) q) fun a => ?_
    match a with
    | ⟨0, _⟩ => rfl
    | ⟨1, _⟩ => rfl

/-- The input array, the weight array and the bias row as the region finds them. -/
abbrev xin9 (c : Dev nD) : S512x64.Idx → EReal := V c (Pipeline.arrRef spec9 0)
abbrev wgt9 (c : Dev nD) : S64x10.Idx → EReal := V c (Pipeline.arrRef spec9 1)
abbrev bias9 (c : Dev nD) : S1x10.Idx → EReal := V c (Pipeline.arrRef spec9 2)

/-- The block indices over the one-point grid: every window is at its only block. -/
theorem idx_facts9 : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

/-- The input block is the whole input array. -/
theorem iblk9_0_apply (c : Dev nD) (t : Fin cfg9.N) (p : Fin 512) (k : Fin 64) :
    (iblk9 V c 0 t : Vec Ideal S512x64 .f32) (ix2 p k) = xin9 V c (ix2 p k) := by
  obtain ⟨e0, e1, -⟩ := idx_facts9 t
  unfold iblk9
  rw [View.read_apply]
  have e : ((cfg9.win 0).blk t).view.emb (ix2 p k) = (ix2 p k : S512x64.Idx) := by
    funext a
    apply Fin.ext
    match a with
    | ⟨0, _⟩ => show win9_0.index t (0 : Fin 2) * 512 + 1 * p.val = p.val; rw [e0]; omega
    | ⟨1, _⟩ => show win9_0.index t (1 : Fin 2) * 64 + 1 * k.val = k.val; rw [e1]; omega
  exact congrArg (xin9 V c) e

/-- The weight block is the whole weight array. -/
theorem iblk9_1_apply (c : Dev nD) (t : Fin cfg9.N) (k : Fin 64) (q : Fin 10) :
    (iblk9 V c 1 t : Vec Ideal S64x10 .f32) (ix2 k q) = wgt9 V c (ix2 k q) := by
  obtain ⟨-, -, e2, e3, -⟩ := idx_facts9 t
  unfold iblk9
  rw [View.read_apply]
  have e : ((cfg9.win 1).blk t).view.emb (ix2 k q) = (ix2 k q : S64x10.Idx) := by
    funext a
    apply Fin.ext
    match a with
    | ⟨0, _⟩ => show win9_1.index t (0 : Fin 2) * 64 + 1 * k.val = k.val; rw [e2]; omega
    | ⟨1, _⟩ => show win9_1.index t (1 : Fin 2) * 10 + 1 * q.val = q.val; rw [e3]; omega
  exact congrArg (wgt9 V c) e

/-- The bias block is the whole bias row. -/
theorem iblk9_2_apply (c : Dev nD) (t : Fin cfg9.N) (z : Fin 1) (q : Fin 10) :
    (iblk9 V c 2 t : Vec Ideal S1x10 .f32) (ix2 z q) = bias9 V c (ix2 z q) := by
  obtain ⟨-, -, -, -, e4, e5, -⟩ := idx_facts9 t
  unfold iblk9
  rw [View.read_apply]
  have e : ((cfg9.win 2).blk t).view.emb (ix2 z q) = (ix2 z q : S1x10.Idx) := by
    funext a
    apply Fin.ext
    match a with
    | ⟨0, _⟩ => show win9_2.index t (0 : Fin 2) * 1 + 1 * z.val = z.val; rw [e4]; omega
    | ⟨1, _⟩ => show win9_2.index t (1 : Fin 2) * 10 + 1 * q.val = q.val; rw [e5]; omega
  exact congrArg (bias9 V c) e

/-- The product of the input array by the weight array plus the bias row, entry by entry. -/
abbrev G9 (c : Dev nD) : S512x10.Idx → EReal := fun i =>
  (∑ k : Fin 64, xin9 V c (ix2 (i 0) k) * wgt9 V c (ix2 k (i 1))) + bias9 V c (ix2 (0 : Fin 1) (i 1))

/-- What the one point writes back is the whole of that array. -/
theorem flushed9 (c : Dev nD) (t : Fin cfg9.N) :
    (dat9 (F := Ideal) V c).flushed 3 t = ((cfg9.win 3).blk t).view.read (Elt Ideal) (G9 V c) := by
  show (cfg9.win 3).cut (grid9.coords t) ((dat9 V c).after 3 t) = _
  rw [after9_3]
  unfold out9_3
  rw [View.canon_unit_zero hz]
  simp only [View.ld_unit_zero (S := S512x64) hz, View.ld_unit_zero (S := S64x10) hz, View.ld_unit_zero (S := S1x10) hz]
  obtain ⟨-, -, -, -, -, -, e6, e7⟩ := idx_facts9 t
  funext j
  have hj0 : (j 0).val < 512 := (j 0).isLt
  have hj1 : (j 1).val < 10 := (j 1).isLt
  have ej : (cfg9.win 3).xinj (grid9.coords t) j = (ix2 (⟨(j 0).val, hj0⟩ : Fin 512) (⟨(j 1).val, hj1⟩ : Fin 10) : S512x10.Idx) := by
    funext a
    match a with
    | ⟨0, _⟩ => rfl
    | ⟨1, _⟩ => rfl
  have ei : ((cfg9.win 3).blk t).view.emb j = (ix2 (⟨(j 0).val, hj0⟩ : Fin 512) (⟨(j 1).val, hj1⟩ : Fin 10) : S512x10.Idx) := by
    funext a
    apply Fin.ext
    match a with
    | ⟨0, _⟩ => show win9_3.index t (0 : Fin 2) * 512 + 1 * (j 0).val = (j 0).val; rw [e6]; omega
    | ⟨1, _⟩ => show win9_3.index t (1 : Fin 2) * 10 + 1 * (j 1).val = (j 1).val; rw [e7]; omega
  rw [View.read_apply, ei]
  show (k9_pay1 (F := Ideal) (iblk9 V c 0 t) (iblk9 V c 1 t) (iblk9 V c 2 t) : S512x10.Idx → EReal) ((cfg9.win 3).xinj (grid9.coords t) j) = _
  rw [ej, fc_pay9]
  exact congrArg₂ (· + ·)
    (Finset.sum_congr rfl fun k _ => congrArg₂ (· * ·)
      (iblk9_0_apply V c t ⟨(j 0).val, hj0⟩ k) (iblk9_1_apply V c t k ⟨(j 1).val, hj1⟩))
    (iblk9_2_apply V c t (0 : Fin 1) ⟨(j 1).val, hj1⟩)

/-- An index of the output array is in the point's block iff each coordinate is in the block's range on its axis. -/
theorem mem_blk9 (t : Fin cfg9.N) (i : S512x10.Idx) :
    i ∈ ((cfg9.win 3).blk t).view.set ↔ ∀ a : Fin 2, win9_3.index t a * S512x10.size a ≤ (i a).val ∧ (i a).val < win9_3.index t a * S512x10.size a + S512x10.size a := by
  show i ∈ ((View.whole main_v124).slice (win9_3.rect t)).set ↔ _
  rw [View.set_slice_whole, Rect.mem_set_unit]
  exact Iff.rfl

/-- Every index of the output array is in the one point's block, which is written back. -/
theorem cover9 (i : S512x10.Idx) :
    ∃ t : Fin cfg9.N, (cfg9.win 3).flush t = true ∧ i ∈ ((cfg9.win 3).blk t).view.set := by
  have hi0 : (i 0).val < 512 := (i 0).isLt
  have hi1 : (i 1).val < 10 := (i 1).isLt
  obtain ⟨t, ht⟩ : ∃ t : Fin cfg9.N, t.val = 0 := ⟨⟨0, show 0 < 1 from Nat.one_pos⟩, rfl⟩
  obtain ⟨-, -, -, -, -, -, e6, e7⟩ := idx_facts9 t
  refine ⟨t, flush9_3 t, ?_⟩
  rw [mem_blk9]
  intro a
  match a with
  | ⟨0, _⟩ => show win9_3.index t (0 : Fin 2) * 512 ≤ (i 0).val ∧ (i 0).val < win9_3.index t (0 : Fin 2) * 512 + 512; rw [e6]; omega
  | ⟨1, _⟩ => show win9_3.index t (1 : Fin 2) * 10 ≤ (i 1).val ∧ (i 1).val < win9_3.index t (1 : Fin 2) * 10 + 10; rw [e7]; omega

/-- REGION 9: the output array after the region is the input array times the weight array plus the bias row on every
    row, as the region found them. -/
theorem fc9 (c : Dev nD) :
    ((dat9 (F := Ideal) V c).arrAt 3 cfg9.N : S512x10.Idx → EReal)
      = fun i => (∑ k : Fin 64, xin9 V c (ix2 (i 0) k) * wgt9 V c (ix2 k (i 1))) + bias9 V c (ix2 (0 : Fin 1) (i 1)) :=
  (dat9 (F := Ideal) V c).arrAt_eq_of_cover 3 (G9 V c) (fun t _ => flushed9 V c t) cover9

end Cert.KernelIdeal.RegionMatmul

end
-- ==== Proof.LibBlockedSum.lean ====
/-
  Sums over a range of indices cut into equal consecutive blocks, and the closed form of an accumulator
  that starts from a given value and adds one term per step. Nothing here is specific to one kernel: the
  statements are over an arbitrary additive commutative monoid, with two instances at literal extents.
-/
import Mathlib.Algebra.BigOperators.Fin
import Mathlib.Data.Fintype.BigOperators
import Mathlib.Logic.Equiv.Fin.Basic

open scoped BigOperators

namespace BlockedSum

/-- The position `b * bs + j` of offset `j` inside block `b`, of `nb` blocks of `bs` positions each, is below
    the total extent `nb * bs`. -/
theorem block_pos_lt {nb bs : ℕ} (b : Fin nb) (j : Fin bs) : b.val * bs + j.val < nb * bs :=
  calc b.val * bs + j.val < b.val * bs + bs := Nat.add_lt_add_left j.isLt _
    _ = (b.val + 1) * bs := (Nat.succ_mul _ _).symm
    _ ≤ nb * bs := Nat.mul_le_mul_right _ b.isLt

/-- A sum over `nb * bs` consecutive positions is the sum over the `nb` blocks of the sums inside each block:
    `∑ b, ∑ j, f (b * bs + j) = ∑ k, f k`, in any additive commutative monoid. -/
theorem sum_blocks {M : Type*} [AddCommMonoid M] {nb bs : ℕ} (f : Fin (nb * bs) → M) :
    ∑ b : Fin nb, ∑ j : Fin bs, f ⟨b.val * bs + j.val, block_pos_lt b j⟩ = ∑ k : Fin (nb * bs), f k := by
  rw [← Equiv.sum_comp (finProdFinEquiv (m := nb) (n := bs)) f, Fintype.sum_prod_type]
  refine Finset.sum_congr rfl fun b _ => Finset.sum_congr rfl fun j _ => congrArg f (Fin.ext ?_)
  show b.val * bs + j.val = j.val + bs * b.val
  rw [Nat.add_comm, Nat.mul_comm]

/-- The same with the summand given on natural numbers below the extent (the proof of the bound is irrelevant). -/
theorem sum_blocks' {M : Type*} [AddCommMonoid M] {nb bs : ℕ} (f : (k : ℕ) → k < nb * bs → M) :
    ∑ b : Fin nb, ∑ j : Fin bs, f (b.val * bs + j.val) (block_pos_lt b j) = ∑ k : Fin (nb * bs), f k.val k.isLt :=
  sum_blocks (fun k => f k.val k.isLt)

/-- Four blocks of 2048 make 8192: `∑ b : Fin 4, ∑ j : Fin 2048, f (b * 2048 + j) = ∑ k : Fin 8192, f k`. -/
theorem sum_blocks_4_2048 {M : Type*} [AddCommMonoid M] (f : Fin 8192 → M) :
    ∑ b : Fin 4, ∑ j : Fin 2048, f ⟨b.val * 2048 + j.val, by have := b.isLt; have := j.isLt; omega⟩ = ∑ k : Fin 8192, f k :=
  sum_blocks (nb := 4) (bs := 2048) f

/-- Two blocks of 2048 make 4096: `∑ b : Fin 2, ∑ j : Fin 2048, f (b * 2048 + j) = ∑ k : Fin 4096, f k`. -/
theorem sum_blocks_2_2048 {M : Type*} [AddCommMonoid M] (f : Fin 4096 → M) :
    ∑ b : Fin 2, ∑ j : Fin 2048, f ⟨b.val * 2048 + j.val, by have := b.isLt; have := j.isLt; omega⟩ = ∑ k : Fin 4096, f k :=
  sum_blocks (nb := 2) (bs := 2048) f

/-- The running form: a sequence that starts at `z` and adds `g t` at step `t`, for every step below `n`, is at
    step `n` the start plus the sum of the first `n` terms. -/
theorem running_sum_range {M : Type*} [AddCommMonoid M] (a g : ℕ → M) (z : M) (n : ℕ)
    (h0 : a 0 = z) (hs : ∀ t, t < n → a (t + 1) = a t + g t) : a n = z + ∑ t ∈ Finset.range n, g t := by
  induction n with
  | zero => rw [Finset.range_zero, Finset.sum_empty, add_zero, h0]
  | succ m ih =>
    rw [hs m (Nat.lt_succ_self m), ih fun t ht => hs t (Nat.lt_succ_of_lt ht), Finset.sum_range_succ, add_assoc]

/-- The same for every step, without a bound. -/
theorem running_sum_range_all {M : Type*} [AddCommMonoid M] (a g : ℕ → M) (z : M)
    (h0 : a 0 = z) (hs : ∀ t, a (t + 1) = a t + g t) (n : ℕ) : a n = z + ∑ t ∈ Finset.range n, g t :=
  running_sum_range a g z n h0 fun t _ => hs t

/-- The running form with the terms indexed by `Fin n`: a sequence that starts at `z` and adds `g t` at step
    `t : Fin n` is at step `n` the start plus the sum of all `n` terms. -/
theorem running_sum_fin {M : Type*} [AddCommMonoid M] {n : ℕ} (a : ℕ → M) (g : Fin n → M) (z : M)
    (h0 : a 0 = z) (hs : ∀ t : Fin n, a (t.val + 1) = a t.val + g t) : a n = z + ∑ t : Fin n, g t := by
  have h := running_sum_range a (fun t => if ht : t < n then g ⟨t, ht⟩ else 0) z n h0 fun t ht => by
    rw [dif_pos ht]; exact hs ⟨t, ht⟩
  rw [h, ← Fin.sum_univ_eq_sum_range (fun t => if ht : t < n then g ⟨t, ht⟩ else 0) n]
  exact congrArg (z + ·) (Finset.sum_congr rfl fun t _ => dif_pos t.isLt)

/-- An accumulator that starts at zero: the sum of the terms alone. -/
theorem running_sum_fin_zero {M : Type*} [AddCommMonoid M] {n : ℕ} (a : ℕ → M) (g : Fin n → M)
    (h0 : a 0 = 0) (hs : ∀ t : Fin n, a (t.val + 1) = a t.val + g t) : a n = ∑ t : Fin n, g t := by
  rw [running_sum_fin a g 0 h0 hs, zero_add]

end BlockedSum
-- ==== Proof.RegionStats.lean ====
/-
  The three statistics regions of the program (regions 1, 4 and 7), read as whole-array functions of the contents
  the region finds on entry, at the ideal (extended real) values.

  Each of these regions runs one body over a grid of 50 points. Its input is a [100000, 64] array X, seen through a
  window of 2000 rows: point t reads rows 2000 t … 2000 t + 1999. Its two outputs are [1, 64] rows whose window never
  moves, so they stay in their buffers from point to point and are written back once, after the last point. The body
  at point 0 first stores a row of zeros into both outputs; then, at every point, it adds to the first output the sum
  over the block's rows of each column, and to the second output the sum over the block's rows of each column's
  squares.

  So after point n the first output holds, at column q,  0 + ∑_{t ≤ n} ∑_{r < 2000} X (2000 t + r, q)  — proved by
  induction on the point — and after the last point the 50 block sums regroup into the one sum over all 100000
  rows: addition of extended reals is commutative and associative everywhere, so no finiteness is needed. The
  results, for every core c and the region-entry contents V:

    the first output array ends at   fun i => ∑ r : Fin 100000, X (r, i₁)
    the second output array ends at  fun i => ∑ r : Fin 100000, X (r, i₁) * X (r, i₁)

  where X is the array of the region's window 0 as the region finds it. The three regions are the same text up to
  the region's number.
-/
import proofs.«179986_j62663572849123_1_alg».proof.Proof.Gen.KernelIdeal.Frame
import proofs.«179986_j62663572849123_1_alg».proof.Proof.LibBlockedSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.RegionStats

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

theorem hz : (![0, 0] : Fin 2 → Nat) = fun _ => 0 := funext fun a => by fin_cases a <;> rfl

/-! ## Column sums of an array of 100000 rows cut into 50 blocks of 2000 rows -/

/-- The sum down the columns of an [a, b] array (a reduction by addition over its first axis), at column q:
    the sum over the rows r of entry (r, q). -/
theorem columnSum_apply {a b : ℕ} (src : FVec Ideal ⟨2, ![a, b]⟩ .f32)
    (h : Shape.Reduces ⟨2, ![a, b]⟩ [0] ⟨1, ![b]⟩) (hφ : FKind.Formats .f32)
    (hacc : (0x00000000#32 : BitVec 32) = FKind.add.neutral .f32 hφ) (q : Fin b) :
    multiReduction .add [0] ⟨1, ![b]⟩ src 0x00000000#32 h hφ hacc (ix1 q)
      = ∑ r : Fin a, src (ix2 r q) := by
  refine (Ideal.multiReduction_add_single src 0x00000000#32 h hφ hacc (ix1 q)).trans ?_
  exact congrArg (Finset.univ.sum) (funext fun r => congrArg src (funext fun d => Fin.ext (by
    match d with
    | ⟨0, _⟩ => rfl
    | ⟨1, _⟩ => rfl)))

/-- Column q of X summed over the 2000 rows of block t (rows 2000 t … 2000 t + 1999); zero past the 50 blocks. -/
def blockCol (X : S100000x64.Idx → EReal) (q : Fin 64) (t : ℕ) : EReal :=
  if h : t < 50 then ∑ r : Fin 2000, X (ix2 ⟨t * 2000 + r.val, BlockedSum.block_pos_lt (nb := 50) ⟨t, h⟩ r⟩ q) else 0

/-- The squares of column q of X summed over the 2000 rows of block t; zero past the 50 blocks. -/
def blockColSq (X : S100000x64.Idx → EReal) (q : Fin 64) (t : ℕ) : EReal :=
  if h : t < 50 then ∑ r : Fin 2000, X (ix2 ⟨t * 2000 + r.val, BlockedSum.block_pos_lt (nb := 50) ⟨t, h⟩ r⟩ q)
      * X (ix2 ⟨t * 2000 + r.val, BlockedSum.block_pos_lt (nb := 50) ⟨t, h⟩ r⟩ q) else 0

/-- The 50 block sums of column q add up to the sum of the whole column: addition of extended reals is
    commutative and associative, so the sum over 100000 rows may be taken block by block. -/
theorem sum_blockCol (X : S100000x64.Idx → EReal) (q : Fin 64) :
    ∑ t ∈ Finset.range 50, blockCol X q t = ∑ r : Fin 100000, X (ix2 r q) := by
  rw [Finset.sum_range]
  have e : ∀ t : Fin 50, blockCol X q t.val
      = ∑ j : Fin 2000, X (ix2 ⟨t.val * 2000 + j.val, BlockedSum.block_pos_lt t j⟩ q) := fun t => dif_pos t.isLt
  rw [Finset.sum_congr rfl fun t _ => e t]
  exact BlockedSum.sum_blocks (nb := 50) (bs := 2000) (fun k : Fin (50 * 2000) => X (ix2 k q))

/-- The same for the squares. -/
theorem sum_blockColSq (X : S100000x64.Idx → EReal) (q : Fin 64) :
    ∑ t ∈ Finset.range 50, blockColSq X q t = ∑ r : Fin 100000, X (ix2 r q) * X (ix2 r q) := by
  rw [Finset.sum_range]
  have e : ∀ t : Fin 50, blockColSq X q t.val
      = ∑ j : Fin 2000, X (ix2 ⟨t.val * 2000 + j.val, BlockedSum.block_pos_lt t j⟩ q)
          * X (ix2 ⟨t.val * 2000 + j.val, BlockedSum.block_pos_lt t j⟩ q) := fun t => dif_pos t.isLt
  rw [Finset.sum_congr rfl fun t _ => e t]
  exact BlockedSum.sum_blocks (nb := 50) (bs := 2000) (fun k : Fin (50 * 2000) => X (ix2 k q) * X (ix2 k q))

/-! # Region 1: the two running column sums over the grid -/

section Pieces1
variable {F : FTy → Type} [FloatOps F]

/-- At a point after the first the first output's buffer is left at its update: the one store's payload,
    its loads reading the whole buffers. -/
theorem out1_B_1_eq (c : Dev nD) (i : grid1.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S2000x64 .f32) (xo1 xo2 : Vec F S1x64 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero hz]
  simp only [View.readAt_eq_ld, h1.read_unread, h2.read_unread, View.ld_unit_zero (S := S2000x64) hz,
    View.ld_unit_zero (S := S1x64) hz]

/-- The same for the second output. -/
theorem out1_B_2_eq (c : Dev nD) (i : grid1.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond1_0 i) (x : Vec F S2000x64 .f32) (xo1 xo2 : Vec F S1x64 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero hz]
  simp only [View.readAt_eq_ld, h1.read_unread, h3.read_unread, View.ld_unit_zero (S := S2000x64) hz,
    View.ld_unit_zero (S := S1x64) hz]

/-- At the first point the first output's buffer is zeroed, read back, and left at the update of the zero row. -/
theorem out1_A_1_eq (c : Dev nD) (i : grid1.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S2000x64 .f32) :
    out1_A_1 c i a1 h1 a2 h2 a3 h3 hc x = k1_pay4 x k1_pay1 := by
  unfold out1_A_1
  rw [View.read_writes_eq_canon _ _ _ (cover1_A_1 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S2000x64) hz]

/-- The same for the second output. -/
theorem out1_A_2_eq (c : Dev nD) (i : grid1.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond1_0 i) (x : Vec F S2000x64 .f32) :
    out1_A_2 c i a1 h1 a2 h2 a3 h3 hc x = k1_pay5 x k1_pay2 := by
  unfold out1_A_2
  rw [View.read_writes_eq_canon _ _ _ (cover1_A_2 c i a1 h1 a2 h2 a3 h3 hc x)]
  unfold kernelRun1_A
  dsimp only
  sl_unfold_words
  rw [View.canon_cons_unit_zero (S := S1x64) hz, View.readCov_unit_zero (S := S1x64) _ hz]
  simp only [View.readAt_eq_ld, h1.read_unread, View.ld_unit_zero (S := S2000x64) hz]

end Pieces1

/-- The zero row: every entry is the zero word's value. -/
theorem pay1_1_apply (j : S1x64.Idx) : k1_pay1 (F := Ideal) j = Ideal.ofBits .f32 0x00000000#32 := rfl
theorem pay1_2_apply (j : S1x64.Idx) : k1_pay2 (F := Ideal) j = Ideal.ofBits .f32 0x00000000#32 := rfl

/-- The first accumulator's update at column q: the old entry plus the sum of the block's column q. -/
theorem pay1_4_apply (x : Vec Ideal S2000x64 .f32) (acc : Vec Ideal S1x64 .f32) (u : Fin 1) (q : Fin 64) :
    k1_pay4 (F := Ideal) x acc (ix2 u q) = acc (ix2 u q) + ∑ r : Fin 2000, x (ix2 r q) := by
  unfold k1_pay4 k1_pay3
  dsimp only
  refine congrArg₂ (· + ·) (congrFun (shapeCast_self acc _) _) ?_
  refine (shapeCast_a_1a_apply _ _ u q).trans ?_
  refine (columnSum_apply _ _ _ _ q).trans ?_
  exact congrArg (Finset.univ.sum) (funext fun r => congrFun (shapeCast_self x _) _)

/-- The second accumulator's update at column q: the old entry plus the sum of the squares of the block's column q. -/
theorem pay1_5_apply (x : Vec Ideal S2000x64 .f32) (acc : Vec Ideal S1x64 .f32) (u : Fin 1) (q : Fin 64) :
    k1_pay5 (F := Ideal) x acc (ix2 u q) = acc (ix2 u q) + ∑ r : Fin 2000, x (ix2 r q) * x (ix2 r q) := by
  unfold k1_pay5 k1_pay3
  dsimp only
  refine congrArg₂ (· + ·) (congrFun (shapeCast_self acc _) _) ?_
  refine (shapeCast_a_1a_apply _ _ u q).trans ?_
  refine (columnSum_apply _ _ _ _ q).trans ?_
  exact congrArg (Finset.univ.sum) (funext fun r => by
    show shapeCast S2000x64 x _ (ix2 r q) * shapeCast S2000x64 x _ (ix2 r q) = _
    rw [shapeCast_self])

section Region1
variable (V : (c : Dev nD) → (b : Ref sig .tc) → Buf (Elt Ideal) ((c : Thread nD τ).loc b))

/-- The region's input array (window 0's array as the region finds it), with its literal type. -/
abbrev inArr1 (c : Dev nD) : S100000x64.Idx → EReal := V c (Pipeline.arrRef spec1 0)

/-- The index map of the input window: block (t, 0) at point t; of the two outputs: block (0, 0) at every point. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ (t : Fin cfg1.N) (a : Fin 2), win1_1.index t a = 0 :=
  (by decide +kernel : ∀ (t : Fin grid1.N) (a : Fin 2), win1_1.index t a = 0)
theorem idx1_2 : ∀ (t : Fin cfg1.N) (a : Fin 2), win1_2.index t a = 0 :=
  (by decide +kernel : ∀ (t : Fin grid1.N) (a : Fin 2), win1_2.index t a = 0)

/-- The input window's block at point t is rows 2000 t … 2000 t + 1999 of the region's input array. -/
theorem iblk1_0_apply (c : Dev nD) (t : Fin cfg1.N) (y : S2000x64.Idx) (k : S100000x64.Idx)
    (hk0 : (k 0).val = t.val * 2000 + (y 0).val) (hk1 : (k 1).val = (y 1).val) :
    (iblk1 (F := Ideal) V c 0 t : Vec Ideal S2000x64 .f32) y
      = inArr1 V c k := by
  have hi := idx1_0 t
  unfold iblk1
  rw [View.read_apply]
  show inArr1 V c _ = inArr1 V c k
  congr 1
  funext a
  apply Fin.ext
  match a with
  | ⟨0, _⟩ => show win1_0.index t 0 * 2000 + 1 * (y 0).val = (k 0).val; rw [hi.1, hk0]; omega
  | ⟨1, _⟩ => show win1_0.index t 1 * 64 + 1 * (y 1).val = (k 1).val; rw [hi.2, hk1]; omega

/-- So the block's column sums are the array's block column sums. -/
theorem blockCol1_eq (c : Dev nD) (t : Fin cfg1.N) (q : Fin 64) (x : Vec Ideal S2000x64 .f32)
    (hx : x = iblk1 (F := Ideal) V c 0 t) :
    ∑ r : Fin 2000, x (ix2 r q) = blockCol (inArr1 V c) q t.val := by
  have ht : t.val < 50 := lt_of_lt_of_eq t.isLt (show cfg1.N = 50 from N_1)
  subst hx
  unfold blockCol
  rw [dif_pos ht]
  exact Finset.sum_congr rfl fun r _ => iblk1_0_apply V c t (ix2 r q)
    (ix2 ⟨t.val * 2000 + r.val, BlockedSum.block_pos_lt (nb := 50) ⟨t.val, ht⟩ r⟩ q) rfl rfl

theorem blockColSq1_eq (c : Dev nD) (t : Fin cfg1.N) (q : Fin 64) (x : Vec Ideal S2000x64 .f32)
    (hx : x = iblk1 (F := Ideal) V c 0 t) :
    ∑ r : Fin 2000, x (ix2 r q) * x (ix2 r q) = blockColSq (inArr1 V c) q t.val := by
  have ht : t.val < 50 := lt_of_lt_of_eq t.isLt (show cfg1.N = 50 from N_1)
  subst hx
  unfold blockColSq
  rw [dif_pos ht]
  exact Finset.sum_congr rfl fun r _ => congrArg₂ (· * ·)
    (iblk1_0_apply V c t (ix2 r q) (ix2 ⟨t.val * 2000 + r.val, BlockedSum.block_pos_lt (nb := 50) ⟨t.val, ht⟩ r⟩ q) rfl rfl)
    (iblk1_0_apply V c t (ix2 r q) (ix2 ⟨t.val * 2000 + r.val, BlockedSum.block_pos_lt (nb := 50) ⟨t.val, ht⟩ r⟩ q) rfl rfl)

/-- THE INVARIANT, first output: after point n its buffer holds, at column q, zero plus the block column sums of
    blocks 0 … n. By induction on the point: point 0 zeroes and adds block 0, every later point adds its block to
    what the point before left. -/
theorem outs1_fst (c : Dev nD) : ∀ (n : ℕ) (h : n < cfg1.N) (u : Fin 1) (q : Fin 64),
    ((outsAt1 (F := Ideal) V c n h).1 : S1x64.Idx → EReal) (ix2 u q)
      = Ideal.ofBits .f32 0x00000000#32
        + ∑ t ∈ Finset.range (n + 1), blockCol (inArr1 V c) q t
  | 0, h, u, q => by
    refine (congrFun (congrArg Prod.fst (outsAt1_A (F := Ideal) V c ⟨0, h⟩ rfl)) (ix2 u q)).trans ?_
    refine (congrFun (out1_A_1_eq (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (iblk1 V c 0 ⟨0, h⟩)) (ix2 u q)).trans ?_
    refine (pay1_4_apply (iblk1 (F := Ideal) V c 0 ⟨0, h⟩) (k1_pay1 (F := Ideal)) u q).trans ?_
    rw [Finset.sum_range_one]
    exact congrArg₂ (· + ·) rfl (blockCol1_eq V c ⟨0, h⟩ q (iblk1 V c 0 ⟨0, h⟩) rfl)
  | n + 1, h, u, q => by
    have hN : cfg1.N = 50 := N_1
    have hB : ¬(⟨n + 1, h⟩ : Fin cfg1.N).val % 50 = 0 := by dsimp only; omega
    refine (congrFun (congrArg Prod.fst (outsAt1_B (F := Ideal) V c ⟨n + 1, h⟩ hB)) (ix2 u q)).trans ?_
    refine (congrFun (out1_B_1_eq (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (iblk1 V c 0 ⟨n + 1, h⟩)
      (outsAt1 V c n (Nat.lt_of_succ_lt h)).1 (outsAt1 V c n (Nat.lt_of_succ_lt h)).2) (ix2 u q)).trans ?_
    refine (pay1_4_apply (iblk1 (F := Ideal) V c 0 ⟨n + 1, h⟩) (outsAt1 V c n (Nat.lt_of_succ_lt h)).1 u q).trans ?_
    rw [outs1_fst c n (Nat.lt_of_succ_lt h) u q, Finset.sum_range_succ _ (n + 1), add_assoc]
    exact congrArg₂ (· + ·) rfl (congrArg₂ (· + ·) rfl (blockCol1_eq V c ⟨n + 1, h⟩ q (iblk1 V c 0 ⟨n + 1, h⟩) rfl))

/-- THE INVARIANT, second output: the same with the squares. -/
theorem outs1_snd (c : Dev nD) : ∀ (n : ℕ) (h : n < cfg1.N) (u : Fin 1) (q : Fin 64),
    ((outsAt1 (F := Ideal) V c n h).2 : S1x64.Idx → EReal) (ix2 u q)
      = Ideal.ofBits .f32 0x00000000#32
        + ∑ t ∈ Finset.range (n + 1), blockColSq (inArr1 V c) q t
  | 0, h, u, q => by
    refine (congrFun (congrArg Prod.snd (outsAt1_A (F := Ideal) V c ⟨0, h⟩ rfl)) (ix2 u q)).trans ?_
    refine (congrFun (out1_A_2_eq (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (iblk1 V c 0 ⟨0, h⟩)) (ix2 u q)).trans ?_
    refine (pay1_5_apply (iblk1 (F := Ideal) V c 0 ⟨0, h⟩) (k1_pay2 (F := Ideal)) u q).trans ?_
    rw [Finset.sum_range_one]
    exact congrArg₂ (· + ·) rfl (blockColSq1_eq V c ⟨0, h⟩ q (iblk1 V c 0 ⟨0, h⟩) rfl)
  | n + 1, h, u, q => by
    have hN : cfg1.N = 50 := N_1
    have hB : ¬(⟨n + 1, h⟩ : Fin cfg1.N).val % 50 = 0 := by dsimp only; omega
    refine (congrFun (congrArg Prod.snd (outsAt1_B (F := Ideal) V c ⟨n + 1, h⟩ hB)) (ix2 u q)).trans ?_
    refine (congrFun (out1_B_2_eq (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun hh => hB ((hcond1_0 ⟨n + 1, h⟩).mp hh)) (iblk1 V c 0 ⟨n + 1, h⟩)
      (outsAt1 V c n (Nat.lt_of_succ_lt h)).1 (outsAt1 V c n (Nat.lt_of_succ_lt h)).2) (ix2 u q)).trans ?_
    refine (pay1_5_apply (iblk1 (F := Ideal) V c 0 ⟨n + 1, h⟩) (outsAt1 V c n (Nat.lt_of_succ_lt h)).2 u q).trans ?_
    rw [outs1_snd c n (Nat.lt_of_succ_lt h) u q, Finset.sum_range_succ _ (n + 1), add_assoc]
    exact congrArg₂ (· + ·) rfl (congrArg₂ (· + ·) rfl (blockColSq1_eq V c ⟨n + 1, h⟩ q (iblk1 V c 0 ⟨n + 1, h⟩) rfl))

/-- The last point of the grid, the only one that writes the outputs back. -/
abbrev tLast1 : Fin cfg1.N := ⟨49, by rw [show cfg1.N = 50 from N_1]; decide⟩

/-- The column sums of the region's input array, as a [1, 64] row. -/
abbrev colSum1 (c : Dev nD) : S1x64.Idx → EReal :=
  fun i => ∑ r : Fin 100000, inArr1 V c (ix2 r (i 1))
/-- The column sums of squares of the region's input array, as a [1, 64] row. -/
abbrev colSumSq1 (c : Dev nD) : S1x64.Idx → EReal :=
  fun i => ∑ r : Fin 100000, inArr1 V c (ix2 r (i 1))
    * inArr1 V c (ix2 r (i 1))

/-- After the last point the first output's buffer holds the column sums: the 50 block sums regrouped. -/
theorem last1_fst (c : Dev nD) : (outsAt1 (F := Ideal) V c tLast1.val tLast1.isLt).1 = colSum1 V c := by
  funext i
  obtain ⟨u, q, rfl⟩ : ∃ (u : Fin 1) (q : Fin 64), i = ix2 u q := ⟨i 0, i 1, eq_ix2 i⟩
  refine (outs1_fst V c 49 tLast1.isLt u q).trans ?_
  rw [Ideal.ofBits_zero_f32, zero_add]
  exact sum_blockCol _ q

theorem last1_snd (c : Dev nD) : (outsAt1 (F := Ideal) V c tLast1.val tLast1.isLt).2 = colSumSq1 V c := by
  funext i
  obtain ⟨u, q, rfl⟩ : ∃ (u : Fin 1) (q : Fin 64), i = ix2 u q := ⟨i 0, i 1, eq_ix2 i⟩
  refine (outs1_snd V c 49 tLast1.isLt u q).trans ?_
  rw [Ideal.ofBits_zero_f32, zero_add]
  exact sum_blockColSq _ q

/-- The one write-back of the first output, at the last point, writes the column sums: block (0, 0) of the [1, 64]
    array read through zero offsets is the array. -/
theorem flushed1_1_eq (c : Dev nD) (t : Fin cfg1.N) (hf : (cfg1.win 1).flush t = true) :
    (dat1 (F := Ideal) V c).flushed 1 t = ((cfg1.win 1).blk t).view.read (Elt Ideal) (colSum1 V c) := by
  have hN : cfg1.N = 50 := N_1
  have h49 : t.val = 49 := by have := (flush1_1 t).mp hf; have := t.isLt; omega
  obtain rfl : t = tLast1 := Fin.ext h49
  show (cfg1.win 1).cut (grid1.coords tLast1) ((dat1 V c).after 1 tLast1) = _
  rw [after1_1, last1_fst]
  have hz' : (fun a => win1_1.index tLast1 a * main_v47_0.ty.shape.size a) = fun _ => 0 :=
    funext fun a => by rw [idx1_1]; exact Nat.zero_mul _
  exact (Memref.read_access_unit_zero (Elt Ideal) main_v47_0 hz' (fun a => by rw [congrFun hz' a]; simp) (colSum1 V c)).symm

theorem flushed1_2_eq (c : Dev nD) (t : Fin cfg1.N) (hf : (cfg1.win 2).flush t = true) :
    (dat1 (F := Ideal) V c).flushed 2 t = ((cfg1.win 2).blk t).view.read (Elt Ideal) (colSumSq1 V c) := by
  have hN : cfg1.N = 50 := N_1
  have h49 : t.val = 49 := by have := (flush1_2 t).mp hf; have := t.isLt; omega
  obtain rfl : t = tLast1 := Fin.ext h49
  show (cfg1.win 2).cut (grid1.coords tLast1) ((dat1 V c).after 2 tLast1) = _
  rw [after1_2, last1_snd]
  have hz' : (fun a => win1_2.index tLast1 a * main_v47_1.ty.shape.size a) = fun _ => 0 :=
    funext fun a => by rw [idx1_2]; exact Nat.zero_mul _
  exact (Memref.read_access_unit_zero (Elt Ideal) main_v47_1 hz' (fun a => by rw [congrFun hz' a]; simp) (colSumSq1 V c)).symm

/-- THE FIRST RESULT of region 1: the output array ends holding, at column i₁, the sum of column i₁ of the
    region's input array over all 100000 rows. -/
theorem stats1_sum (c : Dev nD) :
    ((dat1 (F := Ideal) V c).arrAt 1 cfg1.N : S1x64.Idx → EReal)
      = fun i => ∑ r : Fin 100000, inArr1 V c (ix2 r (i 1)) :=
  (dat1 (F := Ideal) V c).arrAt_eq_of_cover 1 (colSum1 V c) (flushed1_1_eq V c) fun i =>
    ⟨tLast1, (flush1_1 tLast1).mpr rfl, by
      show i ∈ ((View.whole main_v47_0).slice (win1_1.rect tLast1)).set
      rw [View.set_slice_whole, Rect.mem_set_unit]
      intro a
      have h0 : (i 0 : Nat) < 1 := (i 0).isLt
      have h1 : (i 1 : Nat) < 64 := (i 1).isLt
      match a with
      | ⟨0, _⟩ => show win1_1.index tLast1 0 * win1_1.size 0 ≤ (i 0 : Nat) ∧ (i 0 : Nat) < win1_1.index tLast1 0 * win1_1.size 0 + win1_1.xsize (grid1.coords tLast1) 0
                  rw [idx1_1 tLast1 0, show win1_1.xsize (grid1.coords tLast1) 0 = 1 from by decide +kernel]; omega
      | ⟨1, _⟩ => show win1_1.index tLast1 1 * win1_1.size 1 ≤ (i 1 : Nat) ∧ (i 1 : Nat) < win1_1.index tLast1 1 * win1_1.size 1 + win1_1.xsize (grid1.coords tLast1) 1
                  rw [idx1_1 tLast1 1, show win1_1.xsize (grid1.coords tLast1) 1 = 64 from by decide +kernel]; omega⟩

/-- THE SECOND RESULT of region 1: the output array ends holding, at column i₁, the sum of the squares of
    column i₁ of the region's input array over all 100000 rows. -/
theorem stats1_sumsq (c : Dev nD) :
    ((dat1 (F := Ideal) V c).arrAt 2 cfg1.N : S1x64.Idx → EReal)
      = fun i => ∑ r : Fin 100000, inArr1 V c (ix2 r (i 1))
          * inArr1 V c (ix2 r (i 1)) :=
  (dat1 (F := Ideal) V c).arrAt_eq_of_cover 2 (colSumSq1 V c) (flushed1_2_eq V c) fun i =>
    ⟨tLast1, (flush1_2 tLast1).mpr rfl, by
      show i ∈ ((View.whole main_v47_1).slice (win1_2.rect tLast1)).set
      rw [View.set_slice_whole, Rect.mem_set_unit]
      intro a
      have h0 : (i 0 : Nat) < 1 := (i 0).isLt
      have h1 : (i 1 : Nat) < 64 := (i 1).isLt
      match a with
      | ⟨0, _⟩ => show win1_2.index tLast1 0 * win1_2.size 0 ≤ (i 0 : Nat) ∧ (i 0 : Nat) < win1_2.index tLast1 0 * win1_2.size 0 + win1_2.xsize (grid1.coords tLast1) 0
                  rw [idx1_2 tLast1 0, show win1_2.xsize (grid1.coords tLast1) 0 = 1 from by decide +kernel]; omega
      | ⟨1, _⟩ => show win1_2.index tLast1 1 * win1_2.size 1 ≤ (i 1 : Nat) ∧ (i 1 : Nat) < win1_2.index tLast1 1 * win1_2.size 1 + win1_2.xsize (grid1.coords tLast1) 1
                  rw [idx1_2 tLast1 1, show win1_2.xsize (grid1.coords tLast1) 1 = 64 from by decide +kernel]; omega⟩

end Region1

/-! # Region 4: the two running column sums over the grid -/

section Pieces4
variable {F : FTy → Type} [FloatOps F]

/-- At a point after the first the first output's buffer is left at its update: the one store's payload,
    its loads reading the whole buffers. -/
theorem out4_B_1_eq (c : Dev nD) (i : grid4.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S2000x64 .f32) (xo1 xo2 : Vec F S1x64 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  sl_unfold_words
  rw [View.canon_unit_zero hz]
  simp only [View.readAt_eq_ld, h1.read_unread, h2.read_unread, View.ld_unit_zero (S := S2000x64) hz,
    View.ld_unit_zero (S := S1x64) hz]

/-- The same for the second output. -/
theorem out4_B_2_eq (c : Dev nD) (i : grid4.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond4_0 i) (x : Vec F S2000x64 .f32) (xo1 xo2 : Vec F S1x64 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  sl_unfold_words
  rw [View.canon_unit_zero hz]
  simp only [View.readAt_eq_ld, h1.read_unread, h3.read_unread, View.ld_unit_zero (S := S2000x64) hz,
    View.ld_unit_zero (S := S1x64) hz]

/-- At the first point the first output's buffer is zeroed, read back, and left at the update of the zero row. -/
theorem out4_A_1_eq (c : Dev nD) (i : grid4.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S2000x64 .f32) :
    out4_A_1 c i a1 h1 a2 h2 a3 h3 hc x = k4_pay4 x k4_pay1 := by
  unfold out4_A_1
  rw [View.read_writes_eq_canon _ _ _ (cover4_A_1 c i a1 h1 a2 h2 a3 h3 hc x)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S2000x64) hz]

/-- The same for the second output. -/
theorem out4_A_2_eq (c : Dev nD) (i : grid4.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond4_0 i) (x : Vec F S2000x64 .f32) :
    out4_A_2 c i a1 h1 a2 h2 a3 h3 hc x = k4_pay5 x k4_pay2 := by
  unfold out4_A_2
  rw [View.read_writes_eq_canon _ _ _ (cover4_A_2 c i a1 h1 a2 h2 a3 h3 hc x)]
  unfold kernelRun4_A
  dsimp only
  sl_unfold_words
  rw [View.canon_cons_unit_zero (S := S1x64) hz, View.readCov_unit_zero (S := S1x64) _ hz]
  simp only [View.readAt_eq_ld, h1.read_unread, View.ld_unit_zero (S := S2000x64) hz]

end Pieces4

/-- The zero row: every entry is the zero word's value. -/
theorem pay4_1_apply (j : S1x64.Idx) : k4_pay1 (F := Ideal) j = Ideal.ofBits .f32 0x00000000#32 := rfl
theorem pay4_2_apply (j : S1x64.Idx) : k4_pay2 (F := Ideal) j = Ideal.ofBits .f32 0x00000000#32 := rfl

/-- The first accumulator's update at column q: the old entry plus the sum of the block's column q. -/
theorem pay4_4_apply (x : Vec Ideal S2000x64 .f32) (acc : Vec Ideal S1x64 .f32) (u : Fin 1) (q : Fin 64) :
    k4_pay4 (F := Ideal) x acc (ix2 u q) = acc (ix2 u q) + ∑ r : Fin 2000, x (ix2 r q) := by
  unfold k4_pay4 k4_pay3
  dsimp only
  refine congrArg₂ (· + ·) (congrFun (shapeCast_self acc _) _) ?_
  refine (shapeCast_a_1a_apply _ _ u q).trans ?_
  refine (columnSum_apply _ _ _ _ q).trans ?_
  exact congrArg (Finset.univ.sum) (funext fun r => congrFun (shapeCast_self x _) _)

/-- The second accumulator's update at column q: the old entry plus the sum of the squares of the block's column q. -/
theorem pay4_5_apply (x : Vec Ideal S2000x64 .f32) (acc : Vec Ideal S1x64 .f32) (u : Fin 1) (q : Fin 64) :
    k4_pay5 (F := Ideal) x acc (ix2 u q) = acc (ix2 u q) + ∑ r : Fin 2000, x (ix2 r q) * x (ix2 r q) := by
  unfold k4_pay5 k4_pay3
  dsimp only
  refine congrArg₂ (· + ·) (congrFun (shapeCast_self acc _) _) ?_
  refine (shapeCast_a_1a_apply _ _ u q).trans ?_
  refine (columnSum_apply _ _ _ _ q).trans ?_
  exact congrArg (Finset.univ.sum) (funext fun r => by
    show shapeCast S2000x64 x _ (ix2 r q) * shapeCast S2000x64 x _ (ix2 r q) = _
    rw [shapeCast_self])

section Region4
variable (V : (c : Dev nD) → (b : Ref sig .tc) → Buf (Elt Ideal) ((c : Thread nD τ).loc b))

/-- The region's input array (window 0's array as the region finds it), with its literal type. -/
abbrev inArr4 (c : Dev nD) : S100000x64.Idx → EReal := V c (Pipeline.arrRef spec4 0)

/-- The index map of the input window: block (t, 0) at point t; of the two outputs: block (0, 0) at every point. -/
theorem idx4_0 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)
theorem idx4_1 : ∀ (t : Fin cfg4.N) (a : Fin 2), win4_1.index t a = 0 :=
  (by decide +kernel : ∀ (t : Fin grid4.N) (a : Fin 2), win4_1.index t a = 0)
theorem idx4_2 : ∀ (t : Fin cfg4.N) (a : Fin 2), win4_2.index t a = 0 :=
  (by decide +kernel : ∀ (t : Fin grid4.N) (a : Fin 2), win4_2.index t a = 0)

/-- The input window's block at point t is rows 2000 t … 2000 t + 1999 of the region's input array. -/
theorem iblk4_0_apply (c : Dev nD) (t : Fin cfg4.N) (y : S2000x64.Idx) (k : S100000x64.Idx)
    (hk0 : (k 0).val = t.val * 2000 + (y 0).val) (hk1 : (k 1).val = (y 1).val) :
    (iblk4 (F := Ideal) V c 0 t : Vec Ideal S2000x64 .f32) y
      = inArr4 V c k := by
  have hi := idx4_0 t
  unfold iblk4
  rw [View.read_apply]
  show inArr4 V c _ = inArr4 V c k
  congr 1
  funext a
  apply Fin.ext
  match a with
  | ⟨0, _⟩ => show win4_0.index t 0 * 2000 + 1 * (y 0).val = (k 0).val; rw [hi.1, hk0]; omega
  | ⟨1, _⟩ => show win4_0.index t 1 * 64 + 1 * (y 1).val = (k 1).val; rw [hi.2, hk1]; omega

/-- So the block's column sums are the array's block column sums. -/
theorem blockCol4_eq (c : Dev nD) (t : Fin cfg4.N) (q : Fin 64) (x : Vec Ideal S2000x64 .f32)
    (hx : x = iblk4 (F := Ideal) V c 0 t) :
    ∑ r : Fin 2000, x (ix2 r q) = blockCol (inArr4 V c) q t.val := by
  have ht : t.val < 50 := lt_of_lt_of_eq t.isLt (show cfg4.N = 50 from N_4)
  subst hx
  unfold blockCol
  rw [dif_pos ht]
  exact Finset.sum_congr rfl fun r _ => iblk4_0_apply V c t (ix2 r q)
    (ix2 ⟨t.val * 2000 + r.val, BlockedSum.block_pos_lt (nb := 50) ⟨t.val, ht⟩ r⟩ q) rfl rfl

theorem blockColSq4_eq (c : Dev nD) (t : Fin cfg4.N) (q : Fin 64) (x : Vec Ideal S2000x64 .f32)
    (hx : x = iblk4 (F := Ideal) V c 0 t) :
    ∑ r : Fin 2000, x (ix2 r q) * x (ix2 r q) = blockColSq (inArr4 V c) q t.val := by
  have ht : t.val < 50 := lt_of_lt_of_eq t.isLt (show cfg4.N = 50 from N_4)
  subst hx
  unfold blockColSq
  rw [dif_pos ht]
  exact Finset.sum_congr rfl fun r _ => congrArg₂ (· * ·)
    (iblk4_0_apply V c t (ix2 r q) (ix2 ⟨t.val * 2000 + r.val, BlockedSum.block_pos_lt (nb := 50) ⟨t.val, ht⟩ r⟩ q) rfl rfl)
    (iblk4_0_apply V c t (ix2 r q) (ix2 ⟨t.val * 2000 + r.val, BlockedSum.block_pos_lt (nb := 50) ⟨t.val, ht⟩ r⟩ q) rfl rfl)

/-- THE INVARIANT, first output: after point n its buffer holds, at column q, zero plus the block column sums of
    blocks 0 … n. By induction on the point: point 0 zeroes and adds block 0, every later point adds its block to
    what the point before left. -/
theorem outs4_fst (c : Dev nD) : ∀ (n : ℕ) (h : n < cfg4.N) (u : Fin 1) (q : Fin 64),
    ((outsAt4 (F := Ideal) V c n h).1 : S1x64.Idx → EReal) (ix2 u q)
      = Ideal.ofBits .f32 0x00000000#32
        + ∑ t ∈ Finset.range (n + 1), blockCol (inArr4 V c) q t
  | 0, h, u, q => by
    refine (congrFun (congrArg Prod.fst (outsAt4_A (F := Ideal) V c ⟨0, h⟩ rfl)) (ix2 u q)).trans ?_
    refine (congrFun (out4_A_1_eq (F := Ideal) c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) ((hcond4_0 ⟨0, h⟩).mpr rfl) (iblk4 V c 0 ⟨0, h⟩)) (ix2 u q)).trans ?_
    refine (pay4_4_apply (iblk4 (F := Ideal) V c 0 ⟨0, h⟩) (k4_pay1 (F := Ideal)) u q).trans ?_
    rw [Finset.sum_range_one]
    exact congrArg₂ (· + ·) rfl (blockCol4_eq V c ⟨0, h⟩ q (iblk4 V c 0 ⟨0, h⟩) rfl)
  | n + 1, h, u, q => by
    have hN : cfg4.N = 50 := N_4
    have hB : ¬(⟨n + 1, h⟩ : Fin cfg4.N).val % 50 = 0 := by dsimp only; omega
    refine (congrFun (congrArg Prod.fst (outsAt4_B (F := Ideal) V c ⟨n + 1, h⟩ hB)) (ix2 u q)).trans ?_
    refine (congrFun (out4_B_1_eq (F := Ideal) c (grid4.coords ⟨n + 1, h⟩) (ms4_0 ⟨n + 1, h⟩) (hs4_0 ⟨n + 1, h⟩) (ms4_1 ⟨n + 1, h⟩) (hs4_1 ⟨n + 1, h⟩)
      (ms4_2 ⟨n + 1, h⟩) (hs4_2 ⟨n + 1, h⟩) (fun hh => hB ((hcond4_0 ⟨n + 1, h⟩).mp hh)) (iblk4 V c 0 ⟨n + 1, h⟩)
      (outsAt4 V c n (Nat.lt_of_succ_lt h)).1 (outsAt4 V c n (Nat.lt_of_succ_lt h)).2) (ix2 u q)).trans ?_
    refine (pay4_4_apply (iblk4 (F := Ideal) V c 0 ⟨n + 1, h⟩) (outsAt4 V c n (Nat.lt_of_succ_lt h)).1 u q).trans ?_
    rw [outs4_fst c n (Nat.lt_of_succ_lt h) u q, Finset.sum_range_succ _ (n + 1), add_assoc]
    exact congrArg₂ (· + ·) rfl (congrArg₂ (· + ·) rfl (blockCol4_eq V c ⟨n + 1, h⟩ q (iblk4 V c 0 ⟨n + 1, h⟩) rfl))

/-- THE INVARIANT, second output: the same with the squares. -/
theorem outs4_snd (c : Dev nD) : ∀ (n : ℕ) (h : n < cfg4.N) (u : Fin 1) (q : Fin 64),
    ((outsAt4 (F := Ideal) V c n h).2 : S1x64.Idx → EReal) (ix2 u q)
      = Ideal.ofBits .f32 0x00000000#32
        + ∑ t ∈ Finset.range (n + 1), blockColSq (inArr4 V c) q t
  | 0, h, u, q => by
    refine (congrFun (congrArg Prod.snd (outsAt4_A (F := Ideal) V c ⟨0, h⟩ rfl)) (ix2 u q)).trans ?_
    refine (congrFun (out4_A_2_eq (F := Ideal) c (grid4.coords ⟨0, h⟩) (ms4_0 ⟨0, h⟩) (hs4_0 ⟨0, h⟩) (ms4_1 ⟨0, h⟩) (hs4_1 ⟨0, h⟩)
      (ms4_2 ⟨0, h⟩) (hs4_2 ⟨0, h⟩) ((hcond4_0 ⟨0, h⟩).mpr rfl) (iblk4 V c 0 ⟨0, h⟩)) (ix2 u q)).trans ?_
    refine (pay4_5_apply (iblk4 (F := Ideal) V c 0 ⟨0, h⟩) (k4_pay2 (F := Ideal)) u q).trans ?_
    rw [Finset.sum_range_one]
    exact congrArg₂ (· + ·) rfl (blockColSq4_eq V c ⟨0, h⟩ q (iblk4 V c 0 ⟨0, h⟩) rfl)
  | n + 1, h, u, q => by
    have hN : cfg4.N = 50 := N_4
    have hB : ¬(⟨n + 1, h⟩ : Fin cfg4.N).val % 50 = 0 := by dsimp only; omega
    refine (congrFun (congrArg Prod.snd (outsAt4_B (F := Ideal) V c ⟨n + 1, h⟩ hB)) (ix2 u q)).trans ?_
    refine (congrFun (out4_B_2_eq (F := Ideal) c (grid4.coords ⟨n + 1, h⟩) (ms4_0 ⟨n + 1, h⟩) (hs4_0 ⟨n + 1, h⟩) (ms4_1 ⟨n + 1, h⟩) (hs4_1 ⟨n + 1, h⟩)
      (ms4_2 ⟨n + 1, h⟩) (hs4_2 ⟨n + 1, h⟩) (fun hh => hB ((hcond4_0 ⟨n + 1, h⟩).mp hh)) (iblk4 V c 0 ⟨n + 1, h⟩)
      (outsAt4 V c n (Nat.lt_of_succ_lt h)).1 (outsAt4 V c n (Nat.lt_of_succ_lt h)).2) (ix2 u q)).trans ?_
    refine (pay4_5_apply (iblk4 (F := Ideal) V c 0 ⟨n + 1, h⟩) (outsAt4 V c n (Nat.lt_of_succ_lt h)).2 u q).trans ?_
    rw [outs4_snd c n (Nat.lt_of_succ_lt h) u q, Finset.sum_range_succ _ (n + 1), add_assoc]
    exact congrArg₂ (· + ·) rfl (congrArg₂ (· + ·) rfl (blockColSq4_eq V c ⟨n + 1, h⟩ q (iblk4 V c 0 ⟨n + 1, h⟩) rfl))

/-- The last point of the grid, the only one that writes the outputs back. -/
abbrev tLast4 : Fin cfg4.N := ⟨49, by rw [show cfg4.N = 50 from N_4]; decide⟩

/-- The column sums of the region's input array, as a [1, 64] row. -/
abbrev colSum4 (c : Dev nD) : S1x64.Idx → EReal :=
  fun i => ∑ r : Fin 100000, inArr4 V c (ix2 r (i 1))
/-- The column sums of squares of the region's input array, as a [1, 64] row. -/
abbrev colSumSq4 (c : Dev nD) : S1x64.Idx → EReal :=
  fun i => ∑ r : Fin 100000, inArr4 V c (ix2 r (i 1))
    * inArr4 V c (ix2 r (i 1))

/-- After the last point the first output's buffer holds the column sums: the 50 block sums regrouped. -/
theorem last4_fst (c : Dev nD) : (outsAt4 (F := Ideal) V c tLast4.val tLast4.isLt).1 = colSum4 V c := by
  funext i
  obtain ⟨u, q, rfl⟩ : ∃ (u : Fin 1) (q : Fin 64), i = ix2 u q := ⟨i 0, i 1, eq_ix2 i⟩
  refine (outs4_fst V c 49 tLast4.isLt u q).trans ?_
  rw [Ideal.ofBits_zero_f32, zero_add]
  exact sum_blockCol _ q

theorem last4_snd (c : Dev nD) : (outsAt4 (F := Ideal) V c tLast4.val tLast4.isLt).2 = colSumSq4 V c := by
  funext i
  obtain ⟨u, q, rfl⟩ : ∃ (u : Fin 1) (q : Fin 64), i = ix2 u q := ⟨i 0, i 1, eq_ix2 i⟩
  refine (outs4_snd V c 49 tLast4.isLt u q).trans ?_
  rw [Ideal.ofBits_zero_f32, zero_add]
  exact sum_blockColSq _ q

/-- The one write-back of the first output, at the last point, writes the column sums: block (0, 0) of the [1, 64]
    array read through zero offsets is the array. -/
theorem flushed4_1_eq (c : Dev nD) (t : Fin cfg4.N) (hf : (cfg4.win 1).flush t = true) :
    (dat4 (F := Ideal) V c).flushed 1 t = ((cfg4.win 1).blk t).view.read (Elt Ideal) (colSum4 V c) := by
  have hN : cfg4.N = 50 := N_4
  have h49 : t.val = 49 := by have := (flush4_1 t).mp hf; have := t.isLt; omega
  obtain rfl : t = tLast4 := Fin.ext h49
  show (cfg4.win 1).cut (grid4.coords tLast4) ((dat4 V c).after 1 tLast4) = _
  rw [after4_1, last4_fst]
  have hz' : (fun a => win4_1.index tLast4 a * main_v74_0.ty.shape.size a) = fun _ => 0 :=
    funext fun a => by rw [idx4_1]; exact Nat.zero_mul _
  exact (Memref.read_access_unit_zero (Elt Ideal) main_v74_0 hz' (fun a => by rw [congrFun hz' a]; simp) (colSum4 V c)).symm

theorem flushed4_2_eq (c : Dev nD) (t : Fin cfg4.N) (hf : (cfg4.win 2).flush t = true) :
    (dat4 (F := Ideal) V c).flushed 2 t = ((cfg4.win 2).blk t).view.read (Elt Ideal) (colSumSq4 V c) := by
  have hN : cfg4.N = 50 := N_4
  have h49 : t.val = 49 := by have := (flush4_2 t).mp hf; have := t.isLt; omega
  obtain rfl : t = tLast4 := Fin.ext h49
  show (cfg4.win 2).cut (grid4.coords tLast4) ((dat4 V c).after 2 tLast4) = _
  rw [after4_2, last4_snd]
  have hz' : (fun a => win4_2.index tLast4 a * main_v74_1.ty.shape.size a) = fun _ => 0 :=
    funext fun a => by rw [idx4_2]; exact Nat.zero_mul _
  exact (Memref.read_access_unit_zero (Elt Ideal) main_v74_1 hz' (fun a => by rw [congrFun hz' a]; simp) (colSumSq4 V c)).symm

/-- THE FIRST RESULT of region 4: the output array ends holding, at column i₁, the sum of column i₁ of the
    region's input array over all 100000 rows. -/
theorem stats4_sum (c : Dev nD) :
    ((dat4 (F := Ideal) V c).arrAt 1 cfg4.N : S1x64.Idx → EReal)
      = fun i => ∑ r : Fin 100000, inArr4 V c (ix2 r (i 1)) :=
  (dat4 (F := Ideal) V c).arrAt_eq_of_cover 1 (colSum4 V c) (flushed4_1_eq V c) fun i =>
    ⟨tLast4, (flush4_1 tLast4).mpr rfl, by
      show i ∈ ((View.whole main_v74_0).slice (win4_1.rect tLast4)).set
      rw [View.set_slice_whole, Rect.mem_set_unit]
      intro a
      have h0 : (i 0 : Nat) < 1 := (i 0).isLt
      have h1 : (i 1 : Nat) < 64 := (i 1).isLt
      match a with
      | ⟨0, _⟩ => show win4_1.index tLast4 0 * win4_1.size 0 ≤ (i 0 : Nat) ∧ (i 0 : Nat) < win4_1.index tLast4 0 * win4_1.size 0 + win4_1.xsize (grid4.coords tLast4) 0
                  rw [idx4_1 tLast4 0, show win4_1.xsize (grid4.coords tLast4) 0 = 1 from by decide +kernel]; omega
      | ⟨1, _⟩ => show win4_1.index tLast4 1 * win4_1.size 1 ≤ (i 1 : Nat) ∧ (i 1 : Nat) < win4_1.index tLast4 1 * win4_1.size 1 + win4_1.xsize (grid4.coords tLast4) 1
                  rw [idx4_1 tLast4 1, show win4_1.xsize (grid4.coords tLast4) 1 = 64 from by decide +kernel]; omega⟩

/-- THE SECOND RESULT of region 4: the output array ends holding, at column i₁, the sum of the squares of
    column i₁ of the region's input array over all 100000 rows. -/
theorem stats4_sumsq (c : Dev nD) :
    ((dat4 (F := Ideal) V c).arrAt 2 cfg4.N : S1x64.Idx → EReal)
      = fun i => ∑ r : Fin 100000, inArr4 V c (ix2 r (i 1))
          * inArr4 V c (ix2 r (i 1)) :=
  (dat4 (F := Ideal) V c).arrAt_eq_of_cover 2 (colSumSq4 V c) (flushed4_2_eq V c) fun i =>
    ⟨tLast4, (flush4_2 tLast4).mpr rfl, by
      show i ∈ ((View.whole main_v74_1).slice (win4_2.rect tLast4)).set
      rw [View.set_slice_whole, Rect.mem_set_unit]
      intro a
      have h0 : (i 0 : Nat) < 1 := (i 0).isLt
      have h1 : (i 1 : Nat) < 64 := (i 1).isLt
      match a with
      | ⟨0, _⟩ => show win4_2.index tLast4 0 * win4_2.size 0 ≤ (i 0 : Nat) ∧ (i 0 : Nat) < win4_2.index tLast4 0 * win4_2.size 0 + win4_2.xsize (grid4.coords tLast4) 0
                  rw [idx4_2 tLast4 0, show win4_2.xsize (grid4.coords tLast4) 0 = 1 from by decide +kernel]; omega
      | ⟨1, _⟩ => show win4_2.index tLast4 1 * win4_2.size 1 ≤ (i 1 : Nat) ∧ (i 1 : Nat) < win4_2.index tLast4 1 * win4_2.size 1 + win4_2.xsize (grid4.coords tLast4) 1
                  rw [idx4_2 tLast4 1, show win4_2.xsize (grid4.coords tLast4) 1 = 64 from by decide +kernel]; omega⟩

end Region4

/-! # Region 7: the two running column sums over the grid -/

section Pieces7
variable {F : FTy → Type} [FloatOps F]

/-- At a point after the first the first output's buffer is left at its update: the one store's payload,
    its loads reading the whole buffers. -/
theorem out7_B_1_eq (c : Dev nD) (i : grid7.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S2000x64 .f32) (xo1 xo2 : Vec F S1x64 .f32) :
    out7_B_1 c i a1 h1 a2 h2 a3 h3 hc x xo1 xo2 = k7_pay4 x xo1 := by
  unfold out7_B_1
  rw [View.read_writes_eq_canon _ _ _ (cover7_B_1 c i a1 h1 a2 h2 a3 h3 hc x xo1 xo2)]
  unfold kernelRun7_B
  dsimp only
  sl_unfold_words
  rw [View.canon_unit_zero hz]
  simp only [View.readAt_eq_ld, h1.read_unread, h2.read_unread, View.ld_unit_zero (S := S2000x64) hz,
    View.ld_unit_zero (S := S1x64) hz]

/-- The same for the second output. -/
theorem out7_B_2_eq (c : Dev nD) (i : grid7.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : ¬cond7_0 i) (x : Vec F S2000x64 .f32) (xo1 xo2 : Vec F S1x64 .f32) :
    out7_B_2 c i a1 h1 a2 h2 a3 h3 hc x xo1 xo2 = k7_pay5 x xo2 := by
  unfold out7_B_2
  rw [View.read_writes_eq_canon _ _ _ (cover7_B_2 c i a1 h1 a2 h2 a3 h3 hc x xo1 xo2)]
  unfold kernelRun7_B
  dsimp only
  sl_unfold_words
  rw [View.canon_unit_zero hz]
  simp only [View.readAt_eq_ld, h1.read_unread, h3.read_unread, View.ld_unit_zero (S := S2000x64) hz,
    View.ld_unit_zero (S := S1x64) hz]

/-- At the first point the first output's buffer is zeroed, read back, and left at the update of the zero row. -/
theorem out7_A_1_eq (c : Dev nD) (i : grid7.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S2000x64 .f32) :
    out7_A_1 c i a1 h1 a2 h2 a3 h3 hc x = k7_pay4 x k7_pay1 := by
  unfold out7_A_1
  rw [View.read_writes_eq_canon _ _ _ (cover7_A_1 c i a1 h1 a2 h2 a3 h3 hc x)]
  unfold kernelRun7_A
  dsimp only
  sl_unfold_words
  rw [View.canon_cons_unit_zero (S := S1x64) hz, View.readCov_unit_zero (S := S1x64) _ hz]
  simp only [View.readAt_eq_ld, h1.read_unread, View.ld_unit_zero (S := S2000x64) hz]

/-- The same for the second output. -/
theorem out7_A_2_eq (c : Dev nD) (i : grid7.Coords) (a1 : Memref sig .tc .vmem S2000x64 .f32) (h1 : a1.IsWhole)
    (a2 : Memref sig .tc .vmem S1x64 .f32) (h2 : a2.IsWhole) (a3 : Memref sig .tc .vmem S1x64 .f32) (h3 : a3.IsWhole)
    (hc : cond7_0 i) (x : Vec F S2000x64 .f32) :
    out7_A_2 c i a1 h1 a2 h2 a3 h3 hc x = k7_pay5 x k7_pay2 := by
  unfold out7_A_2
  rw [View.read_writes_eq_canon _ _ _ (cover7_A_2 c i a1 h1 a2 h2 a3 h3 hc x)]
  unfold kernelRun7_A
  dsimp only
  sl_unfold_words
  rw [View.canon_cons_unit_zero (S := S1x64) hz, View.readCov_unit_zero (S := S1x64) _ hz]
  simp only [View.readAt_eq_ld, h1.read_unread, View.ld_unit_zero (S := S2000x64) hz]

end Pieces7

/-- The zero row: every entry is the zero word's value. -/
theorem pay7_1_apply (j : S1x64.Idx) : k7_pay1 (F := Ideal) j = Ideal.ofBits .f32 0x00000000#32 := rfl
theorem pay7_2_apply (j : S1x64.Idx) : k7_pay2 (F := Ideal) j = Ideal.ofBits .f32 0x00000000#32 := rfl

/-- The first accumulator's update at column q: the old entry plus the sum of the block's column q. -/
theorem pay7_4_apply (x : Vec Ideal S2000x64 .f32) (acc : Vec Ideal S1x64 .f32) (u : Fin 1) (q : Fin 64) :
    k7_pay4 (F := Ideal) x acc (ix2 u q) = acc (ix2 u q) + ∑ r : Fin 2000, x (ix2 r q) := by
  unfold k7_pay4 k7_pay3
  dsimp only
  refine congrArg₂ (· + ·) (congrFun (shapeCast_self acc _) _) ?_
  refine (shapeCast_a_1a_apply _ _ u q).trans ?_
  refine (columnSum_apply _ _ _ _ q).trans ?_
  exact congrArg (Finset.univ.sum) (funext fun r => congrFun (shapeCast_self x _) _)

/-- The second accumulator's update at column q: the old entry plus the sum of the squares of the block's column q. -/
theorem pay7_5_apply (x : Vec Ideal S2000x64 .f32) (acc : Vec Ideal S1x64 .f32) (u : Fin 1) (q : Fin 64) :
    k7_pay5 (F := Ideal) x acc (ix2 u q) = acc (ix2 u q) + ∑ r : Fin 2000, x (ix2 r q) * x (ix2 r q) := by
  unfold k7_pay5 k7_pay3
  dsimp only
  refine congrArg₂ (· + ·) (congrFun (shapeCast_self acc _) _) ?_
  refine (shapeCast_a_1a_apply _ _ u q).trans ?_
  refine (columnSum_apply _ _ _ _ q).trans ?_
  exact congrArg (Finset.univ.sum) (funext fun r => by
    show shapeCast S2000x64 x _ (ix2 r q) * shapeCast S2000x64 x _ (ix2 r q) = _
    rw [shapeCast_self])

section Region7
variable (V : (c : Dev nD) → (b : Ref sig .tc) → Buf (Elt Ideal) ((c : Thread nD τ).loc b))

/-- The region's input array (window 0's array as the region finds it), with its literal type. -/
abbrev inArr7 (c : Dev nD) : S100000x64.Idx → EReal := V c (Pipeline.arrRef spec7 0)

/-- The index map of the input window: block (t, 0) at point t; of the two outputs: block (0, 0) at every point. -/
theorem idx7_0 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)
theorem idx7_1 : ∀ (t : Fin cfg7.N) (a : Fin 2), win7_1.index t a = 0 :=
  (by decide +kernel : ∀ (t : Fin grid7.N) (a : Fin 2), win7_1.index t a = 0)
theorem idx7_2 : ∀ (t : Fin cfg7.N) (a : Fin 2), win7_2.index t a = 0 :=
  (by decide +kernel : ∀ (t : Fin grid7.N) (a : Fin 2), win7_2.index t a = 0)

/-- The input window's block at point t is rows 2000 t … 2000 t + 1999 of the region's input array. -/
theorem iblk7_0_apply (c : Dev nD) (t : Fin cfg7.N) (y : S2000x64.Idx) (k : S100000x64.Idx)
    (hk0 : (k 0).val = t.val * 2000 + (y 0).val) (hk1 : (k 1).val = (y 1).val) :
    (iblk7 (F := Ideal) V c 0 t : Vec Ideal S2000x64 .f32) y
      = inArr7 V c k := by
  have hi := idx7_0 t
  unfold iblk7
  rw [View.read_apply]
  show inArr7 V c _ = inArr7 V c k
  congr 1
  funext a
  apply Fin.ext
  match a with
  | ⟨0, _⟩ => show win7_0.index t 0 * 2000 + 1 * (y 0).val = (k 0).val; rw [hi.1, hk0]; omega
  | ⟨1, _⟩ => show win7_0.index t 1 * 64 + 1 * (y 1).val = (k 1).val; rw [hi.2, hk1]; omega

/-- So the block's column sums are the array's block column sums. -/
theorem blockCol7_eq (c : Dev nD) (t : Fin cfg7.N) (q : Fin 64) (x : Vec Ideal S2000x64 .f32)
    (hx : x = iblk7 (F := Ideal) V c 0 t) :
    ∑ r : Fin 2000, x (ix2 r q) = blockCol (inArr7 V c) q t.val := by
  have ht : t.val < 50 := lt_of_lt_of_eq t.isLt (show cfg7.N = 50 from N_7)
  subst hx
  unfold blockCol
  rw [dif_pos ht]
  exact Finset.sum_congr rfl fun r _ => iblk7_0_apply V c t (ix2 r q)
    (ix2 ⟨t.val * 2000 + r.val, BlockedSum.block_pos_lt (nb := 50) ⟨t.val, ht⟩ r⟩ q) rfl rfl

theorem blockColSq7_eq (c : Dev nD) (t : Fin cfg7.N) (q : Fin 64) (x : Vec Ideal S2000x64 .f32)
    (hx : x = iblk7 (F := Ideal) V c 0 t) :
    ∑ r : Fin 2000, x (ix2 r q) * x (ix2 r q) = blockColSq (inArr7 V c) q t.val := by
  have ht : t.val < 50 := lt_of_lt_of_eq t.isLt (show cfg7.N = 50 from N_7)
  subst hx
  unfold blockColSq
  rw [dif_pos ht]
  exact Finset.sum_congr rfl fun r _ => congrArg₂ (· * ·)
    (iblk7_0_apply V c t (ix2 r q) (ix2 ⟨t.val * 2000 + r.val, BlockedSum.block_pos_lt (nb := 50) ⟨t.val, ht⟩ r⟩ q) rfl rfl)
    (iblk7_0_apply V c t (ix2 r q) (ix2 ⟨t.val * 2000 + r.val, BlockedSum.block_pos_lt (nb := 50) ⟨t.val, ht⟩ r⟩ q) rfl rfl)

/-- THE INVARIANT, first output: after point n its buffer holds, at column q, zero plus the block column sums of
    blocks 0 … n. By induction on the point: point 0 zeroes and adds block 0, every later point adds its block to
    what the point before left. -/
theorem outs7_fst (c : Dev nD) : ∀ (n : ℕ) (h : n < cfg7.N) (u : Fin 1) (q : Fin 64),
    ((outsAt7 (F := Ideal) V c n h).1 : S1x64.Idx → EReal) (ix2 u q)
      = Ideal.ofBits .f32 0x00000000#32
        + ∑ t ∈ Finset.range (n + 1), blockCol (inArr7 V c) q t
  | 0, h, u, q => by
    refine (congrFun (congrArg Prod.fst (outsAt7_A (F := Ideal) V c ⟨0, h⟩ rfl)) (ix2 u q)).trans ?_
    refine (congrFun (out7_A_1_eq (F := Ideal) c (grid7.coords ⟨0, h⟩) (ms7_0 ⟨0, h⟩) (hs7_0 ⟨0, h⟩) (ms7_1 ⟨0, h⟩) (hs7_1 ⟨0, h⟩)
      (ms7_2 ⟨0, h⟩) (hs7_2 ⟨0, h⟩) ((hcond7_0 ⟨0, h⟩).mpr rfl) (iblk7 V c 0 ⟨0, h⟩)) (ix2 u q)).trans ?_
    refine (pay7_4_apply (iblk7 (F := Ideal) V c 0 ⟨0, h⟩) (k7_pay1 (F := Ideal)) u q).trans ?_
    rw [Finset.sum_range_one]
    exact congrArg₂ (· + ·) rfl (blockCol7_eq V c ⟨0, h⟩ q (iblk7 V c 0 ⟨0, h⟩) rfl)
  | n + 1, h, u, q => by
    have hN : cfg7.N = 50 := N_7
    have hB : ¬(⟨n + 1, h⟩ : Fin cfg7.N).val % 50 = 0 := by dsimp only; omega
    refine (congrFun (congrArg Prod.fst (outsAt7_B (F := Ideal) V c ⟨n + 1, h⟩ hB)) (ix2 u q)).trans ?_
    refine (congrFun (out7_B_1_eq (F := Ideal) c (grid7.coords ⟨n + 1, h⟩) (ms7_0 ⟨n + 1, h⟩) (hs7_0 ⟨n + 1, h⟩) (ms7_1 ⟨n + 1, h⟩) (hs7_1 ⟨n + 1, h⟩)
      (ms7_2 ⟨n + 1, h⟩) (hs7_2 ⟨n + 1, h⟩) (fun hh => hB ((hcond7_0 ⟨n + 1, h⟩).mp hh)) (iblk7 V c 0 ⟨n + 1, h⟩)
      (outsAt7 V c n (Nat.lt_of_succ_lt h)).1 (outsAt7 V c n (Nat.lt_of_succ_lt h)).2) (ix2 u q)).trans ?_
    refine (pay7_4_apply (iblk7 (F := Ideal) V c 0 ⟨n + 1, h⟩) (outsAt7 V c n (Nat.lt_of_succ_lt h)).1 u q).trans ?_
    rw [outs7_fst c n (Nat.lt_of_succ_lt h) u q, Finset.sum_range_succ _ (n + 1), add_assoc]
    exact congrArg₂ (· + ·) rfl (congrArg₂ (· + ·) rfl (blockCol7_eq V c ⟨n + 1, h⟩ q (iblk7 V c 0 ⟨n + 1, h⟩) rfl))

/-- THE INVARIANT, second output: the same with the squares. -/
theorem outs7_snd (c : Dev nD) : ∀ (n : ℕ) (h : n < cfg7.N) (u : Fin 1) (q : Fin 64),
    ((outsAt7 (F := Ideal) V c n h).2 : S1x64.Idx → EReal) (ix2 u q)
      = Ideal.ofBits .f32 0x00000000#32
        + ∑ t ∈ Finset.range (n + 1), blockColSq (inArr7 V c) q t
  | 0, h, u, q => by
    refine (congrFun (congrArg Prod.snd (outsAt7_A (F := Ideal) V c ⟨0, h⟩ rfl)) (ix2 u q)).trans ?_
    refine (congrFun (out7_A_2_eq (F := Ideal) c (grid7.coords ⟨0, h⟩) (ms7_0 ⟨0, h⟩) (hs7_0 ⟨0, h⟩) (ms7_1 ⟨0, h⟩) (hs7_1 ⟨0, h⟩)
      (ms7_2 ⟨0, h⟩) (hs7_2 ⟨0, h⟩) ((hcond7_0 ⟨0, h⟩).mpr rfl) (iblk7 V c 0 ⟨0, h⟩)) (ix2 u q)).trans ?_
    refine (pay7_5_apply (iblk7 (F := Ideal) V c 0 ⟨0, h⟩) (k7_pay2 (F := Ideal)) u q).trans ?_
    rw [Finset.sum_range_one]
    exact congrArg₂ (· + ·) rfl (blockColSq7_eq V c ⟨0, h⟩ q (iblk7 V c 0 ⟨0, h⟩) rfl)
  | n + 1, h, u, q => by
    have hN : cfg7.N = 50 := N_7
    have hB : ¬(⟨n + 1, h⟩ : Fin cfg7.N).val % 50 = 0 := by dsimp only; omega
    refine (congrFun (congrArg Prod.snd (outsAt7_B (F := Ideal) V c ⟨n + 1, h⟩ hB)) (ix2 u q)).trans ?_
    refine (congrFun (out7_B_2_eq (F := Ideal) c (grid7.coords ⟨n + 1, h⟩) (ms7_0 ⟨n + 1, h⟩) (hs7_0 ⟨n + 1, h⟩) (ms7_1 ⟨n + 1, h⟩) (hs7_1 ⟨n + 1, h⟩)
      (ms7_2 ⟨n + 1, h⟩) (hs7_2 ⟨n + 1, h⟩) (fun hh => hB ((hcond7_0 ⟨n + 1, h⟩).mp hh)) (iblk7 V c 0 ⟨n + 1, h⟩)
      (outsAt7 V c n (Nat.lt_of_succ_lt h)).1 (outsAt7 V c n (Nat.lt_of_succ_lt h)).2) (ix2 u q)).trans ?_
    refine (pay7_5_apply (iblk7 (F := Ideal) V c 0 ⟨n + 1, h⟩) (outsAt7 V c n (Nat.lt_of_succ_lt h)).2 u q).trans ?_
    rw [outs7_snd c n (Nat.lt_of_succ_lt h) u q, Finset.sum_range_succ _ (n + 1), add_assoc]
    exact congrArg₂ (· + ·) rfl (congrArg₂ (· + ·) rfl (blockColSq7_eq V c ⟨n + 1, h⟩ q (iblk7 V c 0 ⟨n + 1, h⟩) rfl))

/-- The last point of the grid, the only one that writes the outputs back. -/
abbrev tLast7 : Fin cfg7.N := ⟨49, by rw [show cfg7.N = 50 from N_7]; decide⟩

/-- The column sums of the region's input array, as a [1, 64] row. -/
abbrev colSum7 (c : Dev nD) : S1x64.Idx → EReal :=
  fun i => ∑ r : Fin 100000, inArr7 V c (ix2 r (i 1))
/-- The column sums of squares of the region's input array, as a [1, 64] row. -/
abbrev colSumSq7 (c : Dev nD) : S1x64.Idx → EReal :=
  fun i => ∑ r : Fin 100000, inArr7 V c (ix2 r (i 1))
    * inArr7 V c (ix2 r (i 1))

/-- After the last point the first output's buffer holds the column sums: the 50 block sums regrouped. -/
theorem last7_fst (c : Dev nD) : (outsAt7 (F := Ideal) V c tLast7.val tLast7.isLt).1 = colSum7 V c := by
  funext i
  obtain ⟨u, q, rfl⟩ : ∃ (u : Fin 1) (q : Fin 64), i = ix2 u q := ⟨i 0, i 1, eq_ix2 i⟩
  refine (outs7_fst V c 49 tLast7.isLt u q).trans ?_
  rw [Ideal.ofBits_zero_f32, zero_add]
  exact sum_blockCol _ q

theorem last7_snd (c : Dev nD) : (outsAt7 (F := Ideal) V c tLast7.val tLast7.isLt).2 = colSumSq7 V c := by
  funext i
  obtain ⟨u, q, rfl⟩ : ∃ (u : Fin 1) (q : Fin 64), i = ix2 u q := ⟨i 0, i 1, eq_ix2 i⟩
  refine (outs7_snd V c 49 tLast7.isLt u q).trans ?_
  rw [Ideal.ofBits_zero_f32, zero_add]
  exact sum_blockColSq _ q

/-- The one write-back of the first output, at the last point, writes the column sums: block (0, 0) of the [1, 64]
    array read through zero offsets is the array. -/
theorem flushed7_1_eq (c : Dev nD) (t : Fin cfg7.N) (hf : (cfg7.win 1).flush t = true) :
    (dat7 (F := Ideal) V c).flushed 1 t = ((cfg7.win 1).blk t).view.read (Elt Ideal) (colSum7 V c) := by
  have hN : cfg7.N = 50 := N_7
  have h49 : t.val = 49 := by have := (flush7_1 t).mp hf; have := t.isLt; omega
  obtain rfl : t = tLast7 := Fin.ext h49
  show (cfg7.win 1).cut (grid7.coords tLast7) ((dat7 V c).after 1 tLast7) = _
  rw [after7_1, last7_fst]
  have hz' : (fun a => win7_1.index tLast7 a * main_v101_0.ty.shape.size a) = fun _ => 0 :=
    funext fun a => by rw [idx7_1]; exact Nat.zero_mul _
  exact (Memref.read_access_unit_zero (Elt Ideal) main_v101_0 hz' (fun a => by rw [congrFun hz' a]; simp) (colSum7 V c)).symm

theorem flushed7_2_eq (c : Dev nD) (t : Fin cfg7.N) (hf : (cfg7.win 2).flush t = true) :
    (dat7 (F := Ideal) V c).flushed 2 t = ((cfg7.win 2).blk t).view.read (Elt Ideal) (colSumSq7 V c) := by
  have hN : cfg7.N = 50 := N_7
  have h49 : t.val = 49 := by have := (flush7_2 t).mp hf; have := t.isLt; omega
  obtain rfl : t = tLast7 := Fin.ext h49
  show (cfg7.win 2).cut (grid7.coords tLast7) ((dat7 V c).after 2 tLast7) = _
  rw [after7_2, last7_snd]
  have hz' : (fun a => win7_2.index tLast7 a * main_v101_1.ty.shape.size a) = fun _ => 0 :=
    funext fun a => by rw [idx7_2]; exact Nat.zero_mul _
  exact (Memref.read_access_unit_zero (Elt Ideal) main_v101_1 hz' (fun a => by rw [congrFun hz' a]; simp) (colSumSq7 V c)).symm

/-- THE FIRST RESULT of region 7: the output array ends holding, at column i₁, the sum of column i₁ of the
    region's input array over all 100000 rows. -/
theorem stats7_sum (c : Dev nD) :
    ((dat7 (F := Ideal) V c).arrAt 1 cfg7.N : S1x64.Idx → EReal)
      = fun i => ∑ r : Fin 100000, inArr7 V c (ix2 r (i 1)) :=
  (dat7 (F := Ideal) V c).arrAt_eq_of_cover 1 (colSum7 V c) (flushed7_1_eq V c) fun i =>
    ⟨tLast7, (flush7_1 tLast7).mpr rfl, by
      show i ∈ ((View.whole main_v101_0).slice (win7_1.rect tLast7)).set
      rw [View.set_slice_whole, Rect.mem_set_unit]
      intro a
      have h0 : (i 0 : Nat) < 1 := (i 0).isLt
      have h1 : (i 1 : Nat) < 64 := (i 1).isLt
      match a with
      | ⟨0, _⟩ => show win7_1.index tLast7 0 * win7_1.size 0 ≤ (i 0 : Nat) ∧ (i 0 : Nat) < win7_1.index tLast7 0 * win7_1.size 0 + win7_1.xsize (grid7.coords tLast7) 0
                  rw [idx7_1 tLast7 0, show win7_1.xsize (grid7.coords tLast7) 0 = 1 from by decide +kernel]; omega
      | ⟨1, _⟩ => show win7_1.index tLast7 1 * win7_1.size 1 ≤ (i 1 : Nat) ∧ (i 1 : Nat) < win7_1.index tLast7 1 * win7_1.size 1 + win7_1.xsize (grid7.coords tLast7) 1
                  rw [idx7_1 tLast7 1, show win7_1.xsize (grid7.coords tLast7) 1 = 64 from by decide +kernel]; omega⟩

/-- THE SECOND RESULT of region 7: the output array ends holding, at column i₁, the sum of the squares of
    column i₁ of the region's input array over all 100000 rows. -/
theorem stats7_sumsq (c : Dev nD) :
    ((dat7 (F := Ideal) V c).arrAt 2 cfg7.N : S1x64.Idx → EReal)
      = fun i => ∑ r : Fin 100000, inArr7 V c (ix2 r (i 1))
          * inArr7 V c (ix2 r (i 1)) :=
  (dat7 (F := Ideal) V c).arrAt_eq_of_cover 2 (colSumSq7 V c) (flushed7_2_eq V c) fun i =>
    ⟨tLast7, (flush7_2 tLast7).mpr rfl, by
      show i ∈ ((View.whole main_v101_1).slice (win7_2.rect tLast7)).set
      rw [View.set_slice_whole, Rect.mem_set_unit]
      intro a
      have h0 : (i 0 : Nat) < 1 := (i 0).isLt
      have h1 : (i 1 : Nat) < 64 := (i 1).isLt
      match a with
      | ⟨0, _⟩ => show win7_2.index tLast7 0 * win7_2.size 0 ≤ (i 0 : Nat) ∧ (i 0 : Nat) < win7_2.index tLast7 0 * win7_2.size 0 + win7_2.xsize (grid7.coords tLast7) 0
                  rw [idx7_2 tLast7 0, show win7_2.xsize (grid7.coords tLast7) 0 = 1 from by decide +kernel]; omega
      | ⟨1, _⟩ => show win7_2.index tLast7 1 * win7_2.size 1 ≤ (i 1 : Nat) ∧ (i 1 : Nat) < win7_2.index tLast7 1 * win7_2.size 1 + win7_2.xsize (grid7.coords tLast7) 1
                  rw [idx7_2 tLast7 1, show win7_2.xsize (grid7.coords tLast7) 1 = 64 from by decide +kernel]; omega⟩

end Region7

end Cert.KernelIdeal.RegionStats
end
-- ==== Proof.RegionBnRelu.lean ====
/- The three batch-normalisation + ReLU regions (2, 5, 8) of the program, each read as ONE function of the buffer
   contents the region is entered with, on the extended reals.

   The kernel body takes a block of 2000 rows of the [100000, 64] input x and the four [1, 64] rows mean, var, gamma,
   beta (each broadcast over the 2000 rows) and stores  max ((x - mean) * rsqrt (var + eps) * gamma + beta) 0 ; the grid's
   50 points tile the 100000 rows, point t taking rows 2000 t .. 2000 t + 1999. So after the region its output array
   is, at every index i = (r, q),
       bnReluAt (x i) (mean (0, q)) (var (0, q)) (gamma (0, q)) (beta (0, q)),
   where bnReluAt is that scalar expression in the body's order of operations, eps the float word 0x3727C5AC and the
   zero the float word 0x00000000, both kept as words. Steps: the body's arithmetic at one entry of a block
   (pay_apply, block_point); the printed index maps decided over the grid (idx_factsK); each window's block at a point
   as a restriction of its array (emb_inK, emb_rowK_W, iblkK_W); what a point writes back (flushedK_eq); the blocks
   cover the array (coverK); the array after the region (bnreluK). -/
import proofs.«179986_j62663572849123_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal

noncomputable section

namespace Cert.KernelIdeal.RegionBnRelu

open Cert.KernelIdeal Cert.KernelIdeal.Gen Idealize.ShloMosaic Idealize.ShloMosaic.TcCoe Idealize.SL.Sem
open Idealize.ShloMosaic.Pipeline (Dat)
open Idealize.ShloMosaic.ValueIdx

/-- One entry of a batch-normalised, rectified row: max ((x - mean) * rsqrt (var + eps) * gamma + beta) 0 on the
    extended reals, in the order the kernel body applies the operations; eps and the zero stay the float words
    the body names. -/
def bnReluAt (x mean var g b : EReal) : EReal :=
  max ((x - mean) * Ideal.rsqrt (var + Ideal.ofBits .f32 0x3727C5AC#32) * g + b) (Ideal.ofBits .f32 0x00000000#32)

/-- The body's arithmetic at entry (p, q) of a block: the four [1,64] rows are read at column q. -/
theorem pay_apply (x : Vec Ideal S2000x64 .f32) (mean var g b : Vec Ideal S1x64 .f32) (p : Fin 2000) (q : Fin 64) :
    k2_pay1 (F := Ideal) x mean var g b (ix2 p q)
      = bnReluAt (x (ix2 p q)) (mean (ix2 0 q)) (var (ix2 0 q)) (g (ix2 0 q)) (b (ix2 0 q)) := by
  unfold k2_pay1 bnReluAt
  simp only [shapeCast_self]
  rw [maximumf_apply, addf_apply, mulf_apply, mulf_apply, subf_apply]
  simp only [broadcastTo_1b_ab_apply]
  rfl

/-- The whole-array reading: entry i of the normalised, rectified array, the four rows read at i's column. -/
def bnReluArr (X : S100000x64.Idx → EReal) (M Vr G B : S1x64.Idx → EReal) : S100000x64.Idx → EReal :=
  fun i => bnReluAt (X i) (M (ix2 0 (i 1))) (Vr (ix2 0 (i 1))) (G (ix2 0 (i 1))) (B (ix2 0 (i 1)))

/-- The body's arithmetic at entry j of a block whose entry j is entry i of the array X (same column), the four
    row blocks being the whole rows: entry i of the whole-array reading. -/
theorem block_point (X : S100000x64.Idx → EReal) (M Vr G B : S1x64.Idx → EReal)
    (x0 : Vec Ideal S2000x64 .f32) (x1 x2 x3 x4 : Vec Ideal S1x64 .f32)
    (j : S2000x64.Idx) (i : S100000x64.Idx)
    (h0 : x0 j = X i) (hc : (i 1).val = (j 1).val)
    (h1 : x1 = M) (h2 : x2 = Vr) (h3 : x3 = G) (h4 : x4 = B) :
    k2_pay1 (F := Ideal) x0 x1 x2 x3 x4 j = bnReluArr X M Vr G B i := by
  subst h1 h2 h3 h4
  obtain ⟨p, q, rfl⟩ : ∃ (p : Fin 2000) (q : Fin 64), j = ix2 p q := ⟨j 0, j 1, eq_ix2 j⟩
  have hq : (i 1 : Fin 64) = q := Fin.ext hc
  rw [pay_apply, h0]
  show _ = bnReluAt (X i) (x1 (ix2 0 (i 1))) (x2 (ix2 0 (i 1))) (x3 (ix2 0 (i 1))) (x4 (ix2 0 (i 1)))
  rw [hq]

theorem pay5 (x : Vec Ideal S2000x64 .f32) (mean var g b : Vec Ideal S1x64 .f32) :
    k5_pay1 (F := Ideal) x mean var g b = k2_pay1 x mean var g b := rfl
theorem pay8 (x : Vec Ideal S2000x64 .f32) (mean var g b : Vec Ideal S1x64 .f32) :
    k8_pay1 (F := Ideal) x mean var g b = k2_pay1 x mean var g b := rfl

variable (V : (c : Dev nD) → (b : Ref sig .tc) → Buf (Elt Ideal) ((c : Thread nD τ).loc b))

theorem hz : (![0, 0] : Fin 2 → Nat) = fun _ => 0 := funext fun a => by fin_cases a <;> rfl

/-! ## Region 2 -/

/-- The printed index maps over the 50 grid points: the input and output windows are at row block t, and the
    four row windows stay at block (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Entry j of the input block at point t sits in its array where entry j of the output block sits in its own. -/
theorem emb_in2 (t : Fin cfg2.N) (j : S2000x64.Idx) :
    (((cfg2.win 0).blk t).view.emb j : S100000x64.Idx) = ((cfg2.win 5).blk t).view.emb j := by
  obtain ⟨e00, e01, -, -, -, -, -, -, -, -, e50, e51⟩ := idx_facts2 t
  funext a; apply Fin.ext
  match a with
  | ⟨0, _⟩ => show win2_0.index t (0 : Fin 2) * 2000 + 1 * (j 0).val = win2_5.index t (0 : Fin 2) * 2000 + 1 * (j 0).val; omega
  | ⟨1, _⟩ => show win2_0.index t (1 : Fin 2) * 64 + 1 * (j 1).val = win2_5.index t (1 : Fin 2) * 64 + 1 * (j 1).val; omega

/-- Entry j of the output block sits in the array at j's own column. -/
theorem emb_col2 (t : Fin cfg2.N) (j : S2000x64.Idx) :
    ((((cfg2.win 5).blk t).view.emb j : S100000x64.Idx) 1).val = (j 1).val := by
  obtain ⟨-, -, -, -, -, -, -, -, -, -, e50, e51⟩ := idx_facts2 t
  show win2_5.index t (1 : Fin 2) * 64 + 1 * (j 1).val = (j 1).val; omega

/-- Each row window's block at any point is its whole [1,64] array. -/
theorem emb_row2_1 (t : Fin cfg2.N) (y : S1x64.Idx) : (((cfg2.win 1).blk t).view.emb y : S1x64.Idx) = y := by
  obtain ⟨-, -, e10, e11, -, -, -, -, -, -, -, -⟩ := idx_facts2 t
  funext a; apply Fin.ext
  match a with
  | ⟨0, _⟩ => show win2_1.index t (0 : Fin 2) * 1 + 1 * (y 0).val = (y 0).val; omega
  | ⟨1, _⟩ => show win2_1.index t (1 : Fin 2) * 64 + 1 * (y 1).val = (y 1).val; omega
theorem emb_row2_2 (t : Fin cfg2.N) (y : S1x64.Idx) : (((cfg2.win 2).blk t).view.emb y : S1x64.Idx) = y := by
  obtain ⟨-, -, -, -, e20, e21, -, -, -, -, -, -⟩ := idx_facts2 t
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega
theorem emb_row2_3 (t : Fin cfg2.N) (y : S1x64.Idx) : (((cfg2.win 3).blk t).view.emb y : S1x64.Idx) = y := by
  obtain ⟨-, -, -, -, -, -, e30, e31, -, -, -, -⟩ := idx_facts2 t
  funext a; apply Fin.ext
  match a with
  | ⟨0, _⟩ => show win2_3.index t (0 : Fin 2) * 1 + 1 * (y 0).val = (y 0).val; omega
  | ⟨1, _⟩ => show win2_3.index t (1 : Fin 2) * 64 + 1 * (y 1).val = (y 1).val; omega
theorem emb_row2_4 (t : Fin cfg2.N) (y : S1x64.Idx) : (((cfg2.win 4).blk t).view.emb y : S1x64.Idx) = y := by
  obtain ⟨-, -, -, -, -, -, -, -, e40, e41, -, -⟩ := idx_facts2 t
  funext a; apply Fin.ext
  match a with
  | ⟨0, _⟩ => show win2_4.index t (0 : Fin 2) * 1 + 1 * (y 0).val = (y 0).val; omega
  | ⟨1, _⟩ => show win2_4.index t (1 : Fin 2) * 64 + 1 * (y 1).val = (y 1).val; omega

/-- The input block at point t, entry by entry, is the array read where the output block's entry sits. -/
theorem iblk2_0_apply (c : Dev nD) (t : Fin cfg2.N) (j : S2000x64.Idx) :
    (iblk2 (F := Ideal) V c 0 t : S2000x64.Idx → EReal) j
      = (V c (Pipeline.arrRef spec2 0) : S100000x64.Idx → EReal) (((cfg2.win 5).blk t).view.emb j) :=
  congrArg (V c (Pipeline.arrRef spec2 0) : S100000x64.Idx → EReal) (emb_in2 t j)

/-- Each row window's block is its array. -/
theorem iblk2_1_eq (c : Dev nD) (t : Fin cfg2.N) :
    (iblk2 (F := Ideal) V c 1 t : S1x64.Idx → EReal) = (V c (Pipeline.arrRef spec2 1) : S1x64.Idx → EReal) :=
  funext fun y => congrArg (V c (Pipeline.arrRef spec2 1) : S1x64.Idx → EReal) (emb_row2_1 t y)
theorem iblk2_2_eq (c : Dev nD) (t : Fin cfg2.N) :
    (iblk2 (F := Ideal) V c 2 t : S1x64.Idx → EReal) = (V c (Pipeline.arrRef spec2 2) : S1x64.Idx → EReal) :=
  funext fun y => congrArg (V c (Pipeline.arrRef spec2 2) : S1x64.Idx → EReal) (emb_row2_2 t y)
theorem iblk2_3_eq (c : Dev nD) (t : Fin cfg2.N) :
    (iblk2 (F := Ideal) V c 3 t : S1x64.Idx → EReal) = (V c (Pipeline.arrRef spec2 3) : S1x64.Idx → EReal) :=
  funext fun y => congrArg (V c (Pipeline.arrRef spec2 3) : S1x64.Idx → EReal) (emb_row2_3 t y)
theorem iblk2_4_eq (c : Dev nD) (t : Fin cfg2.N) :
    (iblk2 (F := Ideal) V c 4 t : S1x64.Idx → EReal) = (V c (Pipeline.arrRef spec2 4) : S1x64.Idx → EReal) :=
  funext fun y => congrArg (V c (Pipeline.arrRef spec2 4) : S1x64.Idx → EReal) (emb_row2_4 t y)

/-- What grid point t writes back is block t of the whole-array reading of the region-entry contents. -/
theorem flushed2_eq (c : Dev nD) (t : Fin cfg2.N) :
    (dat2 (F := Ideal) V c).flushed 5 t = ((cfg2.win 5).blk t).view.read (Elt Ideal)
      (bnReluArr (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S2000x64) hz, View.ld_unit_zero (S := S1x64) hz]
  funext j
  exact block_point _ _ _ _ _ _ _ _ _ _ j _ (iblk2_0_apply V c t j) (emb_col2 t j)
    (iblk2_1_eq V c t) (iblk2_2_eq V c t) (iblk2_3_eq V c t) (iblk2_4_eq V c t)

/-- An index of the output array is in point t's block iff each coordinate is in the block's range on its axis. -/
theorem mem_blk2 (t : Fin cfg2.N) (i : S100000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v56).slice (win2_5.rect t)).set ↔ _
  rw [View.set_slice_whole, Rect.mem_set_unit]
  exact Iff.rfl

/-- Every index of the output array is in some point's block: row r is in block r / 2000. -/
theorem cover2 (i : S100000x64.Idx) :
    ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 2000 :=
    ⟨⟨(i 0).val / 2000, Nat.lt_of_lt_of_eq (by omega : (i 0).val / 2000 < 50) N_2.symm⟩, rfl⟩
  obtain ⟨-, -, -, -, -, -, -, -, -, -, e50, e51⟩ := idx_facts2 t
  refine ⟨t, flush2_5 t, ?_⟩
  rw [mem_blk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

set_option maxHeartbeats 400000 in
/-- REGION 2: after the region, its output array is the batch-normalised, rectified input array, entry by entry,
    of the contents the region was entered with. -/
theorem bnrelu2 (c : Dev nD) :
    ((dat2 (F := Ideal) V c).arrAt 5 cfg2.N : S100000x64.Idx → EReal)
      = fun i => bnReluAt ((V c (Pipeline.arrRef spec2 0) : S100000x64.Idx → EReal) i)
          ((V c (Pipeline.arrRef spec2 1) : S1x64.Idx → EReal) (ix2 0 (i 1)))
          ((V c (Pipeline.arrRef spec2 2) : S1x64.Idx → EReal) (ix2 0 (i 1)))
          ((V c (Pipeline.arrRef spec2 3) : S1x64.Idx → EReal) (ix2 0 (i 1)))
          ((V c (Pipeline.arrRef spec2 4) : S1x64.Idx → EReal) (ix2 0 (i 1))) :=
  (dat2 V c).arrAt_eq_of_cover 5
    (bnReluArr (V c (Pipeline.arrRef spec2 0)) (V c (Pipeline.arrRef spec2 1)) (V c (Pipeline.arrRef spec2 2))
      (V c (Pipeline.arrRef spec2 3)) (V c (Pipeline.arrRef spec2 4)))
    (fun t _ => flushed2_eq V c t) cover2

/-! ## Region 5 -/

/-- The printed index maps over the 50 grid points: the input and output windows are at row block t, and the
    four row windows stay at block (0, 0). -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Entry j of the input block at point t sits in its array where entry j of the output block sits in its own. -/
theorem emb_in5 (t : Fin cfg5.N) (j : S2000x64.Idx) :
    (((cfg5.win 0).blk t).view.emb j : S100000x64.Idx) = ((cfg5.win 5).blk t).view.emb j := by
  obtain ⟨e00, e01, -, -, -, -, -, -, -, -, e50, e51⟩ := idx_facts5 t
  funext a; apply Fin.ext
  match a with
  | ⟨0, _⟩ => show win5_0.index t (0 : Fin 2) * 2000 + 1 * (j 0).val = win5_5.index t (0 : Fin 2) * 2000 + 1 * (j 0).val; omega
  | ⟨1, _⟩ => show win5_0.index t (1 : Fin 2) * 64 + 1 * (j 1).val = win5_5.index t (1 : Fin 2) * 64 + 1 * (j 1).val; omega

/-- Entry j of the output block sits in the array at j's own column. -/
theorem emb_col5 (t : Fin cfg5.N) (j : S2000x64.Idx) :
    ((((cfg5.win 5).blk t).view.emb j : S100000x64.Idx) 1).val = (j 1).val := by
  obtain ⟨-, -, -, -, -, -, -, -, -, -, e50, e51⟩ := idx_facts5 t
  show win5_5.index t (1 : Fin 2) * 64 + 1 * (j 1).val = (j 1).val; omega

/-- Each row window's block at any point is its whole [1,64] array. -/
theorem emb_row5_1 (t : Fin cfg5.N) (y : S1x64.Idx) : (((cfg5.win 1).blk t).view.emb y : S1x64.Idx) = y := by
  obtain ⟨-, -, e10, e11, -, -, -, -, -, -, -, -⟩ := idx_facts5 t
  funext a; apply Fin.ext
  match a with
  | ⟨0, _⟩ => show win5_1.index t (0 : Fin 2) * 1 + 1 * (y 0).val = (y 0).val; omega
  | ⟨1, _⟩ => show win5_1.index t (1 : Fin 2) * 64 + 1 * (y 1).val = (y 1).val; omega
theorem emb_row5_2 (t : Fin cfg5.N) (y : S1x64.Idx) : (((cfg5.win 2).blk t).view.emb y : S1x64.Idx) = y := by
  obtain ⟨-, -, -, -, e20, e21, -, -, -, -, -, -⟩ := idx_facts5 t
  funext a; apply Fin.ext
  match a with
  | ⟨0, _⟩ => show win5_2.index t (0 : Fin 2) * 1 + 1 * (y 0).val = (y 0).val; omega
  | ⟨1, _⟩ => show win5_2.index t (1 : Fin 2) * 64 + 1 * (y 1).val = (y 1).val; omega
theorem emb_row5_3 (t : Fin cfg5.N) (y : S1x64.Idx) : (((cfg5.win 3).blk t).view.emb y : S1x64.Idx) = y := by
  obtain ⟨-, -, -, -, -, -, e30, e31, -, -, -, -⟩ := idx_facts5 t
  funext a; apply Fin.ext
  match a with
  | ⟨0, _⟩ => show win5_3.index t (0 : Fin 2) * 1 + 1 * (y 0).val = (y 0).val; omega
  | ⟨1, _⟩ => show win5_3.index t (1 : Fin 2) * 64 + 1 * (y 1).val = (y 1).val; omega
theorem emb_row5_4 (t : Fin cfg5.N) (y : S1x64.Idx) : (((cfg5.win 4).blk t).view.emb y : S1x64.Idx) = y := by
  obtain ⟨-, -, -, -, -, -, -, -, e40, e41, -, -⟩ := idx_facts5 t
  funext a; apply Fin.ext
  match a with
  | ⟨0, _⟩ => show win5_4.index t (0 : Fin 2) * 1 + 1 * (y 0).val = (y 0).val; omega
  | ⟨1, _⟩ => show win5_4.index t (1 : Fin 2) * 64 + 1 * (y 1).val = (y 1).val; omega

/-- The input block at point t, entry by entry, is the array read where the output block's entry sits. -/
theorem iblk5_0_apply (c : Dev nD) (t : Fin cfg5.N) (j : S2000x64.Idx) :
    (iblk5 (F := Ideal) V c 0 t : S2000x64.Idx → EReal) j
      = (V c (Pipeline.arrRef spec5 0) : S100000x64.Idx → EReal) (((cfg5.win 5).blk t).view.emb j) :=
  congrArg (V c (Pipeline.arrRef spec5 0) : S100000x64.Idx → EReal) (emb_in5 t j)

/-- Each row window's block is its array. -/
theorem iblk5_1_eq (c : Dev nD) (t : Fin cfg5.N) :
    (iblk5 (F := Ideal) V c 1 t : S1x64.Idx → EReal) = (V c (Pipeline.arrRef spec5 1) : S1x64.Idx → EReal) :=
  funext fun y => congrArg (V c (Pipeline.arrRef spec5 1) : S1x64.Idx → EReal) (emb_row5_1 t y)
theorem iblk5_2_eq (c : Dev nD) (t : Fin cfg5.N) :
    (iblk5 (F := Ideal) V c 2 t : S1x64.Idx → EReal) = (V c (Pipeline.arrRef spec5 2) : S1x64.Idx → EReal) :=
  funext fun y => congrArg (V c (Pipeline.arrRef spec5 2) : S1x64.Idx → EReal) (emb_row5_2 t y)
theorem iblk5_3_eq (c : Dev nD) (t : Fin cfg5.N) :
    (iblk5 (F := Ideal) V c 3 t : S1x64.Idx → EReal) = (V c (Pipeline.arrRef spec5 3) : S1x64.Idx → EReal) :=
  funext fun y => congrArg (V c (Pipeline.arrRef spec5 3) : S1x64.Idx → EReal) (emb_row5_3 t y)
theorem iblk5_4_eq (c : Dev nD) (t : Fin cfg5.N) :
    (iblk5 (F := Ideal) V c 4 t : S1x64.Idx → EReal) = (V c (Pipeline.arrRef spec5 4) : S1x64.Idx → EReal) :=
  funext fun y => congrArg (V c (Pipeline.arrRef spec5 4) : S1x64.Idx → EReal) (emb_row5_4 t y)

/-- What grid point t writes back is block t of the whole-array reading of the region-entry contents. -/
theorem flushed5_eq (c : Dev nD) (t : Fin cfg5.N) :
    (dat5 (F := Ideal) V c).flushed 5 t = ((cfg5.win 5).blk t).view.read (Elt Ideal)
      (bnReluArr (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  unfold out5_5
  rw [View.canon_unit_zero hz]
  simp only [View.ld_unit_zero (S := S2000x64) hz, View.ld_unit_zero (S := S1x64) hz]
  funext j
  exact block_point _ _ _ _ _ _ _ _ _ _ j _ (iblk5_0_apply V c t j) (emb_col5 t j)
    (iblk5_1_eq V c t) (iblk5_2_eq V c t) (iblk5_3_eq V c t) (iblk5_4_eq V c t)

/-- An index of the output array is in point t's block iff each coordinate is in the block's range on its axis. -/
theorem mem_blk5 (t : Fin cfg5.N) (i : S100000x64.Idx) :
    i ∈ ((cfg5.win 5).blk t).view.set ↔ ∀ a : Fin 2, win5_5.index t a * S2000x64.size a ≤ (i a).val
      ∧ (i a).val < win5_5.index t a * S2000x64.size a + S2000x64.size a := by
  show i ∈ ((View.whole main_v83).slice (win5_5.rect t)).set ↔ _
  rw [View.set_slice_whole, Rect.mem_set_unit]
  exact Iff.rfl

/-- Every index of the output array is in some point's block: row r is in block r / 2000. -/
theorem cover5 (i : S100000x64.Idx) :
    ∃ t : Fin cfg5.N, (cfg5.win 5).flush t = true ∧ i ∈ ((cfg5.win 5).blk t).view.set := by
  have hi0 : (i 0).val < 100000 := (i 0).isLt
  have hi1 : (i 1).val < 64 := (i 1).isLt
  obtain ⟨t, ht⟩ : ∃ t : Fin cfg5.N, t.val = (i 0).val / 2000 :=
    ⟨⟨(i 0).val / 2000, Nat.lt_of_lt_of_eq (by omega : (i 0).val / 2000 < 50) N_5.symm⟩, rfl⟩
  obtain ⟨-, -, -, -, -, -, -, -, -, -, e50, e51⟩ := idx_facts5 t
  refine ⟨t, flush5_5 t, ?_⟩
  rw [mem_blk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 64 ≤ (i 1).val ∧ (i 1).val < win5_5.index t (1 : Fin 2) * 64 + 64; omega

set_option maxHeartbeats 400000 in
/-- REGION 5: after the region, its output array is the batch-normalised, rectified input array, entry by entry,
    of the contents the region was entered with. -/
theorem bnrelu5 (c : Dev nD) :
    ((dat5 (F := Ideal) V c).arrAt 5 cfg5.N : S100000x64.Idx → EReal)
      = fun i => bnReluAt ((V c (Pipeline.arrRef spec5 0) : S100000x64.Idx → EReal) i)
          ((V c (Pipeline.arrRef spec5 1) : S1x64.Idx → EReal) (ix2 0 (i 1)))
          ((V c (Pipeline.arrRef spec5 2) : S1x64.Idx → EReal) (ix2 0 (i 1)))
          ((V c (Pipeline.arrRef spec5 3) : S1x64.Idx → EReal) (ix2 0 (i 1)))
          ((V c (Pipeline.arrRef spec5 4) : S1x64.Idx → EReal) (ix2 0 (i 1))) :=
  (dat5 V c).arrAt_eq_of_cover 5
    (bnReluArr (V c (Pipeline.arrRef spec5 0)) (V c (Pipeline.arrRef spec5 1)) (V c (Pipeline.arrRef spec5 2))
      (V c (Pipeline.arrRef spec5 3)) (V c (Pipeline.arrRef spec5 4)))
    (fun t _ => flushed5_eq V c t) cover5

/-! ## Region 8 -/

/-- The printed index maps over the 50 grid points: the input and output windows are at row block t, and the
    four row windows stay at block (0, 0). -/
theorem idx_facts8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Entry j of the input block at point t sits in its array where entry j of the output block sits in its own. -/
theorem emb_in8 (t : Fin cfg8.N) (j : S2000x64.Idx) :
    (((cfg8.win 0).blk t).view.emb j : S100000x64.Idx) = ((cfg8.win 5).blk t).view.emb j := by
  obtain ⟨e00, e01, -, -, -, -, -, -, -, -, e50, e51⟩ := idx_facts8 t
  funext a; apply Fin.ext
  match a with
  | ⟨0, _⟩ => show win8_0.index t (0 : Fin 2) * 2000 + 1 * (j 0).val = win8_5.index t (0 : Fin 2) * 2000 + 1 * (j 0).val; omega
  | ⟨1, _⟩ => show win8_0.index t (1 : Fin 2) * 64 + 1 * (j 1).val = win8_5.index t (1 : Fin 2) * 64 + 1 * (j 1).val; omega

/-- Entry j of the output block sits in the array at j's own column. -/
theorem emb_col8 (t : Fin cfg8.N) (j : S2000x64.Idx) :
    ((((cfg8.win 5).blk t).view.emb j : S100000x64.Idx) 1).val = (j 1).val := by
  obtain ⟨-, -, -, -, -, -, -, -, -, -, e50, e51⟩ := idx_facts8 t
  show win8_5.index t (1 : Fin 2) * 64 + 1 * (j 1).val = (j 1).val; omega

/-- Each row window's block at any point is its whole [1,64] array. -/
theorem emb_row8_1 (t : Fin cfg8.N) (y : S1x64.Idx) : (((cfg8.win 1).blk t).view.emb y : S1x64.Idx) = y := by
  obtain ⟨-, -, e10, e11, -, -, -, -, -, -, -, -⟩ := idx_facts8 t
  funext a; apply Fin.ext
  match a with
  | ⟨0, _⟩ => show win8_1.index t (0 : Fin 2) * 1 + 1 * (y 0).val = (y 0).val; omega
  | ⟨1, _⟩ => show win8_1.index t (1 : Fin 2) * 64 + 1 * (y 1).val = (y 1).val; omega
theorem emb_row8_2 (t : Fin cfg8.N) (y : S1x64.Idx) : (((cfg8.win 2).blk t).view.emb y : S1x64.Idx) = y := by
  obtain ⟨-, -, -, -, e20, e21, -, -, -, -, -, -⟩ := idx_facts8 t
  funext a; apply Fin.ext
  match a with
  | ⟨0, _⟩ => show win8_2.index t (0 : Fin 2) * 1 + 1 * (y 0).val = (y 0).val; omega
  | ⟨1, _⟩ => show win8_2.index t (1 : Fin 2) * 64 + 1 * (y 1).val = (y 1).val; omega
theorem emb_row8_3 (t : Fin cfg8.N) (y : S1x64.Idx) : (((cfg8.win 3).blk t).view.emb y : S1x64.Idx) = y := by
  obtain ⟨-, -, -, -, -, -, e30, e31, -, -, -, -⟩ := idx_facts8 t
  funext a; apply Fin.ext
  match a with
  | ⟨0, _⟩ => show win8_3.index t (0 : Fin 2) * 1 + 1 * (y 0).val = (y 0).val; omega
  | ⟨1, _⟩ => show win8_3.index t (1 : Fin 2) * 64 + 1 * (y 1).val = (y 1).val; omega
theorem emb_row8_4 (t : Fin cfg8.N) (y : S1x64.Idx) : (((cfg8.win 4).blk t).view.emb y : S1x64.Idx) = y := by
  obtain ⟨-, -, -, -, -, -, -, -, e40, e41, -, -⟩ := idx_facts8 t
  funext a; apply Fin.ext
  match a with
  | ⟨0, _⟩ => show win8_4.index t (0 : Fin 2) * 1 + 1 * (y 0).val = (y 0).val; omega
  | ⟨1, _⟩ => show win8_4.index t (1 : Fin 2) * 64 + 1 * (y 1).val = (y 1).val; omega

/-- The input block at point t, entry by entry, is the array read where the output block's entry sits. -/
theorem iblk8_0_apply (c : Dev nD) (t : Fin cfg8.N) (j : S2000x64.Idx) :
    (iblk8 (F := Ideal) V c 0 t : S2000x64.Idx → EReal) j
      = (V c (Pipeline.arrRef spec8 0) : S100000x64.Idx → EReal) (((cfg8.win 5).blk t).view.emb j) :=
  congrArg (V c (Pipeline.arrRef spec8 0) : S100000x64.Idx → EReal) (emb_in8 t j)

/-- Each row window's block is its array. -/
theorem iblk8_1_eq (c : Dev nD) (t : Fin cfg8.N) :
    (iblk8 (F := Ideal) V c 1 t : S1x64.Idx → EReal) = (V c (Pipeline.arrRef spec8 1) : S1x64.Idx → EReal) :=
  funext fun y => congrArg (V c (Pipeline.arrRef spec8 1) : S1x64.Idx → EReal) (emb_row8_1 t y)
theorem iblk8_2_eq (c : Dev nD) (t : Fin cfg8.N) :
    (iblk8 (F := Ideal) V c 2 t : S1x64.Idx → EReal) = (V c (Pipeline.arrRef spec8 2) : S1x64.Idx → EReal) :=
  funext fun y => congrArg (V c (Pipeline.arrRef spec8 2) : S1x64.Idx → EReal) (emb_row8_2 t y)
theorem iblk8_3_eq (c : Dev nD) (t : Fin cfg8.N) :
    (iblk8 (F := Ideal) V c 3 t : S1x64.Idx → EReal) = (V c (Pipeline.arrRef spec8 3) : S1x64.Idx → EReal) :=
  funext fun y => congrArg (V c (Pipeline.arrRef spec8 3) : S1x64.Idx → EReal) (emb_row8_3 t y)
theorem iblk8_4_eq (c : Dev nD) (t : Fin cfg8.N) :
    (iblk8 (F := Ideal) V c 4 t : S1x64.Idx → EReal) = (V c (Pipeline.arrRef spec8 4) : S1x64.Idx → EReal) :=
  funext fun y => congrArg (V c (Pipeline.arrRef spec8 4) : S1x64.Idx → EReal) (emb_row8_4 t y)

/-- What grid point t writes back is block t of the whole-array reading of the region-entry contents. -/
theorem flushed8_eq (c : Dev nD) (t : Fin cfg8.N) :
    (dat8 (F := Ideal) V c).flushed 5 t = ((cfg8.win 5).blk t).view.read (Elt Ideal)
      (bnReluArr (V c (Pipeline.arrRef spec8 0)) (V c (Pipeline.arrRef spec8 1)) (V c (Pipeline.arrRef spec8 2))
        (V c (Pipeline.arrRef spec8 3)) (V c (Pipeline.arrRef spec8 4))) := by
  show (cfg8.win 5).cut (grid8.coords t) ((dat8 V c).after 5 t) = _
  rw [after8_5]
  unfold out8_5
  rw [View.canon_unit_zero hz]
  simp only [View.ld_unit_zero (S := S2000x64) hz, View.ld_unit_zero (S := S1x64) hz]
  funext j
  exact block_point _ _ _ _ _ _ _ _ _ _ j _ (iblk8_0_apply V c t j) (emb_col8 t j)
    (iblk8_1_eq V c t) (iblk8_2_eq V c t) (iblk8_3_eq V c t) (iblk8_4_eq V c t)

/-- An index of the output array is in point t's block iff each coordinate is in the block's range on its axis. -/
theorem mem_blk8 (t : Fin cfg8.N) (i : S100000x64.Idx) :
    i ∈ ((cfg8.win 5).blk t).view.set ↔ ∀ a : Fin 2, win8_5.index t a * S2000x64.size a ≤ (i a).val
      ∧ (i a).val < win8_5.index t a * S2000x64.size a + S2000x64.size a := by
  show i ∈ ((View.whole main_v110).slice (win8_5.rect t)).set ↔ _
  rw [View.set_slice_whole, Rect.mem_set_unit]
  exact Iff.rfl

/-- Every index of the output array is in some point's block: row r is in block r / 2000. -/
theorem cover8 (i : S100000x64.Idx) :
    ∃ t : Fin cfg8.N, (cfg8.win 5).flush t = true ∧ i ∈ ((cfg8.win 5).blk t).view.set := by
  have hi0 : (i 0).val < 100000 := (i 0).isLt
  have hi1 : (i 1).val < 64 := (i 1).isLt
  obtain ⟨t, ht⟩ : ∃ t : Fin cfg8.N, t.val = (i 0).val / 2000 :=
    ⟨⟨(i 0).val / 2000, Nat.lt_of_lt_of_eq (by omega : (i 0).val / 2000 < 50) N_8.symm⟩, rfl⟩
  obtain ⟨-, -, -, -, -, -, -, -, -, -, e50, e51⟩ := idx_facts8 t
  refine ⟨t, flush8_5 t, ?_⟩
  rw [mem_blk8]
  intro a
  match a with
  | ⟨0, _⟩ => show win8_5.index t (0 : Fin 2) * 2000 ≤ (i 0).val ∧ (i 0).val < win8_5.index t (0 : Fin 2) * 2000 + 2000; omega
  | ⟨1, _⟩ => show win8_5.index t (1 : Fin 2) * 64 ≤ (i 1).val ∧ (i 1).val < win8_5.index t (1 : Fin 2) * 64 + 64; omega

set_option maxHeartbeats 400000 in
/-- REGION 8: after the region, its output array is the batch-normalised, rectified input array, entry by entry,
    of the contents the region was entered with. -/
theorem bnrelu8 (c : Dev nD) :
    ((dat8 (F := Ideal) V c).arrAt 5 cfg8.N : S100000x64.Idx → EReal)
      = fun i => bnReluAt ((V c (Pipeline.arrRef spec8 0) : S100000x64.Idx → EReal) i)
          ((V c (Pipeline.arrRef spec8 1) : S1x64.Idx → EReal) (ix2 0 (i 1)))
          ((V c (Pipeline.arrRef spec8 2) : S1x64.Idx → EReal) (ix2 0 (i 1)))
          ((V c (Pipeline.arrRef spec8 3) : S1x64.Idx → EReal) (ix2 0 (i 1)))
          ((V c (Pipeline.arrRef spec8 4) : S1x64.Idx → EReal) (ix2 0 (i 1))) :=
  (dat8 V c).arrAt_eq_of_cover 5
    (bnReluArr (V c (Pipeline.arrRef spec8 0)) (V c (Pipeline.arrRef spec8 1)) (V c (Pipeline.arrRef spec8 2))
      (V c (Pipeline.arrRef spec8 3)) (V c (Pipeline.arrRef spec8 4)))
    (fun t _ => flushed8_eq V c t) cover8

end Cert.KernelIdeal.RegionBnRelu
end
-- ==== Proof.KTotal.lean ====
/-
  The idealized kernel's result buffer as one function of the argument arrays.

  The kernel program alternates host stretches and kernel regions. Walking the boundaries in order: a projection
  region leaves rows times the weight matrix (a sum over the 64 features); the host aggregates the messages; a
  statistics region leaves each column's sum and sum of squares over all N rows; the host turns them into the mean and
  the raw-moment variance; a normalisation region applies them pointwise; after three such layers the host takes each
  graph's mean row and the last region multiplies by the final matrix and adds the bias row.
-/
import proofs.«179986_j62663572849123_1_alg».proof.Proof.KDefs
import proofs.«179986_j62663572849123_1_alg».proof.Proof.RegionMatmul
import proofs.«179986_j62663572849123_1_alg».proof.Proof.RegionStats
import proofs.«179986_j62663572849123_1_alg».proof.Proof.RegionBnRelu

set_option maxRecDepth 16384

noncomputable section

open scoped BigOperators

namespace Cert.KernelIdeal.Total

open Cert.KernelIdeal Cert.KernelIdeal.Gen Cert.KernelIdeal.HostVals
open Idealize.ShloMosaic Idealize.ShloMosaic.TcCoe Idealize.ShloMosaic.StableHlo Idealize.SL.Sem Idealize.ShloMosaic.ValueIdx

variable (m : (ℓ : Loc nD τ sig) → Buf (Elt Ideal) ℓ) (ρ : Dev nD → PrngReg) (c : Dev nD)

/-! ## The message lists and their normalisation, as every later stretch finds them -/

theorem src3 : W3 m ρ c (Proc.devRef .tc main_v3) = Cert.Spec.srcOf (F := Ideal) (m ((c : Thread nD τ).loc main_arg1)) :=
  (W3_v3_from1 m ρ c).trans (read0_v3 (W0 m ρ c))
theorem dst3 : W3 m ρ c (Proc.devRef .tc main_v6) = Cert.Spec.dstOf (F := Ideal) (m ((c : Thread nD τ).loc main_arg1)) :=
  (W3_v6_from1 m ρ c).trans (read0_v6 (W0 m ρ c))
theorem nrm3 : W3 m ρ c (Proc.devRef .tc main_v29) = Cert.Spec.normOf (F := Ideal) (Cert.Spec.srcOf (F := Ideal) (m ((c : Thread nD τ).loc main_arg1))) (Cert.Spec.dstOf (F := Ideal) (m ((c : Thread nD τ).loc main_arg1))) := by
  rw [show W3 m ρ c (Proc.devRef .tc main_v29) = _ from read02_v29 (W2 m ρ c), W2_v3_from1 m ρ c, W2_v6_from1 m ρ c,
    show W2 m ρ c (Proc.devRef .tc main_v14) = _ from read01_v14 (W1 m ρ c),
    show W1 m ρ c (Proc.devRef .tc main_v12) = _ from read0_v12 (W0 m ρ c), show W1 m ρ c (Proc.devRef .tc main_v13) = _ from read0_v13 (W0 m ρ c),
    show W1 m ρ c (Proc.devRef .tc main_cst_2) = _ from read0_cst2 (W0 m ρ c),
    show W1 m ρ c (Proc.devRef .tc main_v3) = _ from read0_v3 (W0 m ρ c), show W1 m ρ c (Proc.devRef .tc main_v6) = _ from read0_v6 (W0 m ρ c)]
  rfl

theorem src4 : W4 m ρ c (Proc.devRef .tc main_v3) = Cert.Spec.srcOf (F := Ideal) (m ((c : Thread nD τ).loc main_arg1)) := (W4_v3_from3 m ρ c).trans (src3 m ρ c)
theorem dst4 : W4 m ρ c (Proc.devRef .tc main_v6) = Cert.Spec.dstOf (F := Ideal) (m ((c : Thread nD τ).loc main_arg1)) := (W4_v6_from3 m ρ c).trans (dst3 m ρ c)
theorem nrm4 : W4 m ρ c (Proc.devRef .tc main_v29) = Cert.Spec.normOf (F := Ideal) (Cert.Spec.srcOf (F := Ideal) (m ((c : Thread nD τ).loc main_arg1))) (Cert.Spec.dstOf (F := Ideal) (m ((c : Thread nD τ).loc main_arg1))) := (W4_v29_from3 m ρ c).trans (nrm3 m ρ c)

/-! ## Layer 1 -/

theorem lin1 : W4 m ρ c (Proc.devRef .tc main_v30) = linK (m ((c : Thread nD τ).loc main_arg0)) (m ((c : Thread nD τ).loc main_arg3)) := by
  refine (W4_arr m ρ c 2).trans ((Cert.KernelIdeal.RegionMatmul.linear0 (V3 m ρ) c).trans ?_)
  show linK (W3 m ρ c (Proc.devRef .tc main_arg0)) (W3 m ρ c (Proc.devRef .tc main_arg3)) = _
  rw [W3_arg0_from0 m ρ c, W3_arg3_from0 m ρ c]

theorem out1 : W5 m ρ c (Proc.devRef .tc main_v46) = Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4)) := by
  rw [show W5 m ρ c (Proc.devRef .tc main_v46) = _ from read1_v46 (W4 m ρ c), lin1 m ρ c, src4 m ρ c, nrm4 m ρ c, dst4 m ρ c, W4_arg4_from0 m ρ c]

theorem sum1 : W6 m ρ c (Proc.devRef .tc main_v47_0) = sumK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) := by
  refine (W6_arr m ρ c 1).trans ((Cert.KernelIdeal.RegionStats.stats1_sum (V5 m ρ) c).trans ?_)
  show sumK (W5 m ρ c (Proc.devRef .tc main_v46)) = _
  rw [out1 m ρ c]

theorem sumsq1 : W6 m ρ c (Proc.devRef .tc main_v47_1) = sumsqK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) := by
  refine (W6_arr m ρ c 2).trans ((Cert.KernelIdeal.RegionStats.stats1_sumsq (V5 m ρ) c).trans ?_)
  show sumsqK (W5 m ρ c (Proc.devRef .tc main_v46)) = _
  rw [out1 m ρ c]

theorem h1 : W8 m ρ c (Proc.devRef .tc main_v56) = normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6)) := by
  refine (W8_arr m ρ c 5).trans ((Cert.KernelIdeal.RegionBnRelu.bnrelu2 (V7 m ρ) c).trans ?_)
  show bnK (W7 m ρ c (Proc.devRef .tc main_v46)) (W7 m ρ c (Proc.devRef .tc main_v49)) (W7 m ρ c (Proc.devRef .tc main_v53)) (W7 m ρ c (Proc.devRef .tc main_v54)) (W7 m ρ c (Proc.devRef .tc main_v55)) = _
  rw [W7_v46_from5 m ρ c, out1 m ρ c,
    show W7 m ρ c (Proc.devRef .tc main_v49) = _ from read2_mean (W6 m ρ c), show W7 m ρ c (Proc.devRef .tc main_v53) = _ from read2_var (W6 m ρ c),
    show W7 m ρ c (Proc.devRef .tc main_v54) = _ from read2_g (W6 m ρ c), show W7 m ρ c (Proc.devRef .tc main_v55) = _ from read2_be (W6 m ρ c),
    sum1 m ρ c, sumsq1 m ρ c, W6_arg5_from0 m ρ c, W6_arg6_from0 m ρ c]
  rfl

theorem src9 : W9 m ρ c (Proc.devRef .tc main_v3) = Cert.Spec.srcOf (F := Ideal) (m ((c : Thread nD τ).loc main_arg1)) := (W9_v3_from4 m ρ c).trans (src4 m ρ c)
theorem dst9 : W9 m ρ c (Proc.devRef .tc main_v6) = Cert.Spec.dstOf (F := Ideal) (m ((c : Thread nD τ).loc main_arg1)) := (W9_v6_from4 m ρ c).trans (dst4 m ρ c)
theorem nrm9 : W9 m ρ c (Proc.devRef .tc main_v29) = Cert.Spec.normOf (F := Ideal) (Cert.Spec.srcOf (F := Ideal) (m ((c : Thread nD τ).loc main_arg1))) (Cert.Spec.dstOf (F := Ideal) (m ((c : Thread nD τ).loc main_arg1))) := (W9_v29_from4 m ρ c).trans (nrm4 m ρ c)

/-! ## Layer 2 -/

theorem lin2 : W9 m ρ c (Proc.devRef .tc main_v57) = linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7)) := by
  refine (W9_arr m ρ c 2).trans ((Cert.KernelIdeal.RegionMatmul.linear3 (V8 m ρ) c).trans ?_)
  show linK (W8 m ρ c (Proc.devRef .tc main_v56)) (W8 m ρ c (Proc.devRef .tc main_arg7)) = _
  rw [h1 m ρ c, W8_arg7_from0 m ρ c]

theorem out2 : W10 m ρ c (Proc.devRef .tc main_v73) = Cert.Spec.aggOut (F := Ideal) (linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg8)) := by
  rw [show W10 m ρ c (Proc.devRef .tc main_v73) = _ from read4_v73 (W9 m ρ c), lin2 m ρ c, src9 m ρ c, nrm9 m ρ c, dst9 m ρ c, W9_arg8_from0 m ρ c]

theorem sum2 : W11 m ρ c (Proc.devRef .tc main_v74_0) = sumK (Cert.Spec.aggOut (F := Ideal) (linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg8))) := by
  refine (W11_arr m ρ c 1).trans ((Cert.KernelIdeal.RegionStats.stats4_sum (V10 m ρ) c).trans ?_)
  show sumK (W10 m ρ c (Proc.devRef .tc main_v73)) = _
  rw [out2 m ρ c]

theorem sumsq2 : W11 m ρ c (Proc.devRef .tc main_v74_1) = sumsqK (Cert.Spec.aggOut (F := Ideal) (linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg8))) := by
  refine (W11_arr m ρ c 2).trans ((Cert.KernelIdeal.RegionStats.stats4_sumsq (V10 m ρ) c).trans ?_)
  show sumsqK (W10 m ρ c (Proc.devRef .tc main_v73)) = _
  rw [out2 m ρ c]

theorem h2 : W13 m ρ c (Proc.devRef .tc main_v83) = normK (Cert.Spec.aggOut (F := Ideal) (linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg8))) (m ((c : Thread nD τ).loc main_arg9)) (m ((c : Thread nD τ).loc main_arg10)) := by
  refine (W13_arr m ρ c 5).trans ((Cert.KernelIdeal.RegionBnRelu.bnrelu5 (V12 m ρ) c).trans ?_)
  show bnK (W12 m ρ c (Proc.devRef .tc main_v73)) (W12 m ρ c (Proc.devRef .tc main_v76)) (W12 m ρ c (Proc.devRef .tc main_v80)) (W12 m ρ c (Proc.devRef .tc main_v81)) (W12 m ρ c (Proc.devRef .tc main_v82)) = _
  rw [W12_v73_from10 m ρ c, out2 m ρ c,
    show W12 m ρ c (Proc.devRef .tc main_v76) = _ from read5_mean (W11 m ρ c), show W12 m ρ c (Proc.devRef .tc main_v80) = _ from read5_var (W11 m ρ c),
    show W12 m ρ c (Proc.devRef .tc main_v81) = _ from read5_g (W11 m ρ c), show W12 m ρ c (Proc.devRef .tc main_v82) = _ from read5_be (W11 m ρ c),
    sum2 m ρ c, sumsq2 m ρ c, W11_arg9_from0 m ρ c, W11_arg10_from0 m ρ c]
  rfl

theorem src14 : W14 m ρ c (Proc.devRef .tc main_v3) = Cert.Spec.srcOf (F := Ideal) (m ((c : Thread nD τ).loc main_arg1)) := (W14_v3_from9 m ρ c).trans (src9 m ρ c)
theorem dst14 : W14 m ρ c (Proc.devRef .tc main_v6) = Cert.Spec.dstOf (F := Ideal) (m ((c : Thread nD τ).loc main_arg1)) := (W14_v6_from9 m ρ c).trans (dst9 m ρ c)
theorem nrm14 : W14 m ρ c (Proc.devRef .tc main_v29) = Cert.Spec.normOf (F := Ideal) (Cert.Spec.srcOf (F := Ideal) (m ((c : Thread nD τ).loc main_arg1))) (Cert.Spec.dstOf (F := Ideal) (m ((c : Thread nD τ).loc main_arg1))) := (W14_v29_from9 m ρ c).trans (nrm9 m ρ c)

/-! ## Layer 3 -/

theorem lin3 : W14 m ρ c (Proc.devRef .tc main_v84) = linK (normK (Cert.Spec.aggOut (F := Ideal) (linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg8))) (m ((c : Thread nD τ).loc main_arg9)) (m ((c : Thread nD τ).loc main_arg10))) (m ((c : Thread nD τ).loc main_arg11)) := by
  refine (W14_arr m ρ c 2).trans ((Cert.KernelIdeal.RegionMatmul.linear6 (V13 m ρ) c).trans ?_)
  show linK (W13 m ρ c (Proc.devRef .tc main_v83)) (W13 m ρ c (Proc.devRef .tc main_arg11)) = _
  rw [h2 m ρ c, W13_arg11_from0 m ρ c]

theorem out3 : W15 m ρ c (Proc.devRef .tc main_v100) = Cert.Spec.aggOut (F := Ideal) (linK (normK (Cert.Spec.aggOut (F := Ideal) (linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg8))) (m ((c : Thread nD τ).loc main_arg9)) (m ((c : Thread nD τ).loc main_arg10))) (m ((c : Thread nD τ).loc main_arg11))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg12)) := by
  rw [show W15 m ρ c (Proc.devRef .tc main_v100) = _ from read7_v100 (W14 m ρ c), lin3 m ρ c, src14 m ρ c, nrm14 m ρ c, dst14 m ρ c, W14_arg12_from0 m ρ c]

theorem sum3 : W16 m ρ c (Proc.devRef .tc main_v101_0) = sumK (Cert.Spec.aggOut (F := Ideal) (linK (normK (Cert.Spec.aggOut (F := Ideal) (linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg8))) (m ((c : Thread nD τ).loc main_arg9)) (m ((c : Thread nD τ).loc main_arg10))) (m ((c : Thread nD τ).loc main_arg11))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg12))) := by
  refine (W16_arr m ρ c 1).trans ((Cert.KernelIdeal.RegionStats.stats7_sum (V15 m ρ) c).trans ?_)
  show sumK (W15 m ρ c (Proc.devRef .tc main_v100)) = _
  rw [out3 m ρ c]

theorem sumsq3 : W16 m ρ c (Proc.devRef .tc main_v101_1) = sumsqK (Cert.Spec.aggOut (F := Ideal) (linK (normK (Cert.Spec.aggOut (F := Ideal) (linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg8))) (m ((c : Thread nD τ).loc main_arg9)) (m ((c : Thread nD τ).loc main_arg10))) (m ((c : Thread nD τ).loc main_arg11))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg12))) := by
  refine (W16_arr m ρ c 2).trans ((Cert.KernelIdeal.RegionStats.stats7_sumsq (V15 m ρ) c).trans ?_)
  show sumsqK (W15 m ρ c (Proc.devRef .tc main_v100)) = _
  rw [out3 m ρ c]

theorem h3 : W18 m ρ c (Proc.devRef .tc main_v110) = normK (Cert.Spec.aggOut (F := Ideal) (linK (normK (Cert.Spec.aggOut (F := Ideal) (linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg8))) (m ((c : Thread nD τ).loc main_arg9)) (m ((c : Thread nD τ).loc main_arg10))) (m ((c : Thread nD τ).loc main_arg11))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg12))) (m ((c : Thread nD τ).loc main_arg13)) (m ((c : Thread nD τ).loc main_arg14)) := by
  refine (W18_arr m ρ c 5).trans ((Cert.KernelIdeal.RegionBnRelu.bnrelu8 (V17 m ρ) c).trans ?_)
  show bnK (W17 m ρ c (Proc.devRef .tc main_v100)) (W17 m ρ c (Proc.devRef .tc main_v103)) (W17 m ρ c (Proc.devRef .tc main_v107)) (W17 m ρ c (Proc.devRef .tc main_v108)) (W17 m ρ c (Proc.devRef .tc main_v109)) = _
  rw [W17_v100_from15 m ρ c, out3 m ρ c,
    show W17 m ρ c (Proc.devRef .tc main_v103) = _ from read8_mean (W16 m ρ c), show W17 m ρ c (Proc.devRef .tc main_v107) = _ from read8_var (W16 m ρ c),
    show W17 m ρ c (Proc.devRef .tc main_v108) = _ from read8_g (W16 m ρ c), show W17 m ρ c (Proc.devRef .tc main_v109) = _ from read8_be (W16 m ρ c),
    sum3 m ρ c, sumsq3 m ρ c, W16_arg13_from0 m ρ c, W16_arg14_from0 m ρ c]
  rfl

/-! ## The per-graph mean and the final layer -/

theorem pooled : W19 m ρ c (Proc.devRef .tc main_v122) = Cert.Spec.poolOf (F := Ideal) (normK (Cert.Spec.aggOut (F := Ideal) (linK (normK (Cert.Spec.aggOut (F := Ideal) (linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg8))) (m ((c : Thread nD τ).loc main_arg9)) (m ((c : Thread nD τ).loc main_arg10))) (m ((c : Thread nD τ).loc main_arg11))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg12))) (m ((c : Thread nD τ).loc main_arg13)) (m ((c : Thread nD τ).loc main_arg14))) (m ((c : Thread nD τ).loc main_arg2)) := by
  rw [show W19 m ρ c (Proc.devRef .tc main_v122) = _ from read9_v122 (W18 m ρ c), h3 m ρ c, W18_arg2_from0 m ρ c]

theorem biasRow : W19 m ρ c (Proc.devRef .tc main_v123) = rowOf10 (F := Ideal) (m ((c : Thread nD τ).loc main_arg16)) := by
  rw [show W19 m ρ c (Proc.devRef .tc main_v123) = _ from read9_v123 (W18 m ρ c), W18_arg16_from0 m ρ c]

/-- The result buffer at the last boundary, as a function of the argument arrays. -/
theorem result : W20 m ρ c (Proc.devRef .tc main_v124) = fcK (Cert.Spec.poolOf (F := Ideal) (normK (Cert.Spec.aggOut (F := Ideal) (linK (normK (Cert.Spec.aggOut (F := Ideal) (linK (normK (Cert.Spec.aggOut (F := Ideal) (linK (m ((c : Thread nD τ).loc main_arg0)) (m ((c : Thread nD τ).loc main_arg3))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg4))) (m ((c : Thread nD τ).loc main_arg5)) (m ((c : Thread nD τ).loc main_arg6))) (m ((c : Thread nD τ).loc main_arg7))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg8))) (m ((c : Thread nD τ).loc main_arg9)) (m ((c : Thread nD τ).loc main_arg10))) (m ((c : Thread nD τ).loc main_arg11))) (Cert.Spec.srcOf (F := Ideal) (m ((c : Thread nD τ).loc main_arg1))) (Cert.Spec.normOf (F := Ideal) (Cert.Spec.srcOf (F := Ideal) (m ((c : Thread nD τ).loc main_arg1))) (Cert.Spec.dstOf (F := Ideal) (m ((c : Thread nD τ).loc main_arg1)))) (Cert.Spec.dstOf (F := Ideal) (m ((c : Thread nD τ).loc main_arg1))) (m ((c : Thread nD τ).loc main_arg12))) (m ((c : Thread nD τ).loc main_arg13)) (m ((c : Thread nD τ).loc main_arg14))) (m ((c : Thread nD τ).loc main_arg2))) (m ((c : Thread nD τ).loc main_arg15)) (rowOf10 (F := Ideal) (m ((c : Thread nD τ).loc main_arg16))) := by
  refine (W20_arr m ρ c 3).trans ((Cert.KernelIdeal.RegionMatmul.fc9 (V19 m ρ) c).trans ?_)
  show fcK (W19 m ρ c (Proc.devRef .tc main_v122)) (W19 m ρ c (Proc.devRef .tc main_arg15)) (W19 m ρ c (Proc.devRef .tc main_v123)) = _
  rw [pooled m ρ c, biasRow m ρ c, W19_arg15_from0 m ρ c]

end Cert.KernelIdeal.Total

end
-- ==== Proof.LibPayOps.lean ====
/-
  General facts used when a stored value is read at an index, at the ideal (extended real) values.

  * The fold of the binary maximum over a finite set, started from the bottom element, is the supremum over that set.
  * The 32-bit word 0xFF800000 denotes minus infinity (the bottom extended real); the word 0xC0000000 denotes the real -2.
  * A reduction by maximum over the FIRST axis of an [a, b] array started from minus infinity is, at column c,
    the supremum over the rows k of entry (k, c).
  * The "ordered greater than" comparison as a one-bit word, and a selection driven by it as an if-then-else.
-/
import Idealize.ShloMosaic.PureOps.Ideal.Laws
import Idealize.ShloMosaic.Lib.Pipeline.Value
import Idealize.ShloMosaic.Lib.ValueIdx

noncomputable section

open scoped BigOperators

namespace Cert.LibPayOps

open Idealize.ShloMosaic Idealize.ShloMosaic.ValueIdx

/-- Folding the binary maximum from the bottom element over a finite set gives the supremum over the set. -/
theorem fold_max_bot_eq_sup {ι : Type} (s : Finset ι) (f : ι → EReal) : s.fold max ⊥ f = s.sup f := by
  classical
  induction s using Finset.induction_on with
  | empty => simp
  | insert a s ha ih => rw [Finset.fold_insert ha, Finset.sup_insert, ih]

/-- The word 0xFF800000 (sign set, exponent all ones, fraction zero) is minus infinity. -/
theorem ofBits_f32_neg_inf : Ideal.ofBits .f32 0xFF800000#32 = (⊥ : EReal) := by
  simp [Ideal.ofBits, Ideal.ieee]

/-- The word 0xC0000000 (sign set, exponent 128, fraction zero) is the real number -2. -/
theorem ofBits_f32_neg_two : Ideal.ofBits .f32 0xC0000000#32 = ((-2 : ℝ) : EReal) := by
  simp [Ideal.ofBits, Ideal.ieee]
  rw [← EReal.coe_mul]
  norm_num

/-- A selection driven by "x is greater than y" is the if-then-else on y < x. -/
theorem select_ogt (x y a b : EReal) :
    Scalar.select (Ideal.cmp .ogt x y) a b = if y < x then a else b := by
  unfold Ideal.cmp
  by_cases h : y < x
  · rw [if_pos h]; simp [h, Scalar.select]
  · rw [if_neg h]; simp [h, Scalar.select]

/-- The maximum down the columns of an [a, b] array (a reduction over its first axis from minus infinity), at column c. -/
theorem columnMax_apply {a b : ℕ} (src : FVec Ideal ⟨2, ![a, b]⟩ .f32)
    (h : Shape.Reduces ⟨2, ![a, b]⟩ [0] ⟨1, ![b]⟩) (hφ : FKind.Formats .f32)
    (hacc : (0xFF800000#32 : BitVec 32) = FKind.maximumf.neutral .f32 hφ) (c : Fin b) :
    multiReduction .maximumf [0] ⟨1, ![b]⟩ src 0xFF800000#32 h hφ hacc (ix1 c)
      = Finset.univ.sup fun k : Fin a => src (ix2 k c) := by
  refine (Ideal.multiReduction_maximumf_single src 0xFF800000#32 h hφ hacc (ix1 c)).trans ?_
  refine (congrArg (fun z => (Finset.univ : Finset (Fin ((⟨2, ![a, b]⟩ : Shape).size 0))).fold max z
    (src ∘ h.lift (ix1 c))) ofBits_f32_neg_inf).trans ?_
  refine (fold_max_bot_eq_sup _ _).trans ?_
  exact congrArg (Finset.univ.sup) (funext fun k => congrArg src (funext fun d => Fin.ext (by
    match d with
    | ⟨0, _⟩ => rfl
    | ⟨1, _⟩ => rfl)))

end Cert.LibPayOps

end
-- ==== Proof.PreReal.lean ====
/-
  The inputs of the program are real-valued, and a few scalar facts about literals.

  The precondition of the claim is the conjunction, over the fifteen float argument arrays a, of
  "every entry x of a has |x| < +infinity", each conjunct an all-reduction by AND of the elementwise
  comparison. Over the extended reals, |x| = max x (-x) < +infinity excludes both infinities, so every
  entry is (the coercion of) a real number. Part 1 decodes the precondition into that statement, one
  conjunct per float argument.

  Part 2: the 32-bit pattern 0x3727C5AC is a positive real (the float nearest 1e-5), the pattern
  0x47C35000 is the real 100000, the reciprocal square root of a positive real is a positive real, and
  "if d > 0 then rsqrt d else 0" is a real number for every real d (scalar and vector form).
-/
import proofs.«179986_j62663572849123_1_alg».proof.Defs
import proofs.«179986_j62663572849123_1_alg».proof.Proof.LibRealValued
import proofs.«179986_j62663572849123_1_alg».proof.Proof.LibPayOps
import Idealize.ShloMosaic.PureOps.Ideal.Laws
import Idealize.ShloMosaic.Lib.ValueIdx
import Idealize.ShloMosaic.Lib.ReduceAll

noncomputable section

namespace Cert.PreReal

open Idealize.ShloMosaic Idealize.SL.Sem
open Cert.LibRealValued

/-- A shape of rank zero has exactly one index. -/
instance subsingleton_idx0 : Subsingleton (⟨0, ![]⟩ : Shape).Idx := ⟨fun a b => funext fun d => d.elim0⟩

/-- The 32-bit pattern 0x7F800000 (exponent all ones, fraction zero, sign clear) is plus infinity. -/
theorem ofBits_f32_inf : Ideal.ofBits .f32 0x7F800000#32 = (⊤ : EReal) := by
  simp [Ideal.ofBits, Ideal.ieee]

/-- An extended real whose absolute value max x (-x) is below plus infinity is a real number. -/
theorem real_of_abs_lt_top (x : EReal) (h : max x (-x) < ⊤) : ∃ r : ℝ, x = (r : EReal) := by
  induction x using EReal.rec with
  | bot => simp at h
  | top => simp at h
  | coe r => exact ⟨r, rfl⟩

/-- The comparison "x is below y", as a one-bit word, is 1 exactly when x < y. -/
theorem cmp_olt_eq_one (x y : EReal) : Ideal.cmp .olt x y = 1#1 ↔ x < y := by
  unfold Ideal.cmp
  by_cases h : x < y <;> simp [h]

/-- ONE CONJUNCT: if the all-reduction by AND of "|a| < +infinity" is 1, every entry of a is real. -/
theorem realV_of_all {s : Shape} {axes : List (Fin s.rank)} (a : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
          (cmpf .olt (Host.absf a) (broadcastInDim s ![] bc (constant (⟨0, ![]⟩ : Shape) .f32 0x7F800000#32)))
          init hr hu j = 1#1) :
    RealV a := by
  intro i
  have hi := Host.reduce_andi_all _ init hr hu j e i
  have hi' : Ideal.cmp .olt (max (a i) (-(a i))) (Ideal.ofBits .f32 0x7F800000#32) = 1#1 := hi
  rw [cmp_olt_eq_one, ofBits_f32_inf] at hi'
  exact real_of_abs_lt_top _ hi'

section Part1

open Cert.KernelIdeal

variable [hP : Cert.Pre_finite_inputs.Facts]

/-- THE PRECONDITION DECODED: every float argument array of the program is real-valued. -/
theorem real_of_pre (m : (ℓ : Loc nD τ sig) → Buf (Elt Ideal) ℓ) (h : Cert.Pre_KernelIdeal m) (c : Dev nD) :
    RealV (m ((c.tc : Thread nD τ).loc main_arg0) : S100000x64.Idx → EReal)
      ∧ RealV (m ((c.tc : Thread nD τ).loc main_arg3) : S64x64.Idx → EReal)
      ∧ RealV (m ((c.tc : Thread nD τ).loc main_arg4) : S64.Idx → EReal)
      ∧ RealV (m ((c.tc : Thread nD τ).loc main_arg5) : S64.Idx → EReal)
      ∧ RealV (m ((c.tc : Thread nD τ).loc main_arg6) : S64.Idx → EReal)
      ∧ RealV (m ((c.tc : Thread nD τ).loc main_arg7) : S64x64.Idx → EReal)
      ∧ RealV (m ((c.tc : Thread nD τ).loc main_arg8) : S64.Idx → EReal)
      ∧ RealV (m ((c.tc : Thread nD τ).loc main_arg9) : S64.Idx → EReal)
      ∧ RealV (m ((c.tc : Thread nD τ).loc main_arg10) : S64.Idx → EReal)
      ∧ RealV (m ((c.tc : Thread nD τ).loc main_arg11) : S64x64.Idx → EReal)
      ∧ RealV (m ((c.tc : Thread nD τ).loc main_arg12) : S64.Idx → EReal)
      ∧ RealV (m ((c.tc : Thread nD τ).loc main_arg13) : S64.Idx → EReal)
      ∧ RealV (m ((c.tc : Thread nD τ).loc main_arg14) : S64.Idx → EReal)
      ∧ RealV (m ((c.tc : Thread nD τ).loc main_arg15) : S64x10.Idx → EReal)
      ∧ RealV (m ((c.tc : Thread nD τ).loc main_arg16) : S10.Idx → EReal) := by
  have e := congrFun (h c) ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  simp only [andi, IntOp.andi_eq_one] at e
  obtain ⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩ := e
  exact ⟨realV_of_all _ _ _ _ _ _ e0, realV_of_all _ _ _ _ _ _ e3, realV_of_all _ _ _ _ _ _ e4, realV_of_all _ _ _ _ _ _ e5, realV_of_all _ _ _ _ _ _ e6, realV_of_all _ _ _ _ _ _ e7, realV_of_all _ _ _ _ _ _ e8, realV_of_all _ _ _ _ _ _ e9, realV_of_all _ _ _ _ _ _ e10, realV_of_all _ _ _ _ _ _ e11, realV_of_all _ _ _ _ _ _ e12, realV_of_all _ _ _ _ _ _ e13, realV_of_all _ _ _ _ _ _ e14, realV_of_all _ _ _ _ _ _ e15, realV_of_all _ _ _ _ _ _ e16⟩

end Part1

section Part2

/-- The 32-bit pattern 0x3727C5AC (the float nearest 1e-5) denotes the positive real 10995116 * 2^(-40). -/
theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The 32-bit pattern 0x47C35000 denotes the real number 100000 (= 12800000 * 2^(-7)). -/
theorem n_val : Ideal.ofBits .f32 0x47C35000#32 = ((100000 : ℝ) : EReal) := by
  simp [Ideal.ofBits, Ideal.ieee, -EReal.coe_mul]
  norm_num

/-- The reciprocal square root of a positive real is a positive real. -/
theorem rsqrt_pos_real (r : ℝ) (hr : 0 < r) : ∃ s : ℝ, 0 < s ∧ Ideal.rsqrt (r : EReal) = (s : EReal) := by
  refine ⟨(Real.sqrt r)⁻¹, inv_pos.mpr (Real.sqrt_pos.mpr hr), ?_⟩
  rw [Ideal.rsqrt_coe, if_neg (not_lt.mpr hr.le), if_neg (ne_of_gt hr)]

/-- "if d > 0 then rsqrt d else 0" is a real number for every real d. -/
theorem select_rsqrt_real (d : EReal) (hd : ∃ r : ℝ, d = r) :
    ∃ s : ℝ, Scalar.select (Ideal.cmp .ogt d (Ideal.ofBits .f32 0x00000000#32)) (Ideal.rsqrt d)
      (Ideal.ofBits .f32 0x00000000#32) = (s : EReal) := by
  obtain ⟨r, rfl⟩ := hd
  rw [Cert.LibPayOps.select_ogt, Ideal.ofBits_zero_f32]
  by_cases h : (0 : EReal) < (r : EReal)
  · rw [if_pos h]
    obtain ⟨s, -, hs⟩ := rsqrt_pos_real r (by exact_mod_cast h)
    exact ⟨s, hs⟩
  · rw [if_neg h]
    exact ⟨0, rfl⟩

/-- The vector form, for an array of any shape: where(d > 0, rsqrt d, 0) is real-valued when d is. The zero
    arrays are the rank-zero zero constant broadcast to the shape (the second through an identity conversion). -/
theorem select_rsqrt_realV {s : Shape} (bc : (⟨0, ![]⟩ : Shape).BroadcastsInDim s (![] : Fin 0 → Fin s.rank))
    (d : FVec Ideal s .f32) (hd : RealV d) :
    RealV (select (cmpf .ogt d (broadcastInDim s ![] bc (constant (F := Ideal) (⟨0, ![]⟩ : Shape) .f32 0x00000000#32)))
      (Host.rsqrt d) (broadcastInDim s ![] bc (id (constant (F := Ideal) (⟨0, ![]⟩ : Shape) .f32 0x00000000#32)))) := by
  intro i
  exact select_rsqrt_real (d i) (hd i)

open Cert.KernelIdeal in
/-- The same at the degree vector's shape [100000], in the program's own spelling. -/
theorem select_rsqrt_realV_S100000 [Cert.KernelIdeal.Facts] (d : FVec Ideal S100000 .f32) (hd : RealV d) :
    RealV (select (cmpf .ogt d (broadcastInDim S100000 ![] Cert.KernelIdeal.Facts₀.bcast_S_S100000 (constant (F := Ideal) S_ .f32 0x00000000#32)))
      (Host.rsqrt d) (broadcastInDim S100000 ![] Cert.KernelIdeal.Facts₀.bcast_S_S100000 (id (constant (F := Ideal) S_ .f32 0x00000000#32)))) :=
  select_rsqrt_realV _ d hd

end Part2

end Cert.PreReal

end
-- ==== Proof.Bridge.lean ====
/-
  The kernel's function of the arguments is the common specification's, for real-valued arguments.

  Three facts join them. A projection region's sum over the 64 features IS the host's matrix product. A layer's
  normalisation with the raw-moment variance IS the reference's with the mean squared deviation, when the aggregated
  array is real-valued (the variance law) — and the aggregated array is real-valued because it is built from real
  inputs by products, sums over the messages and re-indexings, the message normalisation being a product of two
  entries of where(deg > 0, rsqrt deg, 0), real for a real count. The final region's product plus bias row IS the
  host's. Real-valuedness is carried from layer to layer: a normalised layer of a real-valued array is real-valued.
-/
import proofs.«179986_j62663572849123_1_alg».proof.Proof.KDefs
import proofs.«179986_j62663572849123_1_alg».proof.Proof.BnLaw
import proofs.«179986_j62663572849123_1_alg».proof.Proof.PreReal
import proofs.«179986_j62663572849123_1_alg».proof.Proof.LibPlainDot
import Idealize.ShloMosaic.Lib.ValueLayout

noncomputable section

open scoped BigOperators

namespace Cert.Bridge

open Cert.KernelIdeal.Total Cert.KernelIdeal.HostVals Cert.Spec Cert.LibRealValued Cert.BnLaw
open Idealize.ShloMosaic Idealize.ShloMosaic.ValueIdx

local notation "SN" => Cert.ReferenceIdeal.S100000x64
local notation "SE" => Cert.ReferenceIdeal.S1700000

/-! ## The two matrix products -/

/-- The projection: the sum over the 64 features is the host's matrix product. -/
theorem linK_eq (x : FVec Ideal SN .f32) (w : FVec Ideal Cert.ReferenceIdeal.S64x64 .f32) :
    linK x w = dotNN (F := Ideal) x w := by
  funext i
  obtain ⟨p, q, rfl⟩ : ∃ (p : Fin 100000) (q : Fin 64), i = ix2 p q := ⟨i 0, i 1, eq_ix2 i⟩
  exact (Cert.LibPlainDot.dotGeneral_plain (M := 100000) (K := 64) (N := 64) none .single x w p q).symm

/-- A 10-vector as a one-row matrix, read at column `j`. -/
theorem rowOf10_apply (b : FVec Ideal Cert.ReferenceIdeal.S10 .f32) (j : Fin 10) :
    rowOf10 (F := Ideal) b (ix2 (0 : Fin 1) j) = b (ix1 j) :=
  Idealize.ShloMosaic.ValueIdx.shapeCast_a_1a_apply b _ (0 : Fin 1) j

/-- A 64-vector as a one-row matrix, read at column `j`. -/
theorem rowOf_apply (g : FVec Ideal Cert.ReferenceIdeal.S64 .f32) (j : Fin 64) :
    rowOf (F := Ideal) g (ix2 (0 : Fin 1) j) = g (ix1 j) :=
  Idealize.ShloMosaic.ValueIdx.shapeCast_a_1a_apply g _ (0 : Fin 1) j

/-- The final layer: the product plus the one-row bias is the host's product plus the broadcast bias. -/
theorem fcK_eq (p : FVec Ideal Cert.ReferenceIdeal.S512x64 .f32) (w : FVec Ideal Cert.ReferenceIdeal.S64x10 .f32)
    (b : FVec Ideal Cert.ReferenceIdeal.S10 .f32) :
    fcK p w (rowOf10 (F := Ideal) b) = fcRef (F := Ideal) p w b := by
  funext i
  obtain ⟨r, j, rfl⟩ : ∃ (r : Fin 512) (j : Fin 10), i = ix2 r j := ⟨i 0, i 1, eq_ix2 i⟩
  unfold fcRef
  rw [addf_apply]
  show (∑ k : Fin 64, p (ix2 r k) * w (ix2 k j)) + rowOf10 (F := Ideal) b (ix2 (0 : Fin 1) j) = _
  rw [rowOf10_apply]
  refine congrArg₂ (· + ·) (Cert.LibPlainDot.dotGeneral_plain (M := 512) (K := 64) (N := 10) none .single p w r j).symm ?_
  open Cert.ReferenceIdeal Cert.ReferenceIdeal.Gen in
  rw [broadcastInDim_apply _ bcast_S1x10_S512x10_0_1 _ (ix2 r j) (ix2 (0 : Fin 1) j) (fun a => match a with
    | ⟨0, _⟩ => by show 0 = if (1 : Nat) = 1 then 0 else r.val; rw [if_pos rfl]
    | ⟨1, _⟩ => by show j.val = if (10 : Nat) = 1 then 0 else j.val; rw [if_neg (by decide)])]
  exact (broadcastInDim_apply _ bcast_S10_S1x10_1 b (ix2 (0 : Fin 1) j) (ix1 j) (fun a => match a with
    | ⟨0, _⟩ => by show j.val = if (10 : Nat) = 1 then 0 else j.val; rw [if_neg (by decide)])).symm

/-! ## Real-valued stages -/

/-- The message normalisation is real-valued, whatever the edge list. -/
theorem normOf_real (src dst : IVec SE 32) : RealV (normOf (F := Ideal) src dst) := by
  have hdeg : RealV (degOf (F := Ideal) dst) := by
    unfold degOf
    exact RealV.scatterAdd _ _ (RealV.broadcastInDim _ RealV.constant_zero) (RealV.broadcastInDim _ RealV.constant_one)
  have hdinv : RealV (dinvOf (F := Ideal) dst) := by
    unfold dinvOf
    exact Cert.PreReal.select_rsqrt_realV _ _ hdeg
  unfold normOf normFrom
  exact RealV.mulf (RealV.gather _ _ hdinv) (RealV.gather _ _ hdinv)

/-- The projection of real-valued rows by a real-valued matrix is real-valued. -/
theorem dotNN_real {x : FVec Ideal SN .f32} {w : FVec Ideal Cert.ReferenceIdeal.S64x64 .f32} (hx : RealV x) (hw : RealV w) :
    RealV (dotNN (F := Ideal) x w) := by
  unfold dotNN
  exact RealV.dotGeneral _ _ hx hw

/-- The aggregation of real-valued projected rows with real-valued normalisation and bias is real-valued. -/
theorem aggOut_real {lin : FVec Ideal SN .f32} (src dst : IVec SE 32) {nrm : FVec Ideal SE .f32}
    {b : FVec Ideal Cert.ReferenceIdeal.S64 .f32} (hl : RealV lin) (hn : RealV nrm) (hb : RealV b) :
    RealV (aggOut (F := Ideal) lin src nrm dst b) := by
  unfold aggOut
  exact RealV.addf (RealV.scatterAdd _ _ (RealV.broadcastInDim _ RealV.constant_zero)
    (RealV.mulf (RealV.gather _ _ hl) (RealV.broadcastInDim _ (RealV.broadcastInDim _ hn))))
    (RealV.broadcastInDim _ (RealV.broadcastInDim _ hb))

/-! ## One layer -/

/-- The kernel's normalisation of a real-valued array is the reference's. -/
theorem normK_eq (out : FVec Ideal SN .f32) (g be : FVec Ideal Cert.ReferenceIdeal.S64 .f32) (ho : RealV out) :
    normK out g be = bnRef (F := Ideal) out g be := by
  funext i
  obtain ⟨r, j, rfl⟩ : ∃ (r : Fin 100000) (j : Fin 64), i = ix2 r j := ⟨i 0, i 1, eq_ix2 i⟩
  rw [bnRef_apply]
  show bnAt (out (ix2 r j)) (kMean (F := Ideal) (sumK out) (ix2 (0 : Fin 1) j)) (kVar (F := Ideal) (sumK out) (sumsqK out) (ix2 (0 : Fin 1) j))
    (rowOf (F := Ideal) g (ix2 (0 : Fin 1) j)) (rowOf (F := Ideal) be (ix2 (0 : Fin 1) j)) = _
  have hm : kMean (F := Ideal) (sumK out) (ix2 (0 : Fin 1) j) = meanOf (F := Ideal) out (ix1 j) := by
    rw [meanOf_apply]
    show Ideal.div (∑ k : Fin 100000, out (ix2 k j)) (Ideal.ofBits .f32 0x47C35000#32) = _
    rfl
  have hv : kVar (F := Ideal) (sumK out) (sumsqK out) (ix2 (0 : Fin 1) j) = varOf (F := Ideal) out (ix1 j) := by
    rw [varOf_eq Cert.PreReal.n_val out ho j]
    show Ideal.div (∑ k : Fin 100000, out (ix2 k j) * out (ix2 k j)) (Ideal.ofBits .f32 0x47C35000#32)
      - Ideal.div (∑ k : Fin 100000, out (ix2 k j)) (Ideal.ofBits .f32 0x47C35000#32)
        * Ideal.div (∑ k : Fin 100000, out (ix2 k j)) (Ideal.ofBits .f32 0x47C35000#32) = _
    rfl
  rw [hm, hv, rowOf_apply, rowOf_apply]

/-- One layer: the kernel's is the specification's, and the result is again real-valued. -/
theorem layer_eq (h : FVec Ideal SN .f32) (src dst : IVec SE 32) (nrm : FVec Ideal SE .f32)
    (W : FVec Ideal Cert.ReferenceIdeal.S64x64 .f32) (b g be : FVec Ideal Cert.ReferenceIdeal.S64 .f32)
    (hh : RealV h) (hn : RealV nrm) (hW : RealV W) (hb : RealV b) (hg : RealV g) (hbe : RealV be) :
    normK (aggOut (F := Ideal) (linK h W) src nrm dst b) g be = layer (F := Ideal) h src nrm dst W b g be
      ∧ RealV (layer (F := Ideal) h src nrm dst W b g be) := by
  have ho : RealV (aggOut (F := Ideal) (dotNN (F := Ideal) h W) src nrm dst b) := aggOut_real src dst (dotNN_real hh hW) hn hb
  refine ⟨?_, ?_⟩
  · rw [linK_eq, normK_eq _ _ _ ho]
    rfl
  · unfold layer
    exact bnRef_real Cert.PreReal.n_val Cert.PreReal.eps_pos _ _ _ ho hg hbe

/-! ## The whole network -/

/-- The kernel's function of the arguments is the specification's, when the float arguments of the three layers are
    real-valued. -/
theorem total_eq (x0 : FVec Ideal SN .f32) (x1 : IVec Cert.ReferenceIdeal.S2x1600000 32) (x2 : IVec Cert.ReferenceIdeal.S100000 32)
    (x3 : FVec Ideal Cert.ReferenceIdeal.S64x64 .f32) (x4 x5 x6 : FVec Ideal Cert.ReferenceIdeal.S64 .f32)
    (x7 : FVec Ideal Cert.ReferenceIdeal.S64x64 .f32) (x8 x9 x10 : FVec Ideal Cert.ReferenceIdeal.S64 .f32)
    (x11 : FVec Ideal Cert.ReferenceIdeal.S64x64 .f32) (x12 x13 x14 : FVec Ideal Cert.ReferenceIdeal.S64 .f32)
    (x15 : FVec Ideal Cert.ReferenceIdeal.S64x10 .f32) (x16 : FVec Ideal Cert.ReferenceIdeal.S10 .f32)
    (h0 : RealV x0) (h3 : RealV x3) (h4 : RealV x4) (h5 : RealV x5) (h6 : RealV x6) (h7 : RealV x7) (h8 : RealV x8)
    (h9 : RealV x9) (h10 : RealV x10) (h11 : RealV x11) (h12 : RealV x12) (h13 : RealV x13) (h14 : RealV x14) :
    fcK (poolOf (F := Ideal)
      (normK (aggOut (F := Ideal) (linK
        (normK (aggOut (F := Ideal) (linK
          (normK (aggOut (F := Ideal) (linK x0 x3) (srcOf (F := Ideal) x1) (normOf (F := Ideal) (srcOf (F := Ideal) x1) (dstOf (F := Ideal) x1)) (dstOf (F := Ideal) x1) x4) x5 x6)
          x7) (srcOf (F := Ideal) x1) (normOf (F := Ideal) (srcOf (F := Ideal) x1) (dstOf (F := Ideal) x1)) (dstOf (F := Ideal) x1) x8) x9 x10)
        x11) (srcOf (F := Ideal) x1) (normOf (F := Ideal) (srcOf (F := Ideal) x1) (dstOf (F := Ideal) x1)) (dstOf (F := Ideal) x1) x12) x13 x14)
      x2) x15 (rowOf10 (F := Ideal) x16)
    = total (F := Ideal) x0 x1 x2 x3 x4 x5 x6 x7 x8 x9 x10 x11 x12 x13 x14 x15 x16 := by
  have hn := normOf_real (srcOf (F := Ideal) x1) (dstOf (F := Ideal) x1)
  obtain ⟨e1, r1⟩ := layer_eq x0 (srcOf (F := Ideal) x1) (dstOf (F := Ideal) x1) _ x3 x4 x5 x6 h0 hn h3 h4 h5 h6
  rw [e1]
  obtain ⟨e2, r2⟩ := layer_eq _ (srcOf (F := Ideal) x1) (dstOf (F := Ideal) x1) _ x7 x8 x9 x10 r1 hn h7 h8 h9 h10
  rw [e2]
  obtain ⟨e3, r3⟩ := layer_eq _ (srcOf (F := Ideal) x1) (dstOf (F := Ideal) x1) _ x11 x12 x13 x14 r2 hn h11 h12 h13 h14
  rw [e3, fcK_eq]
  rfl

end Cert.Bridge

end
-- ==== Proof.RefRun.lean ====
/-
  The idealized reference's run, read stage by stage.

  The reference is one straight line of host operations. Every weakly fair execution of it ends with each buffer
  holding what the operations, applied in order to the launch contents, leave there. The line is cut into ten
  consecutive pieces (the preparation of the message lists and their normalisation; for each of the three layers the
  projection-and-aggregation and the normalisation; the per-graph mean and the final layer); what a piece leaves in the
  buffer that the next piece reads is one stage of the common specification applied to what the piece found, and the
  pieces compose to the whole network of the arguments. No piece writes an argument.
-/
import proofs.«179986_j62663572849123_1_alg».proof.Proof.Gen.ReferenceIdeal
import proofs.«179986_j62663572849123_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order (a called function's operations stand in its call's place). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg3 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x00000000#32),
    binary main_v46 main_cst_9 main_v47 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v48 (broadcastInDim S64 ![] bcast_S_S64 : (⟨S_, .f32⟩ : BufTy).Contents (Elt F) → (⟨S64, .f32⟩ : BufTy).Contents (Elt F)),
    binary main_v47 main_v48 main_v49 (Host.divf : (⟨S64, .f32⟩ : BufTy).Contents (Elt F) → (⟨S64, .f32⟩ : BufTy).Contents (Elt F) → (⟨S64, .f32⟩ : BufTy).Contents (Elt F)),
    unary main_v49 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v46 main_v51 main_v52 (subf : (⟨S100000x64, .f32⟩ : BufTy).Contents (Elt F) → (⟨S100000x64, .f32⟩ : BufTy).Contents (Elt F) → (⟨S100000x64, .f32⟩ : BufTy).Contents (Elt F)),
    binary main_v52 main_v52 main_v53 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x00000000#32),
    binary main_v53 main_cst_11 main_v54 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v55 (broadcastInDim S64 ![] bcast_S_S64 : (⟨S_, .f32⟩ : BufTy).Contents (Elt F) → (⟨S64, .f32⟩ : BufTy).Contents (Elt F)),
    binary main_v54 main_v55 main_v56 (Host.divf : (⟨S64, .f32⟩ : BufTy).Contents (Elt F) → (⟨S64, .f32⟩ : BufTy).Contents (Elt F) → (⟨S64, .f32⟩ : BufTy).Contents (Elt F)),
    unary main_v49 main_v57 (broadcastInDim S1x64 ![1] bcast_S64_S1x64_1 : (⟨S64, .f32⟩ : BufTy).Contents (Elt F) → (⟨S1x64, .f32⟩ : BufTy).Contents (Elt F)),
    unary main_v57 main_v58 (broadcastInDim S100000x64 ![0, 1] bcast_S1x64_S100000x64_0_1 : (⟨S1x64, .f32⟩ : BufTy).Contents (Elt F) → (⟨S100000x64, .f32⟩ : BufTy).Contents (Elt F)),
    binary main_v46 main_v58 main_v59 (subf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v60 (broadcastInDim S64 ![] bcast_S_S64 : (⟨S_, .f32⟩ : BufTy).Contents (Elt F) → (⟨S64, .f32⟩ : BufTy).Contents (Elt F)),
    binary main_v56 main_v60 main_v61 (addf : (⟨S64, .f32⟩ : BufTy).Contents (Elt F) → (⟨S64, .f32⟩ : BufTy).Contents (Elt F) → (⟨S64, .f32⟩ : BufTy).Contents (Elt F)),
    unary main_v61 main_v62 (Host.rsqrt : (⟨S64, .f32⟩ : BufTy).Contents (Elt F) → (⟨S64, .f32⟩ : BufTy).Contents (Elt F)),
    unary main_v62 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v59 main_v64 main_v65 (mulf : (⟨S100000x64, .f32⟩ : BufTy).Contents (Elt F) → (⟨S100000x64, .f32⟩ : BufTy).Contents (Elt F) → (⟨S100000x64, .f32⟩ : BufTy).Contents (Elt F)),
    unary main_arg5 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v65 main_v67 main_v68 (mulf : (⟨S100000x64, .f32⟩ : BufTy).Contents (Elt F) → (⟨S100000x64, .f32⟩ : BufTy).Contents (Elt F) → (⟨S100000x64, .f32⟩ : BufTy).Contents (Elt F)),
    unary main_arg6 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v71) (TRef.of (T := ⟨S100000x64, .f32⟩) main_call1_v0) (TRef.of (T := ⟨S100000x64, .f32⟩) main_v72) maximumf,
    binary main_v72 main_arg7 main_v73 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_14 (constantI S_ 32 0#32),
    unary main_c_14 main_v74 (broadcastInDim S1700000 ![] bcast_S_S1700000 : (⟨S_, .i32⟩ : BufTy).Contents (Elt F) → (⟨S1700000, .i32⟩ : BufTy).Contents (Elt F)),
    binary main_v3 main_v74 main_v75 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v76 (broadcastInDim S1700000 ![] bcast_S_S1700000 : (⟨S_, .i32⟩ : BufTy).Contents (Elt F) → (⟨S1700000, .i32⟩ : BufTy).Contents (Elt F)),
    binary main_v3 main_v76 main_v77 (addi : (⟨S1700000, .i32⟩ : BufTy).Contents (Elt F) → (⟨S1700000, .i32⟩ : BufTy).Contents (Elt F) → (⟨S1700000, .i32⟩ : BufTy).Contents (Elt F)),
    ternary main_v75 main_v77 main_v3 main_v78 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v78 main_v79 (broadcastInDim S1700000x1 ![0] bcast_S1700000_S1700000x1_0 : (⟨S1700000, .i32⟩ : BufTy).Contents (Elt F) → (⟨S1700000x1, .i32⟩ : BufTy).Contents (Elt F)),
    binary main_v73 main_v79 main_v80 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v81 (broadcastInDim S1700000x1 ![0] bcast_S1700000_S1700000x1_0 : (⟨S1700000, .f32⟩ : BufTy).Contents (Elt F) → (⟨S1700000x1, .f32⟩ : BufTy).Contents (Elt F)),
    unary main_v81 main_v82 (broadcastInDim S1700000x64 ![0, 1] bcast_S1700000x1_S1700000x64_0_1 : (⟨S1700000x1, .f32⟩ : BufTy).Contents (Elt F) → (⟨S1700000x64, .f32⟩ : BufTy).Contents (Elt F)),
    binary main_v80 main_v82 main_v83 (mulf : (⟨S1700000x64, .f32⟩ : BufTy).Contents (Elt F) → (⟨S1700000x64, .f32⟩ : BufTy).Contents (Elt F) → (⟨S1700000x64, .f32⟩ : BufTy).Contents (Elt F)),
    nullary main_cst_16 (constant S_ .f32 0x00000000#32),
    unary main_cst_16 main_v84 (broadcastInDim S100000x64 ![] bcast_S_S100000x64 : (⟨S_, .f32⟩ : BufTy).Contents (Elt F) → (⟨S100000x64, .f32⟩ : BufTy).Contents (Elt F)),
    unary main_v6 main_v85 (broadcastInDim S1700000x1 ![0] bcast_S1700000_S1700000x1_0 : (⟨S1700000, .i32⟩ : BufTy).Contents (Elt F) → (⟨S1700000x1, .i32⟩ : BufTy).Contents (Elt F)),
    ternary main_v84 main_v85 main_v83 main_v86 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg8 main_v87 (broadcastInDim S1x64 ![1] bcast_S64_S1x64_1 : (⟨S64, .f32⟩ : BufTy).Contents (Elt F) → (⟨S1x64, .f32⟩ : BufTy).Contents (Elt F)),
    unary main_v87 main_v88 (broadcastInDim S100000x64 ![0, 1] bcast_S1x64_S100000x64_0_1 : (⟨S1x64, .f32⟩ : BufTy).Contents (Elt F) → (⟨S100000x64, .f32⟩ : BufTy).Contents (Elt F)),
    binary main_v86 main_v88 main_v89 (addf : (⟨S100000x64, .f32⟩ : BufTy).Contents (Elt F) → (⟨S100000x64, .f32⟩ : BufTy).Contents (Elt F) → (⟨S100000x64, .f32⟩ : BufTy).Contents (Elt F)),
    nullary main_cst_17 (constant S_ .f32 0x00000000#32),
    binary main_v89 main_cst_17 main_v90 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v91 (broadcastInDim S64 ![] bcast_S_S64 : (⟨S_, .f32⟩ : BufTy).Contents (Elt F) → (⟨S64, .f32⟩ : BufTy).Contents (Elt F)),
    binary main_v90 main_v91 main_v92 (Host.divf : (⟨S64, .f32⟩ : BufTy).Contents (Elt F) → (⟨S64, .f32⟩ : BufTy).Contents (Elt F) → (⟨S64, .f32⟩ : BufTy).Contents (Elt F)),
    unary main_v92 main_v93 (broadcastInDim S1x64 ![1] bcast_S64_S1x64_1 : (⟨S64, .f32⟩ : BufTy).Contents (Elt F) → (⟨S1x64, .f32⟩ : BufTy).Contents (Elt F)),
    unary main_v93 main_v94 (broadcastInDim S100000x64 ![0, 1] bcast_S1x64_S100000x64_0_1 : (⟨S1x64, .f32⟩ : BufTy).Contents (Elt F) → (⟨S100000x64, .f32⟩ : BufTy).Contents (Elt F)),
    binary main_v89 main_v94 main_v95 (subf : (⟨S100000x64, .f32⟩ : BufTy).Contents (Elt F) → (⟨S100000x64, .f32⟩ : BufTy).Contents (Elt F) → (⟨S100000x64, .f32⟩ : BufTy).Contents (Elt F)),
    binary main_v95 main_v95 main_v96 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x00000000#32),
    binary main_v96 main_cst_19 main_v97 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_20 (constant S_ .f32 0x47C35000#32),
    unary main_cst_20 main_v98 (broadcastInDim S64 ![] bcast_S_S64 : (⟨S_, .f32⟩ : BufTy).Contents (Elt F) → (⟨S64, .f32⟩ : BufTy).Contents (Elt F)),
    binary main_v97 main_v98 main_v99 (Host.divf : (⟨S64, .f32⟩ : BufTy).Contents (Elt F) → (⟨S64, .f32⟩ : BufTy).Contents (Elt F) → (⟨S64, .f32⟩ : BufTy).Contents (Elt F)),
    unary main_v92 main_v100 (broadcastInDim S1x64 ![1] bcast_S64_S1x64_1 : (⟨S64, .f32⟩ : BufTy).Contents (Elt F) → (⟨S1x64, .f32⟩ : BufTy).Contents (Elt F)),
    unary main_v100 main_v101 (broadcastInDim S100000x64 ![0, 1] bcast_S1x64_S100000x64_0_1 : (⟨S1x64, .f32⟩ : BufTy).Contents (Elt F) → (⟨S100000x64, .f32⟩ : BufTy).Contents (Elt F)),
    binary main_v89 main_v101 main_v102 (subf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3727C5AC#32),
    unary main_cst_21 main_v103 (broadcastInDim S64 ![] bcast_S_S64 : (⟨S_, .f32⟩ : BufTy).Contents (Elt F) → (⟨S64, .f32⟩ : BufTy).Contents (Elt F)),
    binary main_v99 main_v103 main_v104 (addf : (⟨S64, .f32⟩ : BufTy).Contents (Elt F) → (⟨S64, .f32⟩ : BufTy).Contents (Elt F) → (⟨S64, .f32⟩ : BufTy).Contents (Elt F)),
    unary main_v104 main_v105 (Host.rsqrt : (⟨S64, .f32⟩ : BufTy).Contents (Elt F) → (⟨S64, .f32⟩ : BufTy).Contents (Elt F)),
    unary main_v105 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v102 main_v107 main_v108 (mulf : (⟨S100000x64, .f32⟩ : BufTy).Contents (Elt F) → (⟨S100000x64, .f32⟩ : BufTy).Contents (Elt F) → (⟨S100000x64, .f32⟩ : BufTy).Contents (Elt F)),
    unary main_arg9 main_v109 (broadcastInDim S1x64 ![1] bcast_S64_S1x64_1 : (⟨S64, .f32⟩ : BufTy).Contents (Elt F) → (⟨S1x64, .f32⟩ : BufTy).Contents (Elt F)),
    unary main_v109 main_v110 (broadcastInDim S100000x64 ![0, 1] bcast_S1x64_S100000x64_0_1 : (⟨S1x64, .f32⟩ : BufTy).Contents (Elt F) → (⟨S100000x64, .f32⟩ : BufTy).Contents (Elt F)),
    binary main_v108 main_v110 main_v111 (mulf : (⟨S100000x64, .f32⟩ : BufTy).Contents (Elt F) → (⟨S100000x64, .f32⟩ : BufTy).Contents (Elt F) → (⟨S100000x64, .f32⟩ : BufTy).Contents (Elt F)),
    unary main_arg10 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v111 main_v113 main_v114 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v114) (TRef.of (T := ⟨S100000x64, .f32⟩) main_call2_v0) (TRef.of (T := ⟨S100000x64, .f32⟩) main_v115) maximumf,
    binary main_v115 main_arg11 main_v116 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_22 (constantI S_ 32 0#32),
    unary main_c_22 main_v117 (broadcastInDim S1700000 ![] bcast_S_S1700000 : (⟨S_, .i32⟩ : BufTy).Contents (Elt F) → (⟨S1700000, .i32⟩ : BufTy).Contents (Elt F)),
    binary main_v3 main_v117 main_v118 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v119 (broadcastInDim S1700000 ![] bcast_S_S1700000 : (⟨S_, .i32⟩ : BufTy).Contents (Elt F) → (⟨S1700000, .i32⟩ : BufTy).Contents (Elt F)),
    binary main_v3 main_v119 main_v120 (addi : (⟨S1700000, .i32⟩ : BufTy).Contents (Elt F) → (⟨S1700000, .i32⟩ : BufTy).Contents (Elt F) → (⟨S1700000, .i32⟩ : BufTy).Contents (Elt F)),
    ternary main_v118 main_v120 main_v3 main_v121 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v121 main_v122 (broadcastInDim S1700000x1 ![0] bcast_S1700000_S1700000x1_0 : (⟨S1700000, .i32⟩ : BufTy).Contents (Elt F) → (⟨S1700000x1, .i32⟩ : BufTy).Contents (Elt F)),
    binary main_v116 main_v122 main_v123 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v124 (broadcastInDim S1700000x1 ![0] bcast_S1700000_S1700000x1_0 : (⟨S1700000, .f32⟩ : BufTy).Contents (Elt F) → (⟨S1700000x1, .f32⟩ : BufTy).Contents (Elt F)),
    unary main_v124 main_v125 (broadcastInDim S1700000x64 ![0, 1] bcast_S1700000x1_S1700000x64_0_1 : (⟨S1700000x1, .f32⟩ : BufTy).Contents (Elt F) → (⟨S1700000x64, .f32⟩ : BufTy).Contents (Elt F)),
    binary main_v123 main_v125 main_v126 (mulf : (⟨S1700000x64, .f32⟩ : BufTy).Contents (Elt F) → (⟨S1700000x64, .f32⟩ : BufTy).Contents (Elt F) → (⟨S1700000x64, .f32⟩ : BufTy).Contents (Elt F)),
    nullary main_cst_24 (constant S_ .f32 0x00000000#32),
    unary main_cst_24 main_v127 (broadcastInDim S100000x64 ![] bcast_S_S100000x64 : (⟨S_, .f32⟩ : BufTy).Contents (Elt F) → (⟨S100000x64, .f32⟩ : BufTy).Contents (Elt F)),
    unary main_v6 main_v128 (broadcastInDim S1700000x1 ![0] bcast_S1700000_S1700000x1_0 : (⟨S1700000, .i32⟩ : BufTy).Contents (Elt F) → (⟨S1700000x1, .i32⟩ : BufTy).Contents (Elt F)),
    ternary main_v127 main_v128 main_v126 main_v129 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg12 main_v130 (broadcastInDim S1x64 ![1] bcast_S64_S1x64_1 : (⟨S64, .f32⟩ : BufTy).Contents (Elt F) → (⟨S1x64, .f32⟩ : BufTy).Contents (Elt F)),
    unary main_v130 main_v131 (broadcastInDim S100000x64 ![0, 1] bcast_S1x64_S100000x64_0_1 : (⟨S1x64, .f32⟩ : BufTy).Contents (Elt F) → (⟨S100000x64, .f32⟩ : BufTy).Contents (Elt F)),
    binary main_v129 main_v131 main_v132 (addf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x00000000#32),
    binary main_v132 main_cst_25 main_v133 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_26 (constant S_ .f32 0x47C35000#32),
    unary main_cst_26 main_v134 (broadcastInDim S64 ![] bcast_S_S64 : (⟨S_, .f32⟩ : BufTy).Contents (Elt F) → (⟨S64, .f32⟩ : BufTy).Contents (Elt F)),
    binary main_v133 main_v134 main_v135 (Host.divf : (⟨S64, .f32⟩ : BufTy).Contents (Elt F) → (⟨S64, .f32⟩ : BufTy).Contents (Elt F) → (⟨S64, .f32⟩ : BufTy).Contents (Elt F)),
    unary main_v135 main_v136 (broadcastInDim S1x64 ![1] bcast_S64_S1x64_1 : (⟨S64, .f32⟩ : BufTy).Contents (Elt F) → (⟨S1x64, .f32⟩ : BufTy).Contents (Elt F)),
    unary main_v136 main_v137 (broadcastInDim S100000x64 ![0, 1] bcast_S1x64_S100000x64_0_1 : (⟨S1x64, .f32⟩ : BufTy).Contents (Elt F) → (⟨S100000x64, .f32⟩ : BufTy).Contents (Elt F)),
    binary main_v132 main_v137 main_v138 (subf : (⟨S100000x64, .f32⟩ : BufTy).Contents (Elt F) → (⟨S100000x64, .f32⟩ : BufTy).Contents (Elt F) → (⟨S100000x64, .f32⟩ : BufTy).Contents (Elt F)),
    binary main_v138 main_v138 main_v139 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x00000000#32),
    binary main_v139 main_cst_27 main_v140 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_28 (constant S_ .f32 0x47C35000#32),
    unary main_cst_28 main_v141 (broadcastInDim S64 ![] bcast_S_S64 : (⟨S_, .f32⟩ : BufTy).Contents (Elt F) → (⟨S64, .f32⟩ : BufTy).Contents (Elt F)),
    binary main_v140 main_v141 main_v142 (Host.divf : (⟨S64, .f32⟩ : BufTy).Contents (Elt F) → (⟨S64, .f32⟩ : BufTy).Contents (Elt F) → (⟨S64, .f32⟩ : BufTy).Contents (Elt F)),
    unary main_v135 main_v143 (broadcastInDim S1x64 ![1] bcast_S64_S1x64_1 : (⟨S64, .f32⟩ : BufTy).Contents (Elt F) → (⟨S1x64, .f32⟩ : BufTy).Contents (Elt F)),
    unary main_v143 main_v144 (broadcastInDim S100000x64 ![0, 1] bcast_S1x64_S100000x64_0_1 : (⟨S1x64, .f32⟩ : BufTy).Contents (Elt F) → (⟨S100000x64, .f32⟩ : BufTy).Contents (Elt F)),
    binary main_v132 main_v144 main_v145 (subf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x3727C5AC#32),
    unary main_cst_29 main_v146 (broadcastInDim S64 ![] bcast_S_S64 : (⟨S_, .f32⟩ : BufTy).Contents (Elt F) → (⟨S64, .f32⟩ : BufTy).Contents (Elt F)),
    binary main_v142 main_v146 main_v147 (addf : (⟨S64, .f32⟩ : BufTy).Contents (Elt F) → (⟨S64, .f32⟩ : BufTy).Contents (Elt F) → (⟨S64, .f32⟩ : BufTy).Contents (Elt F)),
    unary main_v147 main_v148 (Host.rsqrt : (⟨S64, .f32⟩ : BufTy).Contents (Elt F) → (⟨S64, .f32⟩ : BufTy).Contents (Elt F)),
    unary main_v148 main_v149 (broadcastInDim S1x64 ![1] bcast_S64_S1x64_1 : (⟨S64, .f32⟩ : BufTy).Contents (Elt F) → (⟨S1x64, .f32⟩ : BufTy).Contents (Elt F)),
    unary main_v149 main_v150 (broadcastInDim S100000x64 ![0, 1] bcast_S1x64_S100000x64_0_1 : (⟨S1x64, .f32⟩ : BufTy).Contents (Elt F) → (⟨S100000x64, .f32⟩ : BufTy).Contents (Elt F)),
    binary main_v145 main_v150 main_v151 (mulf : (⟨S100000x64, .f32⟩ : BufTy).Contents (Elt F) → (⟨S100000x64, .f32⟩ : BufTy).Contents (Elt F) → (⟨S100000x64, .f32⟩ : BufTy).Contents (Elt F)),
    unary main_arg13 main_v152 (broadcastInDim S1x64 ![1] bcast_S64_S1x64_1 : (⟨S64, .f32⟩ : BufTy).Contents (Elt F) → (⟨S1x64, .f32⟩ : BufTy).Contents (Elt F)),
    unary main_v152 main_v153 (broadcastInDim S100000x64 ![0, 1] bcast_S1x64_S100000x64_0_1 : (⟨S1x64, .f32⟩ : BufTy).Contents (Elt F) → (⟨S100000x64, .f32⟩ : BufTy).Contents (Elt F)),
    binary main_v151 main_v153 main_v154 (mulf : (⟨S100000x64, .f32⟩ : BufTy).Contents (Elt F) → (⟨S100000x64, .f32⟩ : BufTy).Contents (Elt F) → (⟨S100000x64, .f32⟩ : BufTy).Contents (Elt F)),
    unary main_arg14 main_v155 (broadcastInDim S1x64 ![1] bcast_S64_S1x64_1 : (⟨S64, .f32⟩ : BufTy).Contents (Elt F) → (⟨S1x64, .f32⟩ : BufTy).Contents (Elt F)),
    unary main_v155 main_v156 (broadcastInDim S100000x64 ![0, 1] bcast_S1x64_S100000x64_0_1 : (⟨S1x64, .f32⟩ : BufTy).Contents (Elt F) → (⟨S100000x64, .f32⟩ : BufTy).Contents (Elt F)),
    binary main_v154 main_v156 main_v157 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v157) (TRef.of (T := ⟨S100000x64, .f32⟩) main_call3_v0) (TRef.of (T := ⟨S100000x64, .f32⟩) main_v158) maximumf,
    nullary main_cst_30 (constant S_ .f32 0x00000000#32),
    unary main_cst_30 main_v159 (broadcastInDim S512x64 ![] bcast_S_S512x64 : (⟨S_, .f32⟩ : BufTy).Contents (Elt F) → (⟨S512x64, .f32⟩ : BufTy).Contents (Elt F)),
    unary main_arg2 main_v160 (broadcastInDim S100000x1 ![0] bcast_S100000_S100000x1_0 : (⟨S100000, .i32⟩ : BufTy).Contents (Elt F) → (⟨S100000x1, .i32⟩ : BufTy).Contents (Elt F)),
    ternary main_v159 main_v160 main_v158 main_v161 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    nullary main_cst_31 (constant S_ .f32 0x3F800000#32),
    unary main_cst_31 main_v162 (broadcastInDim S100000 ![] bcast_S_S100000 : (⟨S_, .f32⟩ : BufTy).Contents (Elt F) → (⟨S100000, .f32⟩ : BufTy).Contents (Elt F)),
    nullary main_cst_32 (constant S_ .f32 0x00000000#32),
    unary main_cst_32 main_v163 (broadcastInDim S512 ![] bcast_S_S512 : (⟨S_, .f32⟩ : BufTy).Contents (Elt F) → (⟨S512, .f32⟩ : BufTy).Contents (Elt F)),
    unary main_arg2 main_v164 (broadcastInDim S100000x1 ![0] bcast_S100000_S100000x1_0 : (⟨S100000, .i32⟩ : BufTy).Contents (Elt F) → (⟨S100000x1, .i32⟩ : BufTy).Contents (Elt F)),
    ternary main_v163 main_v164 main_v162 main_v165 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_33 (constant S_ .f32 0x3F800000#32),
    unary main_cst_33 main_v166 (broadcastInDim S512 ![] bcast_S_S512 : (⟨S_, .f32⟩ : BufTy).Contents (Elt F) → (⟨S512, .f32⟩ : BufTy).Contents (Elt F)),
    binary main_v165 main_v166 main_v167 (maximumf : (⟨S512, .f32⟩ : BufTy).Contents (Elt F) → (⟨S512, .f32⟩ : BufTy).Contents (Elt F) → (⟨S512, .f32⟩ : BufTy).Contents (Elt F)),
    unary main_v167 main_v168 (broadcastInDim S512x1 ![0] bcast_S512_S512x1_0 : (⟨S512, .f32⟩ : BufTy).Contents (Elt F) → (⟨S512x1, .f32⟩ : BufTy).Contents (Elt F)),
    unary main_v168 main_v169 (broadcastInDim S512x64 ![0, 1] bcast_S512x1_S512x64_0_1 : (⟨S512x1, .f32⟩ : BufTy).Contents (Elt F) → (⟨S512x64, .f32⟩ : BufTy).Contents (Elt F)),
    binary main_v161 main_v169 main_v170 (Host.divf : (⟨S512x64, .f32⟩ : BufTy).Contents (Elt F) → (⟨S512x64, .f32⟩ : BufTy).Contents (Elt F) → (⟨S512x64, .f32⟩ : BufTy).Contents (Elt F)),
    binary main_v170 main_arg15 main_v171 ((fun l r => Host.dotGeneral dot_S512x64_S64x10_S512x10_1_0_0_1_n_n none l r) : (⟨S512x64, .f32⟩ : BufTy).Contents (Elt F) → (⟨S64x10, .f32⟩ : BufTy).Contents (Elt F) → (⟨S512x10, .f32⟩ : BufTy).Contents (Elt F)),
    unary main_arg16 main_v172 (broadcastInDim S1x10 ![1] bcast_S10_S1x10_1 : (⟨S10, .f32⟩ : BufTy).Contents (Elt F) → (⟨S1x10, .f32⟩ : BufTy).Contents (Elt F)),
    unary main_v172 main_v173 (broadcastInDim S512x10 ![0, 1] bcast_S1x10_S512x10_0_1 : (⟨S1x10, .f32⟩ : BufTy).Contents (Elt F) → (⟨S512x10, .f32⟩ : BufTy).Contents (Elt F)),
    binary main_v171 main_v173 main_v174 (addf : (⟨S512x10, .f32⟩ : BufTy).Contents (Elt F) → (⟨S512x10, .f32⟩ : BufTy).Contents (Elt F) → (⟨S512x10, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

/-! ## The pieces -/

abbrev opsC0a : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

abbrev opsC0b : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

abbrev opsC0c : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

abbrev opsA1 : List (HloOp τ sig (Elt F)) :=
  [ binary main_arg0 main_arg3 main_v30 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg4 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)) ]

abbrev opsB1 : List (HloOp τ sig (Elt F)) :=
  [ nullary main_cst_9 (constant S_ .f32 0x00000000#32),
    binary main_v46 main_cst_9 main_v47 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v48 (broadcastInDim S64 ![] bcast_S_S64 : (⟨S_, .f32⟩ : BufTy).Contents (Elt F) → (⟨S64, .f32⟩ : BufTy).Contents (Elt F)),
    binary main_v47 main_v48 main_v49 (Host.divf : (⟨S64, .f32⟩ : BufTy).Contents (Elt F) → (⟨S64, .f32⟩ : BufTy).Contents (Elt F) → (⟨S64, .f32⟩ : BufTy).Contents (Elt F)),
    unary main_v49 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v46 main_v51 main_v52 (subf : (⟨S100000x64, .f32⟩ : BufTy).Contents (Elt F) → (⟨S100000x64, .f32⟩ : BufTy).Contents (Elt F) → (⟨S100000x64, .f32⟩ : BufTy).Contents (Elt F)),
    binary main_v52 main_v52 main_v53 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x00000000#32),
    binary main_v53 main_cst_11 main_v54 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v55 (broadcastInDim S64 ![] bcast_S_S64 : (⟨S_, .f32⟩ : BufTy).Contents (Elt F) → (⟨S64, .f32⟩ : BufTy).Contents (Elt F)),
    binary main_v54 main_v55 main_v56 (Host.divf : (⟨S64, .f32⟩ : BufTy).Contents (Elt F) → (⟨S64, .f32⟩ : BufTy).Contents (Elt F) → (⟨S64, .f32⟩ : BufTy).Contents (Elt F)),
    unary main_v49 main_v57 (broadcastInDim S1x64 ![1] bcast_S64_S1x64_1 : (⟨S64, .f32⟩ : BufTy).Contents (Elt F) → (⟨S1x64, .f32⟩ : BufTy).Contents (Elt F)),
    unary main_v57 main_v58 (broadcastInDim S100000x64 ![0, 1] bcast_S1x64_S100000x64_0_1 : (⟨S1x64, .f32⟩ : BufTy).Contents (Elt F) → (⟨S100000x64, .f32⟩ : BufTy).Contents (Elt F)),
    binary main_v46 main_v58 main_v59 (subf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v60 (broadcastInDim S64 ![] bcast_S_S64 : (⟨S_, .f32⟩ : BufTy).Contents (Elt F) → (⟨S64, .f32⟩ : BufTy).Contents (Elt F)),
    binary main_v56 main_v60 main_v61 (addf : (⟨S64, .f32⟩ : BufTy).Contents (Elt F) → (⟨S64, .f32⟩ : BufTy).Contents (Elt F) → (⟨S64, .f32⟩ : BufTy).Contents (Elt F)),
    unary main_v61 main_v62 (Host.rsqrt : (⟨S64, .f32⟩ : BufTy).Contents (Elt F) → (⟨S64, .f32⟩ : BufTy).Contents (Elt F)),
    unary main_v62 main_v63 (broadcastInDim S1x64 ![1] bcast_S64_S1x64_1 : (⟨S64, .f32⟩ : BufTy).Contents (Elt F) → (⟨S1x64, .f32⟩ : BufTy).Contents (Elt F)),
    unary main_v63 main_v64 (broadcastInDim S100000x64 ![0, 1] bcast_S1x64_S100000x64_0_1 : (⟨S1x64, .f32⟩ : BufTy).Contents (Elt F) → (⟨S100000x64, .f32⟩ : BufTy).Contents (Elt F)),
    binary main_v59 main_v64 main_v65 (mulf : (⟨S100000x64, .f32⟩ : BufTy).Contents (Elt F) → (⟨S100000x64, .f32⟩ : BufTy).Contents (Elt F) → (⟨S100000x64, .f32⟩ : BufTy).Contents (Elt F)),
    unary main_arg5 main_v66 (broadcastInDim S1x64 ![1] bcast_S64_S1x64_1 : (⟨S64, .f32⟩ : BufTy).Contents (Elt F) → (⟨S1x64, .f32⟩ : BufTy).Contents (Elt F)),
    unary main_v66 main_v67 (broadcastInDim S100000x64 ![0, 1] bcast_S1x64_S100000x64_0_1 : (⟨S1x64, .f32⟩ : BufTy).Contents (Elt F) → (⟨S100000x64, .f32⟩ : BufTy).Contents (Elt F)),
    binary main_v65 main_v67 main_v68 (mulf : (⟨S100000x64, .f32⟩ : BufTy).Contents (Elt F) → (⟨S100000x64, .f32⟩ : BufTy).Contents (Elt F) → (⟨S100000x64, .f32⟩ : BufTy).Contents (Elt F)),
    unary main_arg6 main_v69 (broadcastInDim S1x64 ![1] bcast_S64_S1x64_1 : (⟨S64, .f32⟩ : BufTy).Contents (Elt F) → (⟨S1x64, .f32⟩ : BufTy).Contents (Elt F)),
    unary main_v69 main_v70 (broadcastInDim S100000x64 ![0, 1] bcast_S1x64_S100000x64_0_1 : (⟨S1x64, .f32⟩ : BufTy).Contents (Elt F) → (⟨S100000x64, .f32⟩ : BufTy).Contents (Elt F)),
    binary main_v68 main_v70 main_v71 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v71) (TRef.of (T := ⟨S100000x64, .f32⟩) main_call1_v0) (TRef.of (T := ⟨S100000x64, .f32⟩) main_v72) maximumf ]

abbrev opsA2 : List (HloOp τ sig (Elt F)) :=
  [ binary main_v72 main_arg7 main_v73 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_14 (constantI S_ 32 0#32),
    unary main_c_14 main_v74 (broadcastInDim S1700000 ![] bcast_S_S1700000 : (⟨S_, .i32⟩ : BufTy).Contents (Elt F) → (⟨S1700000, .i32⟩ : BufTy).Contents (Elt F)),
    binary main_v3 main_v74 main_v75 (cmpi .slt : (⟨S1700000, .i32⟩ : BufTy).Contents (Elt F) → (⟨S1700000, .i32⟩ : BufTy).Contents (Elt F) → (⟨S1700000, .i1⟩ : BufTy).Contents (Elt F)),
    nullary main_c_15 (constantI S_ 32 100000#32),
    unary main_c_15 main_v76 (broadcastInDim S1700000 ![] bcast_S_S1700000 : (⟨S_, .i32⟩ : BufTy).Contents (Elt F) → (⟨S1700000, .i32⟩ : BufTy).Contents (Elt F)),
    binary main_v3 main_v76 main_v77 (addi : (⟨S1700000, .i32⟩ : BufTy).Contents (Elt F) → (⟨S1700000, .i32⟩ : BufTy).Contents (Elt F) → (⟨S1700000, .i32⟩ : BufTy).Contents (Elt F)),
    ternary main_v75 main_v77 main_v3 main_v78 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v78 main_v79 (broadcastInDim S1700000x1 ![0] bcast_S1700000_S1700000x1_0 : (⟨S1700000, .i32⟩ : BufTy).Contents (Elt F) → (⟨S1700000x1, .i32⟩ : BufTy).Contents (Elt F)),
    binary main_v73 main_v79 main_v80 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v81 (broadcastInDim S1700000x1 ![0] bcast_S1700000_S1700000x1_0 : (⟨S1700000, .f32⟩ : BufTy).Contents (Elt F) → (⟨S1700000x1, .f32⟩ : BufTy).Contents (Elt F)),
    unary main_v81 main_v82 (broadcastInDim S1700000x64 ![0, 1] bcast_S1700000x1_S1700000x64_0_1 : (⟨S1700000x1, .f32⟩ : BufTy).Contents (Elt F) → (⟨S1700000x64, .f32⟩ : BufTy).Contents (Elt F)),
    binary main_v80 main_v82 main_v83 (mulf : (⟨S1700000x64, .f32⟩ : BufTy).Contents (Elt F) → (⟨S1700000x64, .f32⟩ : BufTy).Contents (Elt F) → (⟨S1700000x64, .f32⟩ : BufTy).Contents (Elt F)),
    nullary main_cst_16 (constant S_ .f32 0x00000000#32),
    unary main_cst_16 main_v84 (broadcastInDim S100000x64 ![] bcast_S_S100000x64 : (⟨S_, .f32⟩ : BufTy).Contents (Elt F) → (⟨S100000x64, .f32⟩ : BufTy).Contents (Elt F)),
    unary main_v6 main_v85 (broadcastInDim S1700000x1 ![0] bcast_S1700000_S1700000x1_0 : (⟨S1700000, .i32⟩ : BufTy).Contents (Elt F) → (⟨S1700000x1, .i32⟩ : BufTy).Contents (Elt F)),
    ternary main_v84 main_v85 main_v83 main_v86 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg8 main_v87 (broadcastInDim S1x64 ![1] bcast_S64_S1x64_1 : (⟨S64, .f32⟩ : BufTy).Contents (Elt F) → (⟨S1x64, .f32⟩ : BufTy).Contents (Elt F)),
    unary main_v87 main_v88 (broadcastInDim S100000x64 ![0, 1] bcast_S1x64_S100000x64_0_1 : (⟨S1x64, .f32⟩ : BufTy).Contents (Elt F) → (⟨S100000x64, .f32⟩ : BufTy).Contents (Elt F)),
    binary main_v86 main_v88 main_v89 (addf : (⟨S100000x64, .f32⟩ : BufTy).Contents (Elt F) → (⟨S100000x64, .f32⟩ : BufTy).Contents (Elt F) → (⟨S100000x64, .f32⟩ : BufTy).Contents (Elt F)) ]

abbrev opsB2 : List (HloOp τ sig (Elt F)) :=
  [ nullary main_cst_17 (constant S_ .f32 0x00000000#32),
    binary main_v89 main_cst_17 main_v90 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_18 (constant S_ .f32 0x47C35000#32),
    unary main_cst_18 main_v91 (broadcastInDim S64 ![] bcast_S_S64 : (⟨S_, .f32⟩ : BufTy).Contents (Elt F) → (⟨S64, .f32⟩ : BufTy).Contents (Elt F)),
    binary main_v90 main_v91 main_v92 (Host.divf : (⟨S64, .f32⟩ : BufTy).Contents (Elt F) → (⟨S64, .f32⟩ : BufTy).Contents (Elt F) → (⟨S64, .f32⟩ : BufTy).Contents (Elt F)),
    unary main_v92 main_v93 (broadcastInDim S1x64 ![1] bcast_S64_S1x64_1 : (⟨S64, .f32⟩ : BufTy).Contents (Elt F) → (⟨S1x64, .f32⟩ : BufTy).Contents (Elt F)),
    unary main_v93 main_v94 (broadcastInDim S100000x64 ![0, 1] bcast_S1x64_S100000x64_0_1 : (⟨S1x64, .f32⟩ : BufTy).Contents (Elt F) → (⟨S100000x64, .f32⟩ : BufTy).Contents (Elt F)),
    binary main_v89 main_v94 main_v95 (subf : (⟨S100000x64, .f32⟩ : BufTy).Contents (Elt F) → (⟨S100000x64, .f32⟩ : BufTy).Contents (Elt F) → (⟨S100000x64, .f32⟩ : BufTy).Contents (Elt F)),
    binary main_v95 main_v95 main_v96 (mulf : (⟨S100000x64, .f32⟩ : BufTy).Contents (Elt F) → (⟨S100000x64, .f32⟩ : BufTy).Contents (Elt F) → (⟨S100000x64, .f32⟩ : BufTy).Contents (Elt F)),
    nullary main_cst_19 (constant S_ .f32 0x00000000#32),
    binary main_v96 main_cst_19 main_v97 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_20 (constant S_ .f32 0x47C35000#32),
    unary main_cst_20 main_v98 (broadcastInDim S64 ![] bcast_S_S64 : (⟨S_, .f32⟩ : BufTy).Contents (Elt F) → (⟨S64, .f32⟩ : BufTy).Contents (Elt F)),
    binary main_v97 main_v98 main_v99 (Host.divf : (⟨S64, .f32⟩ : BufTy).Contents (Elt F) → (⟨S64, .f32⟩ : BufTy).Contents (Elt F) → (⟨S64, .f32⟩ : BufTy).Contents (Elt F)),
    unary main_v92 main_v100 (broadcastInDim S1x64 ![1] bcast_S64_S1x64_1 : (⟨S64, .f32⟩ : BufTy).Contents (Elt F) → (⟨S1x64, .f32⟩ : BufTy).Contents (Elt F)),
    unary main_v100 main_v101 (broadcastInDim S100000x64 ![0, 1] bcast_S1x64_S100000x64_0_1 : (⟨S1x64, .f32⟩ : BufTy).Contents (Elt F) → (⟨S100000x64, .f32⟩ : BufTy).Contents (Elt F)),
    binary main_v89 main_v101 main_v102 (subf : (⟨S100000x64, .f32⟩ : BufTy).Contents (Elt F) → (⟨S100000x64, .f32⟩ : BufTy).Contents (Elt F) → (⟨S100000x64, .f32⟩ : BufTy).Contents (Elt F)),
    nullary main_cst_21 (constant S_ .f32 0x3727C5AC#32),
    unary main_cst_21 main_v103 (broadcastInDim S64 ![] bcast_S_S64 : (⟨S_, .f32⟩ : BufTy).Contents (Elt F) → (⟨S64, .f32⟩ : BufTy).Contents (Elt F)),
    binary main_v99 main_v103 main_v104 (addf : (⟨S64, .f32⟩ : BufTy).Contents (Elt F) → (⟨S64, .f32⟩ : BufTy).Contents (Elt F) → (⟨S64, .f32⟩ : BufTy).Contents (Elt F)),
    unary main_v104 main_v105 (Host.rsqrt : (⟨S64, .f32⟩ : BufTy).Contents (Elt F) → (⟨S64, .f32⟩ : BufTy).Contents (Elt F)),
    unary main_v105 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v102 main_v107 main_v108 (mulf : (⟨S100000x64, .f32⟩ : BufTy).Contents (Elt F) → (⟨S100000x64, .f32⟩ : BufTy).Contents (Elt F) → (⟨S100000x64, .f32⟩ : BufTy).Contents (Elt F)),
    unary main_arg9 main_v109 (broadcastInDim S1x64 ![1] bcast_S64_S1x64_1 : (⟨S64, .f32⟩ : BufTy).Contents (Elt F) → (⟨S1x64, .f32⟩ : BufTy).Contents (Elt F)),
    unary main_v109 main_v110 (broadcastInDim S100000x64 ![0, 1] bcast_S1x64_S100000x64_0_1 : (⟨S1x64, .f32⟩ : BufTy).Contents (Elt F) → (⟨S100000x64, .f32⟩ : BufTy).Contents (Elt F)),
    binary main_v108 main_v110 main_v111 (mulf : (⟨S100000x64, .f32⟩ : BufTy).Contents (Elt F) → (⟨S100000x64, .f32⟩ : BufTy).Contents (Elt F) → (⟨S100000x64, .f32⟩ : BufTy).Contents (Elt F)),
    unary main_arg10 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v111 main_v113 main_v114 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v114) (TRef.of (T := ⟨S100000x64, .f32⟩) main_call2_v0) (TRef.of (T := ⟨S100000x64, .f32⟩) main_v115) maximumf ]

abbrev opsA3 : List (HloOp τ sig (Elt F)) :=
  [ binary main_v115 main_arg11 main_v116 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_22 (constantI S_ 32 0#32),
    unary main_c_22 main_v117 (broadcastInDim S1700000 ![] bcast_S_S1700000 : (⟨S_, .i32⟩ : BufTy).Contents (Elt F) → (⟨S1700000, .i32⟩ : BufTy).Contents (Elt F)),
    binary main_v3 main_v117 main_v118 (cmpi .slt : (⟨S1700000, .i32⟩ : BufTy).Contents (Elt F) → (⟨S1700000, .i32⟩ : BufTy).Contents (Elt F) → (⟨S1700000, .i1⟩ : BufTy).Contents (Elt F)),
    nullary main_c_23 (constantI S_ 32 100000#32),
    unary main_c_23 main_v119 (broadcastInDim S1700000 ![] bcast_S_S1700000 : (⟨S_, .i32⟩ : BufTy).Contents (Elt F) → (⟨S1700000, .i32⟩ : BufTy).Contents (Elt F)),
    binary main_v3 main_v119 main_v120 (addi : (⟨S1700000, .i32⟩ : BufTy).Contents (Elt F) → (⟨S1700000, .i32⟩ : BufTy).Contents (Elt F) → (⟨S1700000, .i32⟩ : BufTy).Contents (Elt F)),
    ternary main_v118 main_v120 main_v3 main_v121 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v121 main_v122 (broadcastInDim S1700000x1 ![0] bcast_S1700000_S1700000x1_0 : (⟨S1700000, .i32⟩ : BufTy).Contents (Elt F) → (⟨S1700000x1, .i32⟩ : BufTy).Contents (Elt F)),
    binary main_v116 main_v122 main_v123 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v124 (broadcastInDim S1700000x1 ![0] bcast_S1700000_S1700000x1_0 : (⟨S1700000, .f32⟩ : BufTy).Contents (Elt F) → (⟨S1700000x1, .f32⟩ : BufTy).Contents (Elt F)),
    unary main_v124 main_v125 (broadcastInDim S1700000x64 ![0, 1] bcast_S1700000x1_S1700000x64_0_1 : (⟨S1700000x1, .f32⟩ : BufTy).Contents (Elt F) → (⟨S1700000x64, .f32⟩ : BufTy).Contents (Elt F)),
    binary main_v123 main_v125 main_v126 (mulf : (⟨S1700000x64, .f32⟩ : BufTy).Contents (Elt F) → (⟨S1700000x64, .f32⟩ : BufTy).Contents (Elt F) → (⟨S1700000x64, .f32⟩ : BufTy).Contents (Elt F)),
    nullary main_cst_24 (constant S_ .f32 0x00000000#32),
    unary main_cst_24 main_v127 (broadcastInDim S100000x64 ![] bcast_S_S100000x64 : (⟨S_, .f32⟩ : BufTy).Contents (Elt F) → (⟨S100000x64, .f32⟩ : BufTy).Contents (Elt F)),
    unary main_v6 main_v128 (broadcastInDim S1700000x1 ![0] bcast_S1700000_S1700000x1_0 : (⟨S1700000, .i32⟩ : BufTy).Contents (Elt F) → (⟨S1700000x1, .i32⟩ : BufTy).Contents (Elt F)),
    ternary main_v127 main_v128 main_v126 main_v129 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg12 main_v130 (broadcastInDim S1x64 ![1] bcast_S64_S1x64_1 : (⟨S64, .f32⟩ : BufTy).Contents (Elt F) → (⟨S1x64, .f32⟩ : BufTy).Contents (Elt F)),
    unary main_v130 main_v131 (broadcastInDim S100000x64 ![0, 1] bcast_S1x64_S100000x64_0_1 : (⟨S1x64, .f32⟩ : BufTy).Contents (Elt F) → (⟨S100000x64, .f32⟩ : BufTy).Contents (Elt F)),
    binary main_v129 main_v131 main_v132 (addf : (⟨S100000x64, .f32⟩ : BufTy).Contents (Elt F) → (⟨S100000x64, .f32⟩ : BufTy).Contents (Elt F) → (⟨S100000x64, .f32⟩ : BufTy).Contents (Elt F)) ]

abbrev opsB3 : List (HloOp τ sig (Elt F)) :=
  [ nullary main_cst_25 (constant S_ .f32 0x00000000#32),
    binary main_v132 main_cst_25 main_v133 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_26 (constant S_ .f32 0x47C35000#32),
    unary main_cst_26 main_v134 (broadcastInDim S64 ![] bcast_S_S64 : (⟨S_, .f32⟩ : BufTy).Contents (Elt F) → (⟨S64, .f32⟩ : BufTy).Contents (Elt F)),
    binary main_v133 main_v134 main_v135 (Host.divf : (⟨S64, .f32⟩ : BufTy).Contents (Elt F) → (⟨S64, .f32⟩ : BufTy).Contents (Elt F) → (⟨S64, .f32⟩ : BufTy).Contents (Elt F)),
    unary main_v135 main_v136 (broadcastInDim S1x64 ![1] bcast_S64_S1x64_1 : (⟨S64, .f32⟩ : BufTy).Contents (Elt F) → (⟨S1x64, .f32⟩ : BufTy).Contents (Elt F)),
    unary main_v136 main_v137 (broadcastInDim S100000x64 ![0, 1] bcast_S1x64_S100000x64_0_1 : (⟨S1x64, .f32⟩ : BufTy).Contents (Elt F) → (⟨S100000x64, .f32⟩ : BufTy).Contents (Elt F)),
    binary main_v132 main_v137 main_v138 (subf : (⟨S100000x64, .f32⟩ : BufTy).Contents (Elt F) → (⟨S100000x64, .f32⟩ : BufTy).Contents (Elt F) → (⟨S100000x64, .f32⟩ : BufTy).Contents (Elt F)),
    binary main_v138 main_v138 main_v139 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x00000000#32),
    binary main_v139 main_cst_27 main_v140 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_28 (constant S_ .f32 0x47C35000#32),
    unary main_cst_28 main_v141 (broadcastInDim S64 ![] bcast_S_S64 : (⟨S_, .f32⟩ : BufTy).Contents (Elt F) → (⟨S64, .f32⟩ : BufTy).Contents (Elt F)),
    binary main_v140 main_v141 main_v142 (Host.divf : (⟨S64, .f32⟩ : BufTy).Contents (Elt F) → (⟨S64, .f32⟩ : BufTy).Contents (Elt F) → (⟨S64, .f32⟩ : BufTy).Contents (Elt F)),
    unary main_v135 main_v143 (broadcastInDim S1x64 ![1] bcast_S64_S1x64_1 : (⟨S64, .f32⟩ : BufTy).Contents (Elt F) → (⟨S1x64, .f32⟩ : BufTy).Contents (Elt F)),
    unary main_v143 main_v144 (broadcastInDim S100000x64 ![0, 1] bcast_S1x64_S100000x64_0_1 : (⟨S1x64, .f32⟩ : BufTy).Contents (Elt F) → (⟨S100000x64, .f32⟩ : BufTy).Contents (Elt F)),
    binary main_v132 main_v144 main_v145 (subf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x3727C5AC#32),
    unary main_cst_29 main_v146 (broadcastInDim S64 ![] bcast_S_S64 : (⟨S_, .f32⟩ : BufTy).Contents (Elt F) → (⟨S64, .f32⟩ : BufTy).Contents (Elt F)),
    binary main_v142 main_v146 main_v147 (addf : (⟨S64, .f32⟩ : BufTy).Contents (Elt F) → (⟨S64, .f32⟩ : BufTy).Contents (Elt F) → (⟨S64, .f32⟩ : BufTy).Contents (Elt F)),
    unary main_v147 main_v148 (Host.rsqrt : (⟨S64, .f32⟩ : BufTy).Contents (Elt F) → (⟨S64, .f32⟩ : BufTy).Contents (Elt F)),
    unary main_v148 main_v149 (broadcastInDim S1x64 ![1] bcast_S64_S1x64_1 : (⟨S64, .f32⟩ : BufTy).Contents (Elt F) → (⟨S1x64, .f32⟩ : BufTy).Contents (Elt F)),
    unary main_v149 main_v150 (broadcastInDim S100000x64 ![0, 1] bcast_S1x64_S100000x64_0_1 : (⟨S1x64, .f32⟩ : BufTy).Contents (Elt F) → (⟨S100000x64, .f32⟩ : BufTy).Contents (Elt F)),
    binary main_v145 main_v150 main_v151 (mulf : (⟨S100000x64, .f32⟩ : BufTy).Contents (Elt F) → (⟨S100000x64, .f32⟩ : BufTy).Contents (Elt F) → (⟨S100000x64, .f32⟩ : BufTy).Contents (Elt F)),
    unary main_arg13 main_v152 (broadcastInDim S1x64 ![1] bcast_S64_S1x64_1 : (⟨S64, .f32⟩ : BufTy).Contents (Elt F) → (⟨S1x64, .f32⟩ : BufTy).Contents (Elt F)),
    unary main_v152 main_v153 (broadcastInDim S100000x64 ![0, 1] bcast_S1x64_S100000x64_0_1 : (⟨S1x64, .f32⟩ : BufTy).Contents (Elt F) → (⟨S100000x64, .f32⟩ : BufTy).Contents (Elt F)),
    binary main_v151 main_v153 main_v154 (mulf : (⟨S100000x64, .f32⟩ : BufTy).Contents (Elt F) → (⟨S100000x64, .f32⟩ : BufTy).Contents (Elt F) → (⟨S100000x64, .f32⟩ : BufTy).Contents (Elt F)),
    unary main_arg14 main_v155 (broadcastInDim S1x64 ![1] bcast_S64_S1x64_1 : (⟨S64, .f32⟩ : BufTy).Contents (Elt F) → (⟨S1x64, .f32⟩ : BufTy).Contents (Elt F)),
    unary main_v155 main_v156 (broadcastInDim S100000x64 ![0, 1] bcast_S1x64_S100000x64_0_1 : (⟨S1x64, .f32⟩ : BufTy).Contents (Elt F) → (⟨S100000x64, .f32⟩ : BufTy).Contents (Elt F)),
    binary main_v154 main_v156 main_v157 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v157) (TRef.of (T := ⟨S100000x64, .f32⟩) main_call3_v0) (TRef.of (T := ⟨S100000x64, .f32⟩) main_v158) maximumf ]

abbrev opsTl : List (HloOp τ sig (Elt F)) :=
  [ nullary main_cst_30 (constant S_ .f32 0x00000000#32),
    unary main_cst_30 main_v159 (broadcastInDim S512x64 ![] bcast_S_S512x64 : (⟨S_, .f32⟩ : BufTy).Contents (Elt F) → (⟨S512x64, .f32⟩ : BufTy).Contents (Elt F)),
    unary main_arg2 main_v160 (broadcastInDim S100000x1 ![0] bcast_S100000_S100000x1_0 : (⟨S100000, .i32⟩ : BufTy).Contents (Elt F) → (⟨S100000x1, .i32⟩ : BufTy).Contents (Elt F)),
    ternary main_v159 main_v160 main_v158 main_v161 ((fun x i u => Host.scatterAdd scatter_S512x64_S100000x1_S100000x64_1_0_0_1 x i u) : (⟨S512x64, .f32⟩ : BufTy).Contents (Elt F) → (⟨S100000x1, .i32⟩ : BufTy).Contents (Elt F) → (⟨S100000x64, .f32⟩ : BufTy).Contents (Elt F) → (⟨S512x64, .f32⟩ : BufTy).Contents (Elt F)),
    nullary main_cst_31 (constant S_ .f32 0x3F800000#32),
    unary main_cst_31 main_v162 (broadcastInDim S100000 ![] bcast_S_S100000 : (⟨S_, .f32⟩ : BufTy).Contents (Elt F) → (⟨S100000, .f32⟩ : BufTy).Contents (Elt F)),
    nullary main_cst_32 (constant S_ .f32 0x00000000#32),
    unary main_cst_32 main_v163 (broadcastInDim S512 ![] bcast_S_S512 : (⟨S_, .f32⟩ : BufTy).Contents (Elt F) → (⟨S512, .f32⟩ : BufTy).Contents (Elt F)),
    unary main_arg2 main_v164 (broadcastInDim S100000x1 ![0] bcast_S100000_S100000x1_0 : (⟨S100000, .i32⟩ : BufTy).Contents (Elt F) → (⟨S100000x1, .i32⟩ : BufTy).Contents (Elt F)),
    ternary main_v163 main_v164 main_v162 main_v165 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_33 (constant S_ .f32 0x3F800000#32),
    unary main_cst_33 main_v166 (broadcastInDim S512 ![] bcast_S_S512 : (⟨S_, .f32⟩ : BufTy).Contents (Elt F) → (⟨S512, .f32⟩ : BufTy).Contents (Elt F)),
    binary main_v165 main_v166 main_v167 (maximumf : (⟨S512, .f32⟩ : BufTy).Contents (Elt F) → (⟨S512, .f32⟩ : BufTy).Contents (Elt F) → (⟨S512, .f32⟩ : BufTy).Contents (Elt F)),
    unary main_v167 main_v168 (broadcastInDim S512x1 ![0] bcast_S512_S512x1_0 : (⟨S512, .f32⟩ : BufTy).Contents (Elt F) → (⟨S512x1, .f32⟩ : BufTy).Contents (Elt F)),
    unary main_v168 main_v169 (broadcastInDim S512x64 ![0, 1] bcast_S512x1_S512x64_0_1 : (⟨S512x1, .f32⟩ : BufTy).Contents (Elt F) → (⟨S512x64, .f32⟩ : BufTy).Contents (Elt F)),
    binary main_v161 main_v169 main_v170 (Host.divf : (⟨S512x64, .f32⟩ : BufTy).Contents (Elt F) → (⟨S512x64, .f32⟩ : BufTy).Contents (Elt F) → (⟨S512x64, .f32⟩ : BufTy).Contents (Elt F)),
    binary main_v170 main_arg15 main_v171 ((fun l r => Host.dotGeneral dot_S512x64_S64x10_S512x10_1_0_0_1_n_n none l r) : (⟨S512x64, .f32⟩ : BufTy).Contents (Elt F) → (⟨S64x10, .f32⟩ : BufTy).Contents (Elt F) → (⟨S512x10, .f32⟩ : BufTy).Contents (Elt F)),
    unary main_arg16 main_v172 (broadcastInDim S1x10 ![1] bcast_S10_S1x10_1 : (⟨S10, .f32⟩ : BufTy).Contents (Elt F) → (⟨S1x10, .f32⟩ : BufTy).Contents (Elt F)),
    unary main_v172 main_v173 (broadcastInDim S512x10 ![0, 1] bcast_S1x10_S512x10_0_1 : (⟨S1x10, .f32⟩ : BufTy).Contents (Elt F) → (⟨S512x10, .f32⟩ : BufTy).Contents (Elt F)),
    binary main_v171 main_v173 main_v174 (addf : (⟨S512x10, .f32⟩ : BufTy).Contents (Elt F) → (⟨S512x10, .f32⟩ : BufTy).Contents (Elt F) → (⟨S512x10, .f32⟩ : BufTy).Contents (Elt F)) ]

theorem after_append {Val : EltTy → Type} (a b : List (HloOp τ sig Val)) (V : Valuation τ sig Val) :
    after (a ++ b) V = after b (after a V) := by
  induction a generalizing V with
  | nil => rfl
  | cons op l ih => exact ih _

set_option maxRecDepth 8192 in
theorem ops_eq : (ops : List (HloOp τ sig (Elt F))) = opsC0a ++ (opsC0b ++ (opsC0c ++ (opsA1 ++ (opsB1 ++ (opsA2 ++ (opsB2 ++ (opsA3 ++ (opsB3 ++ (opsTl))))))))) := rfl

/-! ## What each piece leaves, from ANY contents `X` before it -/

section Reads

variable (X : Valuation τ sig (Elt Ideal))

set_option maxHeartbeats 4000000 in
theorem c0_v3 : after opsC0a X (Proc.devRef .tc main_v3) = Cert.Spec.srcOf (F := Ideal) (X (Proc.devRef .tc main_arg1)) := by
  after_results_simp <;> rfl

set_option maxHeartbeats 4000000 in
theorem c0_v6 : after opsC0a X (Proc.devRef .tc main_v6) = Cert.Spec.dstOf (F := Ideal) (X (Proc.devRef .tc main_arg1)) := by
  after_results_simp <;> rfl

set_option maxHeartbeats 4000000 in
theorem c0_v12 : after opsC0a X (Proc.devRef .tc main_v12) = cmpf .ogt (Cert.Spec.degOf (F := Ideal) (Cert.Spec.dstOf (F := Ideal) (X (Proc.devRef .tc main_arg1)))) (broadcastInDim S100000 ![] bcast_S_S100000 (constant (F := Ideal) S_ .f32 0x00000000#32)) := by
  after_results_simp <;> rfl

set_option maxHeartbeats 4000000 in
theorem c0_v13 : after opsC0a X (Proc.devRef .tc main_v13) = Host.rsqrt (F := Ideal) (φ := .f32) (Cert.Spec.degOf (F := Ideal) (Cert.Spec.dstOf (F := Ideal) (X (Proc.devRef .tc main_arg1)))) := by
  after_results_simp <;> rfl

set_option maxHeartbeats 4000000 in
theorem c0_cst2 : after opsC0a X (Proc.devRef .tc main_cst_2) = constant (F := Ideal) S_ .f32 0x00000000#32 := by
  after_results_simp <;> rfl

set_option maxHeartbeats 4000000 in
theorem c0_v14 : after opsC0b X (Proc.devRef .tc main_v14) = select (X (Proc.devRef .tc main_v12)) (X (Proc.devRef .tc main_v13)) (broadcastInDim S100000 ![] bcast_S_S100000 (id (X (Proc.devRef .tc main_cst_2)))) := by
  after_results_simp <;> rfl

set_option maxHeartbeats 4000000 in
theorem c0_v29 : after opsC0c X (Proc.devRef .tc main_v29) = Cert.Spec.normFrom (F := Ideal) (X (Proc.devRef .tc main_v14)) (X (Proc.devRef .tc main_v3)) (X (Proc.devRef .tc main_v6)) := by
  after_results_simp <;> rfl

set_option maxHeartbeats 4000000 in
theorem a1_out : after opsA1 X (Proc.devRef .tc main_v46) = Cert.Spec.aggOut (F := Ideal) (Cert.Spec.dotNN (F := Ideal) (X (Proc.devRef .tc main_arg0)) (X (Proc.devRef .tc main_arg3))) (X (Proc.devRef .tc main_v3)) (X (Proc.devRef .tc main_v29)) (X (Proc.devRef .tc main_v6)) (X (Proc.devRef .tc main_arg4)) := by
  after_results_simp <;> rfl

set_option maxHeartbeats 4000000 in
theorem b1_h : after opsB1 X (Proc.devRef .tc main_v72) = Cert.Spec.bnRef (F := Ideal) (X (Proc.devRef .tc main_v46)) (X (Proc.devRef .tc main_arg5)) (X (Proc.devRef .tc main_arg6)) := by
  after_results_simp <;> rfl

set_option maxHeartbeats 4000000 in
theorem a2_out : after opsA2 X (Proc.devRef .tc main_v89) = Cert.Spec.aggOut (F := Ideal) (Cert.Spec.dotNN (F := Ideal) (X (Proc.devRef .tc main_v72)) (X (Proc.devRef .tc main_arg7))) (X (Proc.devRef .tc main_v3)) (X (Proc.devRef .tc main_v29)) (X (Proc.devRef .tc main_v6)) (X (Proc.devRef .tc main_arg8)) := by
  after_results_simp <;> rfl

set_option maxHeartbeats 4000000 in
theorem b2_h : after opsB2 X (Proc.devRef .tc main_v115) = Cert.Spec.bnRef (F := Ideal) (X (Proc.devRef .tc main_v89)) (X (Proc.devRef .tc main_arg9)) (X (Proc.devRef .tc main_arg10)) := by
  after_results_simp <;> rfl

set_option maxHeartbeats 4000000 in
theorem a3_out : after opsA3 X (Proc.devRef .tc main_v132) = Cert.Spec.aggOut (F := Ideal) (Cert.Spec.dotNN (F := Ideal) (X (Proc.devRef .tc main_v115)) (X (Proc.devRef .tc main_arg11))) (X (Proc.devRef .tc main_v3)) (X (Proc.devRef .tc main_v29)) (X (Proc.devRef .tc main_v6)) (X (Proc.devRef .tc main_arg12)) := by
  after_results_simp <;> rfl

set_option maxHeartbeats 4000000 in
theorem b3_h : after opsB3 X (Proc.devRef .tc main_v158) = Cert.Spec.bnRef (F := Ideal) (X (Proc.devRef .tc main_v132)) (X (Proc.devRef .tc main_arg13)) (X (Proc.devRef .tc main_arg14)) := by
  after_results_simp <;> rfl

set_option maxHeartbeats 4000000 in
theorem tl_res : after opsTl X (Proc.devRef .tc main_v174) = Cert.Spec.fcRef (F := Ideal) (Cert.Spec.poolOf (F := Ideal) (X (Proc.devRef .tc main_v158)) (X (Proc.devRef .tc main_arg2))) (X (Proc.devRef .tc main_arg15)) (X (Proc.devRef .tc main_arg16)) := by
  after_results_simp <;> rfl

end Reads

/-! ## Buffers a piece leaves alone -/

/-- A piece that does not write a buffer leaves it as it was. -/
macro "piece_skip " h:ident : tactic =>
  `(tactic| exact StableHlo.after_of_forall_not_mem _ _ (List.forall_iff_forall_mem.mp (by
      simp only [$h:ident, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

variable (L : Valuation τ sig (Elt Ideal))

abbrev S1 : Valuation τ sig (Elt Ideal) := after opsC0a L
abbrev S2 : Valuation τ sig (Elt Ideal) := after opsC0b (S1 L)
abbrev S3 : Valuation τ sig (Elt Ideal) := after opsC0c (S2 L)
abbrev S4 : Valuation τ sig (Elt Ideal) := after opsA1 (S3 L)
abbrev S5 : Valuation τ sig (Elt Ideal) := after opsB1 (S4 L)
abbrev S6 : Valuation τ sig (Elt Ideal) := after opsA2 (S5 L)
abbrev S7 : Valuation τ sig (Elt Ideal) := after opsB2 (S6 L)
abbrev S8 : Valuation τ sig (Elt Ideal) := after opsA3 (S7 L)
abbrev S9 : Valuation τ sig (Elt Ideal) := after opsB3 (S8 L)
abbrev S10 : Valuation τ sig (Elt Ideal) := after opsTl (S9 L)

theorem after_ops : after (ops (F := Ideal)) L = S10 L := by
  rw [ops_eq, after_append, after_append, after_append, after_append, after_append, after_append, after_append, after_append, after_append]

theorem arg0_S1 : S1 L (Proc.devRef .tc main_arg0) = L (Proc.devRef .tc main_arg0) :=
  (by piece_skip opsC0a : after opsC0a L (Proc.devRef .tc main_arg0) = L (Proc.devRef .tc main_arg0))
theorem arg0_S2 : S2 L (Proc.devRef .tc main_arg0) = L (Proc.devRef .tc main_arg0) :=
  (by piece_skip opsC0b : after opsC0b (S1 L) (Proc.devRef .tc main_arg0) = (S1 L) (Proc.devRef .tc main_arg0)).trans (arg0_S1 L)
theorem arg0_S3 : S3 L (Proc.devRef .tc main_arg0) = L (Proc.devRef .tc main_arg0) :=
  (by piece_skip opsC0c : after opsC0c (S2 L) (Proc.devRef .tc main_arg0) = (S2 L) (Proc.devRef .tc main_arg0)).trans (arg0_S2 L)
theorem arg0_S4 : S4 L (Proc.devRef .tc main_arg0) = L (Proc.devRef .tc main_arg0) :=
  (by piece_skip opsA1 : after opsA1 (S3 L) (Proc.devRef .tc main_arg0) = (S3 L) (Proc.devRef .tc main_arg0)).trans (arg0_S3 L)
theorem arg0_S5 : S5 L (Proc.devRef .tc main_arg0) = L (Proc.devRef .tc main_arg0) :=
  (by piece_skip opsB1 : after opsB1 (S4 L) (Proc.devRef .tc main_arg0) = (S4 L) (Proc.devRef .tc main_arg0)).trans (arg0_S4 L)
theorem arg0_S6 : S6 L (Proc.devRef .tc main_arg0) = L (Proc.devRef .tc main_arg0) :=
  (by piece_skip opsA2 : after opsA2 (S5 L) (Proc.devRef .tc main_arg0) = (S5 L) (Proc.devRef .tc main_arg0)).trans (arg0_S5 L)
theorem arg0_S7 : S7 L (Proc.devRef .tc main_arg0) = L (Proc.devRef .tc main_arg0) :=
  (by piece_skip opsB2 : after opsB2 (S6 L) (Proc.devRef .tc main_arg0) = (S6 L) (Proc.devRef .tc main_arg0)).trans (arg0_S6 L)
theorem arg0_S8 : S8 L (Proc.devRef .tc main_arg0) = L (Proc.devRef .tc main_arg0) :=
  (by piece_skip opsA3 : after opsA3 (S7 L) (Proc.devRef .tc main_arg0) = (S7 L) (Proc.devRef .tc main_arg0)).trans (arg0_S7 L)
theorem arg0_S9 : S9 L (Proc.devRef .tc main_arg0) = L (Proc.devRef .tc main_arg0) :=
  (by piece_skip opsB3 : after opsB3 (S8 L) (Proc.devRef .tc main_arg0) = (S8 L) (Proc.devRef .tc main_arg0)).trans (arg0_S8 L)
theorem arg0_S10 : S10 L (Proc.devRef .tc main_arg0) = L (Proc.devRef .tc main_arg0) :=
  (by piece_skip opsTl : after opsTl (S9 L) (Proc.devRef .tc main_arg0) = (S9 L) (Proc.devRef .tc main_arg0)).trans (arg0_S9 L)
theorem arg1_S1 : S1 L (Proc.devRef .tc main_arg1) = L (Proc.devRef .tc main_arg1) :=
  (by piece_skip opsC0a : after opsC0a L (Proc.devRef .tc main_arg1) = L (Proc.devRef .tc main_arg1))
theorem arg1_S2 : S2 L (Proc.devRef .tc main_arg1) = L (Proc.devRef .tc main_arg1) :=
  (by piece_skip opsC0b : after opsC0b (S1 L) (Proc.devRef .tc main_arg1) = (S1 L) (Proc.devRef .tc main_arg1)).trans (arg1_S1 L)
theorem arg1_S3 : S3 L (Proc.devRef .tc main_arg1) = L (Proc.devRef .tc main_arg1) :=
  (by piece_skip opsC0c : after opsC0c (S2 L) (Proc.devRef .tc main_arg1) = (S2 L) (Proc.devRef .tc main_arg1)).trans (arg1_S2 L)
theorem arg1_S4 : S4 L (Proc.devRef .tc main_arg1) = L (Proc.devRef .tc main_arg1) :=
  (by piece_skip opsA1 : after opsA1 (S3 L) (Proc.devRef .tc main_arg1) = (S3 L) (Proc.devRef .tc main_arg1)).trans (arg1_S3 L)
theorem arg1_S5 : S5 L (Proc.devRef .tc main_arg1) = L (Proc.devRef .tc main_arg1) :=
  (by piece_skip opsB1 : after opsB1 (S4 L) (Proc.devRef .tc main_arg1) = (S4 L) (Proc.devRef .tc main_arg1)).trans (arg1_S4 L)
theorem arg1_S6 : S6 L (Proc.devRef .tc main_arg1) = L (Proc.devRef .tc main_arg1) :=
  (by piece_skip opsA2 : after opsA2 (S5 L) (Proc.devRef .tc main_arg1) = (S5 L) (Proc.devRef .tc main_arg1)).trans (arg1_S5 L)
theorem arg1_S7 : S7 L (Proc.devRef .tc main_arg1) = L (Proc.devRef .tc main_arg1) :=
  (by piece_skip opsB2 : after opsB2 (S6 L) (Proc.devRef .tc main_arg1) = (S6 L) (Proc.devRef .tc main_arg1)).trans (arg1_S6 L)
theorem arg1_S8 : S8 L (Proc.devRef .tc main_arg1) = L (Proc.devRef .tc main_arg1) :=
  (by piece_skip opsA3 : after opsA3 (S7 L) (Proc.devRef .tc main_arg1) = (S7 L) (Proc.devRef .tc main_arg1)).trans (arg1_S7 L)
theorem arg1_S9 : S9 L (Proc.devRef .tc main_arg1) = L (Proc.devRef .tc main_arg1) :=
  (by piece_skip opsB3 : after opsB3 (S8 L) (Proc.devRef .tc main_arg1) = (S8 L) (Proc.devRef .tc main_arg1)).trans (arg1_S8 L)
theorem arg1_S10 : S10 L (Proc.devRef .tc main_arg1) = L (Proc.devRef .tc main_arg1) :=
  (by piece_skip opsTl : after opsTl (S9 L) (Proc.devRef .tc main_arg1) = (S9 L) (Proc.devRef .tc main_arg1)).trans (arg1_S9 L)
theorem arg2_S1 : S1 L (Proc.devRef .tc main_arg2) = L (Proc.devRef .tc main_arg2) :=
  (by piece_skip opsC0a : after opsC0a L (Proc.devRef .tc main_arg2) = L (Proc.devRef .tc main_arg2))
theorem arg2_S2 : S2 L (Proc.devRef .tc main_arg2) = L (Proc.devRef .tc main_arg2) :=
  (by piece_skip opsC0b : after opsC0b (S1 L) (Proc.devRef .tc main_arg2) = (S1 L) (Proc.devRef .tc main_arg2)).trans (arg2_S1 L)
theorem arg2_S3 : S3 L (Proc.devRef .tc main_arg2) = L (Proc.devRef .tc main_arg2) :=
  (by piece_skip opsC0c : after opsC0c (S2 L) (Proc.devRef .tc main_arg2) = (S2 L) (Proc.devRef .tc main_arg2)).trans (arg2_S2 L)
theorem arg2_S4 : S4 L (Proc.devRef .tc main_arg2) = L (Proc.devRef .tc main_arg2) :=
  (by piece_skip opsA1 : after opsA1 (S3 L) (Proc.devRef .tc main_arg2) = (S3 L) (Proc.devRef .tc main_arg2)).trans (arg2_S3 L)
theorem arg2_S5 : S5 L (Proc.devRef .tc main_arg2) = L (Proc.devRef .tc main_arg2) :=
  (by piece_skip opsB1 : after opsB1 (S4 L) (Proc.devRef .tc main_arg2) = (S4 L) (Proc.devRef .tc main_arg2)).trans (arg2_S4 L)
theorem arg2_S6 : S6 L (Proc.devRef .tc main_arg2) = L (Proc.devRef .tc main_arg2) :=
  (by piece_skip opsA2 : after opsA2 (S5 L) (Proc.devRef .tc main_arg2) = (S5 L) (Proc.devRef .tc main_arg2)).trans (arg2_S5 L)
theorem arg2_S7 : S7 L (Proc.devRef .tc main_arg2) = L (Proc.devRef .tc main_arg2) :=
  (by piece_skip opsB2 : after opsB2 (S6 L) (Proc.devRef .tc main_arg2) = (S6 L) (Proc.devRef .tc main_arg2)).trans (arg2_S6 L)
theorem arg2_S8 : S8 L (Proc.devRef .tc main_arg2) = L (Proc.devRef .tc main_arg2) :=
  (by piece_skip opsA3 : after opsA3 (S7 L) (Proc.devRef .tc main_arg2) = (S7 L) (Proc.devRef .tc main_arg2)).trans (arg2_S7 L)
theorem arg2_S9 : S9 L (Proc.devRef .tc main_arg2) = L (Proc.devRef .tc main_arg2) :=
  (by piece_skip opsB3 : after opsB3 (S8 L) (Proc.devRef .tc main_arg2) = (S8 L) (Proc.devRef .tc main_arg2)).trans (arg2_S8 L)
theorem arg2_S10 : S10 L (Proc.devRef .tc main_arg2) = L (Proc.devRef .tc main_arg2) :=
  (by piece_skip opsTl : after opsTl (S9 L) (Proc.devRef .tc main_arg2) = (S9 L) (Proc.devRef .tc main_arg2)).trans (arg2_S9 L)
theorem arg3_S1 : S1 L (Proc.devRef .tc main_arg3) = L (Proc.devRef .tc main_arg3) :=
  (by piece_skip opsC0a : after opsC0a L (Proc.devRef .tc main_arg3) = L (Proc.devRef .tc main_arg3))
theorem arg3_S2 : S2 L (Proc.devRef .tc main_arg3) = L (Proc.devRef .tc main_arg3) :=
  (by piece_skip opsC0b : after opsC0b (S1 L) (Proc.devRef .tc main_arg3) = (S1 L) (Proc.devRef .tc main_arg3)).trans (arg3_S1 L)
theorem arg3_S3 : S3 L (Proc.devRef .tc main_arg3) = L (Proc.devRef .tc main_arg3) :=
  (by piece_skip opsC0c : after opsC0c (S2 L) (Proc.devRef .tc main_arg3) = (S2 L) (Proc.devRef .tc main_arg3)).trans (arg3_S2 L)
theorem arg3_S4 : S4 L (Proc.devRef .tc main_arg3) = L (Proc.devRef .tc main_arg3) :=
  (by piece_skip opsA1 : after opsA1 (S3 L) (Proc.devRef .tc main_arg3) = (S3 L) (Proc.devRef .tc main_arg3)).trans (arg3_S3 L)
theorem arg3_S5 : S5 L (Proc.devRef .tc main_arg3) = L (Proc.devRef .tc main_arg3) :=
  (by piece_skip opsB1 : after opsB1 (S4 L) (Proc.devRef .tc main_arg3) = (S4 L) (Proc.devRef .tc main_arg3)).trans (arg3_S4 L)
theorem arg3_S6 : S6 L (Proc.devRef .tc main_arg3) = L (Proc.devRef .tc main_arg3) :=
  (by piece_skip opsA2 : after opsA2 (S5 L) (Proc.devRef .tc main_arg3) = (S5 L) (Proc.devRef .tc main_arg3)).trans (arg3_S5 L)
theorem arg3_S7 : S7 L (Proc.devRef .tc main_arg3) = L (Proc.devRef .tc main_arg3) :=
  (by piece_skip opsB2 : after opsB2 (S6 L) (Proc.devRef .tc main_arg3) = (S6 L) (Proc.devRef .tc main_arg3)).trans (arg3_S6 L)
theorem arg3_S8 : S8 L (Proc.devRef .tc main_arg3) = L (Proc.devRef .tc main_arg3) :=
  (by piece_skip opsA3 : after opsA3 (S7 L) (Proc.devRef .tc main_arg3) = (S7 L) (Proc.devRef .tc main_arg3)).trans (arg3_S7 L)
theorem arg3_S9 : S9 L (Proc.devRef .tc main_arg3) = L (Proc.devRef .tc main_arg3) :=
  (by piece_skip opsB3 : after opsB3 (S8 L) (Proc.devRef .tc main_arg3) = (S8 L) (Proc.devRef .tc main_arg3)).trans (arg3_S8 L)
theorem arg3_S10 : S10 L (Proc.devRef .tc main_arg3) = L (Proc.devRef .tc main_arg3) :=
  (by piece_skip opsTl : after opsTl (S9 L) (Proc.devRef .tc main_arg3) = (S9 L) (Proc.devRef .tc main_arg3)).trans (arg3_S9 L)
theorem arg4_S1 : S1 L (Proc.devRef .tc main_arg4) = L (Proc.devRef .tc main_arg4) :=
  (by piece_skip opsC0a : after opsC0a L (Proc.devRef .tc main_arg4) = L (Proc.devRef .tc main_arg4))
theorem arg4_S2 : S2 L (Proc.devRef .tc main_arg4) = L (Proc.devRef .tc main_arg4) :=
  (by piece_skip opsC0b : after opsC0b (S1 L) (Proc.devRef .tc main_arg4) = (S1 L) (Proc.devRef .tc main_arg4)).trans (arg4_S1 L)
theorem arg4_S3 : S3 L (Proc.devRef .tc main_arg4) = L (Proc.devRef .tc main_arg4) :=
  (by piece_skip opsC0c : after opsC0c (S2 L) (Proc.devRef .tc main_arg4) = (S2 L) (Proc.devRef .tc main_arg4)).trans (arg4_S2 L)
theorem arg4_S4 : S4 L (Proc.devRef .tc main_arg4) = L (Proc.devRef .tc main_arg4) :=
  (by piece_skip opsA1 : after opsA1 (S3 L) (Proc.devRef .tc main_arg4) = (S3 L) (Proc.devRef .tc main_arg4)).trans (arg4_S3 L)
theorem arg4_S5 : S5 L (Proc.devRef .tc main_arg4) = L (Proc.devRef .tc main_arg4) :=
  (by piece_skip opsB1 : after opsB1 (S4 L) (Proc.devRef .tc main_arg4) = (S4 L) (Proc.devRef .tc main_arg4)).trans (arg4_S4 L)
theorem arg4_S6 : S6 L (Proc.devRef .tc main_arg4) = L (Proc.devRef .tc main_arg4) :=
  (by piece_skip opsA2 : after opsA2 (S5 L) (Proc.devRef .tc main_arg4) = (S5 L) (Proc.devRef .tc main_arg4)).trans (arg4_S5 L)
theorem arg4_S7 : S7 L (Proc.devRef .tc main_arg4) = L (Proc.devRef .tc main_arg4) :=
  (by piece_skip opsB2 : after opsB2 (S6 L) (Proc.devRef .tc main_arg4) = (S6 L) (Proc.devRef .tc main_arg4)).trans (arg4_S6 L)
theorem arg4_S8 : S8 L (Proc.devRef .tc main_arg4) = L (Proc.devRef .tc main_arg4) :=
  (by piece_skip opsA3 : after opsA3 (S7 L) (Proc.devRef .tc main_arg4) = (S7 L) (Proc.devRef .tc main_arg4)).trans (arg4_S7 L)
theorem arg4_S9 : S9 L (Proc.devRef .tc main_arg4) = L (Proc.devRef .tc main_arg4) :=
  (by piece_skip opsB3 : after opsB3 (S8 L) (Proc.devRef .tc main_arg4) = (S8 L) (Proc.devRef .tc main_arg4)).trans (arg4_S8 L)
theorem arg4_S10 : S10 L (Proc.devRef .tc main_arg4) = L (Proc.devRef .tc main_arg4) :=
  (by piece_skip opsTl : after opsTl (S9 L) (Proc.devRef .tc main_arg4) = (S9 L) (Proc.devRef .tc main_arg4)).trans (arg4_S9 L)
theorem arg5_S1 : S1 L (Proc.devRef .tc main_arg5) = L (Proc.devRef .tc main_arg5) :=
  (by piece_skip opsC0a : after opsC0a L (Proc.devRef .tc main_arg5) = L (Proc.devRef .tc main_arg5))
theorem arg5_S2 : S2 L (Proc.devRef .tc main_arg5) = L (Proc.devRef .tc main_arg5) :=
  (by piece_skip opsC0b : after opsC0b (S1 L) (Proc.devRef .tc main_arg5) = (S1 L) (Proc.devRef .tc main_arg5)).trans (arg5_S1 L)
theorem arg5_S3 : S3 L (Proc.devRef .tc main_arg5) = L (Proc.devRef .tc main_arg5) :=
  (by piece_skip opsC0c : after opsC0c (S2 L) (Proc.devRef .tc main_arg5) = (S2 L) (Proc.devRef .tc main_arg5)).trans (arg5_S2 L)
theorem arg5_S4 : S4 L (Proc.devRef .tc main_arg5) = L (Proc.devRef .tc main_arg5) :=
  (by piece_skip opsA1 : after opsA1 (S3 L) (Proc.devRef .tc main_arg5) = (S3 L) (Proc.devRef .tc main_arg5)).trans (arg5_S3 L)
theorem arg5_S5 : S5 L (Proc.devRef .tc main_arg5) = L (Proc.devRef .tc main_arg5) :=
  (by piece_skip opsB1 : after opsB1 (S4 L) (Proc.devRef .tc main_arg5) = (S4 L) (Proc.devRef .tc main_arg5)).trans (arg5_S4 L)
theorem arg5_S6 : S6 L (Proc.devRef .tc main_arg5) = L (Proc.devRef .tc main_arg5) :=
  (by piece_skip opsA2 : after opsA2 (S5 L) (Proc.devRef .tc main_arg5) = (S5 L) (Proc.devRef .tc main_arg5)).trans (arg5_S5 L)
theorem arg5_S7 : S7 L (Proc.devRef .tc main_arg5) = L (Proc.devRef .tc main_arg5) :=
  (by piece_skip opsB2 : after opsB2 (S6 L) (Proc.devRef .tc main_arg5) = (S6 L) (Proc.devRef .tc main_arg5)).trans (arg5_S6 L)
theorem arg5_S8 : S8 L (Proc.devRef .tc main_arg5) = L (Proc.devRef .tc main_arg5) :=
  (by piece_skip opsA3 : after opsA3 (S7 L) (Proc.devRef .tc main_arg5) = (S7 L) (Proc.devRef .tc main_arg5)).trans (arg5_S7 L)
theorem arg5_S9 : S9 L (Proc.devRef .tc main_arg5) = L (Proc.devRef .tc main_arg5) :=
  (by piece_skip opsB3 : after opsB3 (S8 L) (Proc.devRef .tc main_arg5) = (S8 L) (Proc.devRef .tc main_arg5)).trans (arg5_S8 L)
theorem arg5_S10 : S10 L (Proc.devRef .tc main_arg5) = L (Proc.devRef .tc main_arg5) :=
  (by piece_skip opsTl : after opsTl (S9 L) (Proc.devRef .tc main_arg5) = (S9 L) (Proc.devRef .tc main_arg5)).trans (arg5_S9 L)
theorem arg6_S1 : S1 L (Proc.devRef .tc main_arg6) = L (Proc.devRef .tc main_arg6) :=
  (by piece_skip opsC0a : after opsC0a L (Proc.devRef .tc main_arg6) = L (Proc.devRef .tc main_arg6))
theorem arg6_S2 : S2 L (Proc.devRef .tc main_arg6) = L (Proc.devRef .tc main_arg6) :=
  (by piece_skip opsC0b : after opsC0b (S1 L) (Proc.devRef .tc main_arg6) = (S1 L) (Proc.devRef .tc main_arg6)).trans (arg6_S1 L)
theorem arg6_S3 : S3 L (Proc.devRef .tc main_arg6) = L (Proc.devRef .tc main_arg6) :=
  (by piece_skip opsC0c : after opsC0c (S2 L) (Proc.devRef .tc main_arg6) = (S2 L) (Proc.devRef .tc main_arg6)).trans (arg6_S2 L)
theorem arg6_S4 : S4 L (Proc.devRef .tc main_arg6) = L (Proc.devRef .tc main_arg6) :=
  (by piece_skip opsA1 : after opsA1 (S3 L) (Proc.devRef .tc main_arg6) = (S3 L) (Proc.devRef .tc main_arg6)).trans (arg6_S3 L)
theorem arg6_S5 : S5 L (Proc.devRef .tc main_arg6) = L (Proc.devRef .tc main_arg6) :=
  (by piece_skip opsB1 : after opsB1 (S4 L) (Proc.devRef .tc main_arg6) = (S4 L) (Proc.devRef .tc main_arg6)).trans (arg6_S4 L)
theorem arg6_S6 : S6 L (Proc.devRef .tc main_arg6) = L (Proc.devRef .tc main_arg6) :=
  (by piece_skip opsA2 : after opsA2 (S5 L) (Proc.devRef .tc main_arg6) = (S5 L) (Proc.devRef .tc main_arg6)).trans (arg6_S5 L)
theorem arg6_S7 : S7 L (Proc.devRef .tc main_arg6) = L (Proc.devRef .tc main_arg6) :=
  (by piece_skip opsB2 : after opsB2 (S6 L) (Proc.devRef .tc main_arg6) = (S6 L) (Proc.devRef .tc main_arg6)).trans (arg6_S6 L)
theorem arg6_S8 : S8 L (Proc.devRef .tc main_arg6) = L (Proc.devRef .tc main_arg6) :=
  (by piece_skip opsA3 : after opsA3 (S7 L) (Proc.devRef .tc main_arg6) = (S7 L) (Proc.devRef .tc main_arg6)).trans (arg6_S7 L)
theorem arg6_S9 : S9 L (Proc.devRef .tc main_arg6) = L (Proc.devRef .tc main_arg6) :=
  (by piece_skip opsB3 : after opsB3 (S8 L) (Proc.devRef .tc main_arg6) = (S8 L) (Proc.devRef .tc main_arg6)).trans (arg6_S8 L)
theorem arg6_S10 : S10 L (Proc.devRef .tc main_arg6) = L (Proc.devRef .tc main_arg6) :=
  (by piece_skip opsTl : after opsTl (S9 L) (Proc.devRef .tc main_arg6) = (S9 L) (Proc.devRef .tc main_arg6)).trans (arg6_S9 L)
theorem arg7_S1 : S1 L (Proc.devRef .tc main_arg7) = L (Proc.devRef .tc main_arg7) :=
  (by piece_skip opsC0a : after opsC0a L (Proc.devRef .tc main_arg7) = L (Proc.devRef .tc main_arg7))
theorem arg7_S2 : S2 L (Proc.devRef .tc main_arg7) = L (Proc.devRef .tc main_arg7) :=
  (by piece_skip opsC0b : after opsC0b (S1 L) (Proc.devRef .tc main_arg7) = (S1 L) (Proc.devRef .tc main_arg7)).trans (arg7_S1 L)
theorem arg7_S3 : S3 L (Proc.devRef .tc main_arg7) = L (Proc.devRef .tc main_arg7) :=
  (by piece_skip opsC0c : after opsC0c (S2 L) (Proc.devRef .tc main_arg7) = (S2 L) (Proc.devRef .tc main_arg7)).trans (arg7_S2 L)
theorem arg7_S4 : S4 L (Proc.devRef .tc main_arg7) = L (Proc.devRef .tc main_arg7) :=
  (by piece_skip opsA1 : after opsA1 (S3 L) (Proc.devRef .tc main_arg7) = (S3 L) (Proc.devRef .tc main_arg7)).trans (arg7_S3 L)
theorem arg7_S5 : S5 L (Proc.devRef .tc main_arg7) = L (Proc.devRef .tc main_arg7) :=
  (by piece_skip opsB1 : after opsB1 (S4 L) (Proc.devRef .tc main_arg7) = (S4 L) (Proc.devRef .tc main_arg7)).trans (arg7_S4 L)
theorem arg7_S6 : S6 L (Proc.devRef .tc main_arg7) = L (Proc.devRef .tc main_arg7) :=
  (by piece_skip opsA2 : after opsA2 (S5 L) (Proc.devRef .tc main_arg7) = (S5 L) (Proc.devRef .tc main_arg7)).trans (arg7_S5 L)
theorem arg7_S7 : S7 L (Proc.devRef .tc main_arg7) = L (Proc.devRef .tc main_arg7) :=
  (by piece_skip opsB2 : after opsB2 (S6 L) (Proc.devRef .tc main_arg7) = (S6 L) (Proc.devRef .tc main_arg7)).trans (arg7_S6 L)
theorem arg7_S8 : S8 L (Proc.devRef .tc main_arg7) = L (Proc.devRef .tc main_arg7) :=
  (by piece_skip opsA3 : after opsA3 (S7 L) (Proc.devRef .tc main_arg7) = (S7 L) (Proc.devRef .tc main_arg7)).trans (arg7_S7 L)
theorem arg7_S9 : S9 L (Proc.devRef .tc main_arg7) = L (Proc.devRef .tc main_arg7) :=
  (by piece_skip opsB3 : after opsB3 (S8 L) (Proc.devRef .tc main_arg7) = (S8 L) (Proc.devRef .tc main_arg7)).trans (arg7_S8 L)
theorem arg7_S10 : S10 L (Proc.devRef .tc main_arg7) = L (Proc.devRef .tc main_arg7) :=
  (by piece_skip opsTl : after opsTl (S9 L) (Proc.devRef .tc main_arg7) = (S9 L) (Proc.devRef .tc main_arg7)).trans (arg7_S9 L)
theorem arg8_S1 : S1 L (Proc.devRef .tc main_arg8) = L (Proc.devRef .tc main_arg8) :=
  (by piece_skip opsC0a : after opsC0a L (Proc.devRef .tc main_arg8) = L (Proc.devRef .tc main_arg8))
theorem arg8_S2 : S2 L (Proc.devRef .tc main_arg8) = L (Proc.devRef .tc main_arg8) :=
  (by piece_skip opsC0b : after opsC0b (S1 L) (Proc.devRef .tc main_arg8) = (S1 L) (Proc.devRef .tc main_arg8)).trans (arg8_S1 L)
theorem arg8_S3 : S3 L (Proc.devRef .tc main_arg8) = L (Proc.devRef .tc main_arg8) :=
  (by piece_skip opsC0c : after opsC0c (S2 L) (Proc.devRef .tc main_arg8) = (S2 L) (Proc.devRef .tc main_arg8)).trans (arg8_S2 L)
theorem arg8_S4 : S4 L (Proc.devRef .tc main_arg8) = L (Proc.devRef .tc main_arg8) :=
  (by piece_skip opsA1 : after opsA1 (S3 L) (Proc.devRef .tc main_arg8) = (S3 L) (Proc.devRef .tc main_arg8)).trans (arg8_S3 L)
theorem arg8_S5 : S5 L (Proc.devRef .tc main_arg8) = L (Proc.devRef .tc main_arg8) :=
  (by piece_skip opsB1 : after opsB1 (S4 L) (Proc.devRef .tc main_arg8) = (S4 L) (Proc.devRef .tc main_arg8)).trans (arg8_S4 L)
theorem arg8_S6 : S6 L (Proc.devRef .tc main_arg8) = L (Proc.devRef .tc main_arg8) :=
  (by piece_skip opsA2 : after opsA2 (S5 L) (Proc.devRef .tc main_arg8) = (S5 L) (Proc.devRef .tc main_arg8)).trans (arg8_S5 L)
theorem arg8_S7 : S7 L (Proc.devRef .tc main_arg8) = L (Proc.devRef .tc main_arg8) :=
  (by piece_skip opsB2 : after opsB2 (S6 L) (Proc.devRef .tc main_arg8) = (S6 L) (Proc.devRef .tc main_arg8)).trans (arg8_S6 L)
theorem arg8_S8 : S8 L (Proc.devRef .tc main_arg8) = L (Proc.devRef .tc main_arg8) :=
  (by piece_skip opsA3 : after opsA3 (S7 L) (Proc.devRef .tc main_arg8) = (S7 L) (Proc.devRef .tc main_arg8)).trans (arg8_S7 L)
theorem arg8_S9 : S9 L (Proc.devRef .tc main_arg8) = L (Proc.devRef .tc main_arg8) :=
  (by piece_skip opsB3 : after opsB3 (S8 L) (Proc.devRef .tc main_arg8) = (S8 L) (Proc.devRef .tc main_arg8)).trans (arg8_S8 L)
theorem arg8_S10 : S10 L (Proc.devRef .tc main_arg8) = L (Proc.devRef .tc main_arg8) :=
  (by piece_skip opsTl : after opsTl (S9 L) (Proc.devRef .tc main_arg8) = (S9 L) (Proc.devRef .tc main_arg8)).trans (arg8_S9 L)
theorem arg9_S1 : S1 L (Proc.devRef .tc main_arg9) = L (Proc.devRef .tc main_arg9) :=
  (by piece_skip opsC0a : after opsC0a L (Proc.devRef .tc main_arg9) = L (Proc.devRef .tc main_arg9))
theorem arg9_S2 : S2 L (Proc.devRef .tc main_arg9) = L (Proc.devRef .tc main_arg9) :=
  (by piece_skip opsC0b : after opsC0b (S1 L) (Proc.devRef .tc main_arg9) = (S1 L) (Proc.devRef .tc main_arg9)).trans (arg9_S1 L)
theorem arg9_S3 : S3 L (Proc.devRef .tc main_arg9) = L (Proc.devRef .tc main_arg9) :=
  (by piece_skip opsC0c : after opsC0c (S2 L) (Proc.devRef .tc main_arg9) = (S2 L) (Proc.devRef .tc main_arg9)).trans (arg9_S2 L)
theorem arg9_S4 : S4 L (Proc.devRef .tc main_arg9) = L (Proc.devRef .tc main_arg9) :=
  (by piece_skip opsA1 : after opsA1 (S3 L) (Proc.devRef .tc main_arg9) = (S3 L) (Proc.devRef .tc main_arg9)).trans (arg9_S3 L)
theorem arg9_S5 : S5 L (Proc.devRef .tc main_arg9) = L (Proc.devRef .tc main_arg9) :=
  (by piece_skip opsB1 : after opsB1 (S4 L) (Proc.devRef .tc main_arg9) = (S4 L) (Proc.devRef .tc main_arg9)).trans (arg9_S4 L)
theorem arg9_S6 : S6 L (Proc.devRef .tc main_arg9) = L (Proc.devRef .tc main_arg9) :=
  (by piece_skip opsA2 : after opsA2 (S5 L) (Proc.devRef .tc main_arg9) = (S5 L) (Proc.devRef .tc main_arg9)).trans (arg9_S5 L)
theorem arg9_S7 : S7 L (Proc.devRef .tc main_arg9) = L (Proc.devRef .tc main_arg9) :=
  (by piece_skip opsB2 : after opsB2 (S6 L) (Proc.devRef .tc main_arg9) = (S6 L) (Proc.devRef .tc main_arg9)).trans (arg9_S6 L)
theorem arg9_S8 : S8 L (Proc.devRef .tc main_arg9) = L (Proc.devRef .tc main_arg9) :=
  (by piece_skip opsA3 : after opsA3 (S7 L) (Proc.devRef .tc main_arg9) = (S7 L) (Proc.devRef .tc main_arg9)).trans (arg9_S7 L)
theorem arg9_S9 : S9 L (Proc.devRef .tc main_arg9) = L (Proc.devRef .tc main_arg9) :=
  (by piece_skip opsB3 : after opsB3 (S8 L) (Proc.devRef .tc main_arg9) = (S8 L) (Proc.devRef .tc main_arg9)).trans (arg9_S8 L)
theorem arg9_S10 : S10 L (Proc.devRef .tc main_arg9) = L (Proc.devRef .tc main_arg9) :=
  (by piece_skip opsTl : after opsTl (S9 L) (Proc.devRef .tc main_arg9) = (S9 L) (Proc.devRef .tc main_arg9)).trans (arg9_S9 L)
theorem arg10_S1 : S1 L (Proc.devRef .tc main_arg10) = L (Proc.devRef .tc main_arg10) :=
  (by piece_skip opsC0a : after opsC0a L (Proc.devRef .tc main_arg10) = L (Proc.devRef .tc main_arg10))
theorem arg10_S2 : S2 L (Proc.devRef .tc main_arg10) = L (Proc.devRef .tc main_arg10) :=
  (by piece_skip opsC0b : after opsC0b (S1 L) (Proc.devRef .tc main_arg10) = (S1 L) (Proc.devRef .tc main_arg10)).trans (arg10_S1 L)
theorem arg10_S3 : S3 L (Proc.devRef .tc main_arg10) = L (Proc.devRef .tc main_arg10) :=
  (by piece_skip opsC0c : after opsC0c (S2 L) (Proc.devRef .tc main_arg10) = (S2 L) (Proc.devRef .tc main_arg10)).trans (arg10_S2 L)
theorem arg10_S4 : S4 L (Proc.devRef .tc main_arg10) = L (Proc.devRef .tc main_arg10) :=
  (by piece_skip opsA1 : after opsA1 (S3 L) (Proc.devRef .tc main_arg10) = (S3 L) (Proc.devRef .tc main_arg10)).trans (arg10_S3 L)
theorem arg10_S5 : S5 L (Proc.devRef .tc main_arg10) = L (Proc.devRef .tc main_arg10) :=
  (by piece_skip opsB1 : after opsB1 (S4 L) (Proc.devRef .tc main_arg10) = (S4 L) (Proc.devRef .tc main_arg10)).trans (arg10_S4 L)
theorem arg10_S6 : S6 L (Proc.devRef .tc main_arg10) = L (Proc.devRef .tc main_arg10) :=
  (by piece_skip opsA2 : after opsA2 (S5 L) (Proc.devRef .tc main_arg10) = (S5 L) (Proc.devRef .tc main_arg10)).trans (arg10_S5 L)
theorem arg10_S7 : S7 L (Proc.devRef .tc main_arg10) = L (Proc.devRef .tc main_arg10) :=
  (by piece_skip opsB2 : after opsB2 (S6 L) (Proc.devRef .tc main_arg10) = (S6 L) (Proc.devRef .tc main_arg10)).trans (arg10_S6 L)
theorem arg10_S8 : S8 L (Proc.devRef .tc main_arg10) = L (Proc.devRef .tc main_arg10) :=
  (by piece_skip opsA3 : after opsA3 (S7 L) (Proc.devRef .tc main_arg10) = (S7 L) (Proc.devRef .tc main_arg10)).trans (arg10_S7 L)
theorem arg10_S9 : S9 L (Proc.devRef .tc main_arg10) = L (Proc.devRef .tc main_arg10) :=
  (by piece_skip opsB3 : after opsB3 (S8 L) (Proc.devRef .tc main_arg10) = (S8 L) (Proc.devRef .tc main_arg10)).trans (arg10_S8 L)
theorem arg10_S10 : S10 L (Proc.devRef .tc main_arg10) = L (Proc.devRef .tc main_arg10) :=
  (by piece_skip opsTl : after opsTl (S9 L) (Proc.devRef .tc main_arg10) = (S9 L) (Proc.devRef .tc main_arg10)).trans (arg10_S9 L)
theorem arg11_S1 : S1 L (Proc.devRef .tc main_arg11) = L (Proc.devRef .tc main_arg11) :=
  (by piece_skip opsC0a : after opsC0a L (Proc.devRef .tc main_arg11) = L (Proc.devRef .tc main_arg11))
theorem arg11_S2 : S2 L (Proc.devRef .tc main_arg11) = L (Proc.devRef .tc main_arg11) :=
  (by piece_skip opsC0b : after opsC0b (S1 L) (Proc.devRef .tc main_arg11) = (S1 L) (Proc.devRef .tc main_arg11)).trans (arg11_S1 L)
theorem arg11_S3 : S3 L (Proc.devRef .tc main_arg11) = L (Proc.devRef .tc main_arg11) :=
  (by piece_skip opsC0c : after opsC0c (S2 L) (Proc.devRef .tc main_arg11) = (S2 L) (Proc.devRef .tc main_arg11)).trans (arg11_S2 L)
theorem arg11_S4 : S4 L (Proc.devRef .tc main_arg11) = L (Proc.devRef .tc main_arg11) :=
  (by piece_skip opsA1 : after opsA1 (S3 L) (Proc.devRef .tc main_arg11) = (S3 L) (Proc.devRef .tc main_arg11)).trans (arg11_S3 L)
theorem arg11_S5 : S5 L (Proc.devRef .tc main_arg11) = L (Proc.devRef .tc main_arg11) :=
  (by piece_skip opsB1 : after opsB1 (S4 L) (Proc.devRef .tc main_arg11) = (S4 L) (Proc.devRef .tc main_arg11)).trans (arg11_S4 L)
theorem arg11_S6 : S6 L (Proc.devRef .tc main_arg11) = L (Proc.devRef .tc main_arg11) :=
  (by piece_skip opsA2 : after opsA2 (S5 L) (Proc.devRef .tc main_arg11) = (S5 L) (Proc.devRef .tc main_arg11)).trans (arg11_S5 L)
theorem arg11_S7 : S7 L (Proc.devRef .tc main_arg11) = L (Proc.devRef .tc main_arg11) :=
  (by piece_skip opsB2 : after opsB2 (S6 L) (Proc.devRef .tc main_arg11) = (S6 L) (Proc.devRef .tc main_arg11)).trans (arg11_S6 L)
theorem arg11_S8 : S8 L (Proc.devRef .tc main_arg11) = L (Proc.devRef .tc main_arg11) :=
  (by piece_skip opsA3 : after opsA3 (S7 L) (Proc.devRef .tc main_arg11) = (S7 L) (Proc.devRef .tc main_arg11)).trans (arg11_S7 L)
theorem arg11_S9 : S9 L (Proc.devRef .tc main_arg11) = L (Proc.devRef .tc main_arg11) :=
  (by piece_skip opsB3 : after opsB3 (S8 L) (Proc.devRef .tc main_arg11) = (S8 L) (Proc.devRef .tc main_arg11)).trans (arg11_S8 L)
theorem arg11_S10 : S10 L (Proc.devRef .tc main_arg11) = L (Proc.devRef .tc main_arg11) :=
  (by piece_skip opsTl : after opsTl (S9 L) (Proc.devRef .tc main_arg11) = (S9 L) (Proc.devRef .tc main_arg11)).trans (arg11_S9 L)
theorem arg12_S1 : S1 L (Proc.devRef .tc main_arg12) = L (Proc.devRef .tc main_arg12) :=
  (by piece_skip opsC0a : after opsC0a L (Proc.devRef .tc main_arg12) = L (Proc.devRef .tc main_arg12))
theorem arg12_S2 : S2 L (Proc.devRef .tc main_arg12) = L (Proc.devRef .tc main_arg12) :=
  (by piece_skip opsC0b : after opsC0b (S1 L) (Proc.devRef .tc main_arg12) = (S1 L) (Proc.devRef .tc main_arg12)).trans (arg12_S1 L)
theorem arg12_S3 : S3 L (Proc.devRef .tc main_arg12) = L (Proc.devRef .tc main_arg12) :=
  (by piece_skip opsC0c : after opsC0c (S2 L) (Proc.devRef .tc main_arg12) = (S2 L) (Proc.devRef .tc main_arg12)).trans (arg12_S2 L)
theorem arg12_S4 : S4 L (Proc.devRef .tc main_arg12) = L (Proc.devRef .tc main_arg12) :=
  (by piece_skip opsA1 : after opsA1 (S3 L) (Proc.devRef .tc main_arg12) = (S3 L) (Proc.devRef .tc main_arg12)).trans (arg12_S3 L)
theorem arg12_S5 : S5 L (Proc.devRef .tc main_arg12) = L (Proc.devRef .tc main_arg12) :=
  (by piece_skip opsB1 : after opsB1 (S4 L) (Proc.devRef .tc main_arg12) = (S4 L) (Proc.devRef .tc main_arg12)).trans (arg12_S4 L)
theorem arg12_S6 : S6 L (Proc.devRef .tc main_arg12) = L (Proc.devRef .tc main_arg12) :=
  (by piece_skip opsA2 : after opsA2 (S5 L) (Proc.devRef .tc main_arg12) = (S5 L) (Proc.devRef .tc main_arg12)).trans (arg12_S5 L)
theorem arg12_S7 : S7 L (Proc.devRef .tc main_arg12) = L (Proc.devRef .tc main_arg12) :=
  (by piece_skip opsB2 : after opsB2 (S6 L) (Proc.devRef .tc main_arg12) = (S6 L) (Proc.devRef .tc main_arg12)).trans (arg12_S6 L)
theorem arg12_S8 : S8 L (Proc.devRef .tc main_arg12) = L (Proc.devRef .tc main_arg12) :=
  (by piece_skip opsA3 : after opsA3 (S7 L) (Proc.devRef .tc main_arg12) = (S7 L) (Proc.devRef .tc main_arg12)).trans (arg12_S7 L)
theorem arg12_S9 : S9 L (Proc.devRef .tc main_arg12) = L (Proc.devRef .tc main_arg12) :=
  (by piece_skip opsB3 : after opsB3 (S8 L) (Proc.devRef .tc main_arg12) = (S8 L) (Proc.devRef .tc main_arg12)).trans (arg12_S8 L)
theorem arg12_S10 : S10 L (Proc.devRef .tc main_arg12) = L (Proc.devRef .tc main_arg12) :=
  (by piece_skip opsTl : after opsTl (S9 L) (Proc.devRef .tc main_arg12) = (S9 L) (Proc.devRef .tc main_arg12)).trans (arg12_S9 L)
theorem arg13_S1 : S1 L (Proc.devRef .tc main_arg13) = L (Proc.devRef .tc main_arg13) :=
  (by piece_skip opsC0a : after opsC0a L (Proc.devRef .tc main_arg13) = L (Proc.devRef .tc main_arg13))
theorem arg13_S2 : S2 L (Proc.devRef .tc main_arg13) = L (Proc.devRef .tc main_arg13) :=
  (by piece_skip opsC0b : after opsC0b (S1 L) (Proc.devRef .tc main_arg13) = (S1 L) (Proc.devRef .tc main_arg13)).trans (arg13_S1 L)
theorem arg13_S3 : S3 L (Proc.devRef .tc main_arg13) = L (Proc.devRef .tc main_arg13) :=
  (by piece_skip opsC0c : after opsC0c (S2 L) (Proc.devRef .tc main_arg13) = (S2 L) (Proc.devRef .tc main_arg13)).trans (arg13_S2 L)
theorem arg13_S4 : S4 L (Proc.devRef .tc main_arg13) = L (Proc.devRef .tc main_arg13) :=
  (by piece_skip opsA1 : after opsA1 (S3 L) (Proc.devRef .tc main_arg13) = (S3 L) (Proc.devRef .tc main_arg13)).trans (arg13_S3 L)
theorem arg13_S5 : S5 L (Proc.devRef .tc main_arg13) = L (Proc.devRef .tc main_arg13) :=
  (by piece_skip opsB1 : after opsB1 (S4 L) (Proc.devRef .tc main_arg13) = (S4 L) (Proc.devRef .tc main_arg13)).trans (arg13_S4 L)
theorem arg13_S6 : S6 L (Proc.devRef .tc main_arg13) = L (Proc.devRef .tc main_arg13) :=
  (by piece_skip opsA2 : after opsA2 (S5 L) (Proc.devRef .tc main_arg13) = (S5 L) (Proc.devRef .tc main_arg13)).trans (arg13_S5 L)
theorem arg13_S7 : S7 L (Proc.devRef .tc main_arg13) = L (Proc.devRef .tc main_arg13) :=
  (by piece_skip opsB2 : after opsB2 (S6 L) (Proc.devRef .tc main_arg13) = (S6 L) (Proc.devRef .tc main_arg13)).trans (arg13_S6 L)
theorem arg13_S8 : S8 L (Proc.devRef .tc main_arg13) = L (Proc.devRef .tc main_arg13) :=
  (by piece_skip opsA3 : after opsA3 (S7 L) (Proc.devRef .tc main_arg13) = (S7 L) (Proc.devRef .tc main_arg13)).trans (arg13_S7 L)
theorem arg13_S9 : S9 L (Proc.devRef .tc main_arg13) = L (Proc.devRef .tc main_arg13) :=
  (by piece_skip opsB3 : after opsB3 (S8 L) (Proc.devRef .tc main_arg13) = (S8 L) (Proc.devRef .tc main_arg13)).trans (arg13_S8 L)
theorem arg13_S10 : S10 L (Proc.devRef .tc main_arg13) = L (Proc.devRef .tc main_arg13) :=
  (by piece_skip opsTl : after opsTl (S9 L) (Proc.devRef .tc main_arg13) = (S9 L) (Proc.devRef .tc main_arg13)).trans (arg13_S9 L)
theorem arg14_S1 : S1 L (Proc.devRef .tc main_arg14) = L (Proc.devRef .tc main_arg14) :=
  (by piece_skip opsC0a : after opsC0a L (Proc.devRef .tc main_arg14) = L (Proc.devRef .tc main_arg14))
theorem arg14_S2 : S2 L (Proc.devRef .tc main_arg14) = L (Proc.devRef .tc main_arg14) :=
  (by piece_skip opsC0b : after opsC0b (S1 L) (Proc.devRef .tc main_arg14) = (S1 L) (Proc.devRef .tc main_arg14)).trans (arg14_S1 L)
theorem arg14_S3 : S3 L (Proc.devRef .tc main_arg14) = L (Proc.devRef .tc main_arg14) :=
  (by piece_skip opsC0c : after opsC0c (S2 L) (Proc.devRef .tc main_arg14) = (S2 L) (Proc.devRef .tc main_arg14)).trans (arg14_S2 L)
theorem arg14_S4 : S4 L (Proc.devRef .tc main_arg14) = L (Proc.devRef .tc main_arg14) :=
  (by piece_skip opsA1 : after opsA1 (S3 L) (Proc.devRef .tc main_arg14) = (S3 L) (Proc.devRef .tc main_arg14)).trans (arg14_S3 L)
theorem arg14_S5 : S5 L (Proc.devRef .tc main_arg14) = L (Proc.devRef .tc main_arg14) :=
  (by piece_skip opsB1 : after opsB1 (S4 L) (Proc.devRef .tc main_arg14) = (S4 L) (Proc.devRef .tc main_arg14)).trans (arg14_S4 L)
theorem arg14_S6 : S6 L (Proc.devRef .tc main_arg14) = L (Proc.devRef .tc main_arg14) :=
  (by piece_skip opsA2 : after opsA2 (S5 L) (Proc.devRef .tc main_arg14) = (S5 L) (Proc.devRef .tc main_arg14)).trans (arg14_S5 L)
theorem arg14_S7 : S7 L (Proc.devRef .tc main_arg14) = L (Proc.devRef .tc main_arg14) :=
  (by piece_skip opsB2 : after opsB2 (S6 L) (Proc.devRef .tc main_arg14) = (S6 L) (Proc.devRef .tc main_arg14)).trans (arg14_S6 L)
theorem arg14_S8 : S8 L (Proc.devRef .tc main_arg14) = L (Proc.devRef .tc main_arg14) :=
  (by piece_skip opsA3 : after opsA3 (S7 L) (Proc.devRef .tc main_arg14) = (S7 L) (Proc.devRef .tc main_arg14)).trans (arg14_S7 L)
theorem arg14_S9 : S9 L (Proc.devRef .tc main_arg14) = L (Proc.devRef .tc main_arg14) :=
  (by piece_skip opsB3 : after opsB3 (S8 L) (Proc.devRef .tc main_arg14) = (S8 L) (Proc.devRef .tc main_arg14)).trans (arg14_S8 L)
theorem arg14_S10 : S10 L (Proc.devRef .tc main_arg14) = L (Proc.devRef .tc main_arg14) :=
  (by piece_skip opsTl : after opsTl (S9 L) (Proc.devRef .tc main_arg14) = (S9 L) (Proc.devRef .tc main_arg14)).trans (arg14_S9 L)
theorem arg15_S1 : S1 L (Proc.devRef .tc main_arg15) = L (Proc.devRef .tc main_arg15) :=
  (by piece_skip opsC0a : after opsC0a L (Proc.devRef .tc main_arg15) = L (Proc.devRef .tc main_arg15))
theorem arg15_S2 : S2 L (Proc.devRef .tc main_arg15) = L (Proc.devRef .tc main_arg15) :=
  (by piece_skip opsC0b : after opsC0b (S1 L) (Proc.devRef .tc main_arg15) = (S1 L) (Proc.devRef .tc main_arg15)).trans (arg15_S1 L)
theorem arg15_S3 : S3 L (Proc.devRef .tc main_arg15) = L (Proc.devRef .tc main_arg15) :=
  (by piece_skip opsC0c : after opsC0c (S2 L) (Proc.devRef .tc main_arg15) = (S2 L) (Proc.devRef .tc main_arg15)).trans (arg15_S2 L)
theorem arg15_S4 : S4 L (Proc.devRef .tc main_arg15) = L (Proc.devRef .tc main_arg15) :=
  (by piece_skip opsA1 : after opsA1 (S3 L) (Proc.devRef .tc main_arg15) = (S3 L) (Proc.devRef .tc main_arg15)).trans (arg15_S3 L)
theorem arg15_S5 : S5 L (Proc.devRef .tc main_arg15) = L (Proc.devRef .tc main_arg15) :=
  (by piece_skip opsB1 : after opsB1 (S4 L) (Proc.devRef .tc main_arg15) = (S4 L) (Proc.devRef .tc main_arg15)).trans (arg15_S4 L)
theorem arg15_S6 : S6 L (Proc.devRef .tc main_arg15) = L (Proc.devRef .tc main_arg15) :=
  (by piece_skip opsA2 : after opsA2 (S5 L) (Proc.devRef .tc main_arg15) = (S5 L) (Proc.devRef .tc main_arg15)).trans (arg15_S5 L)
theorem arg15_S7 : S7 L (Proc.devRef .tc main_arg15) = L (Proc.devRef .tc main_arg15) :=
  (by piece_skip opsB2 : after opsB2 (S6 L) (Proc.devRef .tc main_arg15) = (S6 L) (Proc.devRef .tc main_arg15)).trans (arg15_S6 L)
theorem arg15_S8 : S8 L (Proc.devRef .tc main_arg15) = L (Proc.devRef .tc main_arg15) :=
  (by piece_skip opsA3 : after opsA3 (S7 L) (Proc.devRef .tc main_arg15) = (S7 L) (Proc.devRef .tc main_arg15)).trans (arg15_S7 L)
theorem arg15_S9 : S9 L (Proc.devRef .tc main_arg15) = L (Proc.devRef .tc main_arg15) :=
  (by piece_skip opsB3 : after opsB3 (S8 L) (Proc.devRef .tc main_arg15) = (S8 L) (Proc.devRef .tc main_arg15)).trans (arg15_S8 L)
theorem arg15_S10 : S10 L (Proc.devRef .tc main_arg15) = L (Proc.devRef .tc main_arg15) :=
  (by piece_skip opsTl : after opsTl (S9 L) (Proc.devRef .tc main_arg15) = (S9 L) (Proc.devRef .tc main_arg15)).trans (arg15_S9 L)
theorem arg16_S1 : S1 L (Proc.devRef .tc main_arg16) = L (Proc.devRef .tc main_arg16) :=
  (by piece_skip opsC0a : after opsC0a L (Proc.devRef .tc main_arg16) = L (Proc.devRef .tc main_arg16))
theorem arg16_S2 : S2 L (Proc.devRef .tc main_arg16) = L (Proc.devRef .tc main_arg16) :=
  (by piece_skip opsC0b : after opsC0b (S1 L) (Proc.devRef .tc main_arg16) = (S1 L) (Proc.devRef .tc main_arg16)).trans (arg16_S1 L)
theorem arg16_S3 : S3 L (Proc.devRef .tc main_arg16) = L (Proc.devRef .tc main_arg16) :=
  (by piece_skip opsC0c : after opsC0c (S2 L) (Proc.devRef .tc main_arg16) = (S2 L) (Proc.devRef .tc main_arg16)).trans (arg16_S2 L)
theorem arg16_S4 : S4 L (Proc.devRef .tc main_arg16) = L (Proc.devRef .tc main_arg16) :=
  (by piece_skip opsA1 : after opsA1 (S3 L) (Proc.devRef .tc main_arg16) = (S3 L) (Proc.devRef .tc main_arg16)).trans (arg16_S3 L)
theorem arg16_S5 : S5 L (Proc.devRef .tc main_arg16) = L (Proc.devRef .tc main_arg16) :=
  (by piece_skip opsB1 : after opsB1 (S4 L) (Proc.devRef .tc main_arg16) = (S4 L) (Proc.devRef .tc main_arg16)).trans (arg16_S4 L)
theorem arg16_S6 : S6 L (Proc.devRef .tc main_arg16) = L (Proc.devRef .tc main_arg16) :=
  (by piece_skip opsA2 : after opsA2 (S5 L) (Proc.devRef .tc main_arg16) = (S5 L) (Proc.devRef .tc main_arg16)).trans (arg16_S5 L)
theorem arg16_S7 : S7 L (Proc.devRef .tc main_arg16) = L (Proc.devRef .tc main_arg16) :=
  (by piece_skip opsB2 : after opsB2 (S6 L) (Proc.devRef .tc main_arg16) = (S6 L) (Proc.devRef .tc main_arg16)).trans (arg16_S6 L)
theorem arg16_S8 : S8 L (Proc.devRef .tc main_arg16) = L (Proc.devRef .tc main_arg16) :=
  (by piece_skip opsA3 : after opsA3 (S7 L) (Proc.devRef .tc main_arg16) = (S7 L) (Proc.devRef .tc main_arg16)).trans (arg16_S7 L)
theorem arg16_S9 : S9 L (Proc.devRef .tc main_arg16) = L (Proc.devRef .tc main_arg16) :=
  (by piece_skip opsB3 : after opsB3 (S8 L) (Proc.devRef .tc main_arg16) = (S8 L) (Proc.devRef .tc main_arg16)).trans (arg16_S8 L)
theorem arg16_S10 : S10 L (Proc.devRef .tc main_arg16) = L (Proc.devRef .tc main_arg16) :=
  (by piece_skip opsTl : after opsTl (S9 L) (Proc.devRef .tc main_arg16) = (S9 L) (Proc.devRef .tc main_arg16)).trans (arg16_S9 L)
theorem v3_S2 : S2 L (Proc.devRef .tc main_v3) = S1 L (Proc.devRef .tc main_v3) :=
  (by piece_skip opsC0b : after opsC0b (S1 L) (Proc.devRef .tc main_v3) = (S1 L) (Proc.devRef .tc main_v3))
theorem v3_S3 : S3 L (Proc.devRef .tc main_v3) = S1 L (Proc.devRef .tc main_v3) :=
  (by piece_skip opsC0c : after opsC0c (S2 L) (Proc.devRef .tc main_v3) = (S2 L) (Proc.devRef .tc main_v3)).trans (v3_S2 L)
theorem v3_S4 : S4 L (Proc.devRef .tc main_v3) = S1 L (Proc.devRef .tc main_v3) :=
  (by piece_skip opsA1 : after opsA1 (S3 L) (Proc.devRef .tc main_v3) = (S3 L) (Proc.devRef .tc main_v3)).trans (v3_S3 L)
theorem v3_S5 : S5 L (Proc.devRef .tc main_v3) = S1 L (Proc.devRef .tc main_v3) :=
  (by piece_skip opsB1 : after opsB1 (S4 L) (Proc.devRef .tc main_v3) = (S4 L) (Proc.devRef .tc main_v3)).trans (v3_S4 L)
theorem v3_S6 : S6 L (Proc.devRef .tc main_v3) = S1 L (Proc.devRef .tc main_v3) :=
  (by piece_skip opsA2 : after opsA2 (S5 L) (Proc.devRef .tc main_v3) = (S5 L) (Proc.devRef .tc main_v3)).trans (v3_S5 L)
theorem v3_S7 : S7 L (Proc.devRef .tc main_v3) = S1 L (Proc.devRef .tc main_v3) :=
  (by piece_skip opsB2 : after opsB2 (S6 L) (Proc.devRef .tc main_v3) = (S6 L) (Proc.devRef .tc main_v3)).trans (v3_S6 L)
theorem v3_S8 : S8 L (Proc.devRef .tc main_v3) = S1 L (Proc.devRef .tc main_v3) :=
  (by piece_skip opsA3 : after opsA3 (S7 L) (Proc.devRef .tc main_v3) = (S7 L) (Proc.devRef .tc main_v3)).trans (v3_S7 L)
theorem v6_S2 : S2 L (Proc.devRef .tc main_v6) = S1 L (Proc.devRef .tc main_v6) :=
  (by piece_skip opsC0b : after opsC0b (S1 L) (Proc.devRef .tc main_v6) = (S1 L) (Proc.devRef .tc main_v6))
theorem v6_S3 : S3 L (Proc.devRef .tc main_v6) = S1 L (Proc.devRef .tc main_v6) :=
  (by piece_skip opsC0c : after opsC0c (S2 L) (Proc.devRef .tc main_v6) = (S2 L) (Proc.devRef .tc main_v6)).trans (v6_S2 L)
theorem v6_S4 : S4 L (Proc.devRef .tc main_v6) = S1 L (Proc.devRef .tc main_v6) :=
  (by piece_skip opsA1 : after opsA1 (S3 L) (Proc.devRef .tc main_v6) = (S3 L) (Proc.devRef .tc main_v6)).trans (v6_S3 L)
theorem v6_S5 : S5 L (Proc.devRef .tc main_v6) = S1 L (Proc.devRef .tc main_v6) :=
  (by piece_skip opsB1 : after opsB1 (S4 L) (Proc.devRef .tc main_v6) = (S4 L) (Proc.devRef .tc main_v6)).trans (v6_S4 L)
theorem v6_S6 : S6 L (Proc.devRef .tc main_v6) = S1 L (Proc.devRef .tc main_v6) :=
  (by piece_skip opsA2 : after opsA2 (S5 L) (Proc.devRef .tc main_v6) = (S5 L) (Proc.devRef .tc main_v6)).trans (v6_S5 L)
theorem v6_S7 : S7 L (Proc.devRef .tc main_v6) = S1 L (Proc.devRef .tc main_v6) :=
  (by piece_skip opsB2 : after opsB2 (S6 L) (Proc.devRef .tc main_v6) = (S6 L) (Proc.devRef .tc main_v6)).trans (v6_S6 L)
theorem v6_S8 : S8 L (Proc.devRef .tc main_v6) = S1 L (Proc.devRef .tc main_v6) :=
  (by piece_skip opsA3 : after opsA3 (S7 L) (Proc.devRef .tc main_v6) = (S7 L) (Proc.devRef .tc main_v6)).trans (v6_S7 L)
theorem v29_S4 : S4 L (Proc.devRef .tc main_v29) = S3 L (Proc.devRef .tc main_v29) :=
  (by piece_skip opsA1 : after opsA1 (S3 L) (Proc.devRef .tc main_v29) = (S3 L) (Proc.devRef .tc main_v29))
theorem v29_S5 : S5 L (Proc.devRef .tc main_v29) = S3 L (Proc.devRef .tc main_v29) :=
  (by piece_skip opsB1 : after opsB1 (S4 L) (Proc.devRef .tc main_v29) = (S4 L) (Proc.devRef .tc main_v29)).trans (v29_S4 L)
theorem v29_S6 : S6 L (Proc.devRef .tc main_v29) = S3 L (Proc.devRef .tc main_v29) :=
  (by piece_skip opsA2 : after opsA2 (S5 L) (Proc.devRef .tc main_v29) = (S5 L) (Proc.devRef .tc main_v29)).trans (v29_S5 L)
theorem v29_S7 : S7 L (Proc.devRef .tc main_v29) = S3 L (Proc.devRef .tc main_v29) :=
  (by piece_skip opsB2 : after opsB2 (S6 L) (Proc.devRef .tc main_v29) = (S6 L) (Proc.devRef .tc main_v29)).trans (v29_S6 L)
theorem v29_S8 : S8 L (Proc.devRef .tc main_v29) = S3 L (Proc.devRef .tc main_v29) :=
  (by piece_skip opsA3 : after opsA3 (S7 L) (Proc.devRef .tc main_v29) = (S7 L) (Proc.devRef .tc main_v29)).trans (v29_S7 L)

/-! ## The whole line -/

/-- The result buffer after the whole line is the whole network of the launch contents of the arguments. -/
theorem result_eq : after (ops (F := Ideal)) L (Proc.devRef .tc main_v174)
    = Cert.Spec.total (F := Ideal) (L (Proc.devRef .tc main_arg0)) (L (Proc.devRef .tc main_arg1)) (L (Proc.devRef .tc main_arg2)) (L (Proc.devRef .tc main_arg3)) (L (Proc.devRef .tc main_arg4)) (L (Proc.devRef .tc main_arg5)) (L (Proc.devRef .tc main_arg6)) (L (Proc.devRef .tc main_arg7)) (L (Proc.devRef .tc main_arg8)) (L (Proc.devRef .tc main_arg9)) (L (Proc.devRef .tc main_arg10)) (L (Proc.devRef .tc main_arg11)) (L (Proc.devRef .tc main_arg12)) (L (Proc.devRef .tc main_arg13)) (L (Proc.devRef .tc main_arg14)) (L (Proc.devRef .tc main_arg15)) (L (Proc.devRef .tc main_arg16)) := by
  have h1s : S1 L (Proc.devRef .tc main_v3) = Cert.Spec.srcOf (F := Ideal) (L (Proc.devRef .tc main_arg1)) := c0_v3 L
  have h1d : S1 L (Proc.devRef .tc main_v6) = Cert.Spec.dstOf (F := Ideal) (L (Proc.devRef .tc main_arg1)) := c0_v6 L
  have h3n : S3 L (Proc.devRef .tc main_v29) = Cert.Spec.normOf (F := Ideal) (Cert.Spec.srcOf (F := Ideal) (L (Proc.devRef .tc main_arg1))) (Cert.Spec.dstOf (F := Ideal) (L (Proc.devRef .tc main_arg1))) := by
    rw [show S3 L (Proc.devRef .tc main_v29) = _ from c0_v29 (S2 L), v3_S2 L, v6_S2 L, h1s, h1d,
      show S2 L (Proc.devRef .tc main_v14) = _ from c0_v14 (S1 L),
      show S1 L (Proc.devRef .tc main_v12) = _ from c0_v12 L, show S1 L (Proc.devRef .tc main_v13) = _ from c0_v13 L, show S1 L (Proc.devRef .tc main_cst_2) = _ from c0_cst2 L]
    rfl
  have h4 : S4 L (Proc.devRef .tc main_v46) = Cert.Spec.aggOut (F := Ideal) (Cert.Spec.dotNN (F := Ideal) (L (Proc.devRef .tc main_arg0)) (L (Proc.devRef .tc main_arg3))) (Cert.Spec.srcOf (F := Ideal) (L (Proc.devRef .tc main_arg1))) (Cert.Spec.normOf (F := Ideal) (Cert.Spec.srcOf (F := Ideal) (L (Proc.devRef .tc main_arg1))) (Cert.Spec.dstOf (F := Ideal) (L (Proc.devRef .tc main_arg1)))) (Cert.Spec.dstOf (F := Ideal) (L (Proc.devRef .tc main_arg1))) (L (Proc.devRef .tc main_arg4)) := by
    rw [show S4 L (Proc.devRef .tc main_v46) = _ from a1_out (S3 L), arg0_S3 L, arg3_S3 L, arg4_S3 L, v3_S3 L, v6_S3 L, h1s, h3n, h1d]
  have h5 : S5 L (Proc.devRef .tc main_v72) = Cert.Spec.bnRef (F := Ideal) (S4 L (Proc.devRef .tc main_v46)) (L (Proc.devRef .tc main_arg5)) (L (Proc.devRef .tc main_arg6)) := by
    rw [show S5 L (Proc.devRef .tc main_v72) = _ from b1_h (S4 L), arg5_S4 L, arg6_S4 L]
  have h6 : S6 L (Proc.devRef .tc main_v89) = Cert.Spec.aggOut (F := Ideal) (Cert.Spec.dotNN (F := Ideal) (S5 L (Proc.devRef .tc main_v72)) (L (Proc.devRef .tc main_arg7))) (Cert.Spec.srcOf (F := Ideal) (L (Proc.devRef .tc main_arg1))) (Cert.Spec.normOf (F := Ideal) (Cert.Spec.srcOf (F := Ideal) (L (Proc.devRef .tc main_arg1))) (Cert.Spec.dstOf (F := Ideal) (L (Proc.devRef .tc main_arg1)))) (Cert.Spec.dstOf (F := Ideal) (L (Proc.devRef .tc main_arg1))) (L (Proc.devRef .tc main_arg8)) := by
    rw [show S6 L (Proc.devRef .tc main_v89) = _ from a2_out (S5 L), arg7_S5 L, arg8_S5 L, v3_S5 L, v29_S5 L, v6_S5 L, h1s, h3n, h1d]
  have h7 : S7 L (Proc.devRef .tc main_v115) = Cert.Spec.bnRef (F := Ideal) (S6 L (Proc.devRef .tc main_v89)) (L (Proc.devRef .tc main_arg9)) (L (Proc.devRef .tc main_arg10)) := by
    rw [show S7 L (Proc.devRef .tc main_v115) = _ from b2_h (S6 L), arg9_S6 L, arg10_S6 L]
  have h8 : S8 L (Proc.devRef .tc main_v132) = Cert.Spec.aggOut (F := Ideal) (Cert.Spec.dotNN (F := Ideal) (S7 L (Proc.devRef .tc main_v115)) (L (Proc.devRef .tc main_arg11))) (Cert.Spec.srcOf (F := Ideal) (L (Proc.devRef .tc main_arg1))) (Cert.Spec.normOf (F := Ideal) (Cert.Spec.srcOf (F := Ideal) (L (Proc.devRef .tc main_arg1))) (Cert.Spec.dstOf (F := Ideal) (L (Proc.devRef .tc main_arg1)))) (Cert.Spec.dstOf (F := Ideal) (L (Proc.devRef .tc main_arg1))) (L (Proc.devRef .tc main_arg12)) := by
    rw [show S8 L (Proc.devRef .tc main_v132) = _ from a3_out (S7 L), arg11_S7 L, arg12_S7 L, v3_S7 L, v29_S7 L, v6_S7 L, h1s, h3n, h1d]
  have h9 : S9 L (Proc.devRef .tc main_v158) = Cert.Spec.bnRef (F := Ideal) (S8 L (Proc.devRef .tc main_v132)) (L (Proc.devRef .tc main_arg13)) (L (Proc.devRef .tc main_arg14)) := by
    rw [show S9 L (Proc.devRef .tc main_v158) = _ from b3_h (S8 L), arg13_S8 L, arg14_S8 L]
  rw [after_ops, show S10 L (Proc.devRef .tc main_v174) = _ from tl_res (S9 L), arg2_S9 L, arg15_S9 L, arg16_S9 L, h9, h8, h7, h6, h5, h4]
  rfl
/-- The run: every weakly fair execution terminates with the result at the whole network of the arguments, and the
    arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v174) = Cert.Spec.total (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v174).trans (result_eq (launchContents m c)),
      (h c main_arg0).trans ((congrFun (after_ops (launchContents m c)) _).trans (arg0_S10 (launchContents m c))),
      (h c main_arg1).trans ((congrFun (after_ops (launchContents m c)) _).trans (arg1_S10 (launchContents m c))),
      (h c main_arg2).trans ((congrFun (after_ops (launchContents m c)) _).trans (arg2_S10 (launchContents m c))),
      (h c main_arg3).trans ((congrFun (after_ops (launchContents m c)) _).trans (arg3_S10 (launchContents m c))),
      (h c main_arg4).trans ((congrFun (after_ops (launchContents m c)) _).trans (arg4_S10 (launchContents m c))),
      (h c main_arg5).trans ((congrFun (after_ops (launchContents m c)) _).trans (arg5_S10 (launchContents m c))),
      (h c main_arg6).trans ((congrFun (after_ops (launchContents m c)) _).trans (arg6_S10 (launchContents m c))),
      (h c main_arg7).trans ((congrFun (after_ops (launchContents m c)) _).trans (arg7_S10 (launchContents m c))),
      (h c main_arg8).trans ((congrFun (after_ops (launchContents m c)) _).trans (arg8_S10 (launchContents m c))),
      (h c main_arg9).trans ((congrFun (after_ops (launchContents m c)) _).trans (arg9_S10 (launchContents m c))),
      (h c main_arg10).trans ((congrFun (after_ops (launchContents m c)) _).trans (arg10_S10 (launchContents m c))),
      (h c main_arg11).trans ((congrFun (after_ops (launchContents m c)) _).trans (arg11_S10 (launchContents m c))),
      (h c main_arg12).trans ((congrFun (after_ops (launchContents m c)) _).trans (arg12_S10 (launchContents m c))),
      (h c main_arg13).trans ((congrFun (after_ops (launchContents m c)) _).trans (arg13_S10 (launchContents m c))),
      (h c main_arg14).trans ((congrFun (after_ops (launchContents m c)) _).trans (arg14_S10 (launchContents m c))),
      (h c main_arg15).trans ((congrFun (after_ops (launchContents m c)) _).trans (arg15_S10 (launchContents m c))),
      (h c main_arg16).trans ((congrFun (after_ops (launchContents m c)) _).trans (arg16_S10 (launchContents m c)))⟩)
    (run_seq scopedRefs_eq scopedSems_eq defs main (fun _ => ops) main_eq (fun _ => ops_sub) m ρ)

end Cert.ReferenceIdeal.RefRun

end
-- ==== Proof.lean ====
/-
  The certificate: the kernel program (a three-layer graph convolution network with batch normalisation, a per-graph
  mean and a final linear layer, its dense stages as ten kernel regions) against the plain reference.

  Frames: the two kernel programs' are the generated frame certificates; the reference's is its run with the result
  dropped. The idealization rewrote nothing, so it is preserved trivially. The algebraic claim: at the exact
  extended-real reading both programs end with the common specification's whole network of the arguments
  (Proof/Spec.lean). The reference is that specification stage by stage (Proof/RefRun.lean). The kernel's result is
  read off its run boundary by boundary (Proof/KRun.lean, Proof/KHost.lean, the Region modules, Proof/KTotal.lean) and
  differs from the specification in three places: a projection is a blocked sum over features, equal to the host's
  matrix product; the batch statistics are taken as column sums of the values and of their squares, the variance as
  the raw second moment minus the squared mean, equal to the mean squared deviation for REAL entries only
  (Proof/BnLaw.lean) — which is where the precondition enters: finite inputs are real-valued (Proof/PreReal.lean), and
  real-valuedness is carried through every stage (Proof/Bridge.lean); the final layer adds its bias as a one-row
  matrix.
-/
import proofs.«179986_j62663572849123_1_alg».proof.Defs
import proofs.«179986_j62663572849123_1_alg».proof.Proof.Gen.Kernel
import proofs.«179986_j62663572849123_1_alg».proof.Proof.Gen.Kernel.Skeleton
import proofs.«179986_j62663572849123_1_alg».proof.Proof.Gen.Kernel.Launch
import proofs.«179986_j62663572849123_1_alg».proof.Proof.Gen.Kernel.Points
import proofs.«179986_j62663572849123_1_alg».proof.Proof.Gen.Kernel.Frame
import proofs.«179986_j62663572849123_1_alg».proof.Proof.Gen.KernelIdeal
import proofs.«179986_j62663572849123_1_alg».proof.Proof.Gen.KernelIdeal.Skeleton
import proofs.«179986_j62663572849123_1_alg».proof.Proof.Gen.KernelIdeal.Launch
import proofs.«179986_j62663572849123_1_alg».proof.Proof.Gen.KernelIdeal.Points
import proofs.«179986_j62663572849123_1_alg».proof.Proof.Gen.KernelIdeal.Frame
import proofs.«179986_j62663572849123_1_alg».proof.Proof.Gen.ReferenceIdeal
import proofs.«179986_j62663572849123_1_alg».proof.Proof.Gen.Pre_finite_inputs
import proofs.«179986_j62663572849123_1_alg».proof.Proof.KRun
import proofs.«179986_j62663572849123_1_alg».proof.Proof.KTotal
import proofs.«179986_j62663572849123_1_alg».proof.Proof.Bridge
import proofs.«179986_j62663572849123_1_alg».proof.Proof.RefRun
import proofs.«179986_j62663572849123_1_alg».proof.Proof.PreReal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- Both runs end at the specification's whole network of the arguments: the kernel's by reading its run and the three
    joining facts under real-valued inputs, the reference's stage by stage, its arguments agreeing with the kernel's. -/
theorem algebraic : Cert.algebraic_KernelIdeal_ReferenceIdeal := by
  intro m ρ m' ρ' hpre hagree
  refine ⟨fun c => Cert.Spec.total (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run Cert.KernelIdeal.defs _ _).mono (fun r h c => ⟨(h c).1.trans ?_, (h c).2⟩)
      (Cert.KernelIdeal.RunValue.run_result m ρ)
    obtain ⟨h0, h3, h4, h5, h6, h7, h8, h9, h10, h11, h12, h13, h14, -, -⟩ := Cert.PreReal.real_of_pre m hpre c
    exact (Cert.KernelIdeal.Total.result m ρ c).trans
      (Cert.Bridge.total_eq _ _ _ _ _ _ _ _ _ _ _ _ _ _ _ _ _ h0 h3 h4 h5 h6 h7 h8 h9 h10 h11 h12 h13 h14)
  · refine (θ_run Cert.ReferenceIdeal.defs _ _).mono (fun r h c => ⟨(h c).1.trans ?_, (h c).2⟩)
      (Cert.ReferenceIdeal.RefRun.run m' ρ')
    obtain ⟨a0, a1, a2, a3, a4, a5, a6, a7, a8, a9, a10, a11, a12, a13, a14, a15, a16⟩ := hagree c
    rw [a0, a1, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
